-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x2 : Shape := ⟨2, ![4096, 2]⟩
abbrev S256x512 : Shape := ⟨2, ![256, 512]⟩
abbrev S256 : Shape := ⟨1, ![256]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S4096x128 .f32) (main_arg1 : FVec F S4096x2 .f32) (main_arg2 : FVec F S4096x2 .f32) (main_arg3 : FVec F S256x512 .f32) (main_arg4 : FVec F S256 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x2 .f32 := Host.absf main_arg1
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  let main_v9 : FVec F S4096x2 .f32 := Host.absf main_arg2
  let main_cst_2 : FVec F S_ .f32 := constant S_ .f32 0x7F800000#32
  let main_v10 : FVec F S4096x2 .f32 := broadcastInDim S4096x2 ![] bcast_S_S4096x2 main_cst_2
  let main_v11 : IVec S4096x2 1 := cmpf .olt main_v9 main_v10
  let main_c_3 : IVec S_ 1 := constantI S_ 1 1#1
  let main_v12 : IVec S_ 1 := (fun x v => Host.reduce IntOp.andi x v reducesTo_S4096x2_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_v13 main_v16
-- ==== Kernel.lean ====
abbrev S4096x128 : Shape := ⟨2, ![4096, 128]⟩
abbrev S4096x2 : Shape := ⟨2, ![4096, 2]⟩
abbrev S256x512 : Shape := ⟨2, ![256, 512]⟩
abbrev S256 : Shape := ⟨1, ![256]⟩
abbrev S4096x256x2 : Shape := ⟨3, ![4096, 256, 2]⟩
abbrev S128x2 : Shape := ⟨2, ![128, 2]⟩
abbrev S128x256x2 : Shape := ⟨3, ![128, 256, 2]⟩
abbrev S128x16x16 : Shape := ⟨3, ![128, 16, 16]⟩
abbrev S128x1 : Shape := ⟨2, ![128, 1]⟩
abbrev S128 : Shape := ⟨1, ![128]⟩
abbrev S1x128 : Shape := ⟨2, ![1, 128]⟩
abbrev S128x128 : Shape := ⟨2, ![128, 128]⟩
abbrev S128x16x128 : Shape := ⟨3, ![128, 16, 128]⟩
abbrev S128x1x128 : Shape := ⟨3, ![128, 1, 128]⟩
abbrev S128x256 : Shape := ⟨2, ![128, 256]⟩
abbrev S128x256x1 : Shape := ⟨3, ![128, 256, 1]⟩
abbrev S4096x512 : Shape := ⟨2, ![4096, 512]⟩
abbrev S1x256 : Shape := ⟨2, ![1, 256]⟩
abbrev S4096x256 : Shape := ⟨2, ![4096, 256]⟩
abbrev S512x512 : Shape := ⟨2, ![512, 512]⟩
abbrev S512x256 : Shape := ⟨2, ![512, 256]⟩

abbrev nBuf : Space → Nat
  | .hbm => 10
  | .vmem => 19
  | .smem => 0
  | _ => 0

abbrev bufTy : (tb : Table) → Fin (tcTables nBuf tb) → BufTy
  | .hbm, ⟨0, _⟩ => ⟨S4096x128, .f32⟩
  | .hbm, ⟨1, _⟩ => ⟨S4096x2, .f32⟩
  | .hbm, ⟨2, _⟩ => ⟨S4096x2, .f32⟩
  | .hbm, ⟨3, _⟩ => ⟨S256x512, .f32⟩
  | .hbm, ⟨4, _⟩ => ⟨S256, .f32⟩
  | .hbm, ⟨5, _⟩ => ⟨S4096x2, .f32⟩
  | .hbm, ⟨6, _⟩ => ⟨S4096x256x2, .f32⟩
  | .hbm, ⟨7, _⟩ => ⟨S4096x512, .f32⟩
  | .hbm, ⟨8, _⟩ => ⟨S1x256, .f32⟩
  | .hbm, ⟨9, _⟩ => ⟨S4096x256, .f32⟩
  | .local _ .vmem, ⟨0, _⟩ => ⟨S128x2, .f32⟩
  | .local _ .vmem, ⟨1, _⟩ => ⟨S128x2, .f32⟩
  | .local _ .vmem, ⟨2, _⟩ => ⟨S128x2, .f32⟩
  | .local _ .vmem, ⟨3, _⟩ => ⟨S128x2, .f32⟩
  | .local _ .vmem, ⟨4, _⟩ => ⟨S128x2, .f32⟩
  | .local _ .vmem, ⟨5, _⟩ => ⟨S128x2, .f32⟩
  | .local _ .vmem, ⟨6, _⟩ => ⟨S128x2, .f32⟩
  | .local _ .vmem, ⟨7, _⟩ => ⟨S128x2, .f32⟩
  | .local _ .vmem, ⟨8, _⟩ => ⟨S128x256x2, .f32⟩
  | .local _ .vmem, ⟨9, _⟩ => ⟨S128x256x2, .f32⟩
  | .local _ .vmem, ⟨10, _⟩ => ⟨S128x16x16, .f32⟩
  | .local _ .vmem, ⟨11, _⟩ => ⟨S128x16x16, .f32⟩
  | .local _ .vmem, ⟨12, _⟩ => ⟨S128x16x16, .f32⟩
  | .local _ .vmem, ⟨13, _⟩ => ⟨S512x512, .f32⟩
  | .local _ .vmem, ⟨14, _⟩ => ⟨S512x512, .f32⟩
  | .local _ .vmem, ⟨15, _⟩ => ⟨S256x512, .f32⟩
  | .local _ .vmem, ⟨16, _⟩ => ⟨S1x256, .f32⟩
  | .local _ .vmem, ⟨17, _⟩ => ⟨S512x256, .f32⟩
  | .local _ .vmem, ⟨18, _⟩ => ⟨S512x256, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![32, 32], ![false, false]⟩

def k0_cond2 (i : grid0.Coords) : BitVec 1 :=
  let arg1 : BitVec 32 := BitVec.ofNat 32 (i 1).val
  let c31_i32 : BitVec 32 := 31#32
  let v127 : BitVec 1 := Scalar.cmpi .eq arg1 c31_i32
  let v128 : BitVec 32 := Scalar.extui v127
  let c0_i32_40 : BitVec 32 := 0#32
  let v129 : BitVec 1 := Scalar.cmpi .ne v128 c0_i32_40
  v129

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x256x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S128x16x16_S128x16x16_0_0_0 : ∀ a, (![0, 0, 0] : Fin 3 → Nat) a + S128x16x16.size a ≤ S128x16x16.size a
  h_S128x16x16 : 0 < S128x16x16.numel
  shapeCasts_S128x16x16_S128x16x16 : S128x16x16.ShapeCasts S128x16x16
  inb_S128x2_S128x2_0_0 : ∀ a, (![0, 0] : Fin 2 → Nat) a + S128x2.size a ≤ S128x2.size a
  h_S128x2 : 0 < S128x2.numel
  shapeCasts_S128x2_S128x2 : S128x2.ShapeCasts S128x2
  slices_S128x2_o0_0_S128x1 : S128x2.Slices ![0, 0] S128x1
  shapeCasts_S128x1_S128 : S128x1.ShapeCasts S128
  shapeCasts_S128_S1x128 : S128.ShapeCasts S1x128
  shapeCasts_S128_S128x1 : S128.ShapeCasts S128x1
  broadcasts_S1x128_S128x128 : S1x128.Broadcasts S128x128
  broadcasts_S128x1_S128x128 : S128x1.Broadcasts S128x128
  slices_S128x2_o0_1_S128x1 : S128x2.Slices ![0, 1] S128x1
  iota_S128x128_d0_w32 : S128x128.Iotas .tc 32 [0]
  iota_S128x128_d1_w32 : S128x128.Iotas .tc 32 [1]
  natLt_1_32 : 1 < 32
  iota_S128x16x128_d1_w32 : S128x16x128.Iotas .tc 32 [1]
  shapeCasts_S128x128_S128x1x128 : S128x128.ShapeCasts S128x1x128
  broadcasts_S128x1x128_S128x16x128 : S128x1x128.Broadcasts S128x16x128
  shapeCasts_S128x16x16_S128x256 : S128x16x16.ShapeCasts S128x256
  inb_S128x256x2_S128x256x1_0_0_0 : ∀ a, (![0, 0, 0] : Fin 3 → Nat) a + S128x256x1.size a ≤ S128x256x2.size a
  h_S128x256x1 : 0 < S128x256x1.numel
  shapeCasts_S128x256x1_S128x256 : S128x256x1.ShapeCasts S128x256
  shapeCasts_S128x256_S128x256x1 : S128x256.ShapeCasts S128x256x1
  inb_S128x256x2_S128x256x1_0_0_1 : ∀ a, (![0, 0, 1] : Fin 3 → Nat) a + S128x256x1.size a ≤ S128x256x2.size a
  shapeCasts_S4096x256x2_S4096x512 : S4096x256x2.ShapeCasts S4096x512
  shapeCasts_S256_S1x256 : S256.ShapeCasts S1x256
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S128x16x128_S128x16x128_S128x16x16_2_2_1_1_0_0_wf : DotDims.WF S128x16x128 S128x16x128 S128x16x16 [2] [2] [1] [1] [0] [0]
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2.size a ≤ S4096x2.size a
  hwx0_0 : ∀ i : grid0.Coords, EltTy.bits .f32 = 32 ∨ (Rect.block (s := S4096x2) S128x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2.size a ≤ S4096x2.size a
  hwx0_1 : ∀ i : grid0.Coords, EltTy.bits .f32 = 32 ∨ (Rect.block (s := S4096x2) S128x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2.size a ≤ S4096x2.size a
  hwx0_2 : ∀ i : grid0.Coords, EltTy.bits .f32 = 32 ∨ (Rect.block (s := S4096x2) S128x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2.size a ≤ S4096x2.size a
  hwx0_3 : ∀ i : grid0.Coords, EltTy.bits .f32 = 32 ∨ (Rect.block (s := S4096x2) S128x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x256x2.size a ≤ S4096x256x2.size a
  hwx0_4 : ∀ i : grid0.Coords, EltTy.bits .f32 = 32 ∨ (Rect.block (s := S4096x256x2) S128x256x2.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x512.size a
  hwx1_0 : ∀ i : grid1.Coords, EltTy.bits .f32 = 32 ∨ (Rect.block (s := S4096x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .f32 = 32 ∨ (Rect.block (s := S256x512) S256x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S4096x256.size a
  hwx1_3 : ∀ i : grid1.Coords, EltTy.bits .f32 = 32 ∨ (Rect.block (s := S4096x256) S512x256.size (cc1_transform_3 i) (hinb1_3 i)).WholeWords (EltTy.packing .f32)

variable [Facts₀]

def dot_S128x16x128_S128x16x128_S128x16x16_2_2_1_1_0_0 : DotDims S128x16x128 S128x16x128 S128x16x16 where
  lhsContracting := [2]
  rhsContracting := [2]
  lhsNonContracting := [1]
  rhsNonContracting := [1]
  lhsBatch := [0]
  rhsBatch := [0]
  wf := dot_S128x16x128_S128x16x128_S128x16x16_2_2_1_1_0_0_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg1) S128x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x256x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v2) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x128 : Shape := ⟨2, ![4096, 128]⟩
abbrev S4096x2 : Shape := ⟨2, ![4096, 2]⟩
abbrev S256x512 : Shape := ⟨2, ![256, 512]⟩
abbrev S256 : Shape := ⟨1, ![256]⟩
abbrev S1x4096x2 : Shape := ⟨3, ![1, 4096, 2]⟩
abbrev S4096x1x2 : Shape := ⟨3, ![4096, 1, 2]⟩
abbrev S4096x4096x2 : Shape := ⟨3, ![4096, 4096, 2]⟩
abbrev S_ : Shape := ⟨0, ![]⟩
abbrev S4096x4096 : Shape := ⟨2, ![4096, 4096]⟩
abbrev S4096x4096x1 : Shape := ⟨3, ![4096, 4096, 1]⟩
abbrev S4096 : Shape := ⟨1, ![4096]⟩
abbrev S4096x1 : Shape := ⟨2, ![4096, 1]⟩
abbrev S4096x256x2 : Shape := ⟨3, ![4096, 256, 2]⟩
abbrev S4096x256 : Shape := ⟨2, ![4096, 256]⟩
abbrev S4096x256x1 : Shape := ⟨3, ![4096, 256, 1]⟩
abbrev S4096x512 : Shape := ⟨2, ![4096, 512]⟩
abbrev S512x256 : Shape := ⟨2, ![512, 256]⟩
abbrev S1x256 : Shape := ⟨2, ![1, 256]⟩

abbrev nBuf : Space → Nat
  | .hbm => 119
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x2, .f32⟩
  | .hbm, ⟨2, _⟩ => ⟨S4096x2, .f32⟩
  | .hbm, ⟨3, _⟩ => ⟨S256x512, .f32⟩
  | .hbm, ⟨4, _⟩ => ⟨S256, .f32⟩
  | .hbm, ⟨5, _⟩ => ⟨S4096x2, .f32⟩
  | .hbm, ⟨6, _⟩ => ⟨S1x4096x2, .f32⟩
  | .hbm, ⟨7, _⟩ => ⟨S4096x1x2, .f32⟩
  | .hbm, ⟨8, _⟩ => ⟨S4096x4096x2, .f32⟩
  | .hbm, ⟨9, _⟩ => ⟨S4096x4096x2, .f32⟩
  | .hbm, ⟨10, _⟩ => ⟨S4096x4096x2, .f32⟩
  | .hbm, ⟨11, _⟩ => ⟨S1x4096x2, .f32⟩
  | .hbm, ⟨12, _⟩ => ⟨S4096x1x2, .f32⟩
  | .hbm, ⟨13, _⟩ => ⟨S4096x4096x2, .f32⟩
  | .hbm, ⟨14, _⟩ => ⟨S4096x4096x2, .f32⟩
  | .hbm, ⟨15, _⟩ => ⟨S4096x4096x2, .f32⟩
  | .hbm, ⟨16, _⟩ => ⟨S_, .f32⟩
  | .hbm, ⟨17, _⟩ => ⟨S4096x4096x2, .f32⟩
  | .hbm, ⟨18, _⟩ => ⟨S4096x4096x2, .f32⟩
  | .hbm, ⟨19, _⟩ => ⟨S_, .f32⟩
  | .hbm, ⟨20, _⟩ => ⟨S4096x4096x2, .f32⟩
  | .hbm, ⟨21, _⟩ => ⟨S4096x4096x2, .f32⟩
  | .hbm, ⟨22, _⟩ => ⟨S4096x4096x2, .f32⟩
  | .hbm, ⟨23, _⟩ => ⟨S4096x4096x2, .i32⟩
  | .hbm, ⟨24, _⟩ => ⟨S_, .i32⟩
  | .hbm, ⟨25, _⟩ => ⟨S4096x4096x2, .i32⟩
  | .hbm, ⟨26, _⟩ => ⟨S4096x4096x2, .i1⟩
  | .hbm, ⟨27, _⟩ => ⟨S_, .i32⟩
  | .hbm, ⟨28, _⟩ => ⟨S4096x4096x2, .i32⟩
  | .hbm, ⟨29, _⟩ => ⟨S4096x4096x2, .i1⟩
  | .hbm, ⟨30, _⟩ => ⟨S4096x4096x2, .i1⟩
  | .hbm, ⟨31, _⟩ => ⟨S_, .i1⟩
  | .hbm, ⟨32, _⟩ => ⟨S4096x4096, .i1⟩
  | .hbm, ⟨33, _⟩ => ⟨S4096x4096, .i32⟩
  | .hbm, ⟨34, _⟩ => ⟨S4096x4096, .i32⟩
  | .hbm, ⟨35, _⟩ => ⟨S_, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S4096x4096, .i1⟩
  | .hbm, ⟨40, _⟩ => ⟨S4096x4096, .i1⟩
  | .hbm, ⟨41, _⟩ => ⟨S4096x4096x1, .i32⟩
  | .hbm, ⟨42, _⟩ => ⟨S4096x4096, .i32⟩
  | .hbm, ⟨43, _⟩ => ⟨S_, .i32⟩
  | .hbm, ⟨44, _⟩ => ⟨S4096x4096, .i32⟩
  | .hbm, ⟨45, _⟩ => ⟨S4096x4096, .i32⟩
  | .hbm, ⟨46, _⟩ => ⟨S4096x4096x1, .i32⟩
  | .hbm, ⟨47, _⟩ => ⟨S4096x4096, .i32⟩
  | .hbm, ⟨48, _⟩ => ⟨S4096x4096, .i32⟩
  | .hbm, ⟨49, _⟩ => ⟨S_, .i32⟩
  | .hbm, ⟨50, _⟩ => ⟨S_, .i32⟩
  | .hbm, ⟨51, _⟩ => ⟨S4096x4096, .i32⟩
  | .hbm, ⟨52, _⟩ => ⟨S4096x4096, .i32⟩
  | .hbm, ⟨53, _⟩ => ⟨S4096x4096x1, .i1⟩
  | .hbm, ⟨54, _⟩ => ⟨S_, .f32⟩
  | .hbm, ⟨55, _⟩ => ⟨S_, .f32⟩
  | .hbm, ⟨56, _⟩ => ⟨S4096x4096x2, .i1⟩
  | .hbm, ⟨57, _⟩ => ⟨S4096x4096x2, .f32⟩
  | .hbm, ⟨58, _⟩ => ⟨S4096x4096x2, .f32⟩
  | .hbm, ⟨59, _⟩ => ⟨S4096, .i32⟩
  | .hbm, ⟨60, _⟩ => ⟨S4096x1, .i32⟩
  | .hbm, ⟨61, _⟩ => ⟨S_, .f32⟩
  | .hbm, ⟨62, _⟩ => ⟨S4096x256x2, .f32⟩
  | .hbm, ⟨63, _⟩ => ⟨S_, .i32⟩
  | .hbm, ⟨64, _⟩ => ⟨S4096x1, .i32⟩
  | .hbm, ⟨65, _⟩ => ⟨S4096x1, .i1⟩
  | .hbm, ⟨66, _⟩ => ⟨S_, .i32⟩
  | .hbm, ⟨67, _⟩ => ⟨S4096x1, .i32⟩
  | .hbm, ⟨68, _⟩ => ⟨S4096x1, .i32⟩
  | .hbm, ⟨69, _⟩ => ⟨S4096x1, .i32⟩
  | .hbm, ⟨70, _⟩ => ⟨S_, .i32⟩
  | .hbm, ⟨71, _⟩ => ⟨S4096x4096, .i32⟩
  | .hbm, ⟨72, _⟩ => ⟨S4096x4096, .i1⟩
  | .hbm, ⟨73, _⟩ => ⟨S_, .i32⟩
  | .hbm, ⟨74, _⟩ => ⟨S4096x4096, .i32⟩
  | .hbm, ⟨75, _⟩ => ⟨S4096x4096, .i32⟩
  | .hbm, ⟨76, _⟩ => ⟨S4096x4096, .i32⟩
  | .hbm, ⟨77, _⟩ => ⟨S4096x4096, .i32⟩
  | .hbm, ⟨78, _⟩ => ⟨S4096x4096x1, .i32⟩
  | .hbm, ⟨79, _⟩ => ⟨S4096x4096x1, .i32⟩
  | .hbm, ⟨80, _⟩ => ⟨S4096x4096x2, .i32⟩
  | .hbm, ⟨81, _⟩ => ⟨S4096x256x2, .f32⟩
  | .hbm, ⟨82, _⟩ => ⟨S_, .f32⟩
  | .hbm, ⟨83, _⟩ => ⟨S4096x256, .f32⟩
  | .hbm, ⟨84, _⟩ => ⟨S4096x4096, .f32⟩
  | .hbm, ⟨85, _⟩ => ⟨S_, .i32⟩
  | .hbm, ⟨86, _⟩ => ⟨S4096x1, .i32⟩
  | .hbm, ⟨87, _⟩ => ⟨S4096x1, .i1⟩
  | .hbm, ⟨88, _⟩ => ⟨S_, .i32⟩
  | .hbm, ⟨89, _⟩ => ⟨S4096x1, .i32⟩
  | .hbm, ⟨90, _⟩ => ⟨S4096x1, .i32⟩
  | .hbm, ⟨91, _⟩ => ⟨S4096x1, .i32⟩
  | .hbm, ⟨92, _⟩ => ⟨S_, .i32⟩
  | .hbm, ⟨93, _⟩ => ⟨S4096x4096, .i32⟩
  | .hbm, ⟨94, _⟩ => ⟨S4096x4096, .i1⟩
  | .hbm, ⟨95, _⟩ => ⟨S_, .i32⟩
  | .hbm, ⟨96, _⟩ => ⟨S4096x4096, .i32⟩
  | .hbm, ⟨97, _⟩ => ⟨S4096x4096, .i32⟩
  | .hbm, ⟨98, _⟩ => ⟨S4096x4096, .i32⟩
  | .hbm, ⟨99, _⟩ => ⟨S4096x4096, .i32⟩
  | .hbm, ⟨100, _⟩ => ⟨S4096x4096x1, .i32⟩
  | .hbm, ⟨101, _⟩ => ⟨S4096x4096x1, .i32⟩
  | .hbm, ⟨102, _⟩ => ⟨S4096x4096x2, .i32⟩
  | .hbm, ⟨103, _⟩ => ⟨S4096x256, .f32⟩
  | .hbm, ⟨104, _⟩ => ⟨S_, .f32⟩
  | .hbm, ⟨105, _⟩ => ⟨S4096x256, .f32⟩
  | .hbm, ⟨106, _⟩ => ⟨S4096x256, .f32⟩
  | .hbm, ⟨107, _⟩ => ⟨S4096x256x1, .f32⟩
  | .hbm, ⟨108, _⟩ => ⟨S4096x256x2, .f32⟩
  | .hbm, ⟨109, _⟩ => ⟨S4096x256x2, .f32⟩
  | .hbm, ⟨110, _⟩ => ⟨S4096x512, .f32⟩
  | .hbm, ⟨111, _⟩ => ⟨S512x256, .f32⟩
  | .hbm, ⟨112, _⟩ => ⟨S4096x256, .f32⟩
  | .hbm, ⟨113, _⟩ => ⟨S1x256, .f32⟩
  | .hbm, ⟨114, _⟩ => ⟨S4096x256, .f32⟩
  | .hbm, ⟨115, _⟩ => ⟨S4096x256, .f32⟩
  | .hbm, ⟨116, _⟩ => ⟨S_, .f32⟩
  | .hbm, ⟨117, _⟩ => ⟨S4096x256, .f32⟩
  | .hbm, ⟨118, _⟩ => ⟨S4096x256, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_5 : Ref sig .tc := ⟨.hbm, 49, rfl⟩
abbrev main_call0_v0 : Ref sig .tc := ⟨.hbm, 50, rfl⟩
abbrev main_call0_v1 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_c_8 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_c_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_17 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call2_cst : Ref sig .tc := ⟨.hbm, 116, rfl⟩
abbrev main_call2_v0 : Ref sig .tc := ⟨.hbm, 117, rfl⟩
abbrev main_v86 : Ref sig .tc := ⟨.hbm, 118, rfl⟩

abbrev nD : Nat := 1
abbrev τ : Topo := Topo.v7x

variable {F : FTy → Type} [FloatOps F]

class Facts₀ : Prop where
  bcast_S4096x2_S1x4096x2_1_2 : S4096x2.BroadcastsInDim S1x4096x2 (![1, 2] : Fin 2 → Fin S1x4096x2.rank)
  bcast_S4096x2_S4096x1x2_0_2 : S4096x2.BroadcastsInDim S4096x1x2 (![0, 2] : Fin 2 → Fin S4096x1x2.rank)
  bcast_S1x4096x2_S4096x4096x2_0_1_2 : S1x4096x2.BroadcastsInDim S4096x4096x2 (![0, 1, 2] : Fin 3 → Fin S4096x4096x2.rank)
  bcast_S4096x1x2_S4096x4096x2_0_1_2 : S4096x1x2.BroadcastsInDim S4096x4096x2 (![0, 1, 2] : Fin 3 → Fin S4096x4096x2.rank)
  bcast_S_S4096x4096x2 : S_.BroadcastsInDim S4096x4096x2 (![] : Fin 0 → Fin S4096x4096x2.rank)
  reducesTo_S4096x4096x2_S4096x4096_d2 : S4096x4096x2.ReducesTo [2] S4096x4096
  h_S_ : 0 < S_.numel
  bcast_S_S4096x4096 : S_.BroadcastsInDim S4096x4096 (![] : Fin 0 → Fin S4096x4096.rank)
  slices_S4096x4096x2_S4096x4096x1_0_0_0 : S4096x4096x2.Slices ![0, 0, 0] S4096x4096x1
  shapeCasts_S4096x4096x1_S4096x4096 : S4096x4096x1.ShapeCasts S4096x4096
  slices_S4096x4096x2_S4096x4096x1_0_0_1 : S4096x4096x2.Slices ![0, 0, 1] S4096x4096x1
  bcast_S4096x4096_S4096x4096x1_0_1 : S4096x4096.BroadcastsInDim S4096x4096x1 (![0, 1] : Fin 2 → Fin S4096x4096x1.rank)
  bcast_S4096x4096x1_S4096x4096x2_0_1_2 : S4096x4096x1.BroadcastsInDim S4096x4096x2 (![0, 1, 2] : Fin 3 → Fin S4096x4096x2.rank)
  bcast_S4096_S4096x1_0 : S4096.BroadcastsInDim S4096x1 (![0] : Fin 1 → Fin S4096x1.rank)
  bcast_S_S4096x256x2 : S_.BroadcastsInDim S4096x256x2 (![] : Fin 0 → Fin S4096x256x2.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  concatenates_S4096x4096x1_S4096x4096x1_S4096x4096x2_d2 : Shape.Concatenates [S4096x4096x1, S4096x4096x1] S4096x4096x2 2
  bcast_S_S4096x256 : S_.BroadcastsInDim S4096x256 (![] : Fin 0 → Fin S4096x256.rank)
  bcast_S4096x256_S4096x256x1_0_1 : S4096x256.BroadcastsInDim S4096x256x1 (![0, 1] : Fin 2 → Fin S4096x256x1.rank)
  bcast_S4096x256x1_S4096x256x2_0_1_2 : S4096x256x1.BroadcastsInDim S4096x256x2 (![0, 1, 2] : Fin 3 → Fin S4096x256x2.rank)
  shapeCasts_S4096x256x2_S4096x512 : S4096x256x2.ShapeCasts S4096x512
  transposes_S256x512_S512x256_1_0 : S256x512.Transposes [1, 0] S512x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  scatter_S4096x256x2_S4096x4096x2_S4096x4096x2_2_01_01_2_wf : ScatterDims.WF S4096x256x2 S4096x4096x2 S4096x4096x2 [2] [0, 1] [0, 1] 2
  scatter_S4096x256_S4096x4096x2_S4096x4096_n_01_01_2_wf : ScatterDims.WF S4096x256 S4096x4096x2 S4096x4096 [] [0, 1] [0, 1] 2
  dot_S4096x512_S512x256_S4096x256_1_0_0_1_n_n_wf : DotDims.WF S4096x512 S512x256 S4096x256 [1] [0] [0] [1] [] []

variable [Facts₀]

def scatter_S4096x256x2_S4096x4096x2_S4096x4096x2_2_01_01_2 : ScatterDims S4096x256x2 S4096x4096x2 S4096x4096x2 where
  updateWindowDims := [2]
  insertedWindowDims := [0, 1]
  scatterDimsToOperandDims := [0, 1]
  indexVectorDim := 2
  wf := scatter_S4096x256x2_S4096x4096x2_S4096x4096x2_2_01_01_2_wf
def scatter_S4096x256_S4096x4096x2_S4096x4096_n_01_01_2 : ScatterDims S4096x256 S4096x4096x2 S4096x4096 where
  updateWindowDims := []
  insertedWindowDims := [0, 1]
  scatterDimsToOperandDims := [0, 1]
  indexVectorDim := 2
  wf := scatter_S4096x256_S4096x4096x2_S4096x4096_n_01_01_2_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

class Facts : Prop extends Facts₀ where

variable [Facts]
-- ==== Proof.HeadBodyK.lean ====
/-
  The head region: the second of the two kernel regions.

  At grid point t (eight points) the body is handed a 512-row block of the flattened grid array, the whole
  weight table W (256 × 512) and the bias row b (1 × 256), and stores max(x · Wᵀ + b, 0) into the 512-row block
  of the result. It keeps nothing between points. This module states, for any contents V of the unscoped buffers
  when the region is entered: each window's block at a point, what the body leaves in the output's staging
  buffer as a function of the three input blocks, and the body's triple.
-/
import proofs.«161577_j37271726195508_2_alg».proof.Proof.Gen.Kernel.Launch
import proofs.«161577_j37271726195508_2_alg».proof.Proof.Gen.Kernel.Skeleton
import proofs.«161577_j37271726195508_2_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rX : Rect S512x512 := Rect.unit (s := S512x512) ![0, 0] S512x512.size inb_S512x512_S512x512_0_0
abbrev rW : Rect S256x512 := Rect.unit (s := S256x512) ![0, 0] S256x512.size inb_S256x512_S256x512_0_0
abbrev rB : Rect S1x256 := Rect.unit (s := S1x256) ![0, 0] S1x256.size inb_S1x256_S1x256_0_0
abbrev rO : Rect S512x256 := Rect.unit (s := S512x256) ![0, 0] S512x256.size inb_S512x256_S512x256_0_0

/-- What the body leaves in the output's staging buffer: its one store, through the whole buffer, of the payload
    max(x · Wᵀ + b, 0) of the three loads. -/
def left (x : Vec F S512x512 .f32) (w : Vec F S256x512 .f32) (b : Vec F S1x256 .f32) : Vec F S512x256 .f32 :=
  View.canon [⟨rO, k1_pay1 (View.ld x rX) (View.ld w rW) (View.ld b rB)⟩]

/-- The one store covers the output buffer. -/
theorem left_cover (p : Vec F S512x256 .f32) (y : S512x256.Idx) :
    ∃ pc ∈ ([⟨rO, p⟩] : List (View.Piece (Elt F) S512x256 .f32)), y ∈ pc.1.set :=
  View.cover_of_tiled [⟨rO, p⟩] S512x256.size (by rfl) y

set_option maxHeartbeats 2000000 in
/-- The body's triple: on whole staging memrefs, the three inputs' reading x, w, b and the output's anything, the
    body runs to a state with the inputs as they were and the output's buffer at `left x w b`. -/
theorem triple (c : Dev nD) (E : Set ℕ) (i : grid1.Coords)
    (arg1 : Memref sig .tc .vmem S512x512 .f32) (harg1 : arg1.IsWhole) (arg2 : Memref sig .tc .vmem S256x512 .f32) (harg2 : arg2.IsWhole)
    (arg3 : Memref sig .tc .vmem S1x256 .f32) (harg3 : arg3.IsWhole) (arg4 : Memref sig .tc .vmem S512x256 .f32) (harg4 : arg4.IsWhole)
    (x : Vec F S512x512 .f32) (w : Vec F S256x512 .f32) (b : Vec F S1x256 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (left x w b)) -∗ K ⟨⟩))
      ⊢ wp frame (wpE (defs₀ (F := F)) Variants.none c none) E (cc1__head_kernel i arg1 harg1 arg2 harg2 arg3 harg3 arg4 harg4) K := by
  simp only [cc1__head_kernel_eq_skeleton]; unfold cc1__head_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (left_cover _)

/-! ## The proof data of the head region -/

/-- Per core: the arrays as the region finds them; after the body at point t each input's staging buffer still at
    its block and the output's at `left` of the three input blocks; between points nothing of the kernel's own
    (the scoped buffers no window stages, and the generator register, pass through untouched); nothing owed; every
    array held whole. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => left (blk V c 0 t) (blk V c 1 t) (blk V c 2 t)
  Φ _ := Pipeline.ΦA spec1 c
  q _ := fullShare
  owed _ := 0

theorem dat_A (c : Dev nD) (w : Fin cfg1.W) : (dat V c).A w = V c (Pipeline.arrRef spec1 w) := by
  dsimp only [dat]

theorem after_x (c : Dev nD) (t : Fin cfg1.N) : (dat V c).after 0 t = blk V c 0 t := by dsimp only [dat]
theorem after_w (c : Dev nD) (t : Fin cfg1.N) : (dat V c).after 1 t = blk V c 1 t := by dsimp only [dat]
theorem after_b (c : Dev nD) (t : Fin cfg1.N) : (dat V c).after 2 t = blk V c 2 t := by dsimp only [dat]
theorem after_o (c : Dev nD) (t : Fin cfg1.N) :
    (dat V c).after 3 t = left (blk V c 0 t) (blk V c 1 t) (blk V c 2 t) := by dsimp only [dat]

/-- The grid block is refetched at every point, the weight table and the bias row only at the first; either way
    the body finds each input's block in its staging buffer: an unfetched window's block index has not moved and
    the body left the block in place. -/
theorem before_x (c : Dev nD) (t : Fin cfg1.N) (d) : (dat V c).before 0 t d = blk V c 0 t :=
  ((dat V c).before_in_eq_fetched 0 rfl (fun _ => rfl) (fun _ _ _ => rfl)
      (fun t => by rw [after_x]; unfold Dat.blockOf blk; rw [dat_A]; try rfl) t d).trans
    (by unfold Dat.fetched Dat.blockOf blk; rw [dat_A]; try rfl)
theorem before_w (c : Dev nD) (t : Fin cfg1.N) (d) : (dat V c).before 1 t d = blk V c 1 t :=
  ((dat V c).before_in_eq_fetched 1 rfl (fun _ => rfl) (fun _ _ _ => rfl)
      (fun t => by rw [after_w]; unfold Dat.blockOf blk; rw [dat_A]; try rfl) t d).trans
    (by unfold Dat.fetched Dat.blockOf blk; rw [dat_A]; try rfl)
theorem before_b (c : Dev nD) (t : Fin cfg1.N) (d) : (dat V c).before 2 t d = blk V c 2 t :=
  ((dat V c).before_in_eq_fetched 2 rfl (fun _ => rfl) (fun _ _ _ => rfl)
      (fun t => by rw [after_b]; unfold Dat.blockOf blk; rw [dat_A]; try rfl) t d).trans
    (by unfold Dat.fetched Dat.blockOf blk; rw [dat_A]; try rfl)

/-! ## The body obligation -/

/-- What the body is called with at point t, the four windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it hands back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the three inputs' staging buffers hold their blocks, so the triple applies; the
    invariant and what the core owes pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_w, before_b]
  rw [show (dat V c).Φ t.succ = (dat V c).Φ t.castSucc from rfl,
    show (dat V c).owesAt () t.succ = (dat V c).owesAt () t.castSucc from rfl,
    after_x, after_w, after_b, after_o]
  iintro ⟨HΦ, Ho, ⟨%d0, H0⟩, ⟨%d1, H1⟩, ⟨%d2, H2⟩, ⟨%d3, H3⟩⟩
  iapply (triple c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The head region's body obligation, at every point. -/
theorem obligation (c : Dev nD) : BodyObligation (dat (F := F) V c) (defs₀ (F := F)) Variants.none () Set.univ := fun t => by
  rw [bigSep_W1, bigSep_W1]
  exact body_at V c t

end Cert.Kernel.Head

end
-- ==== Proof.BinDefsK.lean ====
/-
  The binning region: the first of the two kernel regions, on a 32 × 32 grid of points (i, j).

  At point (i, j) the body is handed the 128-row blocks i of the positions and of the velocities (the "query"
  pedestrians) and the blocks j of the same two arrays (the "neighbour" pedestrians). It keeps three accumulators
  of shape 128 × 16 × 16 in scratch buffers — per query pedestrian and per cell (a, b) of its 16 × 16 grid, the
  sums of the neighbours' relative velocity components and their count: zeroed when j = 0, added to at every
  point, and, when j = 31, divided (sums by max(count, 1)) and stored into the two component slices of the 128 ×
  256 × 2 output block i. This module names what the later ones share: the blocks, the two conditions in closed
  form over the grid, and the memrefs the body is called with.
-/
import proofs.«161577_j37271726195508_2_alg».proof.Proof.Gen.Kernel.Launch
import proofs.«161577_j37271726195508_2_alg».proof.Proof.Gen.Kernel.Skeleton
import proofs.«161577_j37271726195508_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Bin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window w's block at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two conditions, in closed form over the grid -/

/-- "j = 0": the accumulators are zeroed first. -/
abbrev isFirst (i : grid0.Coords) : Prop :=
  (Scalar.cmpi .ne (Scalar.extui (Scalar.cmpi .eq (BitVec.ofNat 32 (i 1).val) 0#32)) 0#32) = 1#1
/-- "j = 31": the quotients are stored into the output block. -/
abbrev isLast (i : grid0.Coords) : Prop := k0_cond2 i = 1#1

/-- Point t has j = t mod 32 (the grid is walked row by row), so j = 0 exactly at the points ≡ 0 (mod 32), -/
theorem isFirst_iff : ∀ t : Fin cfg0.N, isFirst (grid0.coords t) ↔ t.val % 32 = 0 :=
  (by decide +kernel : ∀ t : Fin grid0.N, isFirst (grid0.coords t) ↔ t.val % 32 = 0)
/-- and j = 31 exactly at the points ≡ 31 (mod 32). -/
theorem isLast_iff : ∀ t : Fin cfg0.N, isLast (grid0.coords t) ↔ t.val % 32 = 31 :=
  (by decide +kernel : ∀ t : Fin grid0.N, isLast (grid0.coords t) ↔ t.val % 32 = 31)

/-! ## Where the output window is idle -/

/-- The four input windows are never idle. -/
theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
theorem live_in3 : ∀ t : Fin cfg0.N, cfg0.idle 3 (grid0.coords t) = false := by decide +kernel
/-- Where j ≠ 31 the body stores nothing into the output block: the window is idle there and is not written back. -/
theorem idle_out : ∀ t : Fin cfg0.N, ¬isLast (grid0.coords t) → cfg0.idle 4 (grid0.coords t) = true := by decide +kernel
theorem noFlush_out : ∀ t : Fin cfg0.N, ¬isLast (grid0.coords t) → (cfg0.win 4).flush t = false := by decide +kernel
/-- Where j = 31 it is live. -/
theorem live_out : ∀ t : Fin cfg0.N, isLast (grid0.coords t) → cfg0.idle 4 (grid0.coords t) = false := by decide +kernel

/-! ## The memrefs the body is called with -/

/-- Each window's current staging memref at point t, and its wholeness. -/
abbrev mq (t : Fin cfg0.N) : Memref sig .tc .vmem S128x2 .f32 := win0_0.stage (cfg0.slots t 0)
abbrev hq (t : Fin cfg0.N) : (mq t).IsWhole := hstage0_0 ((cfg0.slots t 0).cast nbuf0_0)
abbrev mqv (t : Fin cfg0.N) : Memref sig .tc .vmem S128x2 .f32 := win0_1.stage (cfg0.slots t 1)
abbrev hqv (t : Fin cfg0.N) : (mqv t).IsWhole := hstage0_1 ((cfg0.slots t 1).cast nbuf0_1)
abbrev mn (t : Fin cfg0.N) : Memref sig .tc .vmem S128x2 .f32 := win0_2.stage (cfg0.slots t 2)
abbrev hn (t : Fin cfg0.N) : (mn t).IsWhole := hstage0_2 ((cfg0.slots t 2).cast nbuf0_2)
abbrev mnv (t : Fin cfg0.N) : Memref sig .tc .vmem S128x2 .f32 := win0_3.stage (cfg0.slots t 3)
abbrev hnv (t : Fin cfg0.N) : (mnv t).IsWhole := hstage0_3 ((cfg0.slots t 3).cast nbuf0_3)
abbrev mo (t : Fin cfg0.N) : Memref sig .tc .vmem S128x256x2 .f32 := win0_4.stage (cfg0.slots t 4)
abbrev ho (t : Fin cfg0.N) : (mo t).IsWhole := hstage0_4 ((cfg0.slots t 4).cast nbuf0_4)
/-- The three accumulators: whole scoped buffers of the kernel's own. -/
abbrev sX : Memref sig .tc .vmem S128x16x16 .f32 := Memref.whole cc0_scratch0
abbrev sY : Memref sig .tc .vmem S128x16x16 .f32 := Memref.whole cc0_scratch1
abbrev sN : Memref sig .tc .vmem S128x16x16 .f32 := Memref.whole cc0_scratch2
/-- Views through which the accumulators' and the output block's contents are stated. -/
abbrev vX : View sig .tc .vmem S128x16x16 .f32 := (sX : Memref sig .tc .vmem S128x16x16 .f32).view
abbrev vY : View sig .tc .vmem S128x16x16 .f32 := (sY : Memref sig .tc .vmem S128x16x16 .f32).view
abbrev vN : View sig .tc .vmem S128x16x16 .f32 := (sN : Memref sig .tc .vmem S128x16x16 .f32).view
abbrev vO : View sig .tc .vmem S128x256x2 .f32 := (Memref.whole cc0_stg4_0 : Memref sig .tc .vmem S128x256x2 .f32).view

end Cert.Kernel.Bin

end
-- ==== Proof.BinRunFirstK.lean ====
/-
  The binning body at a point with j = 0 (and j ≠ 31): whatever the three accumulators held, they are zeroed and then
  receive this tile's contribution; the output block is not touched. What the stores leave in each accumulator is
  recorded as the list of pieces written, last first.
-/
import proofs.«161577_j37271726195508_2_alg».proof.Proof.BinDefsK

set_option maxRecDepth 16384

noncomputable section

namespace Cert.Kernel.Bin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole memrefs — the four inputs at their contents, the output block at contents handed back untouched, the
    accumulators at anything — the body runs to a state with the inputs and the output block as they were and each
    accumulator with its pieces written. -/
noncomputable def runFirst (c : Dev nD) (i : grid0.Coords)
    (a2 : Memref sig .tc .vmem S128x2 .f32) (h2 : a2.IsWhole) (a3 : Memref sig .tc .vmem S128x2 .f32) (h3 : a3.IsWhole)
    (a4 : Memref sig .tc .vmem S128x2 .f32) (h4 : a4.IsWhole) (a5 : Memref sig .tc .vmem S128x2 .f32) (h5 : a5.IsWhole)
    (a6 : Memref sig .tc .vmem S128x256x2 .f32) (h6 : a6.IsWhole)
    (a7 : Memref sig .tc .vmem S128x16x16 .f32) (h7 : a7.IsWhole) (a8 : Memref sig .tc .vmem S128x16x16 .f32) (h8 : a8.IsWhole)
    (a9 : Memref sig .tc .vmem S128x16x16 .f32) (h9 : a9.IsWhole)
    (hf : isFirst i) (hl : ¬isLast i) (xq xqv xn xnv : Vec F S128x2 .f32) :
    Σ' (LX : List (View.Piece (Elt F) S128x16x16 .f32)) (LY : List (View.Piece (Elt F) S128x16x16 .f32)), { LN : List (View.Piece (Elt F) S128x16x16 .f32) //
      ∀ (xo : Vec F S128x256x2 .f32) (E : Set ℕ) (K : PUnit → sProp 𝕄),
        iprop(owns (c : Thread nD τ) a2 fullShare xq ∗ owns (c : Thread nD τ) a3 fullShare xqv ∗ owns (c : Thread nD τ) a4 fullShare xn ∗ owns (c : Thread nD τ) a5 fullShare xnv ∗ owns (c : Thread nD τ) a6 fullShare xo
            ∗ (∃ d, owns (c : Thread nD τ) a7 fullShare d) ∗ (∃ d, owns (c : Thread nD τ) a8 fullShare d) ∗ (∃ d, owns (c : Thread nD τ) a9 fullShare d)
            ∗ (iprop(owns (c : Thread nD τ) a2 fullShare xq ∗ owns (c : Thread nD τ) a3 fullShare xqv ∗ owns (c : Thread nD τ) a4 fullShare xn ∗ owns (c : Thread nD τ) a5 fullShare xnv ∗ owns (c : Thread nD τ) a6 fullShare xo
                ∗ (∃ f, a7.view.loc (c : Thread nD τ) ↦[a7.view.set]{fullShare} a7.view.writes (Elt F) f LX) ∗ (∃ f, a8.view.loc (c : Thread nD τ) ↦[a8.view.set]{fullShare} a8.view.writes (Elt F) f LY) ∗ (∃ f, a9.view.loc (c : Thread nD τ) ↦[a9.view.set]{fullShare} a9.view.writes (Elt F) f LN)) -∗ K ⟨⟩))
          ⊢ wp frame (wpE (defs₀ (F := F)) Variants.none c none) E (cc0__binning_kernel i a2 h2 a3 h3 a4 h4 a5 h5 a6 h6 a7 h7 a8 h8 a9 h9) K } := by
  refine ⟨?_, ?_, ?_, fun xo E K => ?run⟩
  case run =>
    simp only [cc0__binning_kernel_eq_skeleton]; unfold cc0__binning_kernel_skel
    simp only [k0_part1_eq_skeleton, k0_part2_eq_skeleton, k0_part3_eq_skeleton]
    unfold k0_part1_skel k0_part2_skel k0_part3_skel
    unfold owns
    iintro ⟨⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, Hk⟩
    obtain rfl := h2.eq_unread e2; obtain rfl := h3.eq_unread e3; obtain rfl := h4.eq_unread e4; obtain rfl := h5.eq_unread e5
    obtain rfl := h6.eq_unread e6
    sl_exec (disch := first | exact hf | exact hl)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [H8]; · iexists _; iexact H8
    iexists _; iexact H9

end Cert.Kernel.Bin

end
-- ==== Proof.BinRunMidK.lean ====
/-
  The binning body at a point with 0 < j < 31: each accumulator, holding what the point before left, receives this
  tile's contribution; the output block is not touched. What the stores leave in each accumulator is recorded as
  the list of pieces written, last first.
-/
import proofs.«161577_j37271726195508_2_alg».proof.Proof.BinDefsK

set_option maxRecDepth 16384

noncomputable section

namespace Cert.Kernel.Bin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole memrefs — the four inputs at their contents, the output block at contents handed back untouched, the
    accumulators at the contents gX, gY, gN — the body runs to a state with the inputs and the output block as they
    were and each accumulator with its pieces written. -/
noncomputable def runMid (c : Dev nD) (i : grid0.Coords)
    (a2 : Memref sig .tc .vmem S128x2 .f32) (h2 : a2.IsWhole) (a3 : Memref sig .tc .vmem S128x2 .f32) (h3 : a3.IsWhole)
    (a4 : Memref sig .tc .vmem S128x2 .f32) (h4 : a4.IsWhole) (a5 : Memref sig .tc .vmem S128x2 .f32) (h5 : a5.IsWhole)
    (a6 : Memref sig .tc .vmem S128x256x2 .f32) (h6 : a6.IsWhole)
    (a7 : Memref sig .tc .vmem S128x16x16 .f32) (h7 : a7.IsWhole) (a8 : Memref sig .tc .vmem S128x16x16 .f32) (h8 : a8.IsWhole)
    (a9 : Memref sig .tc .vmem S128x16x16 .f32) (h9 : a9.IsWhole)
    (hf : ¬isFirst i) (hl : ¬isLast i) (xq xqv xn xnv : Vec F S128x2 .f32) (gX gY gN : Vec F S128x16x16 .f32) :
    Σ' (LX : List (View.Piece (Elt F) S128x16x16 .f32)) (LY : List (View.Piece (Elt F) S128x16x16 .f32)), { LN : List (View.Piece (Elt F) S128x16x16 .f32) //
      ∀ (xo : Vec F S128x256x2 .f32) (E : Set ℕ) (K : PUnit → sProp 𝕄),
        iprop(owns (c : Thread nD τ) a2 fullShare xq ∗ owns (c : Thread nD τ) a3 fullShare xqv ∗ owns (c : Thread nD τ) a4 fullShare xn ∗ owns (c : Thread nD τ) a5 fullShare xnv ∗ owns (c : Thread nD τ) a6 fullShare xo
            ∗ owns (c : Thread nD τ) a7 fullShare gX ∗ owns (c : Thread nD τ) a8 fullShare gY ∗ owns (c : Thread nD τ) a9 fullShare gN
            ∗ (iprop(owns (c : Thread nD τ) a2 fullShare xq ∗ owns (c : Thread nD τ) a3 fullShare xqv ∗ owns (c : Thread nD τ) a4 fullShare xn ∗ owns (c : Thread nD τ) a5 fullShare xnv ∗ owns (c : Thread nD τ) a6 fullShare xo
                ∗ (∃ f, a7.view.loc (c : Thread nD τ) ↦[a7.view.set]{fullShare} a7.view.writes (Elt F) f LX) ∗ (∃ f, a8.view.loc (c : Thread nD τ) ↦[a8.view.set]{fullShare} a8.view.writes (Elt F) f LY) ∗ (∃ f, a9.view.loc (c : Thread nD τ) ↦[a9.view.set]{fullShare} a9.view.writes (Elt F) f LN)) -∗ K ⟨⟩))
          ⊢ wp frame (wpE (defs₀ (F := F)) Variants.none c none) E (cc0__binning_kernel i a2 h2 a3 h3 a4 h4 a5 h5 a6 h6 a7 h7 a8 h8 a9 h9) K } := by
  refine ⟨?_, ?_, ?_, fun xo E K => ?run⟩
  case run =>
    simp only [cc0__binning_kernel_eq_skeleton]; unfold cc0__binning_kernel_skel
    simp only [k0_part1_eq_skeleton, k0_part2_eq_skeleton, k0_part3_eq_skeleton]
    unfold k0_part1_skel k0_part2_skel k0_part3_skel
    unfold owns
    iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
    obtain rfl := h2.eq_unread e2; obtain rfl := h3.eq_unread e3; obtain rfl := h4.eq_unread e4; obtain rfl := h5.eq_unread e5
    obtain rfl := h6.eq_unread e6
    obtain rfl := h7.eq_unread e7; obtain rfl := h8.eq_unread e8; obtain rfl := h9.eq_unread e9
    sl_exec (disch := first | exact hf | exact hl)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [H8]; · iexists _; iexact H8
    iexists _; iexact H9

end Cert.Kernel.Bin

end
-- ==== Proof.BinRunLastK.lean ====
/-
  The binning body at a point with j = 31 (and j ≠ 0): each accumulator, holding what the point before left,
  receives this tile's contribution, and then the two sums divided by max(count, 1) are stored into the two
  component slices of the output block. What the stores leave in the output block and in each accumulator is
  recorded as the list of pieces written, last first.
-/
import proofs.«161577_j37271726195508_2_alg».proof.Proof.BinDefsK

set_option maxRecDepth 16384

noncomputable section

namespace Cert.Kernel.Bin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole memrefs — the four inputs at their contents, the output block at anything, the accumulators at the
    contents gX, gY, gN — the body runs to a state with the inputs as they were and the output block and each
    accumulator with its pieces written. -/
noncomputable def runLast (c : Dev nD) (i : grid0.Coords)
    (a2 : Memref sig .tc .vmem S128x2 .f32) (h2 : a2.IsWhole) (a3 : Memref sig .tc .vmem S128x2 .f32) (h3 : a3.IsWhole)
    (a4 : Memref sig .tc .vmem S128x2 .f32) (h4 : a4.IsWhole) (a5 : Memref sig .tc .vmem S128x2 .f32) (h5 : a5.IsWhole)
    (a6 : Memref sig .tc .vmem S128x256x2 .f32) (h6 : a6.IsWhole)
    (a7 : Memref sig .tc .vmem S128x16x16 .f32) (h7 : a7.IsWhole) (a8 : Memref sig .tc .vmem S128x16x16 .f32) (h8 : a8.IsWhole)
    (a9 : Memref sig .tc .vmem S128x16x16 .f32) (h9 : a9.IsWhole)
    (hf : ¬isFirst i) (hl : isLast i) (xq xqv xn xnv : Vec F S128x2 .f32) (gX gY gN : Vec F S128x16x16 .f32) :
    Σ' (LO : List (View.Piece (Elt F) S128x256x2 .f32)) (LX : List (View.Piece (Elt F) S128x16x16 .f32)) (LY : List (View.Piece (Elt F) S128x16x16 .f32)), { LN : List (View.Piece (Elt F) S128x16x16 .f32) //
      ∀ (E : Set ℕ) (K : PUnit → sProp 𝕄),
        iprop(owns (c : Thread nD τ) a2 fullShare xq ∗ owns (c : Thread nD τ) a3 fullShare xqv ∗ owns (c : Thread nD τ) a4 fullShare xn ∗ owns (c : Thread nD τ) a5 fullShare xnv ∗ (∃ d, owns (c : Thread nD τ) a6 fullShare d)
            ∗ owns (c : Thread nD τ) a7 fullShare gX ∗ owns (c : Thread nD τ) a8 fullShare gY ∗ owns (c : Thread nD τ) a9 fullShare gN
            ∗ (iprop(owns (c : Thread nD τ) a2 fullShare xq ∗ owns (c : Thread nD τ) a3 fullShare xqv ∗ owns (c : Thread nD τ) a4 fullShare xn ∗ owns (c : Thread nD τ) a5 fullShare xnv ∗ (∃ f, a6.view.loc (c : Thread nD τ) ↦[a6.view.set]{fullShare} a6.view.writes (Elt F) f LO)
                ∗ (∃ f, a7.view.loc (c : Thread nD τ) ↦[a7.view.set]{fullShare} a7.view.writes (Elt F) f LX) ∗ (∃ f, a8.view.loc (c : Thread nD τ) ↦[a8.view.set]{fullShare} a8.view.writes (Elt F) f LY) ∗ (∃ f, a9.view.loc (c : Thread nD τ) ↦[a9.view.set]{fullShare} a9.view.writes (Elt F) f LN)) -∗ K ⟨⟩))
          ⊢ wp frame (wpE (defs₀ (F := F)) Variants.none c none) E (cc0__binning_kernel i a2 h2 a3 h3 a4 h4 a5 h5 a6 h6 a7 h7 a8 h8 a9 h9) K } := by
  refine ⟨?_, ?_, ?_, ?_, fun E K => ?run⟩
  case run =>
    simp only [cc0__binning_kernel_eq_skeleton]; unfold cc0__binning_kernel_skel
    simp only [k0_part1_eq_skeleton, k0_part2_eq_skeleton, k0_part3_eq_skeleton]
    unfold k0_part1_skel k0_part2_skel k0_part3_skel
    unfold owns
    iintro ⟨⟨%f2, %e2, H2⟩, ⟨%f3, %e3, H3⟩, ⟨%f4, %e4, H4⟩, ⟨%f5, %e5, H5⟩, ⟨%d6, %f6, -, H6⟩, ⟨%f7, %e7, H7⟩, ⟨%f8, %e8, H8⟩, ⟨%f9, %e9, H9⟩, Hk⟩
    obtain rfl := h2.eq_unread e2; obtain rfl := h3.eq_unread e3; obtain rfl := h4.eq_unread e4; obtain rfl := h5.eq_unread e5
    obtain rfl := h7.eq_unread e7; obtain rfl := h8.eq_unread e8; obtain rfl := h9.eq_unread e9
    sl_exec (disch := first | exact hf | exact hl)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    isplitl [H8]; · iexists _; iexact H8
    iexists _; iexact H9

end Cert.Kernel.Bin

end
-- ==== Proof.BinDatK.lean ====
/-
  The binning region's accumulation, proof data and body obligation.

  The three accumulators and the output block are followed from point to point: at a point with j = 0 they are
  what the first-case body leaves; at a later point what the middle- or last-case body leaves when handed what
  the point before left. Between two points the region's invariant holds the three accumulators at exactly those
  contents (before the very first point: at anything), beside the scoped buffers of the other region and the
  generator register, which the body never touches.
-/
import proofs.«161577_j37271726195508_2_alg».proof.Proof.BinRunFirstK
import proofs.«161577_j37271726195508_2_alg».proof.Proof.BinRunMidK
import proofs.«161577_j37271726195508_2_alg».proof.Proof.BinRunLastK

set_option maxRecDepth 16384

noncomputable section

namespace Cert.Kernel.Bin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three accumulators' contents: the sums of the two relative-velocity components and the counts. -/
abbrev Accs (F : FTy → Type) [FloatOps F] : Type := Vec F S128x16x16 .f32 × Vec F S128x16x16 .f32 × Vec F S128x16x16 .f32
/-- The output block's staging contents beside them. -/
abbrev St (F : FTy → Type) [FloatOps F] : Type := Vec F S128x256x2 .f32 × Accs F

/-! ## The three runs at a point of the grid -/

abbrev firstAt (c : Dev nD) (t : Fin cfg0.N) (hf : isFirst (grid0.coords t)) (hl : ¬isLast (grid0.coords t)) :=
  runFirst (F := F) c (grid0.coords t) (mq t) (hq t) (mqv t) (hqv t) (mn t) (hn t) (mnv t) (hnv t) (mo t) (ho t) sX (Memref.isWhole_whole _) sY (Memref.isWhole_whole _) sN (Memref.isWhole_whole _) hf hl (blk V c 0 t) (blk V c 1 t) (blk V c 2 t) (blk V c 3 t)
abbrev midAt (c : Dev nD) (t : Fin cfg0.N) (hf : ¬isFirst (grid0.coords t)) (hl : ¬isLast (grid0.coords t)) (g : Accs F) :=
  runMid (F := F) c (grid0.coords t) (mq t) (hq t) (mqv t) (hqv t) (mn t) (hn t) (mnv t) (hnv t) (mo t) (ho t) sX (Memref.isWhole_whole _) sY (Memref.isWhole_whole _) sN (Memref.isWhole_whole _) hf hl (blk V c 0 t) (blk V c 1 t) (blk V c 2 t) (blk V c 3 t) g.1 g.2.1 g.2.2
abbrev lastAt (c : Dev nD) (t : Fin cfg0.N) (hf : ¬isFirst (grid0.coords t)) (hl : isLast (grid0.coords t)) (g : Accs F) :=
  runLast (F := F) c (grid0.coords t) (mq t) (hq t) (mqv t) (hqv t) (mn t) (hn t) (mnv t) (hnv t) (mo t) (ho t) sX (Memref.isWhole_whole _) sY (Memref.isWhole_whole _) sN (Memref.isWhole_whole _) hf hl (blk V c 0 t) (blk V c 1 t) (blk V c 2 t) (blk V c 3 t) g.1 g.2.1 g.2.2

/-! ## Each run's pieces cover the buffer they are written into -/

theorem coverX_first (c : Dev nD) (t : Fin cfg0.N) (hf) (hl) (y : S128x16x16.Idx) : ∃ pc ∈ (firstAt V c t hf hl).1, y ∈ pc.1.set :=
  View.cover_of_tiledL (firstAt V c t hf hl).1 S128x16x16.size (by sl_kernel_rfl) y
theorem coverY_first (c : Dev nD) (t : Fin cfg0.N) (hf) (hl) (y : S128x16x16.Idx) : ∃ pc ∈ (firstAt V c t hf hl).2.1, y ∈ pc.1.set :=
  View.cover_of_tiledL (firstAt V c t hf hl).2.1 S128x16x16.size (by sl_kernel_rfl) y
theorem coverN_first (c : Dev nD) (t : Fin cfg0.N) (hf) (hl) (y : S128x16x16.Idx) : ∃ pc ∈ (firstAt V c t hf hl).2.2.1, y ∈ pc.1.set :=
  View.cover_of_tiledL (firstAt V c t hf hl).2.2.1 S128x16x16.size (by sl_kernel_rfl) y
theorem coverX_mid (c : Dev nD) (t : Fin cfg0.N) (hf) (hl) (g : Accs F) (y : S128x16x16.Idx) : ∃ pc ∈ (midAt V c t hf hl g).1, y ∈ pc.1.set :=
  View.cover_of_tiledL (midAt V c t hf hl g).1 S128x16x16.size (by sl_kernel_rfl) y
theorem coverY_mid (c : Dev nD) (t : Fin cfg0.N) (hf) (hl) (g : Accs F) (y : S128x16x16.Idx) : ∃ pc ∈ (midAt V c t hf hl g).2.1, y ∈ pc.1.set :=
  View.cover_of_tiledL (midAt V c t hf hl g).2.1 S128x16x16.size (by sl_kernel_rfl) y
theorem coverN_mid (c : Dev nD) (t : Fin cfg0.N) (hf) (hl) (g : Accs F) (y : S128x16x16.Idx) : ∃ pc ∈ (midAt V c t hf hl g).2.2.1, y ∈ pc.1.set :=
  View.cover_of_tiledL (midAt V c t hf hl g).2.2.1 S128x16x16.size (by sl_kernel_rfl) y
theorem coverO_last (c : Dev nD) (t : Fin cfg0.N) (hf) (hl) (g : Accs F) (y : S128x256x2.Idx) : ∃ pc ∈ (lastAt V c t hf hl g).1, y ∈ pc.1.set :=
  View.cover_of_tiledL (lastAt V c t hf hl g).1 S128x256x1.size (by sl_kernel_rfl) y
theorem coverX_last (c : Dev nD) (t : Fin cfg0.N) (hf) (hl) (g : Accs F) (y : S128x16x16.Idx) : ∃ pc ∈ (lastAt V c t hf hl g).2.1, y ∈ pc.1.set :=
  View.cover_of_tiledL (lastAt V c t hf hl g).2.1 S128x16x16.size (by sl_kernel_rfl) y
theorem coverY_last (c : Dev nD) (t : Fin cfg0.N) (hf) (hl) (g : Accs F) (y : S128x16x16.Idx) : ∃ pc ∈ (lastAt V c t hf hl g).2.2.1, y ∈ pc.1.set :=
  View.cover_of_tiledL (lastAt V c t hf hl g).2.2.1 S128x16x16.size (by sl_kernel_rfl) y
theorem coverN_last (c : Dev nD) (t : Fin cfg0.N) (hf) (hl) (g : Accs F) (y : S128x16x16.Idx) : ∃ pc ∈ (lastAt V c t hf hl g).2.2.2.1, y ∈ pc.1.set :=
  View.cover_of_tiledL (lastAt V c t hf hl g).2.2.2.1 S128x16x16.size (by sl_kernel_rfl) y

/-! ## What each case leaves -/

/-- Where the body stores nothing into the output block its staging contents are not consulted (the window is idle
    there and not written back): a placeholder. -/
def noOut : Vec F S128x256x2 .f32 := vO.read (Elt F) (vO.writes (Elt F) vO.junk [])

/-- After a point with j = 0: each accumulator's pieces read back. -/
def leftFirst (c : Dev nD) (t : Fin cfg0.N) (hf : isFirst (grid0.coords t)) (hl : ¬isLast (grid0.coords t)) : St F :=
  (noOut, vX.read (Elt F) (vX.writes (Elt F) vX.junk (firstAt V c t hf hl).1),
    vY.read (Elt F) (vY.writes (Elt F) vY.junk (firstAt V c t hf hl).2.1),
    vN.read (Elt F) (vN.writes (Elt F) vN.junk (firstAt V c t hf hl).2.2.1))
/-- After a point with 0 < j < 31, from what the point before left. -/
def leftMid (c : Dev nD) (t : Fin cfg0.N) (hf : ¬isFirst (grid0.coords t)) (hl : ¬isLast (grid0.coords t)) (g : Accs F) : St F :=
  (noOut, vX.read (Elt F) (vX.writes (Elt F) vX.junk (midAt V c t hf hl g).1),
    vY.read (Elt F) (vY.writes (Elt F) vY.junk (midAt V c t hf hl g).2.1),
    vN.read (Elt F) (vN.writes (Elt F) vN.junk (midAt V c t hf hl g).2.2.1))
/-- After a point with j = 31, from what the point before left: the output block too. -/
def leftLast (c : Dev nD) (t : Fin cfg0.N) (hf : ¬isFirst (grid0.coords t)) (hl : isLast (grid0.coords t)) (g : Accs F) : St F :=
  (vO.read (Elt F) (vO.writes (Elt F) vO.junk (lastAt V c t hf hl g).1),
    vX.read (Elt F) (vX.writes (Elt F) vX.junk (lastAt V c t hf hl g).2.1),
    vY.read (Elt F) (vY.writes (Elt F) vY.junk (lastAt V c t hf hl g).2.2.1),
    vN.read (Elt F) (vN.writes (Elt F) vN.junk (lastAt V c t hf hl g).2.2.2.1))

/-! ## The accumulation, point by point -/

/-- What the output block's staging buffer and the three accumulators hold after the body at position n. -/
def stAt (c : Dev nD) : (n : ℕ) → n < cfg0.N → St F
  | 0, h => leftFirst V c ⟨0, h⟩ ((isFirst_iff ⟨0, h⟩).mpr (Nat.zero_mod _))
      (fun hl => (fun e => by (try dsimp only at e); omega) ((isLast_iff ⟨0, h⟩).mp hl))
  | n + 1, h =>
    if h0 : (n + 1) % 32 = 0 then
      if h1 : (n + 1) % 32 = 31 then
        False.elim (by omega)
      else
        leftFirst V c ⟨n + 1, h⟩ ((isFirst_iff ⟨n + 1, h⟩).mpr h0) (fun hl => h1 ((isLast_iff ⟨n + 1, h⟩).mp hl))
    else
      if h1 : (n + 1) % 32 = 31 then
        leftLast V c ⟨n + 1, h⟩ (fun hf => h0 ((isFirst_iff ⟨n + 1, h⟩).mp hf)) ((isLast_iff ⟨n + 1, h⟩).mpr h1)
          (stAt c n (Nat.lt_of_succ_lt h)).2
      else
        leftMid V c ⟨n + 1, h⟩ (fun hf => h0 ((isFirst_iff ⟨n + 1, h⟩).mp hf)) (fun hl => h1 ((isLast_iff ⟨n + 1, h⟩).mp hl))
          (stAt c n (Nat.lt_of_succ_lt h)).2

theorem stAt_first (c : Dev nD) (t : Fin cfg0.N) (h0 : t.val % 32 = 0) (h1 : ¬t.val % 32 = 31) :
    stAt V c t.val t.isLt = leftFirst V c t ((isFirst_iff t).mpr h0) (fun hl => h1 ((isLast_iff t).mp hl)) := by
  obtain ⟨n, hn⟩ := t
  cases n with
  | zero => exact rfl
  | succ n => exact (dif_pos h0).trans ((dif_neg h1).trans rfl)

theorem stAt_mid (c : Dev nD) (t : Fin cfg0.N) (h0 : ¬t.val % 32 = 0) (h1 : ¬t.val % 32 = 31) :
    stAt V c t.val t.isLt = leftMid V c t (fun hf => h0 ((isFirst_iff t).mp hf)) (fun hl => h1 ((isLast_iff t).mp hl))
      (stAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem stAt_last (c : Dev nD) (t : Fin cfg0.N) (h0 : ¬t.val % 32 = 0) (h1 : t.val % 32 = 31) :
    stAt V c t.val t.isLt = leftLast V c t (fun hf => h0 ((isFirst_iff t).mp hf)) ((isLast_iff t).mpr h1)
      (stAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The other region's staging buffers, each whole at some contents: scoped buffers this region never touches. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the region is handed of the scoped buffers and the generator register, with the three accumulators as
    owned memrefs at some contents. -/
theorem PhiA_eq (c : Dev nD) :
    (Pipeline.ΦA spec0 c : sProp 𝕄)
      = iprop(iprop((∃ d, owns (c : Thread nD τ) sX fullShare d) ∗ (∃ d, owns (c : Thread nD τ) sY fullShare d)
          ∗ (∃ d, owns (c : Thread nD τ) sN fullShare d) ∗ otherScoped c) ∗ (∃ r, prngReg c r)) := by
  unfold Pipeline.ΦA otherScoped; rw [scopedRest0_eq]; simp only [sX, sY, sN, owns_whole]; try rfl

/-- Before position n: before the first point the accumulators at anything; afterwards each at what the point
    before left in it. -/
def PhiS (c : Dev nD) : (n : ℕ) → n ≤ cfg0.N → sProp 𝕄
  | 0, _ => Pipeline.ΦA spec0 c
  | n + 1, h => iprop(iprop(owns (c : Thread nD τ) sX fullShare (stAt V c n h).2.1 ∗ owns (c : Thread nD τ) sY fullShare (stAt V c n h).2.2.1
      ∗ owns (c : Thread nD τ) sN fullShare (stAt V c n h).2.2.2 ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (h : n < cfg0.N) :
    PhiS V c (n + 1) h = iprop(iprop(owns (c : Thread nD τ) sX fullShare (stAt V c n h).2.1 ∗ owns (c : Thread nD τ) sY fullShare (stAt V c n h).2.2.1
      ∗ owns (c : Thread nD τ) sN fullShare (stAt V c n h).2.2.2 ∗ otherScoped c) ∗ (∃ r, prngReg c r)) := rfl

theorem PhiS_pos (c : Dev nD) (n : ℕ) (h : n ≤ cfg0.N) (hz : n ≠ 0) :
    PhiS V c n h = iprop(iprop(owns (c : Thread nD τ) sX fullShare (stAt V c (n - 1) (by omega)).2.1
      ∗ owns (c : Thread nD τ) sY fullShare (stAt V c (n - 1) (by omega)).2.2.1
      ∗ owns (c : Thread nD τ) sN fullShare (stAt V c (n - 1) (by omega)).2.2.2 ∗ otherScoped c) ∗ (∃ r, prngReg c r)) := by
  cases n with
  | zero => exact absurd rfl hz
  | succ n => rfl

/-! ## The proof data -/

/-- Per core: the arrays as the region finds them; after the body at point t each input's staging buffer still at
    its block and the output's at the accumulation's first component; the invariant above; nothing owed. The two
    position windows share one array and the two velocity windows another: each holds half of its array. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => (stAt V c t.val t.isLt).1
  Φ t := PhiS V c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem dat_A (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after_q (c : Dev nD) (t : Fin cfg0.N) : (dat V c).after 0 t = blk V c 0 t := by dsimp only [dat]
theorem after_qv (c : Dev nD) (t : Fin cfg0.N) : (dat V c).after 1 t = blk V c 1 t := by dsimp only [dat]
theorem after_n (c : Dev nD) (t : Fin cfg0.N) : (dat V c).after 2 t = blk V c 2 t := by dsimp only [dat]
theorem after_nv (c : Dev nD) (t : Fin cfg0.N) : (dat V c).after 3 t = blk V c 3 t := by dsimp only [dat]
theorem after_o (c : Dev nD) (t : Fin cfg0.N) : (dat V c).after 4 t = (stAt V c t.val t.isLt).1 := by dsimp only [dat]

/-- The query blocks are refetched only when i moves, the neighbour blocks at every point; either way the body
    finds each input's block in its staging buffer. -/
theorem before_q (c : Dev nD) (t : Fin cfg0.N) (d) : (dat V c).before 0 t d = blk V c 0 t :=
  ((dat V c).before_in_eq_fetched 0 rfl (fun _ => rfl) (fun _ _ _ => rfl)
      (fun t => by rw [after_q]; unfold Dat.blockOf blk; rw [dat_A]; try rfl) t d).trans
    (by unfold Dat.fetched Dat.blockOf blk; rw [dat_A]; try rfl)
theorem before_qv (c : Dev nD) (t : Fin cfg0.N) (d) : (dat V c).before 1 t d = blk V c 1 t :=
  ((dat V c).before_in_eq_fetched 1 rfl (fun _ => rfl) (fun _ _ _ => rfl)
      (fun t => by rw [after_qv]; unfold Dat.blockOf blk; rw [dat_A]; try rfl) t d).trans
    (by unfold Dat.fetched Dat.blockOf blk; rw [dat_A]; try rfl)
theorem before_n (c : Dev nD) (t : Fin cfg0.N) (d) : (dat V c).before 2 t d = blk V c 2 t :=
  ((dat V c).before_in_eq_fetched 2 rfl (fun _ => rfl) (fun _ _ _ => rfl)
      (fun t => by rw [after_n]; unfold Dat.blockOf blk; rw [dat_A]; try rfl) t d).trans
    (by unfold Dat.fetched Dat.blockOf blk; rw [dat_A]; try rfl)
theorem before_nv (c : Dev nD) (t : Fin cfg0.N) (d) : (dat V c).before 3 t d = blk V c 3 t :=
  ((dat V c).before_in_eq_fetched 3 rfl (fun _ => rfl) (fun _ _ _ => rfl)
      (fun t => by rw [after_nv]; unfold Dat.blockOf blk; rw [dat_A]; try rfl) t d).trans
    (by unfold Dat.fetched Dat.blockOf blk; rw [dat_A]; try rfl)

/-! ## The body obligation -/

/-- What the body is called with at point t, the five windows one by one, -/
def bodyPre (c : Dev nD) (t : Fin cfg0.N) : sProp 𝕄 :=
  iprop((dat V c).Φ t.castSucc ∗ (dat V c).owesAt () t.castSucc
    ∗ (∃ d, owns (c : Thread nD τ) (mq t) fullShare ((dat V c).before 0 t d))
    ∗ (∃ d, owns (c : Thread nD τ) (mqv t) fullShare ((dat V c).before 1 t d))
    ∗ (∃ d, owns (c : Thread nD τ) (mn t) fullShare ((dat V c).before 2 t d))
    ∗ (∃ d, owns (c : Thread nD τ) (mnv t) fullShare ((dat V c).before 3 t d))
    ∗ (∃ d, owns (c : Thread nD τ) (mo t) fullShare ((dat V c).before 4 t d)))

/-- and what it hands back. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 8000000 in
/-- The body at any point. The inputs' staging buffers hold their blocks; the residue of t modulo 32 says which of
    the three cases the point is in; the invariant hands the body the accumulators at what the point before left
    (at anything before the very first point) and takes them back at this point's contents, each written buffer
    read back through the cover of its pieces; where j ≠ 31 the output block is handed back as found. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_q, before_qv, before_n, before_nv]
  rw [show (dat V c).owesAt () t.succ = (dat V c).owesAt () t.castSucc from rfl]
  rw [show (dat V c).Φ t.succ = PhiS V c (t.val + 1) t.isLt from rfl, PhiS_succ]
  have hN : t.val < 1024 := lt_of_lt_of_eq t.isLt (show cfg0.N = 1024 from N_0)
  by_cases h0 : t.val % 32 = 0
  · have h1 : ¬t.val % 32 = 31 := by omega
    have hf : isFirst (grid0.coords t) := (isFirst_iff t).mpr h0
    have hl : ¬isLast (grid0.coords t) := fun h => h1 ((isLast_iff t).mp h)
    rw [show (dat V c).leavesExact 0 t = owns (c : Thread nD τ) (mq t) fullShare ((dat V c).after 0 t) from by
      unfold Dat.leavesExact; rw [live_in0 t], after_q]
    rw [show (dat V c).leavesExact 1 t = owns (c : Thread nD τ) (mqv t) fullShare ((dat V c).after 1 t) from by
      unfold Dat.leavesExact; rw [live_in1 t], after_qv]
    rw [show (dat V c).leavesExact 2 t = owns (c : Thread nD τ) (mn t) fullShare ((dat V c).after 2 t) from by
      unfold Dat.leavesExact; rw [live_in2 t], after_n]
    rw [show (dat V c).leavesExact 3 t = owns (c : Thread nD τ) (mnv t) fullShare ((dat V c).after 3 t) from by
      unfold Dat.leavesExact; rw [live_in3 t], after_nv]
    rw [Dat.leavesExact_idle (dat V c) 4 t (idle_out t hl) (noFlush_out t hl)]
    rw [stAt_first V c t h0 h1]
    unfold leftFirst; (try dsimp only)
    by_cases hz : t.val = 0
    · rw [Phi_castSucc V c t, PhiS_zero V c _ _ hz, PhiA_eq]
      iintro ⟨⟨⟨HX, HY, HN, HR⟩, Hg⟩, Ho, ⟨%d0, H0⟩, ⟨%d1, H1⟩, ⟨%d2, H2⟩, ⟨%d3, H3⟩, ⟨%d4, H4⟩⟩
      iapply ((firstAt V c t hf hl).2.2.2 _ Set.univ _)
      isplitl [H0]; · iexact H0
      isplitl [H1]; · iexact H1
      isplitl [H2]; · iexact H2
      isplitl [H3]; · iexact H3
      isplitl [H4]; · iexact H4
      isplitl [HX]; · iexact HX
      isplitl [HY]; · iexact HY
      isplitl [HN]; · iexact HN
      iintro ⟨H0, H1, H2, H3, H4, ⟨%eX, HX⟩, ⟨%eY, HY⟩, ⟨%eN, HN⟩⟩
      isplitl [HX HY HN HR Hg]
      · isplitl [HX HY HN HR]
        · isplitl [HX]
          · unfold owns; iexists _; isplitr
            swap; · iexact HX
            ipureintro; exact View.read_writes_of_cover _ _ _ _ _ (coverX_first V c t hf hl)
          isplitl [HY]
          · unfold owns; iexists _; isplitr
            swap; · iexact HY
            ipureintro; exact View.read_writes_of_cover _ _ _ _ _ (coverY_first V c t hf hl)
          isplitl [HN]
          · unfold owns; iexists _; isplitr
            swap; · iexact HN
            ipureintro; exact View.read_writes_of_cover _ _ _ _ _ (coverN_first V c t hf hl)
          iexact HR
        iexact Hg
      isplitl [Ho]; · iexact Ho
      isplitl [H0]; · iexact H0
      isplitl [H1]; · iexact H1
      isplitl [H2]; · iexact H2
      isplitl [H3]; · iexact H3
      iexists _; iexact H4
    · rw [Phi_castSucc V c t, PhiS_pos V c _ _ hz]
      iintro ⟨⟨⟨HX, HY, HN, HR⟩, Hg⟩, Ho, ⟨%d0, H0⟩, ⟨%d1, H1⟩, ⟨%d2, H2⟩, ⟨%d3, H3⟩, ⟨%d4, H4⟩⟩
      iapply ((firstAt V c t hf hl).2.2.2 _ Set.univ _)
      isplitl [H0]; · iexact H0
      isplitl [H1]; · iexact H1
      isplitl [H2]; · iexact H2
      isplitl [H3]; · iexact H3
      isplitl [H4]; · iexact H4
      isplitl [HX]; · iexists _; iexact HX
      isplitl [HY]; · iexists _; iexact HY
      isplitl [HN]; · iexists _; iexact HN
      iintro ⟨H0, H1, H2, H3, H4, ⟨%eX, HX⟩, ⟨%eY, HY⟩, ⟨%eN, HN⟩⟩
      isplitl [HX HY HN HR Hg]
      · isplitl [HX HY HN HR]
        · isplitl [HX]
          · unfold owns; iexists _; isplitr
            swap; · iexact HX
            ipureintro; exact View.read_writes_of_cover _ _ _ _ _ (coverX_first V c t hf hl)
          isplitl [HY]
          · unfold owns; iexists _; isplitr
            swap; · iexact HY
            ipureintro; exact View.read_writes_of_cover _ _ _ _ _ (coverY_first V c t hf hl)
          isplitl [HN]
          · unfold owns; iexists _; isplitr
            swap; · iexact HN
            ipureintro; exact View.read_writes_of_cover _ _ _ _ _ (coverN_first V c t hf hl)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hf : ¬isFirst (grid0.coords t) := fun h => h0 ((isFirst_iff t).mp h)
    by_cases h1 : t.val % 32 = 31
    · have hl : isLast (grid0.coords t) := (isLast_iff t).mpr h1
      rw [show (dat V c).leavesExact 0 t = owns (c : Thread nD τ) (mq t) fullShare ((dat V c).after 0 t) from by
        unfold Dat.leavesExact; rw [live_in0 t], after_q]
      rw [show (dat V c).leavesExact 1 t = owns (c : Thread nD τ) (mqv t) fullShare ((dat V c).after 1 t) from by
        unfold Dat.leavesExact; rw [live_in1 t], after_qv]
      rw [show (dat V c).leavesExact 2 t = owns (c : Thread nD τ) (mn t) fullShare ((dat V c).after 2 t) from by
        unfold Dat.leavesExact; rw [live_in2 t], after_n]
      rw [show (dat V c).leavesExact 3 t = owns (c : Thread nD τ) (mnv t) fullShare ((dat V c).after 3 t) from by
        unfold Dat.leavesExact; rw [live_in3 t], after_nv]
      rw [show (dat V c).leavesExact 4 t = owns (c : Thread nD τ) (mo t) fullShare ((dat V c).after 4 t) from by
        unfold Dat.leavesExact; rw [live_out t hl], after_o]
      rw [stAt_last V c t h0 h1]
      unfold leftLast; (try dsimp only)
      rw [Phi_castSucc V c t, PhiS_pos V c _ _ hz]
      iintro ⟨⟨⟨HX, HY, HN, HR⟩, Hg⟩, Ho, ⟨%d0, H0⟩, ⟨%d1, H1⟩, ⟨%d2, H2⟩, ⟨%d3, H3⟩, ⟨%d4, H4⟩⟩
      iapply ((lastAt V c t hf hl _).2.2.2.2 Set.univ _)
      isplitl [H0]; · iexact H0
      isplitl [H1]; · iexact H1
      isplitl [H2]; · iexact H2
      isplitl [H3]; · iexact H3
      isplitl [H4]; · iexists _; iexact H4
      isplitl [HX]; · iexact HX
      isplitl [HY]; · iexact HY
      isplitl [HN]; · iexact HN
      iintro ⟨H0, H1, H2, H3, ⟨%eO, H4⟩, ⟨%eX, HX⟩, ⟨%eY, HY⟩, ⟨%eN, HN⟩⟩
      isplitl [HX HY HN HR Hg]
      · isplitl [HX HY HN HR]
        · isplitl [HX]
          · unfold owns; iexists _; isplitr
            swap; · iexact HX
            ipureintro; exact View.read_writes_of_cover _ _ _ _ _ (coverX_last V c t hf hl _)
          isplitl [HY]
          · unfold owns; iexists _; isplitr
            swap; · iexact HY
            ipureintro; exact View.read_writes_of_cover _ _ _ _ _ (coverY_last V c t hf hl _)
          isplitl [HN]
          · unfold owns; iexists _; isplitr
            swap; · iexact HN
            ipureintro; exact View.read_writes_of_cover _ _ _ _ _ (coverN_last V c t hf hl _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverO_last V c t hf hl _)
    · have hl : ¬isLast (grid0.coords t) := fun h => h1 ((isLast_iff t).mp h)
      rw [show (dat V c).leavesExact 0 t = owns (c : Thread nD τ) (mq t) fullShare ((dat V c).after 0 t) from by
        unfold Dat.leavesExact; rw [live_in0 t], after_q]
      rw [show (dat V c).leavesExact 1 t = owns (c : Thread nD τ) (mqv t) fullShare ((dat V c).after 1 t) from by
        unfold Dat.leavesExact; rw [live_in1 t], after_qv]
      rw [show (dat V c).leavesExact 2 t = owns (c : Thread nD τ) (mn t) fullShare ((dat V c).after 2 t) from by
        unfold Dat.leavesExact; rw [live_in2 t], after_n]
      rw [show (dat V c).leavesExact 3 t = owns (c : Thread nD τ) (mnv t) fullShare ((dat V c).after 3 t) from by
        unfold Dat.leavesExact; rw [live_in3 t], after_nv]
      rw [Dat.leavesExact_idle (dat V c) 4 t (idle_out t hl) (noFlush_out t hl)]
      rw [stAt_mid V c t h0 h1]
      unfold leftMid; (try dsimp only)
      rw [Phi_castSucc V c t, PhiS_pos V c _ _ hz]
      iintro ⟨⟨⟨HX, HY, HN, HR⟩, Hg⟩, Ho, ⟨%d0, H0⟩, ⟨%d1, H1⟩, ⟨%d2, H2⟩, ⟨%d3, H3⟩, ⟨%d4, H4⟩⟩
      iapply ((midAt V c t hf hl _).2.2.2 _ Set.univ _)
      isplitl [H0]; · iexact H0
      isplitl [H1]; · iexact H1
      isplitl [H2]; · iexact H2
      isplitl [H3]; · iexact H3
      isplitl [H4]; · iexact H4
      isplitl [HX]; · iexact HX
      isplitl [HY]; · iexact HY
      isplitl [HN]; · iexact HN
      iintro ⟨H0, H1, H2, H3, H4, ⟨%eX, HX⟩, ⟨%eY, HY⟩, ⟨%eN, HN⟩⟩
      isplitl [HX HY HN HR Hg]
      · isplitl [HX HY HN HR]
        · isplitl [HX]
          · unfold owns; iexists _; isplitr
            swap; · iexact HX
            ipureintro; exact View.read_writes_of_cover _ _ _ _ _ (coverX_mid V c t hf hl _)
          isplitl [HY]
          · unfold owns; iexists _; isplitr
            swap; · iexact HY
            ipureintro; exact View.read_writes_of_cover _ _ _ _ _ (coverY_mid V c t hf hl _)
          isplitl [HN]
          · unfold owns; iexists _; isplitr
            swap; · iexact HN
            ipureintro; exact View.read_writes_of_cover _ _ _ _ _ (coverN_mid V c t hf hl _)
          iexact HR
        iexact Hg
      isplitl [Ho]; · iexact Ho
      isplitl [H0]; · iexact H0
      isplitl [H1]; · iexact H1
      isplitl [H2]; · iexact H2
      isplitl [H3]; · iexact H3
      iexists _; iexact H4

/-- The binning region's body obligation, at every point. -/
theorem obligation (c : Dev nD) : BodyObligation (dat (F := F) V c) (defs₀ (F := F)) Variants.none () Set.univ := fun t => by
  rw [bigSep_W0, bigSep_W0]
  exact body_at V c t

/-- What the region is handed of the scoped buffers is the invariant before the first point. -/
theorem phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the very first the invariant gives the same back: the accumulators' named contents are
    forgotten. -/
theorem phi_back (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HX, HY, HN, HR⟩, Hg⟩
  isplitl [HX HY HN HR]
  · isplitl [HX]; · iexists _; iexact HX
    isplitl [HY]; · iexists _; iexact HY
    isplitl [HN]; · iexists _; iexact HN
    iexact HR
  iexact Hg

/-- In particular after the last point. -/
theorem phi_out (c : Dev nD) : (dat V c).Φ (Fin.last cfg0.N) ⊢ Pipeline.ΦA spec0 c :=
  phi_back V c _ (by rw [Fin.val_last]; have : cfg0.N = 1024 := N_0; omega)

end Cert.Kernel.Bin

end
-- ==== Proof.BinEndsK.lean ====
/-
  The binning region's two ends.

  The positions array is handed to the region twice — as the query window and as the neighbour window — and so
  is the velocities array. At entry each of these two arrays' buffers, held whole, is split into two halves, one
  per window; at exit the halves, still at the entry contents (an input array is never written), are joined again,
  and the output array is held at what the write-backs left. Every other unscoped buffer bypasses the region.
-/
import proofs.«161577_j37271726195508_2_alg».proof.Proof.BinDatK
import Idealize.ShloMosaic.Lib.Pipeline.RegionsLoop

set_option maxRecDepth 16384

noncomputable section

namespace Cert.Kernel.Bin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's arrays, window by window: the two position windows hold the two halves of one buffer, the two
    velocity windows the two halves of another, the output window its array whole. -/
theorem arrays_chain (c : Dev nD) (G : (w : Fin cfg0.W) → Buf (Elt F) ((cfg0.win w).arr.view.loc (c : Thread nD τ))) :
    ((dat V c).arrays G : sProp 𝕄)
      = iprop((((c : Thread nD τ).loc main_arg1) ↦{fullShare.left} G 0) ∗ (((c : Thread nD τ).loc main_v0) ↦{fullShare.left} G 1)
          ∗ (((c : Thread nD τ).loc main_arg1) ↦{fullShare.right} G 2) ∗ (((c : Thread nD τ).loc main_v0) ↦{fullShare.right} G 3)
          ∗ (((c : Thread nD τ).loc main_v1) ↦{fullShare} G 4)) := by
  unfold Dat.arrays
  rw [bigSep_W0, (arr_whole0 0).set_eq_univ, (arr_whole0 1).set_eq_univ, (arr_whole0 4).set_eq_univ]
  rfl

/-- The three distinct buffers behind the five windows' arrays, each whole. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_v0) ↦{fullShare} W main_v0)
          ∗ (((c : Thread nD τ).loc main_v1) ↦{fullShare} W main_v1)) := by
  unfold Pipeline.arrBufs
  exact bigSep_eq_bigSepL_of_eq [main_arg1, main_v0, main_v1] (by decide) (by decide) _

/-- ENTRY. The core's unscoped buffers at V are the region's arrays at their entry contents — the shared buffers
    split in halves — and the rest. -/
theorem entry (c : Dev nD) :
    (unscopedBufs c (V c) : sProp 𝕄) ⊢ iprop((dat V c).arrays ((dat V c).arrAt · 0) ∗ Pipeline.unscopedRest spec0 c (V c)) := by
  have hs : (unscopedBufs c (V c) : sProp 𝕄) = iprop((Pipeline.arrBufs spec0 c (V c) : sProp 𝕄) ∗ Pipeline.unscopedRest spec0 c (V c)) :=
    Pipeline.unscopedBufs_split₀ cfgs 0 winFacts₀0.arr_unscoped c (V c)
  rw [hs, arrays_chain, arrBufs_chain]
  rw [show (dat V c).arrAt 0 0 = V c main_arg1 from dat_A V c 0, show (dat V c).arrAt 1 0 = V c main_v0 from dat_A V c 1,
    show (dat V c).arrAt 2 0 = V c main_arg1 from dat_A V c 2, show (dat V c).arrAt 3 0 = V c main_v0 from dat_A V c 3,
    show (dat V c).arrAt 4 0 = V c main_v1 from dat_A V c 4]
  iintro ⟨⟨Hp, Hv, Ho⟩, Hrest⟩
  ihave Hp := (pointsTo_share (PosShare.mem_left_op_right fullShare)).1 $$ Hp
  icases Hp with ⟨Hp1, Hp2⟩
  ihave Hv := (pointsTo_share (PosShare.mem_left_op_right fullShare)).1 $$ Hv
  icases Hv with ⟨Hv1, Hv2⟩
  isplitr [Hrest]
  · isplitl [Hp1]; · iexact Hp1
    isplitl [Hv1]; · iexact Hv1
    isplitl [Hp2]; · iexact Hp2
    isplitl [Hv2]; · iexact Hv2
    iexact Ho
  iexact Hrest

/-- EXIT. The region's arrays after the last point — the inputs as entered, the output at what the write-backs left
    — and the rest at V are the core's unscoped buffers at any valuation that has the output array there and
    agrees with V elsewhere. -/
theorem exit (c : Dev nD) (V' : (b : Ref sig .tc) → Buf (Elt F) ((c : Thread nD τ).loc b))
    (hout : V' main_v1 = (dat V c).arrAt 4 cfg0.N) (hrest : ∀ b, b ≠ main_v1 → V' b = V c b) :
    iprop((dat V c).arrays ((dat V c).arrAt · cfg0.N) ∗ Pipeline.unscopedRest spec0 c (V c)) ⊢ (unscopedBufs c V' : sProp 𝕄) := by
  have hR : (Pipeline.unscopedRest (Ix := Unit) (Name := ℕ) (U := UR sig nD τ) (Lvl := ℕ) spec0 c V' : sProp 𝕄)
      = Pipeline.unscopedRest spec0 c (V c) := by
    rw [unscopedRest0_eq, unscopedRest0_eq, hrest main_arg0 (by decide), hrest main_arg2 (by decide), hrest main_arg3 (by decide),
      hrest main_arg4 (by decide), hrest main_v2 (by decide), hrest main_v3 (by decide), hrest main_v4 (by decide)]
  have hs : (unscopedBufs c V' : sProp 𝕄) = iprop((Pipeline.arrBufs spec0 c V' : sProp 𝕄) ∗ Pipeline.unscopedRest spec0 c V') :=
    Pipeline.unscopedBufs_split₀ cfgs 0 winFacts₀0.arr_unscoped c V'
  rw [hs, arrays_chain, arrBufs_chain, hR,
    hrest main_arg1 (by decide), hrest main_v0 (by decide), hout]
  rw [show (dat V c).arrAt 0 cfg0.N = V c main_arg1 from ((dat V c).arrAt_in 0 rfl _).trans (dat_A V c 0),
    show (dat V c).arrAt 1 cfg0.N = V c main_v0 from ((dat V c).arrAt_in 1 rfl _).trans (dat_A V c 1),
    show (dat V c).arrAt 2 cfg0.N = V c main_arg1 from ((dat V c).arrAt_in 2 rfl _).trans (dat_A V c 2),
    show (dat V c).arrAt 3 cfg0.N = V c main_v0 from ((dat V c).arrAt_in 3 rfl _).trans (dat_A V c 3)]
  iintro ⟨⟨Hp1, Hv1, Hp2, Hv2, Ho⟩, Hrest⟩
  ihave Hp := (pointsTo_share (PosShare.mem_left_op_right fullShare)).2 $$ [Hp1 Hp2]
  · isplitl [Hp1] <;> iassumption
  ihave Hv := (pointsTo_share (PosShare.mem_left_op_right fullShare)).2 $$ [Hv1 Hv2]
  · isplitl [Hv1] <;> iassumption
  isplitr [Hrest]
  · isplitl [Hp]; · iexact Hp
    isplitl [Hv]; · iexact Hv
    iexact Ho
  iexact Hrest

end Cert.Kernel.Bin

end
-- ==== Proof.KernelRunK.lean ====
/-
  The kernel program's run.

  @main is four items in order: one host operation (the velocities, positions minus past positions), the binning
  region, two host operations (the binned grid flattened to 4096 × 512, the bias as a 1 × 256 row), and the head
  region. Between two items every unscoped buffer of the core is held whole at a named valuation: the launch
  memory, then each host stretch applied, then each region's output array replaced by what its write-backs leave.
  Every weakly fair execution terminates, nothing faulting, with every unscoped buffer at the last valuation —
  from which both the frame (the arguments end as launched) and the result's value are read.
-/
import proofs.«161577_j37271726195508_2_alg».proof.Proof.HeadBodyK
import proofs.«161577_j37271726195508_2_alg».proof.Proof.BinEndsK
import proofs.«161577_j37271726195508_2_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the velocities are computed: the binning region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- What the binning region's write-backs leave in its output array. -/
def binned (c : Dev nD) : Buf (Elt F) ((c : Thread nD τ).loc main_v1) := (Bin.dat (V1 m) c).arrAt 4 cfg0.N
/-- At the binning region's exit: its output array at that, every other buffer as entered. -/
def W2 (c : Dev nD) : Valuation τ sig (Elt F) := Function.update (W1 m c) (Proc.devRef .tc main_v1) (binned m c)
abbrev V2 : (c : Dev nD) → (b : Ref sig .tc) → Buf (Elt F) ((c : Thread nD τ).loc b) := fun c b => W2 m c b
theorem W2_out (c : Dev nD) : W2 m c (Proc.devRef .tc main_v1) = binned m c := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..
/-- After the two reshapes: the head region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the head region's exit: its arrays at what the pipeline leaves (the inputs as entered, the output's
    write-backs folded), every other buffer as entered. -/
def W4 (c : Dev nD) : Valuation τ sig (Elt F) :=
  Pipeline.withArrays spec1 c (W3 m c) fun w => (Head.dat (V3 m) c).arrAt w cfg1.N
abbrev V4 : (c : Dev nD) → (b : Ref sig .tc) → Buf (Elt F) ((c : Thread nD τ).loc b) := fun c b => W4 m c b
theorem W4_arr (c : Dev nD) (w : Fin cfg1.W) :
    W4 m c (Proc.devRef .tc (Pipeline.arrRef spec1 w)) = (Head.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem head_hF (c : Dev nD) (w : Fin cfg1.W) : (Head.dat (V3 m) c).arrAt w cfg1.N = V4 m c (Pipeline.arrRef spec1 w) :=
  (W4_arr m c w).symm
theorem head_hrest (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The proof data family and what rides along -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => Bin.dat (V1 m) c
  | ⟨1, _⟩ => fun c => Head.dat (V3 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W4 m c) ∗ ∃ r, prngReg c r)

/-! ## The two regions as segments -/

set_option backward.isDefEq.respectTransparency.types false in
/-- The binning region: entered from every unscoped buffer at W1, left at W2. Its arrays are split out of the
    unscoped buffers and put back by this certificate's own entry and exit (two pairs of windows share an array);
    the generator register goes into the invariant and comes back; nothing owed; no semaphore of the kernel's own. -/
def regBin : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Bin.obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs c (V1 m c) : sProp 𝕄) ⊢ iprop((pdats m 0 c).arrays ((pdats m 0 c).arrAt · 0)
        ∗ Pipeline.unscopedRest (Ix := Unit) (Name := ℕ) (U := UR sig nD τ) (Lvl := ℕ) spec0 c (V1 m c)) := Bin.entry (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Bin.dat (V1 m) c).Φ 0 from rfl]
    iintro ⟨Hp, -, Hr⟩
    iapply (Bin.phi_in (V1 m) c)
    unfold Pipeline.ΦA
    isplitl [Hr]; · iexact Hr
    iexact Hp
  hout c := by
    rw [Pipeline.ownSems0_none, show (pdats m 0 c).Φ (Fin.last _) = (Bin.dat (V1 m) c).Φ (Fin.last cfg0.N) from rfl]
    refine (Bin.phi_out (V1 m) c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
        ∗ Pipeline.unscopedRest (Ix := Unit) (Name := ℕ) (U := UR sig nD τ) (Lvl := ℕ) spec0 c (V1 m c)) ⊢ (unscopedBufs c (V2 m c) : sProp 𝕄) :=
      Bin.exit (V1 m) c (V2 m c) (W2_out m c) (fun b hb => W2_of_ne m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The head region: entered from every unscoped buffer at W3, left at W4. Its four arrays are distinct buffers: they
    are split out of the unscoped buffers and put back at the exit contents by the library's two lemmas. -/
def regHead : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Head.obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (head_hF m c) (head_hrest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- @main's four items in order. -/
abbrev segs : List (Pipeline.Seg (pcfgs (F := F)) adm (pdats m) () defs₀ 𝒱₀ L lv) :=
  [ .host (hseg hostOps0 hostOps0_sub hostOps0_fresh (W0 m)),
    .region (regBin m),
    .host (hseg hostOps1 hostOps1_sub hostOps1_fresh (W2 m)),
    .region (regHead m) ]
/-- @main is the run of the segments. -/
theorem main_run (c : Dev nD) : main (F := F) c = Pipeline.Seg.run (segs m) := (main_chain c).trans (by chain_rfl)

set_option backward.isDefEq.respectTransparency.types false in
/-- At the compiled mesh, for any float values, from any memory with zero counters: every weakly fair execution of
    @main on the TensorCores terminates, nothing faulting, and every final state has every unscoped buffer of every
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Whole

end
-- ==== Proof.FramesK.lean ====
/-
  The kernel program's frame: every argument array ends as launched.

  No item of @main writes an argument: the subtraction writes the velocities, the binning region its output array,
  the reshapes their two results, the head region its result; the positions and the weight table are read through
  input windows, whose arrays the pipeline never writes. So each argument's buffer at the last boundary is its
  launch contents.
-/
import proofs.«161577_j37271726195508_2_alg».proof.Proof.KernelRunK

set_option maxRecDepth 16384

noncomputable section

namespace Cert.Kernel.Whole

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- A buffer the subtraction does not write is as launched at the binning region's entry, -/
theorem W1_of (c : Dev nD) (b : Ref sig .tc) (h : b ∉ hostOps0_W) : W1 m c (Proc.devRef .tc b) = m ((c : Thread nD τ).loc b) :=
  (StableHlo.after_of_writes_sub hostOps0 _ hostOps0_writes h).trans rfl
/-- and one the reshapes do not write passes them unchanged. -/
theorem W3_of (c : Dev nD) (b : Ref sig .tc) (h : b ∉ hostOps1_W) : W3 m c (Proc.devRef .tc b) = W2 m c (Proc.devRef .tc b) :=
  StableHlo.after_of_writes_sub hostOps1 _ hostOps1_writes h

/-- A buffer that no item writes and that is no array of the head region ends as launched. -/
theorem kept (c : Dev nD) (b : Ref sig .tc) (h1 : ∀ w, Pipeline.arrRef spec1 w ≠ b) (h2 : b ∉ hostOps1_W) (h3 : b ≠ main_v1)
    (h4 : b ∉ hostOps0_W) : W4 m c (Proc.devRef .tc b) = m ((c : Thread nD τ).loc b) :=
  (W4_of_ne m c b h1).trans ((W3_of m c b h2).trans ((W2_of_ne m c b h3).trans (W1_of m c b h4)))

/-- The weight table is the head region's second input window: its array is never written. -/
theorem kept_weights (c : Dev nD) : W4 m c (Proc.devRef .tc main_arg3) = m ((c : Thread nD τ).loc main_arg3) :=
  (W4_arr m c 1).trans (((Head.dat (V3 m) c).arrAt_in 1 rfl _).trans ((Head.dat_A (V3 m) c 1).trans
    ((W3_of m c main_arg3 (by decide)).trans ((W2_of_ne m c main_arg3 (by decide)).trans (W1_of m c main_arg3 (by decide))))))

/-- THE FRAME, at any float instance: every weakly fair execution of @main terminates, nothing faulting, and the five
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (kept m c main_arg0 (by decide) (by decide) (by decide) (by decide)),
      (h c _ (mem_uc main_arg1 (by decide))).trans (kept m c main_arg1 (by decide) (by decide) (by decide) (by decide)),
      (h c _ (mem_uc main_arg2 (by decide))).trans (kept m c main_arg2 (by decide) (by decide) (by decide) (by decide)),
      (h c _ (mem_uc main_arg3 (by decide))).trans (kept_weights m c),
      (h c _ (mem_uc main_arg4 (by decide))).trans (kept m c main_arg4 (by decide) (by decide) (by decide) (by decide))⟩)
    (run_all m ρ)

end Cert.Kernel.Whole

end
-- ==== Proof.HeadBodyI.lean ====
/-
  The head region: the second of the two kernel regions.

  At grid point t (eight points) the body is handed a 512-row block of the flattened grid array, the whole
  weight table W (256 × 512) and the bias row b (1 × 256), and stores max(x · Wᵀ + b, 0) into the 512-row block
  of the result. It keeps nothing between points. This module states, for any contents V of the unscoped buffers
  when the region is entered: each window's block at a point, what the body leaves in the output's staging
  buffer as a function of the three input blocks, and the body's triple.
-/
import proofs.«161577_j37271726195508_2_alg».proof.Proof.Gen.KernelIdeal.Launch
import proofs.«161577_j37271726195508_2_alg».proof.Proof.Gen.KernelIdeal.Skeleton
import proofs.«161577_j37271726195508_2_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rX : Rect S512x512 := Rect.unit (s := S512x512) ![0, 0] S512x512.size inb_S512x512_S512x512_0_0
abbrev rW : Rect S256x512 := Rect.unit (s := S256x512) ![0, 0] S256x512.size inb_S256x512_S256x512_0_0
abbrev rB : Rect S1x256 := Rect.unit (s := S1x256) ![0, 0] S1x256.size inb_S1x256_S1x256_0_0
abbrev rO : Rect S512x256 := Rect.unit (s := S512x256) ![0, 0] S512x256.size inb_S512x256_S512x256_0_0

/-- What the body leaves in the output's staging buffer: its one store, through the whole buffer, of the payload
    max(x · Wᵀ + b, 0) of the three loads. -/
def left (x : Vec F S512x512 .f32) (w : Vec F S256x512 .f32) (b : Vec F S1x256 .f32) : Vec F S512x256 .f32 :=
  View.canon [⟨rO, k1_pay1 (View.ld x rX) (View.ld w rW) (View.ld b rB)⟩]

/-- The one store covers the output buffer. -/
theorem left_cover (p : Vec F S512x256 .f32) (y : S512x256.Idx) :
    ∃ pc ∈ ([⟨rO, p⟩] : List (View.Piece (Elt F) S512x256 .f32)), y ∈ pc.1.set :=
  View.cover_of_tiled [⟨rO, p⟩] S512x256.size (by rfl) y

set_option maxHeartbeats 2000000 in
/-- The body's triple: on whole staging memrefs, the three inputs' reading x, w, b and the output's anything, the
    body runs to a state with the inputs as they were and the output's buffer at `left x w b`. -/
theorem triple (c : Dev nD) (E : Set ℕ) (i : grid1.Coords)
    (arg1 : Memref sig .tc .vmem S512x512 .f32) (harg1 : arg1.IsWhole) (arg2 : Memref sig .tc .vmem S256x512 .f32) (harg2 : arg2.IsWhole)
    (arg3 : Memref sig .tc .vmem S1x256 .f32) (harg3 : arg3.IsWhole) (arg4 : Memref sig .tc .vmem S512x256 .f32) (harg4 : arg4.IsWhole)
    (x : Vec F S512x512 .f32) (w : Vec F S256x512 .f32) (b : Vec F S1x256 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (left x w b)) -∗ K ⟨⟩))
      ⊢ wp frame (wpE (defs₀ (F := F)) Variants.none c none) E (cc1__head_kernel i arg1 harg1 arg2 harg2 arg3 harg3 arg4 harg4) K := by
  simp only [cc1__head_kernel_eq_skeleton]; unfold cc1__head_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (left_cover _)

/-! ## The proof data of the head region -/

/-- Per core: the arrays as the region finds them; after the body at point t each input's staging buffer still at
    its block and the output's at `left` of the three input blocks; between points nothing of the kernel's own
    (the scoped buffers no window stages, and the generator register, pass through untouched); nothing owed; every
    array held whole. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => left (blk V c 0 t) (blk V c 1 t) (blk V c 2 t)
  Φ _ := Pipeline.ΦA spec1 c
  q _ := fullShare
  owed _ := 0

theorem dat_A (c : Dev nD) (w : Fin cfg1.W) : (dat V c).A w = V c (Pipeline.arrRef spec1 w) := by
  dsimp only [dat]

theorem after_x (c : Dev nD) (t : Fin cfg1.N) : (dat V c).after 0 t = blk V c 0 t := by dsimp only [dat]
theorem after_w (c : Dev nD) (t : Fin cfg1.N) : (dat V c).after 1 t = blk V c 1 t := by dsimp only [dat]
theorem after_b (c : Dev nD) (t : Fin cfg1.N) : (dat V c).after 2 t = blk V c 2 t := by dsimp only [dat]
theorem after_o (c : Dev nD) (t : Fin cfg1.N) :
    (dat V c).after 3 t = left (blk V c 0 t) (blk V c 1 t) (blk V c 2 t) := by dsimp only [dat]

/-- The grid block is refetched at every point, the weight table and the bias row only at the first; either way
    the body finds each input's block in its staging buffer: an unfetched window's block index has not moved and
    the body left the block in place. -/
theorem before_x (c : Dev nD) (t : Fin cfg1.N) (d) : (dat V c).before 0 t d = blk V c 0 t :=
  ((dat V c).before_in_eq_fetched 0 rfl (fun _ => rfl) (fun _ _ _ => rfl)
      (fun t => by rw [after_x]; unfold Dat.blockOf blk; rw [dat_A]; try rfl) t d).trans
    (by unfold Dat.fetched Dat.blockOf blk; rw [dat_A]; try rfl)
theorem before_w (c : Dev nD) (t : Fin cfg1.N) (d) : (dat V c).before 1 t d = blk V c 1 t :=
  ((dat V c).before_in_eq_fetched 1 rfl (fun _ => rfl) (fun _ _ _ => rfl)
      (fun t => by rw [after_w]; unfold Dat.blockOf blk; rw [dat_A]; try rfl) t d).trans
    (by unfold Dat.fetched Dat.blockOf blk; rw [dat_A]; try rfl)
theorem before_b (c : Dev nD) (t : Fin cfg1.N) (d) : (dat V c).before 2 t d = blk V c 2 t :=
  ((dat V c).before_in_eq_fetched 2 rfl (fun _ => rfl) (fun _ _ _ => rfl)
      (fun t => by rw [after_b]; unfold Dat.blockOf blk; rw [dat_A]; try rfl) t d).trans
    (by unfold Dat.fetched Dat.blockOf blk; rw [dat_A]; try rfl)

/-! ## The body obligation -/

/-- What the body is called with at point t, the four windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it hands back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the three inputs' staging buffers hold their blocks, so the triple applies; the
    invariant and what the core owes pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_w, before_b]
  rw [show (dat V c).Φ t.succ = (dat V c).Φ t.castSucc from rfl,
    show (dat V c).owesAt () t.succ = (dat V c).owesAt () t.castSucc from rfl,
    after_x, after_w, after_b, after_o]
  iintro ⟨HΦ, Ho, ⟨%d0, H0⟩, ⟨%d1, H1⟩, ⟨%d2, H2⟩, ⟨%d3, H3⟩⟩
  iapply (triple c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The head region's body obligation, at every point. -/
theorem obligation (c : Dev nD) : BodyObligation (dat (F := F) V c) (defs₀ (F := F)) Variants.none () Set.univ := fun t => by
  rw [bigSep_W1, bigSep_W1]
  exact body_at V c t

end Cert.KernelIdeal.Head

end
-- ==== Proof.BinDefsI.lean ====
/-
  The binning region: the first of the two kernel regions, on a 32 × 32 grid of points (i, j).

  At point (i, j) the body is handed the 128-row blocks i of the positions and of the velocities (the "query"
  pedestrians) and the blocks j of the same two arrays (the "neighbour" pedestrians). It keeps three accumulators
  of shape 128 × 16 × 16 in scratch buffers — per query pedestrian and per cell (a, b) of its 16 × 16 grid, the
  sums of the neighbours' relative velocity components and their count: zeroed when j = 0, added to at every
  point, and, when j = 31, divided (sums by max(count, 1)) and stored into the two component slices of the 128 ×
  256 × 2 output block i. This module names what the later ones share: the blocks, the two conditions in closed
  form over the grid, and the memrefs the body is called with.
-/
import proofs.«161577_j37271726195508_2_alg».proof.Proof.Gen.KernelIdeal.Launch
import proofs.«161577_j37271726195508_2_alg».proof.Proof.Gen.KernelIdeal.Skeleton
import proofs.«161577_j37271726195508_2_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Bin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window w's block at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two conditions, in closed form over the grid -/

/-- "j = 0": the accumulators are zeroed first. -/
abbrev isFirst (i : grid0.Coords) : Prop :=
  (Scalar.cmpi .ne (Scalar.extui (Scalar.cmpi .eq (BitVec.ofNat 32 (i 1).val) 0#32)) 0#32) = 1#1
/-- "j = 31": the quotients are stored into the output block. -/
abbrev isLast (i : grid0.Coords) : Prop := k0_cond2 i = 1#1

/-- Point t has j = t mod 32 (the grid is walked row by row), so j = 0 exactly at the points ≡ 0 (mod 32), -/
theorem isFirst_iff : ∀ t : Fin cfg0.N, isFirst (grid0.coords t) ↔ t.val % 32 = 0 :=
  (by decide +kernel : ∀ t : Fin grid0.N, isFirst (grid0.coords t) ↔ t.val % 32 = 0)
/-- and j = 31 exactly at the points ≡ 31 (mod 32). -/
theorem isLast_iff : ∀ t : Fin cfg0.N, isLast (grid0.coords t) ↔ t.val % 32 = 31 :=
  (by decide +kernel : ∀ t : Fin grid0.N, isLast (grid0.coords t) ↔ t.val % 32 = 31)

/-! ## Where the output window is idle -/

/-- The four input windows are never idle. -/
theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
theorem live_in3 : ∀ t : Fin cfg0.N, cfg0.idle 3 (grid0.coords t) = false := by decide +kernel
/-- Where j ≠ 31 the body stores nothing into the output block: the window is idle there and is not written back. -/
theorem idle_out : ∀ t : Fin cfg0.N, ¬isLast (grid0.coords t) → cfg0.idle 4 (grid0.coords t) = true := by decide +kernel
theorem noFlush_out : ∀ t : Fin cfg0.N, ¬isLast (grid0.coords t) → (cfg0.win 4).flush t = false := by decide +kernel
/-- Where j = 31 it is live. -/
theorem live_out : ∀ t : Fin cfg0.N, isLast (grid0.coords t) → cfg0.idle 4 (grid0.coords t) = false := by decide +kernel

/-! ## The memrefs the body is called with -/

/-- Each window's current staging memref at point t, and its wholeness. -/
abbrev mq (t : Fin cfg0.N) : Memref sig .tc .vmem S128x2 .f32 := win0_0.stage (cfg0.slots t 0)
abbrev hq (t : Fin cfg0.N) : (mq t).IsWhole := hstage0_0 ((cfg0.slots t 0).cast nbuf0_0)
abbrev mqv (t : Fin cfg0.N) : Memref sig .tc .vmem S128x2 .f32 := win0_1.stage (cfg0.slots t 1)
abbrev hqv (t : Fin cfg0.N) : (mqv t).IsWhole := hstage0_1 ((cfg0.slots t 1).cast nbuf0_1)
abbrev mn (t : Fin cfg0.N) : Memref sig .tc .vmem S128x2 .f32 := win0_2.stage (cfg0.slots t 2)
abbrev hn (t : Fin cfg0.N) : (mn t).IsWhole := hstage0_2 ((cfg0.slots t 2).cast nbuf0_2)
abbrev mnv (t : Fin cfg0.N) : Memref sig .tc .vmem S128x2 .f32 := win0_3.stage (cfg0.slots t 3)
abbrev hnv (t : Fin cfg0.N) : (mnv t).IsWhole := hstage0_3 ((cfg0.slots t 3).cast nbuf0_3)
abbrev mo (t : Fin cfg0.N) : Memref sig .tc .vmem S128x256x2 .f32 := win0_4.stage (cfg0.slots t 4)
abbrev ho (t : Fin cfg0.N) : (mo t).IsWhole := hstage0_4 ((cfg0.slots t 4).cast nbuf0_4)
/-- The three accumulators: whole scoped buffers of the kernel's own. -/
abbrev sX : Memref sig .tc .vmem S128x16x16 .f32 := Memref.whole cc0_scratch0
abbrev sY : Memref sig .tc .vmem S128x16x16 .f32 := Memref.whole cc0_scratch1
abbrev sN : Memref sig .tc .vmem S128x16x16 .f32 := Memref.whole cc0_scratch2
/-- Views through which the accumulators' and the output block's contents are stated. -/
abbrev vX : View sig .tc .vmem S128x16x16 .f32 := (sX : Memref sig .tc .vmem S128x16x16 .f32).view
abbrev vY : View sig .tc .vmem S128x16x16 .f32 := (sY : Memref sig .tc .vmem S128x16x16 .f32).view
abbrev vN : View sig .tc .vmem S128x16x16 .f32 := (sN : Memref sig .tc .vmem S128x16x16 .f32).view
abbrev vO : View sig .tc .vmem S128x256x2 .f32 := (Memref.whole cc0_stg4_0 : Memref sig .tc .vmem S128x256x2 .f32).view

end Cert.KernelIdeal.Bin

end
-- ==== Proof.BinRunFirstI.lean ====
/-
  The binning body at a point with j = 0 (and j ≠ 31): whatever the three accumulators held, they are zeroed and then
  receive this tile's contribution; the output block is not touched. What the stores leave in each accumulator is
  recorded as the list of pieces written, last first.
-/
import proofs.«161577_j37271726195508_2_alg».proof.Proof.BinDefsI

set_option maxRecDepth 16384

noncomputable section

namespace Cert.KernelIdeal.Bin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole memrefs — the four inputs at their contents, the output block at contents handed back untouched, the
    accumulators at anything — the body runs to a state with the inputs and the output block as they were and each
    accumulator with its pieces written. -/
noncomputable def runFirst (c : Dev nD) (i : grid0.Coords)
    (a2 : Memref sig .tc .vmem S128x2 .f32) (h2 : a2.IsWhole) (a3 : Memref sig .tc .vmem S128x2 .f32) (h3 : a3.IsWhole)
    (a4 : Memref sig .tc .vmem S128x2 .f32) (h4 : a4.IsWhole) (a5 : Memref sig .tc .vmem S128x2 .f32) (h5 : a5.IsWhole)
    (a6 : Memref sig .tc .vmem S128x256x2 .f32) (h6 : a6.IsWhole)
    (a7 : Memref sig .tc .vmem S128x16x16 .f32) (h7 : a7.IsWhole) (a8 : Memref sig .tc .vmem S128x16x16 .f32) (h8 : a8.IsWhole)
    (a9 : Memref sig .tc .vmem S128x16x16 .f32) (h9 : a9.IsWhole)
    (hf : isFirst i) (hl : ¬isLast i) (xq xqv xn xnv : Vec F S128x2 .f32) :
    Σ' (LX : List (View.Piece (Elt F) S128x16x16 .f32)) (LY : List (View.Piece (Elt F) S128x16x16 .f32)), { LN : List (View.Piece (Elt F) S128x16x16 .f32) //
      ∀ (xo : Vec F S128x256x2 .f32) (E : Set ℕ) (K : PUnit → sProp 𝕄),
        iprop(owns (c : Thread nD τ) a2 fullShare xq ∗ owns (c : Thread nD τ) a3 fullShare xqv ∗ owns (c : Thread nD τ) a4 fullShare xn ∗ owns (c : Thread nD τ) a5 fullShare xnv ∗ owns (c : Thread nD τ) a6 fullShare xo
            ∗ (∃ d, owns (c : Thread nD τ) a7 fullShare d) ∗ (∃ d, owns (c : Thread nD τ) a8 fullShare d) ∗ (∃ d, owns (c : Thread nD τ) a9 fullShare d)
            ∗ (iprop(owns (c : Thread nD τ) a2 fullShare xq ∗ owns (c : Thread nD τ) a3 fullShare xqv ∗ owns (c : Thread nD τ) a4 fullShare xn ∗ owns (c : Thread nD τ) a5 fullShare xnv ∗ owns (c : Thread nD τ) a6 fullShare xo
                ∗ (∃ f, a7.view.loc (c : Thread nD τ) ↦[a7.view.set]{fullShare} a7.view.writes (Elt F) f LX) ∗ (∃ f, a8.view.loc (c : Thread nD τ) ↦[a8.view.set]{fullShare} a8.view.writes (Elt F) f LY) ∗ (∃ f, a9.view.loc (c : Thread nD τ) ↦[a9.view.set]{fullShare} a9.view.writes (Elt F) f LN)) -∗ K ⟨⟩))
          ⊢ wp frame (wpE (defs₀ (F := F)) Variants.none c none) E (cc0__binning_kernel i a2 h2 a3 h3 a4 h4 a5 h5 a6 h6 a7 h7 a8 h8 a9 h9) K } := by
  refine ⟨?_, ?_, ?_, fun xo E K => ?run⟩
  case run =>
    simp only [cc0__binning_kernel_eq_skeleton]; unfold cc0__binning_kernel_skel
    simp only [k0_part1_eq_skeleton, k0_part2_eq_skeleton, k0_part3_eq_skeleton]
    unfold k0_part1_skel k0_part2_skel k0_part3_skel
    unfold owns
    iintro ⟨⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, Hk⟩
    obtain rfl := h2.eq_unread e2; obtain rfl := h3.eq_unread e3; obtain rfl := h4.eq_unread e4; obtain rfl := h5.eq_unread e5
    obtain rfl := h6.eq_unread e6
    sl_exec (disch := first | exact hf | exact hl)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [H8]; · iexists _; iexact H8
    iexists _; iexact H9

end Cert.KernelIdeal.Bin

end
-- ==== Proof.BinRunMidI.lean ====
/-
  The binning body at a point with 0 < j < 31: each accumulator, holding what the point before left, receives this
  tile's contribution; the output block is not touched. What the stores leave in each accumulator is recorded as
  the list of pieces written, last first.
-/
import proofs.«161577_j37271726195508_2_alg».proof.Proof.BinDefsI

set_option maxRecDepth 16384

noncomputable section

namespace Cert.KernelIdeal.Bin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole memrefs — the four inputs at their contents, the output block at contents handed back untouched, the
    accumulators at the contents gX, gY, gN — the body runs to a state with the inputs and the output block as they
    were and each accumulator with its pieces written. -/
noncomputable def runMid (c : Dev nD) (i : grid0.Coords)
    (a2 : Memref sig .tc .vmem S128x2 .f32) (h2 : a2.IsWhole) (a3 : Memref sig .tc .vmem S128x2 .f32) (h3 : a3.IsWhole)
    (a4 : Memref sig .tc .vmem S128x2 .f32) (h4 : a4.IsWhole) (a5 : Memref sig .tc .vmem S128x2 .f32) (h5 : a5.IsWhole)
    (a6 : Memref sig .tc .vmem S128x256x2 .f32) (h6 : a6.IsWhole)
    (a7 : Memref sig .tc .vmem S128x16x16 .f32) (h7 : a7.IsWhole) (a8 : Memref sig .tc .vmem S128x16x16 .f32) (h8 : a8.IsWhole)
    (a9 : Memref sig .tc .vmem S128x16x16 .f32) (h9 : a9.IsWhole)
    (hf : ¬isFirst i) (hl : ¬isLast i) (xq xqv xn xnv : Vec F S128x2 .f32) (gX gY gN : Vec F S128x16x16 .f32) :
    Σ' (LX : List (View.Piece (Elt F) S128x16x16 .f32)) (LY : List (View.Piece (Elt F) S128x16x16 .f32)), { LN : List (View.Piece (Elt F) S128x16x16 .f32) //
      ∀ (xo : Vec F S128x256x2 .f32) (E : Set ℕ) (K : PUnit → sProp 𝕄),
        iprop(owns (c : Thread nD τ) a2 fullShare xq ∗ owns (c : Thread nD τ) a3 fullShare xqv ∗ owns (c : Thread nD τ) a4 fullShare xn ∗ owns (c : Thread nD τ) a5 fullShare xnv ∗ owns (c : Thread nD τ) a6 fullShare xo
            ∗ owns (c : Thread nD τ) a7 fullShare gX ∗ owns (c : Thread nD τ) a8 fullShare gY ∗ owns (c : Thread nD τ) a9 fullShare gN
            ∗ (iprop(owns (c : Thread nD τ) a2 fullShare xq ∗ owns (c : Thread nD τ) a3 fullShare xqv ∗ owns (c : Thread nD τ) a4 fullShare xn ∗ owns (c : Thread nD τ) a5 fullShare xnv ∗ owns (c : Thread nD τ) a6 fullShare xo
                ∗ (∃ f, a7.view.loc (c : Thread nD τ) ↦[a7.view.set]{fullShare} a7.view.writes (Elt F) f LX) ∗ (∃ f, a8.view.loc (c : Thread nD τ) ↦[a8.view.set]{fullShare} a8.view.writes (Elt F) f LY) ∗ (∃ f, a9.view.loc (c : Thread nD τ) ↦[a9.view.set]{fullShare} a9.view.writes (Elt F) f LN)) -∗ K ⟨⟩))
          ⊢ wp frame (wpE (defs₀ (F := F)) Variants.none c none) E (cc0__binning_kernel i a2 h2 a3 h3 a4 h4 a5 h5 a6 h6 a7 h7 a8 h8 a9 h9) K } := by
  refine ⟨?_, ?_, ?_, fun xo E K => ?run⟩
  case run =>
    simp only [cc0__binning_kernel_eq_skeleton]; unfold cc0__binning_kernel_skel
    simp only [k0_part1_eq_skeleton, k0_part2_eq_skeleton, k0_part3_eq_skeleton]
    unfold k0_part1_skel k0_part2_skel k0_part3_skel
    unfold owns
    iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
    obtain rfl := h2.eq_unread e2; obtain rfl := h3.eq_unread e3; obtain rfl := h4.eq_unread e4; obtain rfl := h5.eq_unread e5
    obtain rfl := h6.eq_unread e6
    obtain rfl := h7.eq_unread e7; obtain rfl := h8.eq_unread e8; obtain rfl := h9.eq_unread e9
    sl_exec (disch := first | exact hf | exact hl)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [H8]; · iexists _; iexact H8
    iexists _; iexact H9

end Cert.KernelIdeal.Bin

end
-- ==== Proof.BinRunLastI.lean ====
/-
  The binning body at a point with j = 31 (and j ≠ 0): each accumulator, holding what the point before left,
  receives this tile's contribution, and then the two sums divided by max(count, 1) are stored into the two
  component slices of the output block. What the stores leave in the output block and in each accumulator is
  recorded as the list of pieces written, last first.
-/
import proofs.«161577_j37271726195508_2_alg».proof.Proof.BinDefsI

set_option maxRecDepth 16384

noncomputable section

namespace Cert.KernelIdeal.Bin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole memrefs — the four inputs at their contents, the output block at anything, the accumulators at the
    contents gX, gY, gN — the body runs to a state with the inputs as they were and the output block and each
    accumulator with its pieces written. -/
noncomputable def runLast (c : Dev nD) (i : grid0.Coords)
    (a2 : Memref sig .tc .vmem S128x2 .f32) (h2 : a2.IsWhole) (a3 : Memref sig .tc .vmem S128x2 .f32) (h3 : a3.IsWhole)
    (a4 : Memref sig .tc .vmem S128x2 .f32) (h4 : a4.IsWhole) (a5 : Memref sig .tc .vmem S128x2 .f32) (h5 : a5.IsWhole)
    (a6 : Memref sig .tc .vmem S128x256x2 .f32) (h6 : a6.IsWhole)
    (a7 : Memref sig .tc .vmem S128x16x16 .f32) (h7 : a7.IsWhole) (a8 : Memref sig .tc .vmem S128x16x16 .f32) (h8 : a8.IsWhole)
    (a9 : Memref sig .tc .vmem S128x16x16 .f32) (h9 : a9.IsWhole)
    (hf : ¬isFirst i) (hl : isLast i) (xq xqv xn xnv : Vec F S128x2 .f32) (gX gY gN : Vec F S128x16x16 .f32) :
    Σ' (LO : List (View.Piece (Elt F) S128x256x2 .f32)) (LX : List (View.Piece (Elt F) S128x16x16 .f32)) (LY : List (View.Piece (Elt F) S128x16x16 .f32)), { LN : List (View.Piece (Elt F) S128x16x16 .f32) //
      ∀ (E : Set ℕ) (K : PUnit → sProp 𝕄),
        iprop(owns (c : Thread nD τ) a2 fullShare xq ∗ owns (c : Thread nD τ) a3 fullShare xqv ∗ owns (c : Thread nD τ) a4 fullShare xn ∗ owns (c : Thread nD τ) a5 fullShare xnv ∗ (∃ d, owns (c : Thread nD τ) a6 fullShare d)
            ∗ owns (c : Thread nD τ) a7 fullShare gX ∗ owns (c : Thread nD τ) a8 fullShare gY ∗ owns (c : Thread nD τ) a9 fullShare gN
            ∗ (iprop(owns (c : Thread nD τ) a2 fullShare xq ∗ owns (c : Thread nD τ) a3 fullShare xqv ∗ owns (c : Thread nD τ) a4 fullShare xn ∗ owns (c : Thread nD τ) a5 fullShare xnv ∗ (∃ f, a6.view.loc (c : Thread nD τ) ↦[a6.view.set]{fullShare} a6.view.writes (Elt F) f LO)
                ∗ (∃ f, a7.view.loc (c : Thread nD τ) ↦[a7.view.set]{fullShare} a7.view.writes (Elt F) f LX) ∗ (∃ f, a8.view.loc (c : Thread nD τ) ↦[a8.view.set]{fullShare} a8.view.writes (Elt F) f LY) ∗ (∃ f, a9.view.loc (c : Thread nD τ) ↦[a9.view.set]{fullShare} a9.view.writes (Elt F) f LN)) -∗ K ⟨⟩))
          ⊢ wp frame (wpE (defs₀ (F := F)) Variants.none c none) E (cc0__binning_kernel i a2 h2 a3 h3 a4 h4 a5 h5 a6 h6 a7 h7 a8 h8 a9 h9) K } := by
  refine ⟨?_, ?_, ?_, ?_, fun E K => ?run⟩
  case run =>
    simp only [cc0__binning_kernel_eq_skeleton]; unfold cc0__binning_kernel_skel
    simp only [k0_part1_eq_skeleton, k0_part2_eq_skeleton, k0_part3_eq_skeleton]
    unfold k0_part1_skel k0_part2_skel k0_part3_skel
    unfold owns
    iintro ⟨⟨%f2, %e2, H2⟩, ⟨%f3, %e3, H3⟩, ⟨%f4, %e4, H4⟩, ⟨%f5, %e5, H5⟩, ⟨%d6, %f6, -, H6⟩, ⟨%f7, %e7, H7⟩, ⟨%f8, %e8, H8⟩, ⟨%f9, %e9, H9⟩, Hk⟩
    obtain rfl := h2.eq_unread e2; obtain rfl := h3.eq_unread e3; obtain rfl := h4.eq_unread e4; obtain rfl := h5.eq_unread e5
    obtain rfl := h7.eq_unread e7; obtain rfl := h8.eq_unread e8; obtain rfl := h9.eq_unread e9
    sl_exec (disch := first | exact hf | exact hl)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    isplitl [H8]; · iexists _; iexact H8
    iexists _; iexact H9

end Cert.KernelIdeal.Bin

end
-- ==== Proof.BinDatI.lean ====
/-
  The binning region's accumulation, proof data and body obligation.

  The three accumulators and the output block are followed from point to point: at a point with j = 0 they are
  what the first-case body leaves; at a later point what the middle- or last-case body leaves when handed what
  the point before left. Between two points the region's invariant holds the three accumulators at exactly those
  contents (before the very first point: at anything), beside the scoped buffers of the other region and the
  generator register, which the body never touches.
-/
import proofs.«161577_j37271726195508_2_alg».proof.Proof.BinRunFirstI
import proofs.«161577_j37271726195508_2_alg».proof.Proof.BinRunMidI
import proofs.«161577_j37271726195508_2_alg».proof.Proof.BinRunLastI

set_option maxRecDepth 16384

noncomputable section

namespace Cert.KernelIdeal.Bin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three accumulators' contents: the sums of the two relative-velocity components and the counts. -/
abbrev Accs (F : FTy → Type) [FloatOps F] : Type := Vec F S128x16x16 .f32 × Vec F S128x16x16 .f32 × Vec F S128x16x16 .f32
/-- The output block's staging contents beside them. -/
abbrev St (F : FTy → Type) [FloatOps F] : Type := Vec F S128x256x2 .f32 × Accs F

/-! ## The three runs at a point of the grid -/

abbrev firstAt (c : Dev nD) (t : Fin cfg0.N) (hf : isFirst (grid0.coords t)) (hl : ¬isLast (grid0.coords t)) :=
  runFirst (F := F) c (grid0.coords t) (mq t) (hq t) (mqv t) (hqv t) (mn t) (hn t) (mnv t) (hnv t) (mo t) (ho t) sX (Memref.isWhole_whole _) sY (Memref.isWhole_whole _) sN (Memref.isWhole_whole _) hf hl (blk V c 0 t) (blk V c 1 t) (blk V c 2 t) (blk V c 3 t)
abbrev midAt (c : Dev nD) (t : Fin cfg0.N) (hf : ¬isFirst (grid0.coords t)) (hl : ¬isLast (grid0.coords t)) (g : Accs F) :=
  runMid (F := F) c (grid0.coords t) (mq t) (hq t) (mqv t) (hqv t) (mn t) (hn t) (mnv t) (hnv t) (mo t) (ho t) sX (Memref.isWhole_whole _) sY (Memref.isWhole_whole _) sN (Memref.isWhole_whole _) hf hl (blk V c 0 t) (blk V c 1 t) (blk V c 2 t) (blk V c 3 t) g.1 g.2.1 g.2.2
abbrev lastAt (c : Dev nD) (t : Fin cfg0.N) (hf : ¬isFirst (grid0.coords t)) (hl : isLast (grid0.coords t)) (g : Accs F) :=
  runLast (F := F) c (grid0.coords t) (mq t) (hq t) (mqv t) (hqv t) (mn t) (hn t) (mnv t) (hnv t) (mo t) (ho t) sX (Memref.isWhole_whole _) sY (Memref.isWhole_whole _) sN (Memref.isWhole_whole _) hf hl (blk V c 0 t) (blk V c 1 t) (blk V c 2 t) (blk V c 3 t) g.1 g.2.1 g.2.2

/-! ## Each run's pieces cover the buffer they are written into -/

theorem coverX_first (c : Dev nD) (t : Fin cfg0.N) (hf) (hl) (y : S128x16x16.Idx) : ∃ pc ∈ (firstAt V c t hf hl).1, y ∈ pc.1.set :=
  View.cover_of_tiledL (firstAt V c t hf hl).1 S128x16x16.size (by sl_kernel_rfl) y
theorem coverY_first (c : Dev nD) (t : Fin cfg0.N) (hf) (hl) (y : S128x16x16.Idx) : ∃ pc ∈ (firstAt V c t hf hl).2.1, y ∈ pc.1.set :=
  View.cover_of_tiledL (firstAt V c t hf hl).2.1 S128x16x16.size (by sl_kernel_rfl) y
theorem coverN_first (c : Dev nD) (t : Fin cfg0.N) (hf) (hl) (y : S128x16x16.Idx) : ∃ pc ∈ (firstAt V c t hf hl).2.2.1, y ∈ pc.1.set :=
  View.cover_of_tiledL (firstAt V c t hf hl).2.2.1 S128x16x16.size (by sl_kernel_rfl) y
theorem coverX_mid (c : Dev nD) (t : Fin cfg0.N) (hf) (hl) (g : Accs F) (y : S128x16x16.Idx) : ∃ pc ∈ (midAt V c t hf hl g).1, y ∈ pc.1.set :=
  View.cover_of_tiledL (midAt V c t hf hl g).1 S128x16x16.size (by sl_kernel_rfl) y
theorem coverY_mid (c : Dev nD) (t : Fin cfg0.N) (hf) (hl) (g : Accs F) (y : S128x16x16.Idx) : ∃ pc ∈ (midAt V c t hf hl g).2.1, y ∈ pc.1.set :=
  View.cover_of_tiledL (midAt V c t hf hl g).2.1 S128x16x16.size (by sl_kernel_rfl) y
theorem coverN_mid (c : Dev nD) (t : Fin cfg0.N) (hf) (hl) (g : Accs F) (y : S128x16x16.Idx) : ∃ pc ∈ (midAt V c t hf hl g).2.2.1, y ∈ pc.1.set :=
  View.cover_of_tiledL (midAt V c t hf hl g).2.2.1 S128x16x16.size (by sl_kernel_rfl) y
theorem coverO_last (c : Dev nD) (t : Fin cfg0.N) (hf) (hl) (g : Accs F) (y : S128x256x2.Idx) : ∃ pc ∈ (lastAt V c t hf hl g).1, y ∈ pc.1.set :=
  View.cover_of_tiledL (lastAt V c t hf hl g).1 S128x256x1.size (by sl_kernel_rfl) y
theorem coverX_last (c : Dev nD) (t : Fin cfg0.N) (hf) (hl) (g : Accs F) (y : S128x16x16.Idx) : ∃ pc ∈ (lastAt V c t hf hl g).2.1, y ∈ pc.1.set :=
  View.cover_of_tiledL (lastAt V c t hf hl g).2.1 S128x16x16.size (by sl_kernel_rfl) y
theorem coverY_last (c : Dev nD) (t : Fin cfg0.N) (hf) (hl) (g : Accs F) (y : S128x16x16.Idx) : ∃ pc ∈ (lastAt V c t hf hl g).2.2.1, y ∈ pc.1.set :=
  View.cover_of_tiledL (lastAt V c t hf hl g).2.2.1 S128x16x16.size (by sl_kernel_rfl) y
theorem coverN_last (c : Dev nD) (t : Fin cfg0.N) (hf) (hl) (g : Accs F) (y : S128x16x16.Idx) : ∃ pc ∈ (lastAt V c t hf hl g).2.2.2.1, y ∈ pc.1.set :=
  View.cover_of_tiledL (lastAt V c t hf hl g).2.2.2.1 S128x16x16.size (by sl_kernel_rfl) y

/-! ## What each case leaves -/

/-- Where the body stores nothing into the output block its staging contents are not consulted (the window is idle
    there and not written back): a placeholder. -/
def noOut : Vec F S128x256x2 .f32 := vO.read (Elt F) (vO.writes (Elt F) vO.junk [])

/-- After a point with j = 0: each accumulator's pieces read back. -/
def leftFirst (c : Dev nD) (t : Fin cfg0.N) (hf : isFirst (grid0.coords t)) (hl : ¬isLast (grid0.coords t)) : St F :=
  (noOut, vX.read (Elt F) (vX.writes (Elt F) vX.junk (firstAt V c t hf hl).1),
    vY.read (Elt F) (vY.writes (Elt F) vY.junk (firstAt V c t hf hl).2.1),
    vN.read (Elt F) (vN.writes (Elt F) vN.junk (firstAt V c t hf hl).2.2.1))
/-- After a point with 0 < j < 31, from what the point before left. -/
def leftMid (c : Dev nD) (t : Fin cfg0.N) (hf : ¬isFirst (grid0.coords t)) (hl : ¬isLast (grid0.coords t)) (g : Accs F) : St F :=
  (noOut, vX.read (Elt F) (vX.writes (Elt F) vX.junk (midAt V c t hf hl g).1),
    vY.read (Elt F) (vY.writes (Elt F) vY.junk (midAt V c t hf hl g).2.1),
    vN.read (Elt F) (vN.writes (Elt F) vN.junk (midAt V c t hf hl g).2.2.1))
/-- After a point with j = 31, from what the point before left: the output block too. -/
def leftLast (c : Dev nD) (t : Fin cfg0.N) (hf : ¬isFirst (grid0.coords t)) (hl : isLast (grid0.coords t)) (g : Accs F) : St F :=
  (vO.read (Elt F) (vO.writes (Elt F) vO.junk (lastAt V c t hf hl g).1),
    vX.read (Elt F) (vX.writes (Elt F) vX.junk (lastAt V c t hf hl g).2.1),
    vY.read (Elt F) (vY.writes (Elt F) vY.junk (lastAt V c t hf hl g).2.2.1),
    vN.read (Elt F) (vN.writes (Elt F) vN.junk (lastAt V c t hf hl g).2.2.2.1))

/-! ## The accumulation, point by point -/

/-- What the output block's staging buffer and the three accumulators hold after the body at position n. -/
def stAt (c : Dev nD) : (n : ℕ) → n < cfg0.N → St F
  | 0, h => leftFirst V c ⟨0, h⟩ ((isFirst_iff ⟨0, h⟩).mpr (Nat.zero_mod _))
      (fun hl => (fun e => by (try dsimp only at e); omega) ((isLast_iff ⟨0, h⟩).mp hl))
  | n + 1, h =>
    if h0 : (n + 1) % 32 = 0 then
      if h1 : (n + 1) % 32 = 31 then
        False.elim (by omega)
      else
        leftFirst V c ⟨n + 1, h⟩ ((isFirst_iff ⟨n + 1, h⟩).mpr h0) (fun hl => h1 ((isLast_iff ⟨n + 1, h⟩).mp hl))
    else
      if h1 : (n + 1) % 32 = 31 then
        leftLast V c ⟨n + 1, h⟩ (fun hf => h0 ((isFirst_iff ⟨n + 1, h⟩).mp hf)) ((isLast_iff ⟨n + 1, h⟩).mpr h1)
          (stAt c n (Nat.lt_of_succ_lt h)).2
      else
        leftMid V c ⟨n + 1, h⟩ (fun hf => h0 ((isFirst_iff ⟨n + 1, h⟩).mp hf)) (fun hl => h1 ((isLast_iff ⟨n + 1, h⟩).mp hl))
          (stAt c n (Nat.lt_of_succ_lt h)).2

theorem stAt_first (c : Dev nD) (t : Fin cfg0.N) (h0 : t.val % 32 = 0) (h1 : ¬t.val % 32 = 31) :
    stAt V c t.val t.isLt = leftFirst V c t ((isFirst_iff t).mpr h0) (fun hl => h1 ((isLast_iff t).mp hl)) := by
  obtain ⟨n, hn⟩ := t
  cases n with
  | zero => exact rfl
  | succ n => exact (dif_pos h0).trans ((dif_neg h1).trans rfl)

theorem stAt_mid (c : Dev nD) (t : Fin cfg0.N) (h0 : ¬t.val % 32 = 0) (h1 : ¬t.val % 32 = 31) :
    stAt V c t.val t.isLt = leftMid V c t (fun hf => h0 ((isFirst_iff t).mp hf)) (fun hl => h1 ((isLast_iff t).mp hl))
      (stAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem stAt_last (c : Dev nD) (t : Fin cfg0.N) (h0 : ¬t.val % 32 = 0) (h1 : t.val % 32 = 31) :
    stAt V c t.val t.isLt = leftLast V c t (fun hf => h0 ((isFirst_iff t).mp hf)) ((isLast_iff t).mpr h1)
      (stAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The other region's staging buffers, each whole at some contents: scoped buffers this region never touches. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the region is handed of the scoped buffers and the generator register, with the three accumulators as
    owned memrefs at some contents. -/
theorem PhiA_eq (c : Dev nD) :
    (Pipeline.ΦA spec0 c : sProp 𝕄)
      = iprop(iprop((∃ d, owns (c : Thread nD τ) sX fullShare d) ∗ (∃ d, owns (c : Thread nD τ) sY fullShare d)
          ∗ (∃ d, owns (c : Thread nD τ) sN fullShare d) ∗ otherScoped c) ∗ (∃ r, prngReg c r)) := by
  unfold Pipeline.ΦA otherScoped; rw [scopedRest0_eq]; simp only [sX, sY, sN, owns_whole]; try rfl

/-- Before position n: before the first point the accumulators at anything; afterwards each at what the point
    before left in it. -/
def PhiS (c : Dev nD) : (n : ℕ) → n ≤ cfg0.N → sProp 𝕄
  | 0, _ => Pipeline.ΦA spec0 c
  | n + 1, h => iprop(iprop(owns (c : Thread nD τ) sX fullShare (stAt V c n h).2.1 ∗ owns (c : Thread nD τ) sY fullShare (stAt V c n h).2.2.1
      ∗ owns (c : Thread nD τ) sN fullShare (stAt V c n h).2.2.2 ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (h : n < cfg0.N) :
    PhiS V c (n + 1) h = iprop(iprop(owns (c : Thread nD τ) sX fullShare (stAt V c n h).2.1 ∗ owns (c : Thread nD τ) sY fullShare (stAt V c n h).2.2.1
      ∗ owns (c : Thread nD τ) sN fullShare (stAt V c n h).2.2.2 ∗ otherScoped c) ∗ (∃ r, prngReg c r)) := rfl

theorem PhiS_pos (c : Dev nD) (n : ℕ) (h : n ≤ cfg0.N) (hz : n ≠ 0) :
    PhiS V c n h = iprop(iprop(owns (c : Thread nD τ) sX fullShare (stAt V c (n - 1) (by omega)).2.1
      ∗ owns (c : Thread nD τ) sY fullShare (stAt V c (n - 1) (by omega)).2.2.1
      ∗ owns (c : Thread nD τ) sN fullShare (stAt V c (n - 1) (by omega)).2.2.2 ∗ otherScoped c) ∗ (∃ r, prngReg c r)) := by
  cases n with
  | zero => exact absurd rfl hz
  | succ n => rfl

/-! ## The proof data -/

/-- Per core: the arrays as the region finds them; after the body at point t each input's staging buffer still at
    its block and the output's at the accumulation's first component; the invariant above; nothing owed. The two
    position windows share one array and the two velocity windows another: each holds half of its array. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => (stAt V c t.val t.isLt).1
  Φ t := PhiS V c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem dat_A (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after_q (c : Dev nD) (t : Fin cfg0.N) : (dat V c).after 0 t = blk V c 0 t := by dsimp only [dat]
theorem after_qv (c : Dev nD) (t : Fin cfg0.N) : (dat V c).after 1 t = blk V c 1 t := by dsimp only [dat]
theorem after_n (c : Dev nD) (t : Fin cfg0.N) : (dat V c).after 2 t = blk V c 2 t := by dsimp only [dat]
theorem after_nv (c : Dev nD) (t : Fin cfg0.N) : (dat V c).after 3 t = blk V c 3 t := by dsimp only [dat]
theorem after_o (c : Dev nD) (t : Fin cfg0.N) : (dat V c).after 4 t = (stAt V c t.val t.isLt).1 := by dsimp only [dat]

/-- The query blocks are refetched only when i moves, the neighbour blocks at every point; either way the body
    finds each input's block in its staging buffer. -/
theorem before_q (c : Dev nD) (t : Fin cfg0.N) (d) : (dat V c).before 0 t d = blk V c 0 t :=
  ((dat V c).before_in_eq_fetched 0 rfl (fun _ => rfl) (fun _ _ _ => rfl)
      (fun t => by rw [after_q]; unfold Dat.blockOf blk; rw [dat_A]; try rfl) t d).trans
    (by unfold Dat.fetched Dat.blockOf blk; rw [dat_A]; try rfl)
theorem before_qv (c : Dev nD) (t : Fin cfg0.N) (d) : (dat V c).before 1 t d = blk V c 1 t :=
  ((dat V c).before_in_eq_fetched 1 rfl (fun _ => rfl) (fun _ _ _ => rfl)
      (fun t => by rw [after_qv]; unfold Dat.blockOf blk; rw [dat_A]; try rfl) t d).trans
    (by unfold Dat.fetched Dat.blockOf blk; rw [dat_A]; try rfl)
theorem before_n (c : Dev nD) (t : Fin cfg0.N) (d) : (dat V c).before 2 t d = blk V c 2 t :=
  ((dat V c).before_in_eq_fetched 2 rfl (fun _ => rfl) (fun _ _ _ => rfl)
      (fun t => by rw [after_n]; unfold Dat.blockOf blk; rw [dat_A]; try rfl) t d).trans
    (by unfold Dat.fetched Dat.blockOf blk; rw [dat_A]; try rfl)
theorem before_nv (c : Dev nD) (t : Fin cfg0.N) (d) : (dat V c).before 3 t d = blk V c 3 t :=
  ((dat V c).before_in_eq_fetched 3 rfl (fun _ => rfl) (fun _ _ _ => rfl)
      (fun t => by rw [after_nv]; unfold Dat.blockOf blk; rw [dat_A]; try rfl) t d).trans
    (by unfold Dat.fetched Dat.blockOf blk; rw [dat_A]; try rfl)

/-! ## The body obligation -/

/-- What the body is called with at point t, the five windows one by one, -/
def bodyPre (c : Dev nD) (t : Fin cfg0.N) : sProp 𝕄 :=
  iprop((dat V c).Φ t.castSucc ∗ (dat V c).owesAt () t.castSucc
    ∗ (∃ d, owns (c : Thread nD τ) (mq t) fullShare ((dat V c).before 0 t d))
    ∗ (∃ d, owns (c : Thread nD τ) (mqv t) fullShare ((dat V c).before 1 t d))
    ∗ (∃ d, owns (c : Thread nD τ) (mn t) fullShare ((dat V c).before 2 t d))
    ∗ (∃ d, owns (c : Thread nD τ) (mnv t) fullShare ((dat V c).before 3 t d))
    ∗ (∃ d, owns (c : Thread nD τ) (mo t) fullShare ((dat V c).before 4 t d)))

/-- and what it hands back. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 8000000 in
/-- The body at any point. The inputs' staging buffers hold their blocks; the residue of t modulo 32 says which of
    the three cases the point is in; the invariant hands the body the accumulators at what the point before left
    (at anything before the very first point) and takes them back at this point's contents, each written buffer
    read back through the cover of its pieces; where j ≠ 31 the output block is handed back as found. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_q, before_qv, before_n, before_nv]
  rw [show (dat V c).owesAt () t.succ = (dat V c).owesAt () t.castSucc from rfl]
  rw [show (dat V c).Φ t.succ = PhiS V c (t.val + 1) t.isLt from rfl, PhiS_succ]
  have hN : t.val < 1024 := lt_of_lt_of_eq t.isLt (show cfg0.N = 1024 from N_0)
  by_cases h0 : t.val % 32 = 0
  · have h1 : ¬t.val % 32 = 31 := by omega
    have hf : isFirst (grid0.coords t) := (isFirst_iff t).mpr h0
    have hl : ¬isLast (grid0.coords t) := fun h => h1 ((isLast_iff t).mp h)
    rw [show (dat V c).leavesExact 0 t = owns (c : Thread nD τ) (mq t) fullShare ((dat V c).after 0 t) from by
      unfold Dat.leavesExact; rw [live_in0 t], after_q]
    rw [show (dat V c).leavesExact 1 t = owns (c : Thread nD τ) (mqv t) fullShare ((dat V c).after 1 t) from by
      unfold Dat.leavesExact; rw [live_in1 t], after_qv]
    rw [show (dat V c).leavesExact 2 t = owns (c : Thread nD τ) (mn t) fullShare ((dat V c).after 2 t) from by
      unfold Dat.leavesExact; rw [live_in2 t], after_n]
    rw [show (dat V c).leavesExact 3 t = owns (c : Thread nD τ) (mnv t) fullShare ((dat V c).after 3 t) from by
      unfold Dat.leavesExact; rw [live_in3 t], after_nv]
    rw [Dat.leavesExact_idle (dat V c) 4 t (idle_out t hl) (noFlush_out t hl)]
    rw [stAt_first V c t h0 h1]
    unfold leftFirst; (try dsimp only)
    by_cases hz : t.val = 0
    · rw [Phi_castSucc V c t, PhiS_zero V c _ _ hz, PhiA_eq]
      iintro ⟨⟨⟨HX, HY, HN, HR⟩, Hg⟩, Ho, ⟨%d0, H0⟩, ⟨%d1, H1⟩, ⟨%d2, H2⟩, ⟨%d3, H3⟩, ⟨%d4, H4⟩⟩
      iapply ((firstAt V c t hf hl).2.2.2 _ Set.univ _)
      isplitl [H0]; · iexact H0
      isplitl [H1]; · iexact H1
      isplitl [H2]; · iexact H2
      isplitl [H3]; · iexact H3
      isplitl [H4]; · iexact H4
      isplitl [HX]; · iexact HX
      isplitl [HY]; · iexact HY
      isplitl [HN]; · iexact HN
      iintro ⟨H0, H1, H2, H3, H4, ⟨%eX, HX⟩, ⟨%eY, HY⟩, ⟨%eN, HN⟩⟩
      isplitl [HX HY HN HR Hg]
      · isplitl [HX HY HN HR]
        · isplitl [HX]
          · unfold owns; iexists _; isplitr
            swap; · iexact HX
            ipureintro; exact View.read_writes_of_cover _ _ _ _ _ (coverX_first V c t hf hl)
          isplitl [HY]
          · unfold owns; iexists _; isplitr
            swap; · iexact HY
            ipureintro; exact View.read_writes_of_cover _ _ _ _ _ (coverY_first V c t hf hl)
          isplitl [HN]
          · unfold owns; iexists _; isplitr
            swap; · iexact HN
            ipureintro; exact View.read_writes_of_cover _ _ _ _ _ (coverN_first V c t hf hl)
          iexact HR
        iexact Hg
      isplitl [Ho]; · iexact Ho
      isplitl [H0]; · iexact H0
      isplitl [H1]; · iexact H1
      isplitl [H2]; · iexact H2
      isplitl [H3]; · iexact H3
      iexists _; iexact H4
    · rw [Phi_castSucc V c t, PhiS_pos V c _ _ hz]
      iintro ⟨⟨⟨HX, HY, HN, HR⟩, Hg⟩, Ho, ⟨%d0, H0⟩, ⟨%d1, H1⟩, ⟨%d2, H2⟩, ⟨%d3, H3⟩, ⟨%d4, H4⟩⟩
      iapply ((firstAt V c t hf hl).2.2.2 _ Set.univ _)
      isplitl [H0]; · iexact H0
      isplitl [H1]; · iexact H1
      isplitl [H2]; · iexact H2
      isplitl [H3]; · iexact H3
      isplitl [H4]; · iexact H4
      isplitl [HX]; · iexists _; iexact HX
      isplitl [HY]; · iexists _; iexact HY
      isplitl [HN]; · iexists _; iexact HN
      iintro ⟨H0, H1, H2, H3, H4, ⟨%eX, HX⟩, ⟨%eY, HY⟩, ⟨%eN, HN⟩⟩
      isplitl [HX HY HN HR Hg]
      · isplitl [HX HY HN HR]
        · isplitl [HX]
          · unfold owns; iexists _; isplitr
            swap; · iexact HX
            ipureintro; exact View.read_writes_of_cover _ _ _ _ _ (coverX_first V c t hf hl)
          isplitl [HY]
          · unfold owns; iexists _; isplitr
            swap; · iexact HY
            ipureintro; exact View.read_writes_of_cover _ _ _ _ _ (coverY_first V c t hf hl)
          isplitl [HN]
          · unfold owns; iexists _; isplitr
            swap; · iexact HN
            ipureintro; exact View.read_writes_of_cover _ _ _ _ _ (coverN_first V c t hf hl)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hf : ¬isFirst (grid0.coords t) := fun h => h0 ((isFirst_iff t).mp h)
    by_cases h1 : t.val % 32 = 31
    · have hl : isLast (grid0.coords t) := (isLast_iff t).mpr h1
      rw [show (dat V c).leavesExact 0 t = owns (c : Thread nD τ) (mq t) fullShare ((dat V c).after 0 t) from by
        unfold Dat.leavesExact; rw [live_in0 t], after_q]
      rw [show (dat V c).leavesExact 1 t = owns (c : Thread nD τ) (mqv t) fullShare ((dat V c).after 1 t) from by
        unfold Dat.leavesExact; rw [live_in1 t], after_qv]
      rw [show (dat V c).leavesExact 2 t = owns (c : Thread nD τ) (mn t) fullShare ((dat V c).after 2 t) from by
        unfold Dat.leavesExact; rw [live_in2 t], after_n]
      rw [show (dat V c).leavesExact 3 t = owns (c : Thread nD τ) (mnv t) fullShare ((dat V c).after 3 t) from by
        unfold Dat.leavesExact; rw [live_in3 t], after_nv]
      rw [show (dat V c).leavesExact 4 t = owns (c : Thread nD τ) (mo t) fullShare ((dat V c).after 4 t) from by
        unfold Dat.leavesExact; rw [live_out t hl], after_o]
      rw [stAt_last V c t h0 h1]
      unfold leftLast; (try dsimp only)
      rw [Phi_castSucc V c t, PhiS_pos V c _ _ hz]
      iintro ⟨⟨⟨HX, HY, HN, HR⟩, Hg⟩, Ho, ⟨%d0, H0⟩, ⟨%d1, H1⟩, ⟨%d2, H2⟩, ⟨%d3, H3⟩, ⟨%d4, H4⟩⟩
      iapply ((lastAt V c t hf hl _).2.2.2.2 Set.univ _)
      isplitl [H0]; · iexact H0
      isplitl [H1]; · iexact H1
      isplitl [H2]; · iexact H2
      isplitl [H3]; · iexact H3
      isplitl [H4]; · iexists _; iexact H4
      isplitl [HX]; · iexact HX
      isplitl [HY]; · iexact HY
      isplitl [HN]; · iexact HN
      iintro ⟨H0, H1, H2, H3, ⟨%eO, H4⟩, ⟨%eX, HX⟩, ⟨%eY, HY⟩, ⟨%eN, HN⟩⟩
      isplitl [HX HY HN HR Hg]
      · isplitl [HX HY HN HR]
        · isplitl [HX]
          · unfold owns; iexists _; isplitr
            swap; · iexact HX
            ipureintro; exact View.read_writes_of_cover _ _ _ _ _ (coverX_last V c t hf hl _)
          isplitl [HY]
          · unfold owns; iexists _; isplitr
            swap; · iexact HY
            ipureintro; exact View.read_writes_of_cover _ _ _ _ _ (coverY_last V c t hf hl _)
          isplitl [HN]
          · unfold owns; iexists _; isplitr
            swap; · iexact HN
            ipureintro; exact View.read_writes_of_cover _ _ _ _ _ (coverN_last V c t hf hl _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverO_last V c t hf hl _)
    · have hl : ¬isLast (grid0.coords t) := fun h => h1 ((isLast_iff t).mp h)
      rw [show (dat V c).leavesExact 0 t = owns (c : Thread nD τ) (mq t) fullShare ((dat V c).after 0 t) from by
        unfold Dat.leavesExact; rw [live_in0 t], after_q]
      rw [show (dat V c).leavesExact 1 t = owns (c : Thread nD τ) (mqv t) fullShare ((dat V c).after 1 t) from by
        unfold Dat.leavesExact; rw [live_in1 t], after_qv]
      rw [show (dat V c).leavesExact 2 t = owns (c : Thread nD τ) (mn t) fullShare ((dat V c).after 2 t) from by
        unfold Dat.leavesExact; rw [live_in2 t], after_n]
      rw [show (dat V c).leavesExact 3 t = owns (c : Thread nD τ) (mnv t) fullShare ((dat V c).after 3 t) from by
        unfold Dat.leavesExact; rw [live_in3 t], after_nv]
      rw [Dat.leavesExact_idle (dat V c) 4 t (idle_out t hl) (noFlush_out t hl)]
      rw [stAt_mid V c t h0 h1]
      unfold leftMid; (try dsimp only)
      rw [Phi_castSucc V c t, PhiS_pos V c _ _ hz]
      iintro ⟨⟨⟨HX, HY, HN, HR⟩, Hg⟩, Ho, ⟨%d0, H0⟩, ⟨%d1, H1⟩, ⟨%d2, H2⟩, ⟨%d3, H3⟩, ⟨%d4, H4⟩⟩
      iapply ((midAt V c t hf hl _).2.2.2 _ Set.univ _)
      isplitl [H0]; · iexact H0
      isplitl [H1]; · iexact H1
      isplitl [H2]; · iexact H2
      isplitl [H3]; · iexact H3
      isplitl [H4]; · iexact H4
      isplitl [HX]; · iexact HX
      isplitl [HY]; · iexact HY
      isplitl [HN]; · iexact HN
      iintro ⟨H0, H1, H2, H3, H4, ⟨%eX, HX⟩, ⟨%eY, HY⟩, ⟨%eN, HN⟩⟩
      isplitl [HX HY HN HR Hg]
      · isplitl [HX HY HN HR]
        · isplitl [HX]
          · unfold owns; iexists _; isplitr
            swap; · iexact HX
            ipureintro; exact View.read_writes_of_cover _ _ _ _ _ (coverX_mid V c t hf hl _)
          isplitl [HY]
          · unfold owns; iexists _; isplitr
            swap; · iexact HY
            ipureintro; exact View.read_writes_of_cover _ _ _ _ _ (coverY_mid V c t hf hl _)
          isplitl [HN]
          · unfold owns; iexists _; isplitr
            swap; · iexact HN
            ipureintro; exact View.read_writes_of_cover _ _ _ _ _ (coverN_mid V c t hf hl _)
          iexact HR
        iexact Hg
      isplitl [Ho]; · iexact Ho
      isplitl [H0]; · iexact H0
      isplitl [H1]; · iexact H1
      isplitl [H2]; · iexact H2
      isplitl [H3]; · iexact H3
      iexists _; iexact H4

/-- The binning region's body obligation, at every point. -/
theorem obligation (c : Dev nD) : BodyObligation (dat (F := F) V c) (defs₀ (F := F)) Variants.none () Set.univ := fun t => by
  rw [bigSep_W0, bigSep_W0]
  exact body_at V c t

/-- What the region is handed of the scoped buffers is the invariant before the first point. -/
theorem phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the very first the invariant gives the same back: the accumulators' named contents are
    forgotten. -/
theorem phi_back (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HX, HY, HN, HR⟩, Hg⟩
  isplitl [HX HY HN HR]
  · isplitl [HX]; · iexists _; iexact HX
    isplitl [HY]; · iexists _; iexact HY
    isplitl [HN]; · iexists _; iexact HN
    iexact HR
  iexact Hg

/-- In particular after the last point. -/
theorem phi_out (c : Dev nD) : (dat V c).Φ (Fin.last cfg0.N) ⊢ Pipeline.ΦA spec0 c :=
  phi_back V c _ (by rw [Fin.val_last]; have : cfg0.N = 1024 := N_0; omega)

end Cert.KernelIdeal.Bin

end
-- ==== Proof.BinEndsI.lean ====
/-
  The binning region's two ends.

  The positions array is handed to the region twice — as the query window and as the neighbour window — and so
  is the velocities array. At entry each of these two arrays' buffers, held whole, is split into two halves, one
  per window; at exit the halves, still at the entry contents (an input array is never written), are joined again,
  and the output array is held at what the write-backs left. Every other unscoped buffer bypasses the region.
-/
import proofs.«161577_j37271726195508_2_alg».proof.Proof.BinDatI
import Idealize.ShloMosaic.Lib.Pipeline.RegionsLoop

set_option maxRecDepth 16384

noncomputable section

namespace Cert.KernelIdeal.Bin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's arrays, window by window: the two position windows hold the two halves of one buffer, the two
    velocity windows the two halves of another, the output window its array whole. -/
theorem arrays_chain (c : Dev nD) (G : (w : Fin cfg0.W) → Buf (Elt F) ((cfg0.win w).arr.view.loc (c : Thread nD τ))) :
    ((dat V c).arrays G : sProp 𝕄)
      = iprop((((c : Thread nD τ).loc main_arg1) ↦{fullShare.left} G 0) ∗ (((c : Thread nD τ).loc main_v0) ↦{fullShare.left} G 1)
          ∗ (((c : Thread nD τ).loc main_arg1) ↦{fullShare.right} G 2) ∗ (((c : Thread nD τ).loc main_v0) ↦{fullShare.right} G 3)
          ∗ (((c : Thread nD τ).loc main_v1) ↦{fullShare} G 4)) := by
  unfold Dat.arrays
  rw [bigSep_W0, (arr_whole0 0).set_eq_univ, (arr_whole0 1).set_eq_univ, (arr_whole0 4).set_eq_univ]
  rfl

/-- The three distinct buffers behind the five windows' arrays, each whole. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_v0) ↦{fullShare} W main_v0)
          ∗ (((c : Thread nD τ).loc main_v1) ↦{fullShare} W main_v1)) := by
  unfold Pipeline.arrBufs
  exact bigSep_eq_bigSepL_of_eq [main_arg1, main_v0, main_v1] (by decide) (by decide) _

/-- ENTRY. The core's unscoped buffers at V are the region's arrays at their entry contents — the shared buffers
    split in halves — and the rest. -/
theorem entry (c : Dev nD) :
    (unscopedBufs c (V c) : sProp 𝕄) ⊢ iprop((dat V c).arrays ((dat V c).arrAt · 0) ∗ Pipeline.unscopedRest spec0 c (V c)) := by
  have hs : (unscopedBufs c (V c) : sProp 𝕄) = iprop((Pipeline.arrBufs spec0 c (V c) : sProp 𝕄) ∗ Pipeline.unscopedRest spec0 c (V c)) :=
    Pipeline.unscopedBufs_split₀ cfgs 0 winFacts₀0.arr_unscoped c (V c)
  rw [hs, arrays_chain, arrBufs_chain]
  rw [show (dat V c).arrAt 0 0 = V c main_arg1 from dat_A V c 0, show (dat V c).arrAt 1 0 = V c main_v0 from dat_A V c 1,
    show (dat V c).arrAt 2 0 = V c main_arg1 from dat_A V c 2, show (dat V c).arrAt 3 0 = V c main_v0 from dat_A V c 3,
    show (dat V c).arrAt 4 0 = V c main_v1 from dat_A V c 4]
  iintro ⟨⟨Hp, Hv, Ho⟩, Hrest⟩
  ihave Hp := (pointsTo_share (PosShare.mem_left_op_right fullShare)).1 $$ Hp
  icases Hp with ⟨Hp1, Hp2⟩
  ihave Hv := (pointsTo_share (PosShare.mem_left_op_right fullShare)).1 $$ Hv
  icases Hv with ⟨Hv1, Hv2⟩
  isplitr [Hrest]
  · isplitl [Hp1]; · iexact Hp1
    isplitl [Hv1]; · iexact Hv1
    isplitl [Hp2]; · iexact Hp2
    isplitl [Hv2]; · iexact Hv2
    iexact Ho
  iexact Hrest

/-- EXIT. The region's arrays after the last point — the inputs as entered, the output at what the write-backs left
    — and the rest at V are the core's unscoped buffers at any valuation that has the output array there and
    agrees with V elsewhere. -/
theorem exit (c : Dev nD) (V' : (b : Ref sig .tc) → Buf (Elt F) ((c : Thread nD τ).loc b))
    (hout : V' main_v1 = (dat V c).arrAt 4 cfg0.N) (hrest : ∀ b, b ≠ main_v1 → V' b = V c b) :
    iprop((dat V c).arrays ((dat V c).arrAt · cfg0.N) ∗ Pipeline.unscopedRest spec0 c (V c)) ⊢ (unscopedBufs c V' : sProp 𝕄) := by
  have hR : (Pipeline.unscopedRest (Ix := Unit) (Name := ℕ) (U := UR sig nD τ) (Lvl := ℕ) spec0 c V' : sProp 𝕄)
      = Pipeline.unscopedRest spec0 c (V c) := by
    rw [unscopedRest0_eq, unscopedRest0_eq, hrest main_arg0 (by decide), hrest main_arg2 (by decide), hrest main_arg3 (by decide),
      hrest main_arg4 (by decide), hrest main_v2 (by decide), hrest main_v3 (by decide), hrest main_v4 (by decide)]
  have hs : (unscopedBufs c V' : sProp 𝕄) = iprop((Pipeline.arrBufs spec0 c V' : sProp 𝕄) ∗ Pipeline.unscopedRest spec0 c V') :=
    Pipeline.unscopedBufs_split₀ cfgs 0 winFacts₀0.arr_unscoped c V'
  rw [hs, arrays_chain, arrBufs_chain, hR,
    hrest main_arg1 (by decide), hrest main_v0 (by decide), hout]
  rw [show (dat V c).arrAt 0 cfg0.N = V c main_arg1 from ((dat V c).arrAt_in 0 rfl _).trans (dat_A V c 0),
    show (dat V c).arrAt 1 cfg0.N = V c main_v0 from ((dat V c).arrAt_in 1 rfl _).trans (dat_A V c 1),
    show (dat V c).arrAt 2 cfg0.N = V c main_arg1 from ((dat V c).arrAt_in 2 rfl _).trans (dat_A V c 2),
    show (dat V c).arrAt 3 cfg0.N = V c main_v0 from ((dat V c).arrAt_in 3 rfl _).trans (dat_A V c 3)]
  iintro ⟨⟨Hp1, Hv1, Hp2, Hv2, Ho⟩, Hrest⟩
  ihave Hp := (pointsTo_share (PosShare.mem_left_op_right fullShare)).2 $$ [Hp1 Hp2]
  · isplitl [Hp1] <;> iassumption
  ihave Hv := (pointsTo_share (PosShare.mem_left_op_right fullShare)).2 $$ [Hv1 Hv2]
  · isplitl [Hv1] <;> iassumption
  isplitr [Hrest]
  · isplitl [Hp]; · iexact Hp
    isplitl [Hv]; · iexact Hv
    iexact Ho
  iexact Hrest

end Cert.KernelIdeal.Bin

end
-- ==== Proof.KernelRunI.lean ====
/-
  The kernel program's run.

  @main is four items in order: one host operation (the velocities, positions minus past positions), the binning
  region, two host operations (the binned grid flattened to 4096 × 512, the bias as a 1 × 256 row), and the head
  region. Between two items every unscoped buffer of the core is held whole at a named valuation: the launch
  memory, then each host stretch applied, then each region's output array replaced by what its write-backs leave.
  Every weakly fair execution terminates, nothing faulting, with every unscoped buffer at the last valuation —
  from which both the frame (the arguments end as launched) and the result's value are read.
-/
import proofs.«161577_j37271726195508_2_alg».proof.Proof.HeadBodyI
import proofs.«161577_j37271726195508_2_alg».proof.Proof.BinEndsI
import proofs.«161577_j37271726195508_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the velocities are computed: the binning region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- What the binning region's write-backs leave in its output array. -/
def binned (c : Dev nD) : Buf (Elt F) ((c : Thread nD τ).loc main_v1) := (Bin.dat (V1 m) c).arrAt 4 cfg0.N
/-- At the binning region's exit: its output array at that, every other buffer as entered. -/
def W2 (c : Dev nD) : Valuation τ sig (Elt F) := Function.update (W1 m c) (Proc.devRef .tc main_v1) (binned m c)
abbrev V2 : (c : Dev nD) → (b : Ref sig .tc) → Buf (Elt F) ((c : Thread nD τ).loc b) := fun c b => W2 m c b
theorem W2_out (c : Dev nD) : W2 m c (Proc.devRef .tc main_v1) = binned m c := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..
/-- After the two reshapes: the head region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the head region's exit: its arrays at what the pipeline leaves (the inputs as entered, the output's
    write-backs folded), every other buffer as entered. -/
def W4 (c : Dev nD) : Valuation τ sig (Elt F) :=
  Pipeline.withArrays spec1 c (W3 m c) fun w => (Head.dat (V3 m) c).arrAt w cfg1.N
abbrev V4 : (c : Dev nD) → (b : Ref sig .tc) → Buf (Elt F) ((c : Thread nD τ).loc b) := fun c b => W4 m c b
theorem W4_arr (c : Dev nD) (w : Fin cfg1.W) :
    W4 m c (Proc.devRef .tc (Pipeline.arrRef spec1 w)) = (Head.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem head_hF (c : Dev nD) (w : Fin cfg1.W) : (Head.dat (V3 m) c).arrAt w cfg1.N = V4 m c (Pipeline.arrRef spec1 w) :=
  (W4_arr m c w).symm
theorem head_hrest (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The proof data family and what rides along -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => Bin.dat (V1 m) c
  | ⟨1, _⟩ => fun c => Head.dat (V3 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W4 m c) ∗ ∃ r, prngReg c r)

/-! ## The two regions as segments -/

set_option backward.isDefEq.respectTransparency.types false in
/-- The binning region: entered from every unscoped buffer at W1, left at W2. Its arrays are split out of the
    unscoped buffers and put back by this certificate's own entry and exit (two pairs of windows share an array);
    the generator register goes into the invariant and comes back; nothing owed; no semaphore of the kernel's own. -/
def regBin : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Bin.obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs c (V1 m c) : sProp 𝕄) ⊢ iprop((pdats m 0 c).arrays ((pdats m 0 c).arrAt · 0)
        ∗ Pipeline.unscopedRest (Ix := Unit) (Name := ℕ) (U := UR sig nD τ) (Lvl := ℕ) spec0 c (V1 m c)) := Bin.entry (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Bin.dat (V1 m) c).Φ 0 from rfl]
    iintro ⟨Hp, -, Hr⟩
    iapply (Bin.phi_in (V1 m) c)
    unfold Pipeline.ΦA
    isplitl [Hr]; · iexact Hr
    iexact Hp
  hout c := by
    rw [Pipeline.ownSems0_none, show (pdats m 0 c).Φ (Fin.last _) = (Bin.dat (V1 m) c).Φ (Fin.last cfg0.N) from rfl]
    refine (Bin.phi_out (V1 m) c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
        ∗ Pipeline.unscopedRest (Ix := Unit) (Name := ℕ) (U := UR sig nD τ) (Lvl := ℕ) spec0 c (V1 m c)) ⊢ (unscopedBufs c (V2 m c) : sProp 𝕄) :=
      Bin.exit (V1 m) c (V2 m c) (W2_out m c) (fun b hb => W2_of_ne m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The head region: entered from every unscoped buffer at W3, left at W4. Its four arrays are distinct buffers: they
    are split out of the unscoped buffers and put back at the exit contents by the library's two lemmas. -/
def regHead : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Head.obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (head_hF m c) (head_hrest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- @main's four items in order. -/
abbrev segs : List (Pipeline.Seg (pcfgs (F := F)) adm (pdats m) () defs₀ 𝒱₀ L lv) :=
  [ .host (hseg hostOps0 hostOps0_sub hostOps0_fresh (W0 m)),
    .region (regBin m),
    .host (hseg hostOps1 hostOps1_sub hostOps1_fresh (W2 m)),
    .region (regHead m) ]
/-- @main is the run of the segments. -/
theorem main_run (c : Dev nD) : main (F := F) c = Pipeline.Seg.run (segs m) := (main_chain c).trans (by chain_rfl)

set_option backward.isDefEq.respectTransparency.types false in
/-- At the compiled mesh, for any float values, from any memory with zero counters: every weakly fair execution of
    @main on the TensorCores terminates, nothing faulting, and every final state has every unscoped buffer of every
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Whole

end
-- ==== Proof.FramesI.lean ====
/-
  The kernel program's frame: every argument array ends as launched.

  No item of @main writes an argument: the subtraction writes the velocities, the binning region its output array,
  the reshapes their two results, the head region its result; the positions and the weight table are read through
  input windows, whose arrays the pipeline never writes. So each argument's buffer at the last boundary is its
  launch contents.
-/
import proofs.«161577_j37271726195508_2_alg».proof.Proof.KernelRunI

set_option maxRecDepth 16384

noncomputable section

namespace Cert.KernelIdeal.Whole

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- A buffer the subtraction does not write is as launched at the binning region's entry, -/
theorem W1_of (c : Dev nD) (b : Ref sig .tc) (h : b ∉ hostOps0_W) : W1 m c (Proc.devRef .tc b) = m ((c : Thread nD τ).loc b) :=
  (StableHlo.after_of_writes_sub hostOps0 _ hostOps0_writes h).trans rfl
/-- and one the reshapes do not write passes them unchanged. -/
theorem W3_of (c : Dev nD) (b : Ref sig .tc) (h : b ∉ hostOps1_W) : W3 m c (Proc.devRef .tc b) = W2 m c (Proc.devRef .tc b) :=
  StableHlo.after_of_writes_sub hostOps1 _ hostOps1_writes h

/-- A buffer that no item writes and that is no array of the head region ends as launched. -/
theorem kept (c : Dev nD) (b : Ref sig .tc) (h1 : ∀ w, Pipeline.arrRef spec1 w ≠ b) (h2 : b ∉ hostOps1_W) (h3 : b ≠ main_v1)
    (h4 : b ∉ hostOps0_W) : W4 m c (Proc.devRef .tc b) = m ((c : Thread nD τ).loc b) :=
  (W4_of_ne m c b h1).trans ((W3_of m c b h2).trans ((W2_of_ne m c b h3).trans (W1_of m c b h4)))

/-- The weight table is the head region's second input window: its array is never written. -/
theorem kept_weights (c : Dev nD) : W4 m c (Proc.devRef .tc main_arg3) = m ((c : Thread nD τ).loc main_arg3) :=
  (W4_arr m c 1).trans (((Head.dat (V3 m) c).arrAt_in 1 rfl _).trans ((Head.dat_A (V3 m) c 1).trans
    ((W3_of m c main_arg3 (by decide)).trans ((W2_of_ne m c main_arg3 (by decide)).trans (W1_of m c main_arg3 (by decide))))))

/-- THE FRAME, at any float instance: every weakly fair execution of @main terminates, nothing faulting, and the five
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (kept m c main_arg0 (by decide) (by decide) (by decide) (by decide)),
      (h c _ (mem_uc main_arg1 (by decide))).trans (kept m c main_arg1 (by decide) (by decide) (by decide) (by decide)),
      (h c _ (mem_uc main_arg2 (by decide))).trans (kept m c main_arg2 (by decide) (by decide) (by decide) (by decide)),
      (h c _ (mem_uc main_arg3 (by decide))).trans (kept_weights m c),
      (h c _ (mem_uc main_arg4 (by decide))).trans (kept m c main_arg4 (by decide) (by decide) (by decide) (by decide))⟩)
    (run_all m ρ)

end Cert.KernelIdeal.Whole

end
-- ==== Proof.BinStepI.lean ====
/-
  The binning body's arithmetic, as functions of what the body loads.

  From the query blocks (positions xq, velocities xqv), the neighbour blocks (xn, xnv) and the grid point, one
  tile's step takes each accumulator g to g plus the tile's contribution: per query row p and cell (a, b), the sum
  over the 128 neighbours q of (a is the clipped first cell word, and the pair is valid) · (b is the clipped second
  cell word) · (the relative velocity component), the two 0/1 factors as floats, contracted over q by one batched
  matrix product. After the last tile the two sums are divided by max(count, 1) and laid out as 128 × 256 × 1
  slices. These are compositions of the generated payload terms, named so that the frame and the value proof
  speak of the same functions.
-/
import proofs.«161577_j37271726195508_2_alg».proof.Proof.Gen.KernelIdeal.Skeleton

noncomputable section

namespace Cert.KernelIdeal.Bin

open Cert.KernelIdeal Cert.KernelIdeal.Gen
open Idealize.ShloMosaic Idealize.ShloMosaic.TcCoe

variable {F : FTy → Type} [FloatOps F]

/-- The ramp 0, 1, …, 15 along the cell axis that the cell words are compared with. -/
def ramp : IVec S128x16x128 32 := iota .tc S128x16x128 32 [1] iota_S128x16x128_d1_w32

/-- The 0/1 validity factor of each (query, neighbour) pair of the tile at grid point i. -/
def validF (i : grid0.Coords) (xq xn : Vec F S128x2 .f32) : FVec F S128x128 .f32 :=
  k0_pay16 (BitVec.ofNat 32 (i 0).val) (BitVec.ofNat 32 (i 1).val) (k0_pay9 xq xn) (k0_pay10 xq xn) k0_pay13

/-- One tile's step of the first velocity component's sums. -/
def stepX (i : grid0.Coords) (xq xqv xn xnv : Vec F S128x2 .f32) (g : Vec F S128x16x16 .f32) : FVec F S128x16x16 .f32 :=
  k0_pay21 (k0_pay11 xqv xnv) (validF i xq xn) (k0_pay17 (k0_pay10 xq xn)) ramp (k0_pay18 (k0_pay9 xq xn) k0_pay13) g
/-- One tile's step of the second velocity component's sums. -/
def stepY (i : grid0.Coords) (xq xqv xn xnv : Vec F S128x2 .f32) (g : Vec F S128x16x16 .f32) : FVec F S128x16x16 .f32 :=
  k0_pay22 (k0_pay12 xqv xnv) (validF i xq xn) (k0_pay17 (k0_pay10 xq xn)) ramp (k0_pay18 (k0_pay9 xq xn) k0_pay13) g
/-- One tile's step of the counts. -/
def stepN (i : grid0.Coords) (xq xn : Vec F S128x2 .f32) (g : Vec F S128x16x16 .f32) : FVec F S128x16x16 .f32 :=
  k0_pay23 (validF i xq xn) (k0_pay17 (k0_pay10 xq xn)) ramp (k0_pay18 (k0_pay9 xq xn) k0_pay13) g

/-- What the accumulators are reset to when j = 0. -/
def zeros : FVec F S128x16x16 .f32 := k0_pay4

/-- The sums g divided by max(count, 1), as a 128 × 256 × 1 slice of the output block. -/
def quotX (gN gX : Vec F S128x16x16 .f32) : FVec F S128x256x1 .f32 := k0_pay2 gN gX
def quotY (gN gY : Vec F S128x16x16 .f32) : FVec F S128x256x1 .f32 := k0_pay3 gN gY

end Cert.KernelIdeal.Bin

end
-- ==== Proof.BinLeftI.lean ====
/-
  What each case of the binning body leaves, in terms of the body's arithmetic.

  The runs record what is stored as lists of pieces; read back, each accumulator's pieces are one whole-buffer store
  of the tile's step applied to what the accumulator held (the zeros just stored, at a point with j = 0), and the
  output block's pieces are its two component slices, the two quotients of this point's accumulators.
-/
import proofs.«161577_j37271726195508_2_alg».proof.Proof.BinDatI
import proofs.«161577_j37271726195508_2_alg».proof.Proof.BinStepI
import Idealize.ShloMosaic.Lib.Pipeline.Value

set_option maxRecDepth 16384

noncomputable section

namespace Cert.KernelIdeal.Bin

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]
variable (V : (c : Dev nD) → (b : Ref sig .tc) → Buf (Elt F) ((c : Thread nD τ).loc b))

theorem hz3 : (![0, 0, 0] : Fin 3 → ℕ) = fun _ => 0 := funext fun a => by fin_cases a <;> rfl
theorem hz2 : (![0, 0] : Fin 2 → ℕ) = fun _ => 0 := funext fun a => by fin_cases a <;> rfl

/-! ## A point with 0 < j < 31 -/

theorem leftMid_X (c : Dev nD) (t : Fin cfg0.N) (hf) (hl) (g : Accs F) :
    (leftMid V c t hf hl g).2.1 = stepX (grid0.coords t) (blk V c 0 t) (blk V c 1 t) (blk V c 2 t) (blk V c 3 t) g.1 := by
  unfold leftMid
  dsimp only
  rw [View.read_writes_eq_canon _ _ _ (coverX_mid V c t hf hl g)]
  unfold midAt runMid
  dsimp only
  try sl_unfold_words
  rw [View.canon_unit_zero hz3]
  unfold stepX validF ramp
  simp only [View.readAt_eq_ld, Memref.IsWhole.read_unread, View.ld_unit_zero (S := S128x2) hz2, View.ld_unit_zero (S := S128x16x16) hz3]
  refine congrArg (k0_pay21 _ _ _ _ _) ?_
  exact (Memref.isWhole_whole _).read_unread _
theorem leftMid_Y (c : Dev nD) (t : Fin cfg0.N) (hf) (hl) (g : Accs F) :
    (leftMid V c t hf hl g).2.2.1 = stepY (grid0.coords t) (blk V c 0 t) (blk V c 1 t) (blk V c 2 t) (blk V c 3 t) g.2.1 := by
  unfold leftMid
  dsimp only
  rw [View.read_writes_eq_canon _ _ _ (coverY_mid V c t hf hl g)]
  unfold midAt runMid
  dsimp only
  try sl_unfold_words
  rw [View.canon_unit_zero hz3]
  unfold stepY validF ramp
  simp only [View.readAt_eq_ld, Memref.IsWhole.read_unread, View.ld_unit_zero (S := S128x2) hz2, View.ld_unit_zero (S := S128x16x16) hz3]
  refine congrArg (k0_pay22 _ _ _ _ _) ?_
  exact (Memref.isWhole_whole _).read_unread _
theorem leftMid_N (c : Dev nD) (t : Fin cfg0.N) (hf) (hl) (g : Accs F) :
    (leftMid V c t hf hl g).2.2.2 = stepN (grid0.coords t) (blk V c 0 t) (blk V c 2 t) g.2.2 := by
  unfold leftMid
  dsimp only
  rw [View.read_writes_eq_canon _ _ _ (coverN_mid V c t hf hl g)]
  unfold midAt runMid
  dsimp only
  try sl_unfold_words
  rw [View.canon_unit_zero hz3]
  unfold stepN validF ramp
  simp only [View.readAt_eq_ld, Memref.IsWhole.read_unread, View.ld_unit_zero (S := S128x2) hz2, View.ld_unit_zero (S := S128x16x16) hz3]
  refine congrArg (k0_pay23 _ _ _ _) ?_
  exact (Memref.isWhole_whole _).read_unread _

/-! ## A point with j = 0 -/

theorem leftFirst_X (c : Dev nD) (t : Fin cfg0.N) (hf) (hl) :
    (leftFirst V c t hf hl).2.1 = stepX (grid0.coords t) (blk V c 0 t) (blk V c 1 t) (blk V c 2 t) (blk V c 3 t) (k0_pay4 (F := F)) := by
  unfold leftFirst
  dsimp only
  rw [View.read_writes_eq_canon _ _ _ (coverX_first V c t hf hl)]
  unfold firstAt runFirst
  dsimp only
  try sl_unfold_words
  rw [View.canon_cons_unit_zero hz3, View.readCov_unit_zero (S := S128x16x16) _ hz3]
  unfold stepX validF ramp
  simp only [View.readAt_eq_ld, Memref.IsWhole.read_unread, View.ld_unit_zero (S := S128x2) hz2, View.ld_unit_zero (S := S128x16x16) hz3]
  try rfl
theorem leftFirst_Y (c : Dev nD) (t : Fin cfg0.N) (hf) (hl) :
    (leftFirst V c t hf hl).2.2.1 = stepY (grid0.coords t) (blk V c 0 t) (blk V c 1 t) (blk V c 2 t) (blk V c 3 t) (k0_pay5 (F := F)) := by
  unfold leftFirst
  dsimp only
  rw [View.read_writes_eq_canon _ _ _ (coverY_first V c t hf hl)]
  unfold firstAt runFirst
  dsimp only
  try sl_unfold_words
  rw [View.canon_cons_unit_zero hz3, View.readCov_unit_zero (S := S128x16x16) _ hz3]
  unfold stepY validF ramp
  simp only [View.readAt_eq_ld, Memref.IsWhole.read_unread, View.ld_unit_zero (S := S128x2) hz2, View.ld_unit_zero (S := S128x16x16) hz3]
  try rfl
theorem leftFirst_N (c : Dev nD) (t : Fin cfg0.N) (hf) (hl) :
    (leftFirst V c t hf hl).2.2.2 = stepN (grid0.coords t) (blk V c 0 t) (blk V c 2 t) (k0_pay6 (F := F)) := by
  unfold leftFirst
  dsimp only
  rw [View.read_writes_eq_canon _ _ _ (coverN_first V c t hf hl)]
  unfold firstAt runFirst
  dsimp only
  try sl_unfold_words
  rw [View.canon_cons_unit_zero hz3, View.readCov_unit_zero (S := S128x16x16) _ hz3]
  unfold stepN validF ramp
  simp only [View.readAt_eq_ld, Memref.IsWhole.read_unread, View.ld_unit_zero (S := S128x2) hz2, View.ld_unit_zero (S := S128x16x16) hz3]
  try rfl

/-! ## A point with j = 31 -/

theorem leftLast_X (c : Dev nD) (t : Fin cfg0.N) (hf) (hl) (g : Accs F) :
    (leftLast V c t hf hl g).2.1 = stepX (grid0.coords t) (blk V c 0 t) (blk V c 1 t) (blk V c 2 t) (blk V c 3 t) g.1 := by
  unfold leftLast
  dsimp only
  rw [View.read_writes_eq_canon _ _ _ (coverX_last V c t hf hl g)]
  unfold lastAt runLast
  dsimp only
  try sl_unfold_words
  rw [View.canon_unit_zero hz3]
  unfold stepX validF ramp
  simp only [View.readAt_eq_ld, Memref.IsWhole.read_unread, View.ld_unit_zero (S := S128x2) hz2, View.ld_unit_zero (S := S128x16x16) hz3]
  refine congrArg (k0_pay21 _ _ _ _ _) ?_
  exact (Memref.isWhole_whole _).read_unread _
theorem leftLast_Y (c : Dev nD) (t : Fin cfg0.N) (hf) (hl) (g : Accs F) :
    (leftLast V c t hf hl g).2.2.1 = stepY (grid0.coords t) (blk V c 0 t) (blk V c 1 t) (blk V c 2 t) (blk V c 3 t) g.2.1 := by
  unfold leftLast
  dsimp only
  rw [View.read_writes_eq_canon _ _ _ (coverY_last V c t hf hl g)]
  unfold lastAt runLast
  dsimp only
  try sl_unfold_words
  rw [View.canon_unit_zero hz3]
  unfold stepY validF ramp
  simp only [View.readAt_eq_ld, Memref.IsWhole.read_unread, View.ld_unit_zero (S := S128x2) hz2, View.ld_unit_zero (S := S128x16x16) hz3]
  refine congrArg (k0_pay22 _ _ _ _ _) ?_
  exact (Memref.isWhole_whole _).read_unread _
theorem leftLast_N (c : Dev nD) (t : Fin cfg0.N) (hf) (hl) (g : Accs F) :
    (leftLast V c t hf hl g).2.2.2 = stepN (grid0.coords t) (blk V c 0 t) (blk V c 2 t) g.2.2 := by
  unfold leftLast
  dsimp only
  rw [View.read_writes_eq_canon _ _ _ (coverN_last V c t hf hl g)]
  unfold lastAt runLast
  dsimp only
  try sl_unfold_words
  rw [View.canon_unit_zero hz3]
  unfold stepN validF ramp
  simp only [View.readAt_eq_ld, Memref.IsWhole.read_unread, View.ld_unit_zero (S := S128x2) hz2, View.ld_unit_zero (S := S128x16x16) hz3]
  refine congrArg (k0_pay23 _ _ _ _) ?_
  exact (Memref.isWhole_whole _).read_unread _

/-- The two component slices of the output block the body stores through. -/
abbrev rO0 : Rect S128x256x2 := Rect.unit (s := S128x256x2) ![0, 0, 0] S128x256x1.size inb_S128x256x2_S128x256x1_0_0_0
abbrev rO1 : Rect S128x256x2 := Rect.unit (s := S128x256x2) ![0, 0, 1] S128x256x1.size inb_S128x256x2_S128x256x1_0_0_1

/-- Reading a whole accumulator buffer back through its own view. -/
theorem read_sX (g : Vec F S128x16x16 .f32) : vX.read (Elt F) ((Memref.isWhole_whole (cc0_scratch0 : Ref sig .tc)).unread g) = g :=
  (Memref.isWhole_whole _).read_unread _
theorem read_sY (g : Vec F S128x16x16 .f32) : vY.read (Elt F) ((Memref.isWhole_whole (cc0_scratch1 : Ref sig .tc)).unread g) = g :=
  (Memref.isWhole_whole _).read_unread _
theorem read_sN (g : Vec F S128x16x16 .f32) : vN.read (Elt F) ((Memref.isWhole_whole (cc0_scratch2 : Ref sig .tc)).unread g) = g :=
  (Memref.isWhole_whole _).read_unread _

set_option maxHeartbeats 1600000 in
/-- The output block after a point with j = 31: its two slices hold the two quotients of this point's accumulators. -/
theorem leftLast_O (c : Dev nD) (t : Fin cfg0.N) (hf) (hl) (g : Accs F) :
    (leftLast V c t hf hl g).1
      = View.canon [⟨rO1, quotY (stepN (grid0.coords t) (blk V c 0 t) (blk V c 2 t) g.2.2)
            (stepY (grid0.coords t) (blk V c 0 t) (blk V c 1 t) (blk V c 2 t) (blk V c 3 t) g.2.1)⟩,
          ⟨rO0, quotX (stepN (grid0.coords t) (blk V c 0 t) (blk V c 2 t) g.2.2)
            (stepX (grid0.coords t) (blk V c 0 t) (blk V c 1 t) (blk V c 2 t) (blk V c 3 t) g.1)⟩] := by
  unfold leftLast
  dsimp only
  rw [View.read_writes_eq_canon vO vO.junk _ (coverO_last V c t hf hl g)]
  unfold lastAt runLast
  dsimp only
  try sl_unfold_words
  simp only [View.readCov_unit_zero (S := S128x16x16) _ hz3]
  simp only [View.readAt_eq_ld, Memref.IsWhole.read_unread, View.ld_unit_zero (S := S128x2) hz2, View.ld_unit_zero (S := S128x16x16) hz3]
  unfold quotX quotY stepX stepY stepN validF ramp
  have e0 := read_sX (F := F) g.1
  have e1 := read_sY (F := F) g.2.1
  have e2 := read_sN (F := F) g.2.2
  dsimp only [vX, vY, vN, sX, sY, sN, Memref.view_whole] at e0 e1 e2
  rw [e0, e1, e2]

end Cert.KernelIdeal.Bin

end
-- ==== Proof.BlocksI.lean ====
/-
  Each window's block at a point, as entries of its array.

  In the binning region point t has i = t / 32 and j = t mod 32: the query windows' blocks are rows 128·i … of the
  positions and velocities arrays, the neighbour windows' blocks rows 128·j …, the output window's block rows
  128·i … of the binned array. In the head region point t's blocks are rows 512·t … of the flattened grid and of
  the result; the weight table and the bias row are whole.
-/
import proofs.«161577_j37271726195508_2_alg».proof.Proof.BinDefsI
import proofs.«161577_j37271726195508_2_alg».proof.Proof.HeadBodyI
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Bin

open Cert.KernelIdeal Cert.KernelIdeal.Gen

variable {F : FTy → Type} [FloatOps F]
variable (V : (c : Dev nD) → (b : Ref sig .tc) → Buf (Elt F) ((c : Thread nD τ).loc b))

/-- The windows' block indices at a point, decided over the grid. -/
theorem index_q : ∀ t : Fin cfg0.N, win0_0.index t 0 = t.val / 32 ∧ win0_0.index t 1 = 0 :=
  (by decide +kernel : ∀ t : Fin grid0.N, win0_0.index t 0 = t.val / 32 ∧ win0_0.index t 1 = 0)
theorem index_qv : ∀ t : Fin cfg0.N, win0_1.index t 0 = t.val / 32 ∧ win0_1.index t 1 = 0 :=
  (by decide +kernel : ∀ t : Fin grid0.N, win0_1.index t 0 = t.val / 32 ∧ win0_1.index t 1 = 0)
theorem index_n : ∀ t : Fin cfg0.N, win0_2.index t 0 = t.val % 32 ∧ win0_2.index t 1 = 0 :=
  (by decide +kernel : ∀ t : Fin grid0.N, win0_2.index t 0 = t.val % 32 ∧ win0_2.index t 1 = 0)
theorem index_nv : ∀ t : Fin cfg0.N, win0_3.index t 0 = t.val % 32 ∧ win0_3.index t 1 = 0 :=
  (by decide +kernel : ∀ t : Fin grid0.N, win0_3.index t 0 = t.val % 32 ∧ win0_3.index t 1 = 0)
theorem index_o : ∀ t : Fin cfg0.N, win0_4.index t 0 = t.val / 32 ∧ win0_4.index t 1 = 0 ∧ win0_4.index t 2 = 0 :=
  (by decide +kernel : ∀ t : Fin grid0.N, win0_4.index t 0 = t.val / 32 ∧ win0_4.index t 1 = 0 ∧ win0_4.index t 2 = 0)

/-- The query positions' block: rows 128·(t / 32) … of the positions. -/
theorem blk_q_apply (c : Dev nD) (t : Fin cfg0.N) (x : S128x2.Idx) (k : S4096x2.Idx)
    (hk0 : (k 0).val = 128 * (t.val / 32) + (x 0).val) (hk1 : (k 1).val = (x 1).val) :
    (blk V c 0 t : Vec F S128x2 .f32) x = (V c main_arg1 : S4096x2.Idx → Elt F .f32) k := by
  have hi := index_q t
  unfold blk
  rw [View.read_apply]
  show V c main_arg1 _ = V c main_arg1 _
  congr 1
  funext a
  apply Fin.ext
  match a with
  | ⟨0, _⟩ => show win0_0.index t 0 * 128 + 1 * (x 0).val = (k 0).val; rw [hi.1, hk0]; omega
  | ⟨1, _⟩ => show win0_0.index t 1 * 2 + 1 * (x 1).val = (k 1).val; rw [hi.2, hk1]; omega
/-- The query velocities' block: the same rows of the velocities. -/
theorem blk_qv_apply (c : Dev nD) (t : Fin cfg0.N) (x : S128x2.Idx) (k : S4096x2.Idx)
    (hk0 : (k 0).val = 128 * (t.val / 32) + (x 0).val) (hk1 : (k 1).val = (x 1).val) :
    (blk V c 1 t : Vec F S128x2 .f32) x = (V c main_v0 : S4096x2.Idx → Elt F .f32) k := by
  have hi := index_qv t
  unfold blk
  rw [View.read_apply]
  show V c main_v0 _ = V c main_v0 _
  congr 1
  funext a
  apply Fin.ext
  match a with
  | ⟨0, _⟩ => show win0_1.index t 0 * 128 + 1 * (x 0).val = (k 0).val; rw [hi.1, hk0]; omega
  | ⟨1, _⟩ => show win0_1.index t 1 * 2 + 1 * (x 1).val = (k 1).val; rw [hi.2, hk1]; omega
/-- The neighbour positions' block: rows 128·(t mod 32) … of the positions. -/
theorem blk_n_apply (c : Dev nD) (t : Fin cfg0.N) (x : S128x2.Idx) (k : S4096x2.Idx)
    (hk0 : (k 0).val = 128 * (t.val % 32) + (x 0).val) (hk1 : (k 1).val = (x 1).val) :
    (blk V c 2 t : Vec F S128x2 .f32) x = (V c main_arg1 : S4096x2.Idx → Elt F .f32) k := by
  have hi := index_n t
  unfold blk
  rw [View.read_apply]
  show V c main_arg1 _ = V c main_arg1 _
  congr 1
  funext a
  apply Fin.ext
  match a with
  | ⟨0, _⟩ => show win0_2.index t 0 * 128 + 1 * (x 0).val = (k 0).val; rw [hi.1, hk0]; omega
  | ⟨1, _⟩ => show win0_2.index t 1 * 2 + 1 * (x 1).val = (k 1).val; rw [hi.2, hk1]; omega
/-- The neighbour velocities' block. -/
theorem blk_nv_apply (c : Dev nD) (t : Fin cfg0.N) (x : S128x2.Idx) (k : S4096x2.Idx)
    (hk0 : (k 0).val = 128 * (t.val % 32) + (x 0).val) (hk1 : (k 1).val = (x 1).val) :
    (blk V c 3 t : Vec F S128x2 .f32) x = (V c main_v0 : S4096x2.Idx → Elt F .f32) k := by
  have hi := index_nv t
  unfold blk
  rw [View.read_apply]
  show V c main_v0 _ = V c main_v0 _
  congr 1
  funext a
  apply Fin.ext
  match a with
  | ⟨0, _⟩ => show win0_3.index t 0 * 128 + 1 * (x 0).val = (k 0).val; rw [hi.1, hk0]; omega
  | ⟨1, _⟩ => show win0_3.index t 1 * 2 + 1 * (x 1).val = (k 1).val; rw [hi.2, hk1]; omega

end Cert.KernelIdeal.Bin

namespace Cert.KernelIdeal.Head

open Cert.KernelIdeal Cert.KernelIdeal.Gen

variable {F : FTy → Type} [FloatOps F]
variable (V : (c : Dev nD) → (b : Ref sig .tc) → Buf (Elt F) ((c : Thread nD τ).loc b))

theorem index_x : ∀ t : Fin cfg1.N, win1_0.index t 0 = t.val ∧ win1_0.index t 1 = 0 :=
  (by decide +kernel : ∀ t : Fin grid1.N, win1_0.index t 0 = t.val ∧ win1_0.index t 1 = 0)
theorem index_w : ∀ t : Fin cfg1.N, win1_1.index t 0 = 0 ∧ win1_1.index t 1 = 0 :=
  (by decide +kernel : ∀ t : Fin grid1.N, win1_1.index t 0 = 0 ∧ win1_1.index t 1 = 0)
theorem index_b : ∀ t : Fin cfg1.N, win1_2.index t 0 = 0 ∧ win1_2.index t 1 = 0 :=
  (by decide +kernel : ∀ t : Fin grid1.N, win1_2.index t 0 = 0 ∧ win1_2.index t 1 = 0)
theorem index_o : ∀ t : Fin cfg1.N, win1_3.index t 0 = t.val ∧ win1_3.index t 1 = 0 :=
  (by decide +kernel : ∀ t : Fin grid1.N, win1_3.index t 0 = t.val ∧ win1_3.index t 1 = 0)

/-- The flattened grid's block: rows 512·t …. -/
theorem blk_x_apply (c : Dev nD) (t : Fin cfg1.N) (x : S512x512.Idx) (k : S4096x512.Idx)
    (hk0 : (k 0).val = 512 * t.val + (x 0).val) (hk1 : (k 1).val = (x 1).val) :
    (blk V c 0 t : Vec F S512x512 .f32) x = (V c main_v2 : S4096x512.Idx → Elt F .f32) k := by
  have hi := index_x t
  unfold blk
  rw [View.read_apply]
  show V c main_v2 _ = V c main_v2 _
  congr 1
  funext a
  apply Fin.ext
  match a with
  | ⟨0, _⟩ => show win1_0.index t 0 * 512 + 1 * (x 0).val = (k 0).val; rw [hi.1, hk0]; omega
  | ⟨1, _⟩ => show win1_0.index t 1 * 512 + 1 * (x 1).val = (k 1).val; rw [hi.2, hk1]; omega
/-- The weight table, whole. -/
theorem blk_w_apply (c : Dev nD) (t : Fin cfg1.N) (x : S256x512.Idx) :
    (blk V c 1 t : Vec F S256x512 .f32) x = (V c main_arg3 : S256x512.Idx → Elt F .f32) x := by
  have hi := index_w t
  unfold blk
  rw [View.read_apply]
  show V c main_arg3 _ = V c main_arg3 _
  congr 1
  funext a
  apply Fin.ext
  match a with
  | ⟨0, _⟩ => show win1_1.index t 0 * 256 + 1 * (x 0).val = (x 0).val; rw [hi.1]; omega
  | ⟨1, _⟩ => show win1_1.index t 1 * 512 + 1 * (x 1).val = (x 1).val; rw [hi.2]; omega
/-- The bias row, whole. -/
theorem blk_b_apply (c : Dev nD) (t : Fin cfg1.N) (x : S1x256.Idx) :
    (blk V c 2 t : Vec F S1x256 .f32) x = (V c main_v3 : S1x256.Idx → Elt F .f32) x := by
  have hi := index_b t
  unfold blk
  rw [View.read_apply]
  show V c main_v3 _ = V c main_v3 _
  congr 1
  funext a
  apply Fin.ext
  match a with
  | ⟨0, _⟩ => show win1_2.index t 0 * 1 + 1 * (x 0).val = (x 0).val; rw [hi.1]; omega
  | ⟨1, _⟩ => show win1_2.index t 1 * 256 + 1 * (x 1).val = (x 1).val; rw [hi.2]; omega

end Cert.KernelIdeal.Head

end
-- ==== Proof.BinHitI.lean ====
/-
  A tile's cell words and its hit predicate.

  For a query row p and a neighbour row q of a tile, with the query positions xq and the neighbour positions xn: the
  cell word along axis d is floor((xn q d − xq p d) / 0.6 + 8) as a signed 32-bit word; the pair hits cell (a, b)
  when both words lie in [0, 16), the two pedestrians' global numbers 128·I + p and 128·J + q differ, and the words
  read a and b.
-/
import proofs.«161577_j37271726195508_2_alg».proof.Proof.Gen.KernelIdeal.Skeleton
import Idealize.ShloMosaic.PureOps.Ideal
import Idealize.ShloMosaic.Lib.ValueIdx

noncomputable section

namespace Cert.KernelIdeal.Bin

open Cert.KernelIdeal Cert.KernelIdeal.Gen
open Idealize.ShloMosaic Idealize.ShloMosaic.ValueIdx

/-- The cell word of the pair (p, q) along axis d. -/
def cw (xq xn : Vec Ideal S128x2 .f32) (p q : Fin 128) (d : Fin 2) : BitVec 32 :=
  Ideal.fptosi 32 (Ideal.liftRound Int.floor
    (Ideal.div (xn (ix2 q d) - xq (ix2 p d)) (Ideal.ofBits .f32 0x3F19999A#32) + Ideal.ofBits .f32 0x41000000#32))

/-- The pair (p, q) of the tile at grid point (I, J) is counted and lands in cell (a, b). -/
def hit (I J : ℕ) (xq xn : Vec Ideal S128x2 .f32) (p q : Fin 128) (a b : Fin 16) : Prop :=
  (0 ≤ (cw xq xn p q 0).toInt ∧ (cw xq xn p q 0).toInt < 16) ∧ (0 ≤ (cw xq xn p q 1).toInt ∧ (cw xq xn p q 1).toInt < 16)
    ∧ 128 * I + p.val ≠ 128 * J + q.val
    ∧ (cw xq xn p q 0).toInt = (a.val : ℤ) ∧ (cw xq xn p q 1).toInt = (b.val : ℤ)

instance (I J : ℕ) (xq xn : Vec Ideal S128x2 .f32) (p q : Fin 128) (a b : Fin 16) : Decidable (hit I J xq xn p q a b) := by
  unfold hit; infer_instance

end Cert.KernelIdeal.Bin

end
-- ==== Proof.Spec.lean ====
/-
  The specification: directional grid pooling of relative velocities, followed by a linear head with a ramp.

  For each of 4096 pedestrians `i`, every other pedestrian `j` is binned by its relative position into a 16 x 16
  grid of cells of side 0.6 centred on `i`: along each of the two axes the cell coordinate is the 32-bit word
  `fptosi (floor ((pos j - pos i) / 0.6 + 8))`. A pair is valid when both coordinates lie in `[0, 16)` (read signed)
  and `j` is not `i`. For each cell the relative velocities `vel j - vel i` (`vel = pos - past`) of the valid pairs in
  the cell are summed, per component, and divided by `max (number of such pairs) 1`. The 16 x 16 x 2 means of
  pedestrian `i`, flattened cell-major (`k = (a * 16 + b) * 2 + d`), are multiplied by the weight matrix `W`
  (`[256, 512]`, contracted over `k`), the bias is added and the negative part is cut off.

  Everything is over the extended reals; the three float literals 0.6, 8 and 1 stay as their 32-bit words.
  The sums over `j` are masked sums over ALL of `Fin 4096`: the summand is the value when the pair is valid and lands
  in the cell, and 0 otherwise.
-/
import Idealize.ShloMosaic.PureOps.Ideal
import Idealize.ShloMosaic.Lib.ValueIdx

noncomputable section

open scoped BigOperators

namespace Cert.Spec

open Idealize.ShloMosaic Idealize.ShloMosaic.ValueIdx

abbrev S4096x2 : Shape := ⟨2, ![4096, 2]⟩
abbrev S256x512 : Shape := ⟨2, ![256, 512]⟩
abbrev S256 : Shape := ⟨1, ![256]⟩
abbrev S4096x256 : Shape := ⟨2, ![4096, 256]⟩

/-- The velocity of pedestrian `j` along axis `d`: its position minus its past position. -/
def vel (pos past : FVec Ideal S4096x2 .f32) (j : Fin 4096) (d : Fin 2) : EReal :=
  pos (ix2 j d) - past (ix2 j d)

/-- The cell coordinate, a signed 32-bit word, of pedestrian `j` seen from `i` along axis `d`:
    `floor ((pos j d - pos i d) / 0.6 + 8)` converted to an integer word. -/
def cellWord (pos : FVec Ideal S4096x2 .f32) (i j : Fin 4096) (d : Fin 2) : BitVec 32 :=
  Ideal.fptosi 32 (Ideal.liftRound Int.floor
    (Ideal.div (pos (ix2 j d) - pos (ix2 i d)) (Ideal.ofBits .f32 0x3F19999A#32) + Ideal.ofBits .f32 0x41000000#32))

/-- A cell coordinate lies on the grid: read signed, it is in `[0, 16)`. -/
def inGrid (w : BitVec 32) : Prop := 0 ≤ w.toInt ∧ w.toInt < 16

instance (w : BitVec 32) : Decidable (inGrid w) := by unfold inGrid; infer_instance

/-- The pair `(i, j)` is counted: both cell coordinates lie on the grid and `j` is another pedestrian than `i`. -/
def valid (pos : FVec Ideal S4096x2 .f32) (i j : Fin 4096) : Prop :=
  inGrid (cellWord pos i j 0) ∧ inGrid (cellWord pos i j 1) ∧ i ≠ j

instance (pos : FVec Ideal S4096x2 .f32) (i j : Fin 4096) : Decidable (valid pos i j) := by unfold valid; infer_instance

/-- The pair `(i, j)` is counted and lands in cell `(a, b)`: its first cell coordinate is `a` and its second is `b`. -/
def inCell (pos : FVec Ideal S4096x2 .f32) (i j : Fin 4096) (a b : Fin 16) : Prop :=
  valid pos i j ∧ (cellWord pos i j 0).toInt = (a.val : ℤ) ∧ (cellWord pos i j 1).toInt = (b.val : ℤ)

instance (pos : FVec Ideal S4096x2 .f32) (i j : Fin 4096) (a b : Fin 16) : Decidable (inCell pos i j a b) := by
  unfold inCell; infer_instance

/-- Component `d` of the sum of the relative velocities of the pedestrians in cell `(a, b)` around `i`, as a masked sum
    over all pedestrians. -/
def binSum (pos past : FVec Ideal S4096x2 .f32) (i : Fin 4096) (a b : Fin 16) (d : Fin 2) : EReal :=
  ∑ j : Fin 4096, if inCell pos i j a b then vel pos past j d - vel pos past i d else 0

/-- The number of pedestrians in cell `(a, b)` around `i`, as a masked sum of ones. -/
def binCount (pos : FVec Ideal S4096x2 .f32) (i : Fin 4096) (a b : Fin 16) : EReal :=
  ∑ j : Fin 4096, if inCell pos i j a b then (1 : EReal) else 0

/-- The mean relative velocity in cell `(a, b)` around `i`: the sum over the count, an empty cell counted as one. -/
def gridAt (pos past : FVec Ideal S4096x2 .f32) (i : Fin 4096) (a b : Fin 16) (d : Fin 2) : EReal :=
  Ideal.div (binSum pos past i a b d) (max (binCount pos i a b) (Ideal.ofBits .f32 0x3F800000#32))

/-- The grid of pedestrian `i` flattened cell-major: entry `k = (a * 16 + b) * 2 + d`. -/
def flatAt (pos past : FVec Ideal S4096x2 .f32) (i : Fin 4096) (k : Fin 512) : EReal :=
  gridAt pos past i ⟨k.val / 32, by omega⟩ ⟨k.val / 2 % 16, by omega⟩ ⟨k.val % 2, by omega⟩

/-- Output `o` of the head for pedestrian `i`: the flattened grid against row `o` of the weights, plus the bias, the
    negative part cut off. -/
def headAt (pos past : FVec Ideal S4096x2 .f32) (W : FVec Ideal S256x512 .f32) (b : FVec Ideal S256 .f32)
    (i : Fin 4096) (o : Fin 256) : EReal :=
  max ((∑ k : Fin 512, flatAt pos past i k * W (ix2 o k)) + b (ix1 o)) 0

/-- The result, index by index, as one function of the positions, the past positions, the weights and the bias. -/
def G (pos past : FVec Ideal S4096x2 .f32) (W : FVec Ideal S256x512 .f32) (b : FVec Ideal S256 .f32) :
    FVec Ideal S4096x256 .f32 :=
  fun t => headAt pos past W b ⟨(t 0).val, (t 0).isLt⟩ ⟨(t 1).val, (t 1).isLt⟩

theorem G_apply (pos past : FVec Ideal S4096x2 .f32) (W : FVec Ideal S256x512 .f32) (b : FVec Ideal S256 .f32)
    (i : Fin 4096) (o : Fin 256) : G pos past W b (ix2 i o) = headAt pos past W b i o := rfl

end Cert.Spec

end
-- ==== Proof.TileSpec.lean ====
/-
  The binned grid as the kernel computes it, over plain arrays.

  The 4096 pedestrians are taken in 32 tiles of 128: neighbour q of tile J is pedestrian 128·J + q. For a query
  pedestrian i and a cell (a, b), a tile's masked sum adds the relative velocity component (or a one) of each of the
  tile's neighbours that is counted and lands in the cell; the grid entry (i, a·16 + b, d) is the sum of the 32
  tiles' sums divided by max(the sum of the 32 tiles' counts, 1). The velocities are an array of their own here
  (the kernel is handed them computed).
-/
import proofs.«161577_j37271726195508_2_alg».proof.Proof.Spec

noncomputable section

open scoped BigOperators

namespace Cert.Tile

open Idealize.ShloMosaic Idealize.ShloMosaic.ValueIdx

abbrev S4096x256x2 : Shape := ⟨3, ![4096, 256, 2]⟩

/-- Pedestrian number 128·J + q: neighbour q of tile J. -/
def nb (J : ℕ) (q : Fin 128) : Fin 4096 := ⟨(128 * J + q.val) % 4096, Nat.mod_lt _ (by decide)⟩
theorem nb_val (J : ℕ) (hJ : J < 32) (q : Fin 128) : (nb J q).val = 128 * J + q.val := by
  unfold nb; show (128 * J + q.val) % 4096 = _; have := q.isLt; omega

/-- One tile's masked sum of a relative velocity component for query pedestrian i and cell (a, b), -/
def tileV (pos vel : FVec Ideal Cert.Spec.S4096x2 .f32) (d : Fin 2) (i : Fin 4096) (a b : Fin 16) (J : ℕ) : EReal :=
  ∑ q : Fin 128, if Cert.Spec.inCell pos i (nb J q) a b then vel (ix2 (nb J q) d) - vel (ix2 i d) else 0
/-- and its masked sum of ones. -/
def tileN (pos : FVec Ideal Cert.Spec.S4096x2 .f32) (i : Fin 4096) (a b : Fin 16) (J : ℕ) : EReal :=
  ∑ q : Fin 128, if Cert.Spec.inCell pos i (nb J q) a b then (1 : EReal) else 0

/-- The binned grid: entry (i, k, d), k = a·16 + b, is the 32 tiles' sums over max(the 32 tiles' counts, 1). -/
def grid (pos vel : FVec Ideal Cert.Spec.S4096x2 .f32) : S4096x256x2.Idx → EReal := fun y =>
  Ideal.div (∑ J ∈ Finset.range 32, tileV pos vel (y 2) (y 0) ⟨(y 1).val / 16, by have h : (y 1).val < 256 := (y 1).isLt; omega⟩ ⟨(y 1).val % 16, by omega⟩ J)
    (max (∑ J ∈ Finset.range 32, tileN pos (y 0) ⟨(y 1).val / 16, by have h : (y 1).val < 256 := (y 1).isLt; omega⟩ ⟨(y 1).val % 16, by omega⟩ J)
      (Ideal.ofBits .f32 0x3F800000#32))

end Cert.Tile

end
-- ==== Proof.LibBlockSum.lean ====
/-
  A finite sum taken in consecutive blocks.

  In any additive commutative monoid the sum of `f` over the first `J * K` naturals is the sum, over the `J`
  consecutive blocks of `K` naturals, of each block's own sum: `Σ_{s<J} Σ_{k<K} f (s·K + k) = Σ_{i<J·K} f i`.
  Only associativity, commutativity and the zero of `+` are used, so the statement holds on the extended reals with
  no finiteness assumption. A function on `Fin n` is carried to the naturals by extending it with zeros
  (`zeroExt`), which turns a `Fin`-indexed sum into a `Finset.range` sum and back.
-/
import Mathlib.Algebra.BigOperators.Fin
import Mathlib.Algebra.BigOperators.Group.Finset.Basic

namespace Cert.Lib.BlockSum

open Finset

variable {β : Type*} [AddCommMonoid β]

/-- The sum over the first `J * K` naturals, taken block by block: block `s` is `s·K, …, s·K + K - 1`. -/
theorem sum_range_blocks (J K : ℕ) (f : ℕ → β) :
    ∑ s ∈ range J, ∑ k ∈ range K, f (s * K + k) = ∑ i ∈ range (J * K), f i := by
  induction J with
  | zero => simp
  | succ J ih => rw [sum_range_succ, ih, Nat.succ_mul, sum_range_add]

/-- A function on `Fin n` extended to every natural by zero past `n`. -/
def zeroExt {n : ℕ} (f : Fin n → β) : ℕ → β := fun i => if h : i < n then f ⟨i, h⟩ else 0

/-- Below `n` the extension is the function. -/
theorem zeroExt_of_lt {n : ℕ} (f : Fin n → β) (i : ℕ) (h : i < n) : zeroExt f i = f ⟨i, h⟩ := dif_pos h

theorem zeroExt_val {n : ℕ} (f : Fin n → β) (i : Fin n) : zeroExt f i.val = f i := dif_pos i.isLt

/-- A `Fin n`-indexed sum is the sum of the extension over the first `n` naturals. -/
theorem sum_fin_eq_sum_range {n : ℕ} (f : Fin n → β) : ∑ i : Fin n, f i = ∑ i ∈ range n, zeroExt f i := by
  rw [Finset.sum_range]
  exact Finset.sum_congr rfl fun i _ => (zeroExt_val f i).symm

/-- The whole `Fin (J·K)`-indexed sum, block by block: block `s`'s sum runs over `k : Fin K` at position `s·K + k`. -/
theorem sum_fin_blocks {N : ℕ} (J K : ℕ) (hN : N = J * K) (f : Fin N → β) :
    ∑ s ∈ range J, ∑ k : Fin K, zeroExt f (s * K + k.val) = ∑ i : Fin N, f i := by
  subst hN
  rw [sum_fin_eq_sum_range f, ← sum_range_blocks]
  exact Finset.sum_congr rfl fun s _ => (Finset.sum_range fun k => zeroExt f (s * K + k)).symm

end Cert.Lib.BlockSum
-- ==== Proof.LibTileSum.lean ====
/-
  A sum over an index range taken tile by tile, the tile's members named by a position reduced modulo the range.

  For `N = J * K` the positions `K * s + q`, `s < J`, `q < K`, run through `0, …, N - 1` exactly once, block after block,
  and each is below `N`, so reducing it modulo `N` changes nothing. Hence in any additive commutative monoid the sum over
  the `J` tiles of the sum over a tile's `K` members of `f` at position `(K * s + q) mod N` is the sum of `f` over all of
  `Fin N`. Only associativity, commutativity and the zero of `+` are used: no finiteness on the extended reals.
-/
import proofs.«161577_j37271726195508_2_alg».proof.Proof.LibBlockSum

namespace Cert.Lib.TileSum

open Finset

variable {β : Type*} [AddCommMonoid β]

/-- The sum over `Fin N`, `N = J * K`, tile by tile, each member named by its position modulo `N`. -/
theorem sum_tiles_mod {N : ℕ} (J K : ℕ) (hN : N = J * K) (hpos : 0 < N) (f : Fin N → β) :
    ∑ s ∈ range J, ∑ q : Fin K, f ⟨(K * s + q.val) % N, Nat.mod_lt _ hpos⟩ = ∑ j : Fin N, f j := by
  rw [← Cert.Lib.BlockSum.sum_fin_blocks J K hN f]
  refine Finset.sum_congr rfl fun s hs => Finset.sum_congr rfl fun q _ => ?_
  have hs' : s < J := Finset.mem_range.1 hs
  have hq := q.isLt
  have hlt : s * K + q.val < N := by
    rw [hN]
    calc s * K + q.val < s * K + K := by omega
      _ = (s + 1) * K := (Nat.succ_mul s K).symm
      _ ≤ J * K := Nat.mul_le_mul_right K (by omega)
  rw [Cert.Lib.BlockSum.zeroExt_of_lt f _ hlt]
  congr 1
  refine Fin.ext ?_
  show (K * s + q.val) % N = s * K + q.val
  rw [Nat.mul_comm K s, Nat.mod_eq_of_lt hlt]

/-- The case of 4096 positions in 32 tiles of 128. -/
theorem sum_tiles_4096 (f : Fin 4096 → β) :
    ∑ J ∈ range 32, ∑ q : Fin 128, f ⟨(128 * J + q.val) % 4096, Nat.mod_lt _ (by decide)⟩ = ∑ j : Fin 4096, f j :=
  sum_tiles_mod 32 128 (by decide) (by decide) f

end Cert.Lib.TileSum
-- ==== Proof.TileBridge.lean ====
/-
  From the tiled grid to the specification.

  The 4096 pedestrians taken in 32 tiles of 128 are all of them, each once: neighbour q of tile J is pedestrian
  128·J + q, and these positions run through 0, …, 4095 block after block. So the sum of the 32 tiles' masked sums of a
  relative velocity component is the masked sum over all pedestrians, and likewise for the counts; only associativity,
  commutativity and the zero of the sum are used, so nothing need be finite. The velocities handed over as an array of
  their own are the positions minus the past positions. Entry (i, k, d) of the grid with k = kk / 2 and d = kk % 2 is
  cell (kk / 32, kk / 2 % 16), component kk % 2: the specification's cell-major flattening. The division, the maximum
  with one, the product with the weights, the bias and the cut at zero are the same terms on both sides.
-/
import proofs.«161577_j37271726195508_2_alg».proof.Proof.TileSpec
import proofs.«161577_j37271726195508_2_alg».proof.Proof.Spec
import proofs.«161577_j37271726195508_2_alg».proof.Proof.LibTileSum

noncomputable section

open scoped BigOperators

namespace Cert.Tile

open Idealize.ShloMosaic Idealize.ShloMosaic.ValueIdx

/-- The grid at `(i, k, d)`: cell `(k / 16, k % 16)`, component `d`. -/
theorem grid_apply (pos vel : FVec Ideal Cert.Spec.S4096x2 .f32) (i : Fin 4096) (k : Fin 256) (d : Fin 2) :
    grid pos vel (ix3 i k d)
      = Ideal.div (∑ J ∈ Finset.range 32, tileV pos vel d i (⟨k.val / 16, by omega⟩ : Fin 16) (⟨k.val % 16, by omega⟩ : Fin 16) J)
          (max (∑ J ∈ Finset.range 32, tileN pos i (⟨k.val / 16, by omega⟩ : Fin 16) (⟨k.val % 16, by omega⟩ : Fin 16) J)
            (Ideal.ofBits .f32 0x3F800000#32)) := rfl

/-- The 32 tiles' masked sums of a relative velocity component add up to the masked sum over all pedestrians. -/
theorem tiles_binSum (pos past vel : FVec Ideal Cert.Spec.S4096x2 .f32)
    (hvel : ∀ (j : Fin 4096) (d : Fin 2), vel (ix2 j d) = pos (ix2 j d) - past (ix2 j d))
    (i : Fin 4096) (a b : Fin 16) (d : Fin 2) :
    ∑ J ∈ Finset.range 32, tileV pos vel d i a b J = Cert.Spec.binSum pos past i a b d := by
  unfold Cert.Spec.binSum
  refine Eq.trans ?_ (Cert.Lib.TileSum.sum_tiles_4096
    (fun j => if Cert.Spec.inCell pos i j a b then Cert.Spec.vel pos past j d - Cert.Spec.vel pos past i d else 0))
  refine Finset.sum_congr rfl fun J _ => ?_
  unfold tileV
  refine Finset.sum_congr rfl fun q _ => ?_
  show (if Cert.Spec.inCell pos i (nb J q) a b then vel (ix2 (nb J q) d) - vel (ix2 i d) else 0)
    = (if Cert.Spec.inCell pos i (nb J q) a b then Cert.Spec.vel pos past (nb J q) d - Cert.Spec.vel pos past i d else 0)
  rw [hvel, hvel]
  rfl

/-- The 32 tiles' counts add up to the count over all pedestrians. -/
theorem tiles_binCount (pos : FVec Ideal Cert.Spec.S4096x2 .f32) (i : Fin 4096) (a b : Fin 16) :
    ∑ J ∈ Finset.range 32, tileN pos i a b J = Cert.Spec.binCount pos i a b := by
  unfold Cert.Spec.binCount
  refine Eq.trans ?_ (Cert.Lib.TileSum.sum_tiles_4096
    (fun j => if Cert.Spec.inCell pos i j a b then (1 : EReal) else 0))
  refine Finset.sum_congr rfl fun J _ => ?_
  unfold tileN
  exact Finset.sum_congr rfl fun q _ => rfl

/-- The mean in a cell depends on the cell's coordinates only through their values. -/
theorem gridAt_congr (pos past : FVec Ideal Cert.Spec.S4096x2 .f32) (i : Fin 4096) {a a' b b' : Fin 16} {d d' : Fin 2}
    (ha : a = a') (hb : b = b') (hd : d = d') :
    Cert.Spec.gridAt pos past i a b d = Cert.Spec.gridAt pos past i a' b' d' := by
  subst ha hb hd; rfl

/-- The grid at `(i, kk / 2, kk % 2)` is entry `kk` of the specification's cell-major flattening. -/
theorem grid_flat (pos past vel : FVec Ideal Cert.Spec.S4096x2 .f32)
    (hvel : ∀ (j : Fin 4096) (d : Fin 2), vel (ix2 j d) = pos (ix2 j d) - past (ix2 j d))
    (i : Fin 4096) (kk : Fin 512) :
    grid pos vel (ix3 i (⟨kk.val / 2, by omega⟩ : Fin 256) (⟨kk.val % 2, by omega⟩ : Fin 2)) = Cert.Spec.flatAt pos past i kk := by
  rw [grid_apply, tiles_binSum pos past vel hvel, tiles_binCount]
  exact gridAt_congr pos past i
    (a := (⟨kk.val / 2 / 16, by omega⟩ : Fin 16)) (a' := (⟨kk.val / 32, by omega⟩ : Fin 16))
    (b := (⟨kk.val / 2 % 16, by omega⟩ : Fin 16)) (b' := (⟨kk.val / 2 % 16, by omega⟩ : Fin 16))
    (d := (⟨kk.val % 2, by omega⟩ : Fin 2)) (d' := (⟨kk.val % 2, by omega⟩ : Fin 2))
    (Fin.ext (by show kk.val / 2 / 16 = kk.val / 32; omega)) rfl rfl

/-- The head over the tiled grid is the specification's result. -/
theorem bridge (pos past vel : FVec Ideal Cert.Spec.S4096x2 .f32)
    (hvel : ∀ (j : Fin 4096) (d : Fin 2), vel (ix2 j d) = pos (ix2 j d) - past (ix2 j d))
    (W : FVec Ideal Cert.Spec.S256x512 .f32) (b : FVec Ideal Cert.Spec.S256 .f32) (i : Fin 4096) (o : Fin 256) :
    max ((∑ kk : Fin 512, grid pos vel (ix3 i (⟨kk.val / 2, by omega⟩ : Fin 256) (⟨kk.val % 2, by omega⟩ : Fin 2)) * W (ix2 o kk))
        + b (ix1 o)) 0 = Cert.Spec.G pos past W b (ix2 i o) := by
  rw [Cert.Spec.G_apply]
  unfold Cert.Spec.headAt
  refine congrArg (fun t : EReal => max (t + b (ix1 o)) 0) (Finset.sum_congr rfl fun kk _ => ?_)
  rw [grid_flat pos past vel hvel]

end Cert.Tile

end
-- ==== Proof.BinValueI.lean ====
/-
  The binned array, at the ideal instance.

  At a point (i, j) each accumulator holds, per query row p and cell (a, b), the sum over the tiles 0 … j of the
  row's masked sums over each tile's 128 neighbours; so after the row's last tile it holds the masked sum over all
  4096 pedestrians, and the output block stored there is the specification's mean per cell. Read through the
  blocks, a tile's hit predicate is the specification's "the pair is counted and lands in the cell".
-/
import proofs.«161577_j37271726195508_2_alg».proof.Proof.BinLeftI
import proofs.«161577_j37271726195508_2_alg».proof.Proof.BlocksI
import proofs.«161577_j37271726195508_2_alg».proof.Proof.BinHitI
import proofs.«161577_j37271726195508_2_alg».proof.Proof.Spec
import proofs.«161577_j37271726195508_2_alg».proof.Proof.TileSpec
import proofs.«161577_j37271726195508_2_alg».proof.Proof.TileBridge

set_option maxRecDepth 16384

noncomputable section

open scoped BigOperators

namespace Cert.KernelIdeal.Bin

open Cert.KernelIdeal Cert.KernelIdeal.Gen
open Idealize.ShloMosaic Idealize.ShloMosaic.TcCoe Idealize.ShloMosaic.ValueIdx
open Idealize.SL.Sem
open Idealize.ShloMosaic.Pipeline (Dat)

/-- The grid is walked row by row: point t is (t / 32, t mod 32). -/
theorem coords_eq : ∀ t : Fin cfg0.N, (grid0.coords t 0).val = t.val / 32 ∧ (grid0.coords t 1).val = t.val % 32 :=
  (by decide +kernel : ∀ t : Fin grid0.N, (grid0.coords t 0).val = t.val / 32 ∧ (grid0.coords t 1).val = t.val % 32)

/-- The body's arithmetic read at an index, at the ideal instance: one tile's step adds the tile's masked sum to
    each accumulator entry, the reset value is zero, and a quotient slice holds sum / max(count, 1) cell-major. -/
structure StepFacts : Prop where
  stepX : ∀ (i : grid0.Coords) (xq xqv xn xnv : Vec Ideal S128x2 .f32) (g : Vec Ideal S128x16x16 .f32) (p : Fin 128) (a b : Fin 16),
    stepX (F := Ideal) i xq xqv xn xnv g (ix3 p a b)
      = g (ix3 p a b) + ∑ q : Fin 128, if hit (i 0).val (i 1).val xq xn p q a b then xnv (ix2 q 0) - xqv (ix2 p 0) else 0
  stepY : ∀ (i : grid0.Coords) (xq xqv xn xnv : Vec Ideal S128x2 .f32) (g : Vec Ideal S128x16x16 .f32) (p : Fin 128) (a b : Fin 16),
    stepY (F := Ideal) i xq xqv xn xnv g (ix3 p a b)
      = g (ix3 p a b) + ∑ q : Fin 128, if hit (i 0).val (i 1).val xq xn p q a b then xnv (ix2 q 1) - xqv (ix2 p 1) else 0
  stepN : ∀ (i : grid0.Coords) (xq xn : Vec Ideal S128x2 .f32) (g : Vec Ideal S128x16x16 .f32) (p : Fin 128) (a b : Fin 16),
    stepN (F := Ideal) i xq xn g (ix3 p a b)
      = g (ix3 p a b) + ∑ q : Fin 128, if hit (i 0).val (i 1).val xq xn p q a b then (1 : EReal) else 0
  zeros : ∀ y : S128x16x16.Idx, zeros (F := Ideal) y = 0

/-! ## A reset-then-accumulate recursion, solved -/

/-- A quantity that restarts from f at every position ≡ 0 (mod 32) and otherwise adds f to its previous value is,
    at position n, the sum of f over the positions of n's row up to n. -/
theorem rowAcc_eq {N : ℕ} (f : ℕ → EReal) (A : (n : ℕ) → n < N → EReal)
    (h0 : ∀ n hn, n % 32 = 0 → A n hn = f n)
    (hs : ∀ n (hn : n + 1 < N), (n + 1) % 32 ≠ 0 → A (n + 1) hn = A n (Nat.lt_of_succ_lt hn) + f (n + 1)) :
    ∀ n (hn : n < N), A n hn = ∑ j ∈ Finset.range (n % 32 + 1), f (n - n % 32 + j) := by
  intro n
  induction n with
  | zero => intro hn; rw [h0 0 hn (Nat.zero_mod _)]; simp
  | succ n ih =>
    intro hn
    by_cases h : (n + 1) % 32 = 0
    · rw [h0 _ hn h, h]; simp
    · rw [hs n hn h, ih (Nat.lt_of_succ_lt hn)]
      have hm : (n + 1) % 32 = n % 32 + 1 := by omega
      have e1 : n + 1 - (n % 32 + 1) = n - n % 32 := by omega
      have e2 : n - n % 32 + (n % 32 + 1) = n + 1 := by omega
      rw [hm, Finset.sum_range_succ (fun j => f (n + 1 - (n % 32 + 1) + j)) (n % 32 + 1), e1, e2]

/-! ## Tiles in absolute terms -/

variable (V : (c : Dev nD) → (b : Ref sig .tc) → Buf (Elt Ideal) ((c : Thread nD τ).loc b))

/-- The positions and the velocities as the region finds them. -/
abbrev posA (c : Dev nD) : FVec Ideal Cert.Spec.S4096x2 .f32 := V c main_arg1
abbrev velA (c : Dev nD) : FVec Ideal Cert.Spec.S4096x2 .f32 := V c main_v0

open Cert.Tile (nb nb_val)

/-- One tile's masked sums for query pedestrian i and cell (a, b), over the arrays the region finds. -/
def tileV (c : Dev nD) (d : Fin 2) (i : Fin 4096) (a b : Fin 16) (J : ℕ) : EReal :=
  Cert.Tile.tileV (posA V c) (velA V c) d i a b J
def tileN (c : Dev nD) (i : Fin 4096) (a b : Fin 16) (J : ℕ) : EReal :=
  Cert.Tile.tileN (posA V c) i a b J

/-- Read through the blocks of point t, the tile's hit predicate is the specification's. -/
theorem hit_iff (c : Dev nD) (t : Fin cfg0.N) (p q : Fin 128) (a b : Fin 16) :
    hit (t.val / 32) (t.val % 32) (blk V c 0 t) (blk V c 2 t) p q a b
      ↔ Cert.Spec.inCell (posA V c) (nb (t.val / 32) p) (nb (t.val % 32) q) a b := by
  have hN : t.val < 1024 := lt_of_lt_of_eq t.isLt (show cfg0.N = 1024 from N_0)
  have hI : t.val / 32 < 32 := by omega
  have hJ : t.val % 32 < 32 := by omega
  have hcw : ∀ d : Fin 2, cw (blk V c 0 t) (blk V c 2 t) p q d = Cert.Spec.cellWord (posA V c) (nb (t.val / 32) p) (nb (t.val % 32) q) d := by
    intro d
    unfold cw Cert.Spec.cellWord
    rw [blk_n_apply V c t (ix2 q d) (ix2 (nb (t.val % 32) q) d) (by show (nb _ q).val = _; rw [nb_val _ hJ]) rfl,
      blk_q_apply V c t (ix2 p d) (ix2 (nb (t.val / 32) p) d) (by show (nb _ p).val = _; rw [nb_val _ hI]) rfl]
  unfold hit Cert.Spec.inCell Cert.Spec.valid Cert.Spec.inGrid
  rw [hcw 0, hcw 1]
  have hne : (128 * (t.val / 32) + p.val ≠ 128 * (t.val % 32) + q.val) ↔ nb (t.val / 32) p ≠ nb (t.val % 32) q := by
    rw [Ne, Ne, Fin.ext_iff, nb_val _ hI, nb_val _ hJ]
  rw [hne]
  tauto

/-! ## A tile's sums over its blocks are the absolute tile sums -/

theorem tileV_of_blocks (c : Dev nD) (t : Fin cfg0.N) (d : Fin 2) (p : Fin 128) (a b : Fin 16)
    (xqv xnv : Vec Ideal S128x2 .f32) (hqv : xqv = blk V c 1 t) (hnv : xnv = blk V c 3 t) :
    (∑ q : Fin 128, if hit (t.val / 32) (t.val % 32) (blk V c 0 t) (blk V c 2 t) p q a b
        then xnv (ix2 q d) - xqv (ix2 p d) else 0)
      = tileV V c d (nb (t.val / 32) p) a b (t.val % 32) := by
  have hN : t.val < 1024 := lt_of_lt_of_eq t.isLt (show cfg0.N = 1024 from N_0)
  have hI : t.val / 32 < 32 := by omega
  have hJ : t.val % 32 < 32 := by omega
  subst hqv; subst hnv
  unfold tileV Cert.Tile.tileV
  refine Finset.sum_congr rfl fun q _ => ?_
  rw [blk_nv_apply V c t (ix2 q d) (ix2 (nb (t.val % 32) q) d) (by show (nb _ q).val = _; rw [nb_val _ hJ]) rfl,
    blk_qv_apply V c t (ix2 p d) (ix2 (nb (t.val / 32) p) d) (by show (nb _ p).val = _; rw [nb_val _ hI]) rfl]
  exact if_congr (hit_iff V c t p q a b) rfl rfl

theorem tileN_of_blocks (c : Dev nD) (t : Fin cfg0.N) (p : Fin 128) (a b : Fin 16) :
    (∑ q : Fin 128, if hit (t.val / 32) (t.val % 32) (blk V c 0 t) (blk V c 2 t) p q a b then (1 : EReal) else 0)
      = tileN V c (nb (t.val / 32) p) a b (t.val % 32) := by
  unfold tileN Cert.Tile.tileN
  exact Finset.sum_congr rfl fun q _ => if_congr (hit_iff V c t p q a b) rfl rfl

/-! ## The accumulators, point by point -/

theorem stAt_congr (c : Dev nD) (n n' : ℕ) (h : n = n') (hn : n < cfg0.N) (hn' : n' < cfg0.N) : stAt V c n hn = stAt V c n' hn' := by
  subst h; rfl

variable (hS : StepFacts)
include hS

/-- At a point with j = 0 each accumulator is the first tile's sum. -/
theorem accX_first (c : Dev nD) (t : Fin cfg0.N) (h0 : t.val % 32 = 0) (p : Fin 128) (a b : Fin 16) :
    (stAt V c t.val t.isLt).2.1 (ix3 p a b) = tileV V c 0 (nb (t.val / 32) p) a b (t.val % 32) := by
  have hN : t.val < 1024 := lt_of_lt_of_eq t.isLt (show cfg0.N = 1024 from N_0)
  rw [stAt_first V c t h0 (by omega), leftFirst_X, hS.stepX, (coords_eq t).1, (coords_eq t).2, tileV_of_blocks V c t _ p a b _ _ rfl rfl,
    show (k0_pay4 (F := Ideal)) (ix3 p a b) = 0 from hS.zeros _, zero_add]
theorem accY_first (c : Dev nD) (t : Fin cfg0.N) (h0 : t.val % 32 = 0) (p : Fin 128) (a b : Fin 16) :
    (stAt V c t.val t.isLt).2.2.1 (ix3 p a b) = tileV V c 1 (nb (t.val / 32) p) a b (t.val % 32) := by
  have hN : t.val < 1024 := lt_of_lt_of_eq t.isLt (show cfg0.N = 1024 from N_0)
  rw [stAt_first V c t h0 (by omega), leftFirst_Y, hS.stepY, (coords_eq t).1, (coords_eq t).2, tileV_of_blocks V c t _ p a b _ _ rfl rfl,
    show (k0_pay5 (F := Ideal)) (ix3 p a b) = 0 from hS.zeros _, zero_add]
theorem accN_first (c : Dev nD) (t : Fin cfg0.N) (h0 : t.val % 32 = 0) (p : Fin 128) (a b : Fin 16) :
    (stAt V c t.val t.isLt).2.2.2 (ix3 p a b) = tileN V c (nb (t.val / 32) p) a b (t.val % 32) := by
  have hN : t.val < 1024 := lt_of_lt_of_eq t.isLt (show cfg0.N = 1024 from N_0)
  rw [stAt_first V c t h0 (by omega), leftFirst_N, hS.stepN, (coords_eq t).1, (coords_eq t).2, tileN_of_blocks,
    show (k0_pay6 (F := Ideal)) (ix3 p a b) = 0 from hS.zeros _, zero_add]

/-- At any other point each accumulator is what the point before left plus this tile's sum. -/
theorem accX_next (c : Dev nD) (t : Fin cfg0.N) (h0 : ¬t.val % 32 = 0) (p : Fin 128) (a b : Fin 16) :
    (stAt V c t.val t.isLt).2.1 (ix3 p a b)
      = (stAt V c (t.val - 1) (Nat.lt_of_le_of_lt (Nat.sub_le _ _) t.isLt)).2.1 (ix3 p a b)
        + tileV V c 0 (nb (t.val / 32) p) a b (t.val % 32) := by
  by_cases h1 : t.val % 32 = 31
  · rw [stAt_last V c t h0 h1, leftLast_X, hS.stepX, (coords_eq t).1, (coords_eq t).2, tileV_of_blocks V c t _ p a b _ _ rfl rfl]
  · rw [stAt_mid V c t h0 h1, leftMid_X, hS.stepX, (coords_eq t).1, (coords_eq t).2, tileV_of_blocks V c t _ p a b _ _ rfl rfl]
theorem accY_next (c : Dev nD) (t : Fin cfg0.N) (h0 : ¬t.val % 32 = 0) (p : Fin 128) (a b : Fin 16) :
    (stAt V c t.val t.isLt).2.2.1 (ix3 p a b)
      = (stAt V c (t.val - 1) (Nat.lt_of_le_of_lt (Nat.sub_le _ _) t.isLt)).2.2.1 (ix3 p a b)
        + tileV V c 1 (nb (t.val / 32) p) a b (t.val % 32) := by
  by_cases h1 : t.val % 32 = 31
  · rw [stAt_last V c t h0 h1, leftLast_Y, hS.stepY, (coords_eq t).1, (coords_eq t).2, tileV_of_blocks V c t _ p a b _ _ rfl rfl]
  · rw [stAt_mid V c t h0 h1, leftMid_Y, hS.stepY, (coords_eq t).1, (coords_eq t).2, tileV_of_blocks V c t _ p a b _ _ rfl rfl]
theorem accN_next (c : Dev nD) (t : Fin cfg0.N) (h0 : ¬t.val % 32 = 0) (p : Fin 128) (a b : Fin 16) :
    (stAt V c t.val t.isLt).2.2.2 (ix3 p a b)
      = (stAt V c (t.val - 1) (Nat.lt_of_le_of_lt (Nat.sub_le _ _) t.isLt)).2.2.2 (ix3 p a b)
        + tileN V c (nb (t.val / 32) p) a b (t.val % 32) := by
  by_cases h1 : t.val % 32 = 31
  · rw [stAt_last V c t h0 h1, leftLast_N, hS.stepN, (coords_eq t).1, (coords_eq t).2, tileN_of_blocks]
  · rw [stAt_mid V c t h0 h1, leftMid_N, hS.stepN, (coords_eq t).1, (coords_eq t).2, tileN_of_blocks]

/-! ## Each accumulator is the sum of its row's tiles so far -/

theorem accX_sum (c : Dev nD) (p : Fin 128) (a b : Fin 16) (n : ℕ) (hn : n < cfg0.N) :
    (stAt V c n hn).2.1 (ix3 p a b)
      = ∑ j ∈ Finset.range (n % 32 + 1), tileV V c 0 (nb ((n - n % 32 + j) / 32) p) a b ((n - n % 32 + j) % 32) :=
  rowAcc_eq (fun n => tileV V c 0 (nb (n / 32) p) a b (n % 32)) (fun n hn => (stAt V c n hn).2.1 (ix3 p a b))
    (fun n hn h0 => accX_first V hS c ⟨n, hn⟩ h0 p a b)
    (fun n hn h => by
      have e := accX_next V hS c ⟨n + 1, hn⟩ h p a b
      rw [stAt_congr V c ((⟨n + 1, hn⟩ : Fin cfg0.N).val - 1) n (Nat.add_sub_cancel n 1) _ (Nat.lt_of_succ_lt hn)] at e
      exact e) n hn
theorem accY_sum (c : Dev nD) (p : Fin 128) (a b : Fin 16) (n : ℕ) (hn : n < cfg0.N) :
    (stAt V c n hn).2.2.1 (ix3 p a b)
      = ∑ j ∈ Finset.range (n % 32 + 1), tileV V c 1 (nb ((n - n % 32 + j) / 32) p) a b ((n - n % 32 + j) % 32) :=
  rowAcc_eq (fun n => tileV V c 1 (nb (n / 32) p) a b (n % 32)) (fun n hn => (stAt V c n hn).2.2.1 (ix3 p a b))
    (fun n hn h0 => accY_first V hS c ⟨n, hn⟩ h0 p a b)
    (fun n hn h => by
      have e := accY_next V hS c ⟨n + 1, hn⟩ h p a b
      rw [stAt_congr V c ((⟨n + 1, hn⟩ : Fin cfg0.N).val - 1) n (Nat.add_sub_cancel n 1) _ (Nat.lt_of_succ_lt hn)] at e
      exact e) n hn
theorem accN_sum (c : Dev nD) (p : Fin 128) (a b : Fin 16) (n : ℕ) (hn : n < cfg0.N) :
    (stAt V c n hn).2.2.2 (ix3 p a b)
      = ∑ j ∈ Finset.range (n % 32 + 1), tileN V c (nb ((n - n % 32 + j) / 32) p) a b ((n - n % 32 + j) % 32) :=
  rowAcc_eq (fun n => tileN V c (nb (n / 32) p) a b (n % 32)) (fun n hn => (stAt V c n hn).2.2.2 (ix3 p a b))
    (fun n hn h0 => accN_first V hS c ⟨n, hn⟩ h0 p a b)
    (fun n hn h => by
      have e := accN_next V hS c ⟨n + 1, hn⟩ h p a b
      rw [stAt_congr V c ((⟨n + 1, hn⟩ : Fin cfg0.N).val - 1) n (Nat.add_sub_cancel n 1) _ (Nat.lt_of_succ_lt hn)] at e
      exact e) n hn

/-- After the row's last tile each accumulator is the sum over all 32 tiles. -/
theorem rowX (c : Dev nD) (t : Fin cfg0.N) (h1 : t.val % 32 = 31) (p : Fin 128) (a b : Fin 16) :
    (stAt V c t.val t.isLt).2.1 (ix3 p a b) = ∑ J ∈ Finset.range 32, tileV V c 0 (nb (t.val / 32) p) a b J := by
  rw [accX_sum V hS c p a b t.val t.isLt, h1]
  refine Finset.sum_congr rfl fun j hj => ?_
  have hj' := Finset.mem_range.mp hj
  rw [show (t.val - 31 + j) / 32 = t.val / 32 from by omega, show (t.val - 31 + j) % 32 = j from by omega]
theorem rowY (c : Dev nD) (t : Fin cfg0.N) (h1 : t.val % 32 = 31) (p : Fin 128) (a b : Fin 16) :
    (stAt V c t.val t.isLt).2.2.1 (ix3 p a b) = ∑ J ∈ Finset.range 32, tileV V c 1 (nb (t.val / 32) p) a b J := by
  rw [accY_sum V hS c p a b t.val t.isLt, h1]
  refine Finset.sum_congr rfl fun j hj => ?_
  have hj' := Finset.mem_range.mp hj
  rw [show (t.val - 31 + j) / 32 = t.val / 32 from by omega, show (t.val - 31 + j) % 32 = j from by omega]
theorem rowN (c : Dev nD) (t : Fin cfg0.N) (h1 : t.val % 32 = 31) (p : Fin 128) (a b : Fin 16) :
    (stAt V c t.val t.isLt).2.2.2 (ix3 p a b) = ∑ J ∈ Finset.range 32, tileN V c (nb (t.val / 32) p) a b J := by
  rw [accN_sum V hS c p a b t.val t.isLt, h1]
  refine Finset.sum_congr rfl fun j hj => ?_
  have hj' := Finset.mem_range.mp hj
  rw [show (t.val - 31 + j) / 32 = t.val / 32 from by omega, show (t.val - 31 + j) % 32 = j from by omega]

/-! ## The output block at a row's last tile -/

/-- The quotient slices read at an index, at the ideal instance: sum / max(count, 1), cell-major. -/
structure QuotFacts : Prop where
  quotX : ∀ (gN gX : Vec Ideal S128x16x16 .f32) (p : Fin 128) (k : Fin 256) (u : Fin 1),
    quotX (F := Ideal) gN gX (ix3 p k u)
      = Ideal.div (gX (ix3 p (⟨k.val / 16, by omega⟩ : Fin 16) (⟨k.val % 16, by omega⟩ : Fin 16)))
          (max (gN (ix3 p (⟨k.val / 16, by omega⟩ : Fin 16) (⟨k.val % 16, by omega⟩ : Fin 16))) (Ideal.ofBits .f32 0x3F800000#32))
  quotY : ∀ (gN gY : Vec Ideal S128x16x16 .f32) (p : Fin 128) (k : Fin 256) (u : Fin 1),
    quotY (F := Ideal) gN gY (ix3 p k u)
      = Ideal.div (gY (ix3 p (⟨k.val / 16, by omega⟩ : Fin 16) (⟨k.val % 16, by omega⟩ : Fin 16)))
          (max (gN (ix3 p (⟨k.val / 16, by omega⟩ : Fin 16) (⟨k.val % 16, by omega⟩ : Fin 16))) (Ideal.ofBits .f32 0x3F800000#32))

omit hS in
/-- After a row's last tile the output's staging buffer holds the two quotient slices of that point's accumulators. -/
theorem out_eq (c : Dev nD) (t : Fin cfg0.N) (h1 : t.val % 32 = 31) :
    (stAt V c t.val t.isLt).1
      = View.canon [⟨rO1, quotY (F := Ideal) (stAt V c t.val t.isLt).2.2.2 (stAt V c t.val t.isLt).2.2.1⟩,
          ⟨rO0, quotX (F := Ideal) (stAt V c t.val t.isLt).2.2.2 (stAt V c t.val t.isLt).2.1⟩] := by
  have h0 : ¬t.val % 32 = 0 := by omega
  rw [stAt_last V c t h0 h1, leftLast_O, leftLast_X, leftLast_Y, leftLast_N]

omit hS in
/-- The two slices' embeddings of a block index, and an index of the first component lies outside the second's slice. -/
theorem emb_O1 (p : Fin 128) (k : Fin 256) : rO1.emb (ix3 p k (0 : Fin 1)) = ix3 p k (1 : Fin 2) := by
  funext a
  apply Fin.ext
  match a with
  | ⟨0, _⟩ => show 0 + 1 * p.val = p.val; omega
  | ⟨1, _⟩ => show 0 + 1 * k.val = k.val; omega
  | ⟨2, _⟩ => show 1 + 1 * 0 = 1; rfl
omit hS in
theorem emb_O0 (p : Fin 128) (k : Fin 256) : rO0.emb (ix3 p k (0 : Fin 1)) = ix3 p k (0 : Fin 2) := by
  funext a
  apply Fin.ext
  match a with
  | ⟨0, _⟩ => show 0 + 1 * p.val = p.val; omega
  | ⟨1, _⟩ => show 0 + 1 * k.val = k.val; omega
  | ⟨2, _⟩ => show 0 + 1 * 0 = 0; rfl
omit hS in
theorem not_mem_O1 (p : Fin 128) (k : Fin 256) : (ix3 p k (0 : Fin 2) : S128x256x2.Idx) ∉ rO1.set := by
  rw [Rect.mem_set_unit]
  intro h
  have h2 := (h (⟨2, by decide⟩ : Fin 3)).1
  have h3 : (1 : ℕ) ≤ 0 := h2
  omega

variable (hQ : QuotFacts)
include hQ

set_option maxHeartbeats 1600000 in
/-- The output block after a row's last tile, read at (p, k, d): the grid entry of pedestrian 128·(t / 32) + p. -/
theorem out_apply (c : Dev nD) (t : Fin cfg0.N) (h1 : t.val % 32 = 31) (p : Fin 128) (k : Fin 256) (d : Fin 2) :
    (stAt V c t.val t.isLt).1 (ix3 p k d) = Cert.Tile.grid (posA V c) (velA V c) (ix3 (nb (t.val / 32) p) k d) := by
  rw [out_eq V c t h1, Cert.Tile.grid_apply]
  by_cases hd : d = 0
  · subst hd
    have e1 := View.canon_cons_of_not_mem (Val := Elt Ideal)
      (⟨rO1, quotY (F := Ideal) (stAt V c t.val t.isLt).2.2.2 (stAt V c t.val t.isLt).2.2.1⟩ : View.Piece (Elt Ideal) S128x256x2 .f32)
      ([⟨rO0, quotX (F := Ideal) (stAt V c t.val t.isLt).2.2.2 (stAt V c t.val t.isLt).2.1⟩] : List (View.Piece (Elt Ideal) S128x256x2 .f32))
      (not_mem_O1 p k)
    have e0 := View.canon_cons_emb (Val := Elt Ideal) (e := .f32) rO0
      (quotX (F := Ideal) (stAt V c t.val t.isLt).2.2.2 (stAt V c t.val t.isLt).2.1) [] (ix3 p k (0 : Fin 1))
    rw [emb_O0] at e0
    rw [e1, e0, hQ.quotX, rowX V hS c t h1, rowN V hS c t h1]
    rfl
  · have hd1 : d = 1 := by
      apply Fin.ext
      have := d.isLt
      have hne : d.val ≠ 0 := fun e => hd (Fin.ext e)
      show d.val = 1
      omega
    subst hd1
    have e0 := View.canon_cons_emb (Val := Elt Ideal) (e := .f32) rO1
      (quotY (F := Ideal) (stAt V c t.val t.isLt).2.2.2 (stAt V c t.val t.isLt).2.2.1)
      ([⟨rO0, quotX (F := Ideal) (stAt V c t.val t.isLt).2.2.2 (stAt V c t.val t.isLt).2.1⟩] : List (View.Piece (Elt Ideal) S128x256x2 .f32))
      (ix3 p k (0 : Fin 1))
    rw [emb_O1] at e0
    rw [e0, hQ.quotY, rowY V hS c t h1, rowN V hS c t h1]
    rfl

omit hS hQ in
/-- A function of the binned array's index read through the output window's block at point t. -/
theorem out_blk_apply (c : Dev nD) (G : Cert.Tile.S4096x256x2.Idx → EReal) (t : Fin cfg0.N) (x : S128x256x2.Idx)
    (k : S4096x256x2.Idx) (hk0 : (k 0).val = 128 * (t.val / 32) + (x 0).val) (hk1 : (k 1).val = (x 1).val)
    (hk2 : (k 2).val = (x 2).val) :
    ((cfg0.win 4).blk t).view.read (Elt Ideal) (G : Buf (Elt Ideal) ((cfg0.win 4).arr.view.loc (c : Thread nD τ))) x = G k := by
  have hi := index_o t
  rw [View.read_apply]
  show G _ = G _
  congr 1
  funext a
  apply Fin.ext
  match a with
  | ⟨0, _⟩ => show win0_4.index t 0 * 128 + 1 * (x 0).val = (k 0).val; rw [hi.1, hk0]; omega
  | ⟨1, _⟩ => show win0_4.index t 1 * 256 + 1 * (x 1).val = (k 1).val; rw [hi.2.1, hk1]; omega
  | ⟨2, _⟩ => show win0_4.index t 2 * 2 + 1 * (x 2).val = (k 2).val; rw [hi.2.2, hk2]; omega

/-- What a row's last tile writes back is its block of the grid. -/
theorem flushed_eq (c : Dev nD) (t : Fin cfg0.N) (hf : (cfg0.win 4).flush t = true) :
    (dat V c).flushed 4 t = ((cfg0.win 4).blk t).view.read (Elt Ideal) (Cert.Tile.grid (posA V c) (velA V c)) := by
  have h1 : t.val % 32 = 31 := (flush0_4 t).mp hf
  have hN : t.val < 1024 := lt_of_lt_of_eq t.isLt (show cfg0.N = 1024 from N_0)
  have hI : t.val / 32 < 32 := by omega
  funext x
  obtain ⟨p, k, d, rfl⟩ : ∃ (p : Fin 128) (k : Fin 256) (d : Fin 2), x = ix3 p k d := ⟨x 0, x 1, x 2, eq_ix3 x⟩
  rw [out_blk_apply c _ t (ix3 p k d) (ix3 (nb (t.val / 32) p) k d) (by show (nb _ p).val = _; rw [nb_val _ hI]) rfl rfl]
  show (dat V c).after 4 t (ix3 p k d) = _
  rw [after_o, out_apply V hS hQ c t h1]

/-- The 32 blocks written back tile the binned array, so it ends holding the grid. -/
theorem binned_eq (c : Dev nD) : (dat V c).arrAt 4 cfg0.N = Cert.Tile.grid (posA V c) (velA V c) :=
  (dat V c).arrAt_eq_of_cover 4 _ (flushed_eq V hS hQ c) fun i => by
    have h0 : (i 0 : ℕ) < 4096 := (i 0).isLt
    have h1 : (i 1 : ℕ) < 256 := (i 1).isLt
    have h2 : (i 2 : ℕ) < 2 := (i 2).isLt
    have ht : 32 * ((i 0 : ℕ) / 128) + 31 < cfg0.N := by rw [show cfg0.N = 1024 from N_0]; omega
    have hi : win0_4.index ⟨32 * ((i 0 : ℕ) / 128) + 31, ht⟩ 0 = (32 * ((i 0 : ℕ) / 128) + 31) / 32
        ∧ win0_4.index ⟨32 * ((i 0 : ℕ) / 128) + 31, ht⟩ 1 = 0 ∧ win0_4.index ⟨32 * ((i 0 : ℕ) / 128) + 31, ht⟩ 2 = 0 :=
      index_o ⟨_, ht⟩
    refine ⟨⟨32 * ((i 0 : ℕ) / 128) + 31, ht⟩, (flush0_4 _).mpr (by show (32 * ((i 0 : ℕ) / 128) + 31) % 32 = 31; omega), ?_⟩
    show i ∈ ((View.whole main_v1).slice (win0_4.rect ⟨32 * ((i 0 : ℕ) / 128) + 31, ht⟩)).set
    rw [View.set_slice_whole, Rect.mem_set_unit]
    intro a
    match a with
    | ⟨0, _⟩ =>
      show win0_4.index ⟨32 * ((i 0 : ℕ) / 128) + 31, ht⟩ 0 * 128 ≤ (i 0 : ℕ)
        ∧ (i 0 : ℕ) < win0_4.index ⟨32 * ((i 0 : ℕ) / 128) + 31, ht⟩ 0 * 128 + 128
      rw [hi.1]; constructor <;> omega
    | ⟨1, _⟩ =>
      show win0_4.index ⟨32 * ((i 0 : ℕ) / 128) + 31, ht⟩ 1 * 256 ≤ (i 1 : ℕ)
        ∧ (i 1 : ℕ) < win0_4.index ⟨32 * ((i 0 : ℕ) / 128) + 31, ht⟩ 1 * 256 + 256
      rw [hi.2.1]; constructor <;> omega
    | ⟨2, _⟩ =>
      show win0_4.index ⟨32 * ((i 0 : ℕ) / 128) + 31, ht⟩ 2 * 2 ≤ (i 2 : ℕ)
        ∧ (i 2 : ℕ) < win0_4.index ⟨32 * ((i 0 : ℕ) / 128) + 31, ht⟩ 2 * 2 + 2
      rw [hi.2.2]; constructor <;> omega

end Cert.KernelIdeal.Bin

end
-- ==== Proof.HeadValueI.lean ====
/-
  The head region's result array, at the ideal instance.

  The body's one store, through the whole output buffer, leaves its payload: per row p of the block and output o,
  max(Σ_k x(p, k) · W(o, k) + b(o), 0). Read through the blocks, the block written back at point t is block t of
  one function of the flattened grid, the weight table and the bias row; the eight blocks tile the 4096 rows.
-/
import proofs.«161577_j37271726195508_2_alg».proof.Proof.BlocksI
import Idealize.ShloMosaic.Lib.Pipeline.Value
import Idealize.ShloMosaic.Lib.ValueIdx

set_option maxRecDepth 16384

noncomputable section

open scoped BigOperators

namespace Cert.KernelIdeal.Head

open Cert.KernelIdeal Cert.KernelIdeal.Gen
open Idealize.ShloMosaic Idealize.ShloMosaic.TcCoe Idealize.ShloMosaic.ValueIdx
open Idealize.SL.Sem
open Idealize.ShloMosaic.Pipeline (Dat)

theorem hz2 : (![0, 0] : Fin 2 → ℕ) = fun _ => 0 := funext fun a => by fin_cases a <;> rfl

/-- What the body leaves in the output buffer is its payload of the three blocks (at any float instance). -/
theorem left_eq {F : FTy → Type} [FloatOps F] (x : Vec F S512x512 .f32) (w : Vec F S256x512 .f32) (b : Vec F S1x256 .f32) :
    left x w b = k1_pay1 x w b := by
  unfold left
  rw [View.canon_unit_zero hz2]
  simp only [View.ld_unit_zero (S := S512x512) hz2, View.ld_unit_zero (S := S256x512) hz2, View.ld_unit_zero (S := S1x256) hz2]

/-- The head payload read at an index, at the ideal instance. -/
def PayFact : Prop :=
  ∀ (x : Vec Ideal S512x512 .f32) (w : Vec Ideal S256x512 .f32) (b : Vec Ideal S1x256 .f32) (p : Fin 512) (o : Fin 256),
    k1_pay1 (F := Ideal) x w b (ix2 p o) = max ((∑ kk : Fin 512, x (ix2 p kk) * w (ix2 o kk)) + b (ix2 (0 : Fin 1) o)) 0

variable (V : (c : Dev nD) → (b : Ref sig .tc) → Buf (Elt Ideal) ((c : Thread nD τ).loc b))

/-- The head as one function of a 4096 × 512 array, a weight table and a bias row. -/
def headOf (x : S4096x512.Idx → EReal) (w : S256x512.Idx → EReal) (b : S1x256.Idx → EReal) : S4096x256.Idx → EReal := fun y =>
  max ((∑ kk : Fin 512, x (ix2 (y 0) kk) * w (ix2 (y 1) kk)) + b (ix2 (0 : Fin 1) (y 1))) 0

/-- The result as that function of the region's three input arrays. -/
def headFun (c : Dev nD) : S4096x256.Idx → EReal := headOf (V c main_v2) (V c main_arg3) (V c main_v3)

/-- A function of the result's index read through the output window's block at point t. -/
theorem out_blk_apply (c : Dev nD) (G : S4096x256.Idx → EReal) (t : Fin cfg1.N) (x : S512x256.Idx) (k : S4096x256.Idx)
    (hk0 : (k 0).val = 512 * t.val + (x 0).val) (hk1 : (k 1).val = (x 1).val) :
    ((cfg1.win 3).blk t).view.read (Elt Ideal) (G : Buf (Elt Ideal) ((cfg1.win 3).arr.view.loc (c : Thread nD τ))) x = G k := by
  have hi := index_o t
  rw [View.read_apply]
  show G _ = G _
  congr 1
  funext a
  apply Fin.ext
  match a with
  | ⟨0, _⟩ => show win1_3.index t 0 * 512 + 1 * (x 0).val = (k 0).val; rw [hi.1, hk0]; omega
  | ⟨1, _⟩ => show win1_3.index t 1 * 256 + 1 * (x 1).val = (k 1).val; rw [hi.2, hk1]; omega

variable (hP : PayFact)
include hP

/-- What point t writes back is block t of `headFun`. -/
theorem flushed_eq (c : Dev nD) (t : Fin cfg1.N) (hf : (cfg1.win 3).flush t = true) :
    (dat V c).flushed 3 t = ((cfg1.win 3).blk t).view.read (Elt Ideal) (headFun V c) := by
  have hN : t.val < 8 := lt_of_lt_of_eq t.isLt (show cfg1.N = 8 from N_1)
  funext x
  obtain ⟨p, o, rfl⟩ : ∃ (p : Fin 512) (o : Fin 256), x = ix2 p o := ⟨x 0, x 1, eq_ix2 x⟩
  rw [out_blk_apply c (headFun V c) t (ix2 p o) (ix2 (⟨512 * t.val + p.val, by omega⟩ : Fin 4096) o) rfl rfl]
  show (dat V c).after 3 t (ix2 p o) = _
  rw [after_o, left_eq, hP]
  unfold headFun headOf
  congr 1
  congr 1
  · refine Finset.sum_congr rfl fun kk _ => ?_
    rw [blk_x_apply V c t (ix2 p kk) (ix2 (⟨512 * t.val + p.val, by omega⟩ : Fin 4096) kk) rfl rfl, blk_w_apply]
  · rw [blk_b_apply]

/-- The eight blocks tile the result, so it ends holding `headFun`. -/
theorem result_eq (c : Dev nD) : (dat V c).arrAt 3 cfg1.N = headFun V c :=
  (dat V c).arrAt_eq_of_cover 3 (headFun V c) (flushed_eq V hP c) fun i => by
    have h0 : (i 0 : ℕ) < 4096 := (i 0).isLt
    have h1 : (i 1 : ℕ) < 256 := (i 1).isLt
    have ht : (i 0 : ℕ) / 512 < cfg1.N := by rw [show cfg1.N = 8 from N_1]; omega
    have hi : win1_3.index ⟨(i 0 : ℕ) / 512, ht⟩ 0 = (i 0 : ℕ) / 512 ∧ win1_3.index ⟨(i 0 : ℕ) / 512, ht⟩ 1 = 0 := index_o ⟨_, ht⟩
    refine ⟨⟨(i 0 : ℕ) / 512, ht⟩, flush1_3 _, ?_⟩
    show i ∈ ((View.whole main_v4).slice (win1_3.rect ⟨(i 0 : ℕ) / 512, ht⟩)).set
    rw [View.set_slice_whole, Rect.mem_set_unit]
    intro a
    match a with
    | ⟨0, _⟩ =>
      show win1_3.index ⟨(i 0 : ℕ) / 512, ht⟩ 0 * 512 ≤ (i 0 : ℕ) ∧ (i 0 : ℕ) < win1_3.index ⟨(i 0 : ℕ) / 512, ht⟩ 0 * 512 + 512
      rw [hi.1]; constructor <;> omega
    | ⟨1, _⟩ =>
      show win1_3.index ⟨(i 0 : ℕ) / 512, ht⟩ 1 * 256 ≤ (i 1 : ℕ) ∧ (i 1 : ℕ) < win1_3.index ⟨(i 0 : ℕ) / 512, ht⟩ 1 * 256 + 256
      rw [hi.2]; constructor <;> omega

end Cert.KernelIdeal.Head

end
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.LibTrailMerge.lean ====
/-
  A reshape that merges the two trailing axes of a rank-3 array, read at an index. Row-major order puts entry
  `(p, q, j)` of an `[a, b, c]` array at position `(p·b + q)·c + j = p·(b·c) + (q·c + j)`, which is where entry
  `(p, q·c + j)` of an `[a, b·c]` array sits; and the other way round. Generic in the extents and in the element type.
-/
import Idealize.ShloMosaic.Lib.Pipeline.Value
import Idealize.ShloMosaic.Lib.ValueIdx

namespace Cert.Lib.TrailMerge

open Idealize.ShloMosaic Idealize.ShloMosaic.ValueIdx

variable {α : Type}

/-- An `[a, b, c]` array reshaped to `[a, n]`, `n = b·c`, reads, at `(p, k)` with `k = q·c + j`, the operand at `(p, q, j)`. -/
theorem merge_apply {a b c n : ℕ} (hn : n = b * c) (x : (⟨3, ![a, b, c]⟩ : Shape).Idx → α)
    (h : (⟨3, ![a, b, c]⟩ : Shape).ShapeCasts ⟨2, ![a, n]⟩) (p : Fin a) (q : Fin b) (j : Fin c) (k : Fin n)
    (hk : k.val = q.val * c + j.val) : shapeCast ⟨2, ![a, n]⟩ x h (ix2 p k) = x (ix3 p q j) :=
  shapeCast_apply x h _ _ (by
    rw [Shape.rowMajor_val_three, Shape.rowMajor_val_two]
    show (p.val * b + q.val) * c + j.val = p.val * n + k.val
    rw [hk, hn]; ring)

/-- An `[a, n]` array reshaped to `[a, b, c]`, `n = b·c`, reads, at `(p, q, j)`, the operand at `(p, q·c + j)`. -/
theorem split_apply {a b c n : ℕ} (hn : n = b * c) (y : (⟨2, ![a, n]⟩ : Shape).Idx → α)
    (h : (⟨2, ![a, n]⟩ : Shape).ShapeCasts ⟨3, ![a, b, c]⟩) (p : Fin a) (q : Fin b) (j : Fin c) (k : Fin n)
    (hk : k.val = q.val * c + j.val) : shapeCast ⟨3, ![a, b, c]⟩ y h (ix3 p q j) = y (ix2 p k) :=
  shapeCast_apply y h _ _ (by
    rw [Shape.rowMajor_val_three, Shape.rowMajor_val_two]
    show p.val * n + k.val = (p.val * b + q.val) * c + j.val
    rw [hk, hn]; ring)

end Cert.Lib.TrailMerge
-- ==== Proof.LibColumnLayout.lean ====
/-
  Column forms of three layout operations, read at an index: a vector of `a` entries stood up as an `[a, 1]` column, an
  `[a, 1]` column laid down as a `[1, a]` row (both keep the row-major order, so entry `i` stays entry `i`), and an
  `[a, 1]` column broadcast along its unit axis to `[a, b]` (row `p` is `b` copies of the column's entry `p`).
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the column's entry `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibRank3Layout.lean ====
/-
  Rank-3 layouts read at an index given by coordinates, for any element type and any extents.

  A value that varies along only some of three axes is stored with unit extents on the others and then
  broadcast. Read at `(p, q, r)`:
  • a matrix `[a, c]` recast as `[a, 1, c]` is the matrix at `(p, r)`, and broadcast to `[a, b, c]` it is the
    same entry for every `q`;
  • a stack `[1, b, c]` broadcast to `[a, b, c]` is the one matrix at `(q, r)` for every `p`;
  • a vector `[c]` recast as `[1, 1, c]` and broadcast to `[a, b, c]` is the vector at `r` for every `(p, q)`.
  Each cast keeps the row-major position; each broadcast reads coordinate `0` on a unit axis.
-/
import Idealize.ShloMosaic.Lib.ValueLayout

namespace Cert.Lib.Rank3Layout

open Idealize.ShloMosaic Idealize.ShloMosaic.ValueIdx

variable {α : Type}

/-- An `[a, c]` array cast to `[a, 1, c]` reads, at `(i, u, j)`, the operand at `(i, j)`: the unit axis in the
    middle does not move the row-major position. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_two, Shape.rowMajor_val_three]
    show i.val * c + j.val = (i.val * 1 + u.val) * c + j.val
    rw [hu, Nat.mul_one, Nat.add_zero])

/-- A `[c]` array cast to `[1, 1, c]` reads, at `(u, w, j)`, the operand at `j`. -/
theorem shapeCast_c_11c_apply {c : ℕ} (x : (⟨1, ![c]⟩ : Shape).Idx → α)
    (h : (⟨1, ![c]⟩ : Shape).ShapeCasts ⟨3, ![1, 1, c]⟩) (u w : Fin 1) (j : Fin c) :
    shapeCast ⟨3, ![1, 1, c]⟩ x h (ix3 u w j) = x (ix1 j) :=
  shapeCast_apply x h _ _ (by
    have hu : u.val = 0 := by omega
    have hw : w.val = 0 := by omega
    rw [Shape.rowMajor_val_one, Shape.rowMajor_val_three]
    show j.val = (u.val * 1 + w.val) * c + j.val
    simp only [hu, hw, Nat.zero_mul, Nat.add_zero, Nat.zero_add])

/-- An `[a, 1, c]` array broadcast to `[a, b, c]` reads, at `(p, q, r)`, the operand at `(p, 0, r)`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array broadcast to `[a, b, c]` reads, at `(p, q, r)`, the operand at `(0, q, r)`. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) := by
  refine broadcastTo_apply x h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A `[1, 1, c]` array broadcast to `[a, b, c]` reads, at `(p, q, r)`, the operand at `(0, 0, r)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ x h (ix3 p q r) = x (ix3 (0 : Fin 1) (0 : Fin 1) r) := by
  refine broadcastTo_apply x h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- A matrix `[a, c]` laid along the first and last of three axes: recast `[a, 1, c]`, broadcast to `[a, b, c]`,
    read at `(p, q, r)`, it is the matrix at `(p, r)`. -/
theorem outer_rows_apply {a b c : ℕ} (x : (⟨2, ![a, c]⟩ : Shape).Idx → α)
    (h₁ : (⟨2, ![a, c]⟩ : Shape).ShapeCasts ⟨3, ![a, 1, c]⟩)
    (h₂ : (⟨3, ![a, 1, c]⟩ : Shape).Broadcasts ⟨3, ![a, b, c]⟩) (p : Fin a) (q : Fin b) (r : Fin c) :
    broadcastTo ⟨3, ![a, b, c]⟩ (shapeCast ⟨3, ![a, 1, c]⟩ x h₁) h₂ (ix3 p q r) = x (ix2 p r) :=
  (broadcastTo_a1c_abc_apply _ h₂ p q r).trans (shapeCast_ac_a1c_apply x h₁ p 0 r)

/-- A matrix `[b, c]` laid along the last two of three axes: recast `[1, b, c]`, broadcast to `[a, b, c]`, read
    at `(p, q, r)`, it is the matrix at `(q, r)`. -/
theorem inner_rows_apply {a b c : ℕ} (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) :=
  (broadcastTo_1bc_abc_apply _ h₂ p q r).trans (shapeCast_ab_1ab_apply x h₁ 0 q r)

/-- A vector `[c]` laid along the last of three axes: recast `[1, 1, c]`, broadcast to `[a, b, c]`, read at
    `(p, q, r)`, it is the vector at `r`. -/
theorem lanes_apply {a b c : ℕ} (x : (⟨1, ![c]⟩ : Shape).Idx → α)
    (h₁ : (⟨1, ![c]⟩ : Shape).ShapeCasts ⟨3, ![1, 1, c]⟩)
    (h₂ : (⟨3, ![1, 1, c]⟩ : Shape).Broadcasts ⟨3, ![a, b, c]⟩) (p : Fin a) (q : Fin b) (r : Fin c) :
    broadcastTo ⟨3, ![a, b, c]⟩ (shapeCast ⟨3, ![1, 1, c]⟩ x h₁) h₂ (ix3 p q r) = x (ix1 r) :=
  (broadcastTo_11c_abc_apply _ h₂ p q r).trans (shapeCast_c_11c_apply x h₁ 0 0 r)

end Cert.Lib.Rank3Layout
-- ==== Proof.LibBatchRowsDot.lean ====
/-
  A stack of matrices, each multiplied by the transpose of the matching matrix of another stack, read at an index,
  over the extended reals.

  For dimension numbers with one batch axis (axis 0 of both operands and of the result) that contract the left
  operand's axis 2 with the right operand's axis 2 and keep (batch, left axis 1, right axis 1) as the result's axes,
  the contraction at result index `(p, a, b)` is `Σ_{k < K} l(p, a, k) · r(p, b, k)`: the same plain sum for a
  `tpu.matmul` into a zero accumulator and for the host's `dot_general`, whatever the extents. The dimension record
  enters through the coordinate facts about how it reads its operands (for a printed record each holds by
  computation), so the lemmas serve every extent.
-/
import Idealize.ShloMosaic.Lib.ValueIdx
import Idealize.ShloMosaic.PureOps.Ideal.Laws

noncomputable section

namespace Cert.Lib.BatchRowsDot

open Idealize.ShloMosaic Idealize.ShloMosaic.ValueIdx

variable {B R K C : Nat} {φ₁ φ₂ : FTy}

/-- How a batched rows×inner by cols×inner dimension record reads its operands: one contracted axis of extent `K`; at
    result index `i` and contraction position `q` the left operand is read at `(i 0, i 1, q)` and the right at
    `(i 0, i 2, q)`. -/
structure Reads (d : DotDims (⟨3, ![B, R, K]⟩ : Shape) (⟨3, ![B, C, K]⟩ : Shape) (⟨3, ![B, R, C]⟩ : Shape)) : Prop where
  rank : d.contr.rank = 1
  size : d.contr.size ⟨0, by omega⟩ = K
  lhs0 : ∀ (i : (⟨3, ![B, R, C]⟩ : Shape).Idx) (q : d.contr.Idx), (d.lhsIdx i q 0).val = (i 0).val
  lhs1 : ∀ (i : (⟨3, ![B, R, C]⟩ : Shape).Idx) (q : d.contr.Idx), (d.lhsIdx i q 1).val = (i 1).val
  lhs2 : ∀ (i : (⟨3, ![B, R, C]⟩ : Shape).Idx) (q : d.contr.Idx), (d.lhsIdx i q 2).val = (q ⟨0, by omega⟩).val
  rhs0 : ∀ (i : (⟨3, ![B, R, C]⟩ : Shape).Idx) (q : d.contr.Idx), (d.rhsIdx i q 0).val = (i 0).val
  rhs1 : ∀ (i : (⟨3, ![B, R, C]⟩ : Shape).Idx) (q : d.contr.Idx), (d.rhsIdx i q 1).val = (i 2).val
  rhs2 : ∀ (i : (⟨3, ![B, R, C]⟩ : Shape).Idx) (q : d.contr.Idx), (d.rhsIdx i q 2).val = (q ⟨0, by omega⟩).val

variable {d : DotDims (⟨3, ![B, R, K]⟩ : Shape) (⟨3, ![B, C, K]⟩ : Shape) (⟨3, ![B, R, C]⟩ : Shape)}

/-- The sum over the record's contraction index is the sum over the shared inner axis' coordinate. -/
theorem sum_contr (h : Reads d) (l : FVec Ideal (⟨3, ![B, R, K]⟩ : Shape) φ₁) (r : FVec Ideal (⟨3, ![B, C, K]⟩ : Shape) φ₂)
    (p : Fin B) (a : Fin R) (b : Fin C) :
    ∑ q : d.contr.Idx, l (d.lhsIdx (ix3 p a b) q) * r (d.rhsIdx (ix3 p a b) q)
      = ∑ k : Fin K, l (ix3 p a k) * r (ix3 p b k) := by
  rw [← Equiv.sum_comp (contrEquiv1 d K h.rank h.size).symm]
  refine Finset.sum_congr rfl fun k _ => ?_
  have hk := contrEquiv1_symm_val d K h.rank h.size k
  have el : d.lhsIdx (ix3 p a b) ((contrEquiv1 d K h.rank h.size).symm k) = ix3 p a k := funext fun x => Fin.ext (by
    match x with
    | ⟨0, _⟩ => exact h.lhs0 _ _
    | ⟨1, _⟩ => exact h.lhs1 _ _
    | ⟨2, _⟩ => exact (h.lhs2 _ _).trans hk)
  have er : d.rhsIdx (ix3 p a b) ((contrEquiv1 d K h.rank h.size).symm k) = ix3 p b k := funext fun x => Fin.ext (by
    match x with
    | ⟨0, _⟩ => exact h.rhs0 _ _
    | ⟨1, _⟩ => exact h.rhs1 _ _
    | ⟨2, _⟩ => exact (h.rhs2 _ _).trans hk)
  rw [el, er]

/-- A `tpu.matmul` into the zero accumulator, at `(p, a, b)`. -/
theorem matmul_zero_apply (h : Reads d) (prec : Option ContractPrecision)
    (l : FVec Ideal (⟨3, ![B, R, K]⟩ : Shape) φ₁) (r : FVec Ideal (⟨3, ![B, C, K]⟩ : Shape) φ₂)
    (p : Fin B) (a : Fin R) (b : Fin C) :
    FloatOps.matmul d prec l r (constant (⟨3, ![B, R, C]⟩ : Shape) .f32 0x00000000#32) (ix3 p a b)
      = ∑ k : Fin K, l (ix3 p a k) * r (ix3 p b k) :=
  (Ideal.matmul_constant_zero_apply d prec l r (ix3 p a b)).trans (sum_contr h l r p a b)

/-- The host's `dot_general`, at `(p, a, b)`. -/
theorem dotGeneral_apply (h : Reads d) (prec : Option ContractPrecision) (sched : HostSchedule)
    (l : FVec Ideal (⟨3, ![B, R, K]⟩ : Shape) φ₁) (r : FVec Ideal (⟨3, ![B, C, K]⟩ : Shape) φ₂)
    (p : Fin B) (a : Fin R) (b : Fin C) :
    FloatOps.dotGeneral d prec sched l r (ix3 p a b) = ∑ k : Fin K, l (ix3 p a k) * r (ix3 p b k) :=
  (Ideal.dotGeneral_apply d prec sched l r (ix3 p a b)).trans (sum_contr h l r p a b)

end Cert.Lib.BatchRowsDot

end
-- ==== Proof.BinStepIdeal.lean ====
/-
  The binning body's arithmetic read at an index, over the extended reals.

  At a grid point (I, J) the body holds the query rows p (pedestrians 128·I + p) and the neighbour rows q (pedestrians
  128·J + q). Read at cell (a, b) of query row p, one tile's step adds to each accumulator the sum over the 128
  neighbours q of the value — a relative velocity component, or 1 for the count — when the pair hits the cell, and 0
  otherwise. The body computes this as a batched matrix product of two tables of 0/1 floats: (the clipped first cell word
  is a) · (the pair is valid), against (the clipped second cell word is b) · (the value). Over the extended reals
  0 · t = 0 and 1 · t = t for every t, so a summand is the value when all three conditions hold and 0 otherwise, with no
  finiteness assumption. The three conditions decode to the hit predicate: a signed comparison of a word with 0 or 16
  reads the word's signed value; clipping a word that lies in [0, 16) into [0, 15] leaves it, and when it does not lie
  there the pair is not valid and the factor is 0 anyway; the ramp's word at cell coordinate a equals a word exactly when
  that word reads a; and 128·I + p is below 2^32 for I < 32 and p < 128, so the two global numbers are equal as words
  exactly when they are equal as naturals.

  After the last tile the sums are divided by max(count, 1) and laid out as 128 × 256 × 1: column a·16 + b is cell
  (a, b). The head multiplies a block of rows by the transposed weights, adds the bias row and cuts off the negative
  part; a change of float format is the identity on the extended reals.
-/
import proofs.«161577_j37271726195508_2_alg».proof.Proof.BinStepI
import proofs.«161577_j37271726195508_2_alg».proof.Proof.BinHitI
import proofs.«161577_j37271726195508_2_alg».proof.Proof.LibPlainDot
import proofs.«161577_j37271726195508_2_alg».proof.Proof.LibTrailMerge
import proofs.«161577_j37271726195508_2_alg».proof.Proof.LibColumnLayout
import proofs.«161577_j37271726195508_2_alg».proof.Proof.LibRank3Layout
import proofs.«161577_j37271726195508_2_alg».proof.Proof.LibBatchRowsDot
import Idealize.ShloMosaic.Lib.ValueLayout
import Idealize.ShloMosaic.PureOps.Ideal.Laws

noncomputable section

open scoped BigOperators

namespace Cert.KernelIdeal.Bin

open Cert.KernelIdeal Cert.KernelIdeal.Gen
open Idealize.ShloMosaic Idealize.ShloMosaic.ValueIdx

/-! ## The reset value -/

theorem zeros_apply (y : S128x16x16.Idx) : zeros (F := Ideal) y = 0 := by
  unfold zeros k0_pay4
  show Ideal.ofBits .f32 0x00000000#32 = 0
  exact Ideal.ofBits_zero_f32

/-! ## The quotients, laid out as 128 × 256 × 1 -/

section Layout
variable {α : Type}

/-- An `[a, n]` array cast to `[a, n, 1]` reads, at `(p, k, u)`, the operand at `(p, k)`: a trailing unit axis does not
    move the row-major position. -/
theorem shapeCast_an_an1_apply {a n : ℕ} (x : (⟨2, ![a, n]⟩ : Shape).Idx → α)
    (h : (⟨2, ![a, n]⟩ : Shape).ShapeCasts ⟨3, ![a, n, 1]⟩) (p : Fin a) (k : Fin n) (u : Fin 1) :
    shapeCast ⟨3, ![a, n, 1]⟩ x h (ix3 p k u) = x (ix2 p k) :=
  shapeCast_apply x h _ _ (by
    have hu : u.val = 0 := by omega
    rw [Shape.rowMajor_val_two, Shape.rowMajor_val_three]
    show p.val * n + k.val = (p.val * n + k.val) * 1 + u.val
    rw [hu, Nat.mul_one, Nat.add_zero])

end Layout

/-- The divisor: the count, an empty cell counted as one. -/
theorem pay1_apply (gN : Vec Ideal S128x16x16 .f32) (y : S128x16x16.Idx) :
    k0_pay1 (F := Ideal) gN y = max (gN y) (Ideal.ofBits .f32 0x3F800000#32) := rfl

/-- The first quotient at `(p, k, u)`, for any column `k` of the 256 and the one coordinate `u` of the unit axis: column
    `k` is cell `(k / 16, k % 16)`. -/
theorem quotX_apply' (gN gX : Vec Ideal S128x16x16 .f32) (p : Fin 128) (k : Fin 256) (u : Fin 1) :
    quotX (F := Ideal) gN gX (ix3 p k u)
      = Ideal.div (gX (ix3 p (⟨k.val / 16, by omega⟩ : Fin 16) (⟨k.val % 16, by omega⟩ : Fin 16)))
          (max (gN (ix3 p (⟨k.val / 16, by omega⟩ : Fin 16) (⟨k.val % 16, by omega⟩ : Fin 16))) (Ideal.ofBits .f32 0x3F800000#32)) := by
  unfold quotX k0_pay2
  refine (shapeCast_an_an1_apply _ _ p k u).trans ?_
  refine (Cert.Lib.TrailMerge.merge_apply (by norm_num) _ _ p (⟨k.val / 16, by omega⟩ : Fin 16) (⟨k.val % 16, by omega⟩ : Fin 16) k
    (by show k.val = k.val / 16 * 16 + k.val % 16; omega)).trans ?_
  rw [divf_apply, pay1_apply]

theorem quotY_apply' (gN gY : Vec Ideal S128x16x16 .f32) (p : Fin 128) (k : Fin 256) (u : Fin 1) :
    quotY (F := Ideal) gN gY (ix3 p k u)
      = Ideal.div (gY (ix3 p (⟨k.val / 16, by omega⟩ : Fin 16) (⟨k.val % 16, by omega⟩ : Fin 16)))
          (max (gN (ix3 p (⟨k.val / 16, by omega⟩ : Fin 16) (⟨k.val % 16, by omega⟩ : Fin 16))) (Ideal.ofBits .f32 0x3F800000#32)) := by
  unfold quotY k0_pay3
  refine (shapeCast_an_an1_apply _ _ p k u).trans ?_
  refine (Cert.Lib.TrailMerge.merge_apply (by norm_num) _ _ p (⟨k.val / 16, by omega⟩ : Fin 16) (⟨k.val % 16, by omega⟩ : Fin 16) k
    (by show k.val = k.val / 16 * 16 + k.val % 16; omega)).trans ?_
  rw [divf_apply, pay1_apply]

/-- The first quotient at cell `(a, b)`, which is column `a · 16 + b`. -/
theorem quotX_apply (gN gX : Vec Ideal S128x16x16 .f32) (p : Fin 128) (a b : Fin 16) :
    quotX (F := Ideal) gN gX (ix3 p (⟨a.val * 16 + b.val, by omega⟩ : Fin 256) (0 : Fin 1))
      = Ideal.div (gX (ix3 p a b)) (max (gN (ix3 p a b)) (Ideal.ofBits .f32 0x3F800000#32)) := by
  unfold quotX k0_pay2
  refine (shapeCast_an_an1_apply _ _ p _ 0).trans ?_
  refine (Cert.Lib.TrailMerge.merge_apply (by norm_num) _ _ p a b _ rfl).trans ?_
  rw [divf_apply, pay1_apply]

theorem quotY_apply (gN gY : Vec Ideal S128x16x16 .f32) (p : Fin 128) (a b : Fin 16) :
    quotY (F := Ideal) gN gY (ix3 p (⟨a.val * 16 + b.val, by omega⟩ : Fin 256) (0 : Fin 1))
      = Ideal.div (gY (ix3 p a b)) (max (gN (ix3 p a b)) (Ideal.ofBits .f32 0x3F800000#32)) := by
  unfold quotY k0_pay3
  refine (shapeCast_an_an1_apply _ _ p _ 0).trans ?_
  refine (Cert.Lib.TrailMerge.merge_apply (by norm_num) _ _ p a b _ rfl).trans ?_
  rw [divf_apply, pay1_apply]

/-! ## The head: a plain product against the transposed weights, plus the bias, cut off at zero -/

theorem head_reads : Cert.Lib.PlainDot.Reads dot_S512x512_S512x256_S512x256_1_0_0_1_n_n where
  rank := rfl
  size := rfl
  lhs0 := fun _ _ => rfl
  lhs1 := fun _ _ => rfl
  rhs0 := fun _ _ => rfl
  rhs1 := fun _ _ => rfl

theorem head_apply (x : Vec Ideal S512x512 .f32) (w : Vec Ideal S256x512 .f32) (b : Vec Ideal S1x256 .f32)
    (p : Fin 512) (o : Fin 256) :
    k1_pay1 (F := Ideal) x w b (ix2 p o)
      = max ((∑ kk : Fin 512, x (ix2 p kk) * w (ix2 o kk)) + b (ix2 (0 : Fin 1) o)) 0 := by
  unfold k1_pay1
  show max (FloatOps.matmul (F := Ideal) dot_S512x512_S512x256_S512x256_1_0_0_1_n_n none _ _ (constant (F := Ideal) S512x256 .f32 0x00000000#32) (ix2 p o)
    + broadcastTo S512x256 (shapeCast S1x256 b _) _ (ix2 p o)) (Ideal.ofBits .f32 0x00000000#32) = _
  rw [Ideal.ofBits_zero_f32, broadcastTo_1b_ab_apply, Cert.Lib.PlainDot.matmul_zero_apply head_reads]
  simp only [shapeCast_self]
  refine congrArg (fun t : EReal => max (t + b (ix2 (0 : Fin 1) o)) 0) (Finset.sum_congr rfl fun kk _ => ?_)
  rw [truncf_apply, transpose_ix2_apply, truncf_apply]

/-! ## Words: the bit tests of the validity mask and of the two one-hot comparisons -/

section Words
/-- The float of a zero-extended bit: 1 for the set bit, 0 for the clear one. -/
theorem sitofp_extui_ofBool (c : Bool) :
    FloatOps.sitofp (F := Ideal) .f32 ((BitVec.ofBool c).setWidth 32) = if c then (1 : EReal) else 0 := by
  cases c
  · have h : ((BitVec.ofBool false).setWidth 32 : BitVec 32).toInt = 0 := by decide
    show ((((BitVec.ofBool false).setWidth 32 : BitVec 32).toInt : ℝ) : EReal) = _
    rw [h]; simp
  · have h : ((BitVec.ofBool true).setWidth 32 : BitVec 32).toInt = 1 := by decide
    show ((((BitVec.ofBool true).setWidth 32 : BitVec 32).toInt : ℝ) : EReal) = _
    rw [h]; simp

/-- Four bits and the complement of a fifth, conjoined. -/
theorem bits_and (b1 b2 b3 b4 b5 : Bool) :
    IntOp.andi (IntOp.andi (IntOp.andi (IntOp.andi (BitVec.ofBool b1) (BitVec.ofBool b2)) (BitVec.ofBool b3)) (BitVec.ofBool b4))
      (IntOp.xori (BitVec.ofBool b5) 1#1) = BitVec.ofBool (b1 && b2 && b3 && b4 && !b5) := by
  cases b1 <;> cases b2 <;> cases b3 <;> cases b4 <;> cases b5 <;> rfl

theorem cmpi_sge (x y : BitVec 32) : IntOp.cmpi .sge x y = BitVec.ofBool (decide (y.toInt ≤ x.toInt)) := rfl
theorem cmpi_slt (x y : BitVec 32) : IntOp.cmpi .slt x y = BitVec.ofBool (decide (x.toInt < y.toInt)) := rfl
theorem cmpi_eq (x y : BitVec 32) : IntOp.cmpi .eq x y = BitVec.ofBool (x == y) := rfl

theorem toInt_0 : (0#32 : BitVec 32).toInt = 0 := by decide
theorem toInt_15 : (15#32 : BitVec 32).toInt = 15 := by decide
theorem toInt_16 : (16#32 : BitVec 32).toInt = 16 := by decide

/-- The validity word of a pair: both cell words in [0, 16) read signed, and the two global numbers different. -/
def validWord (w0 w1 s t : BitVec 32) : BitVec 1 :=
  IntOp.andi (IntOp.andi (IntOp.andi (IntOp.andi (IntOp.cmpi .sge w0 0#32) (IntOp.cmpi .slt w0 16#32)) (IntOp.cmpi .sge w1 0#32))
    (IntOp.cmpi .slt w1 16#32)) (IntOp.xori (IntOp.cmpi .eq s t) 1#1)

theorem validWord_float (w0 w1 s t : BitVec 32) :
    FloatOps.sitofp (F := Ideal) .f32 ((validWord w0 w1 s t).setWidth 32)
      = if (0 ≤ w0.toInt ∧ w0.toInt < 16) ∧ (0 ≤ w1.toInt ∧ w1.toInt < 16) ∧ s ≠ t then (1 : EReal) else 0 := by
  unfold validWord
  rw [cmpi_sge, cmpi_slt, cmpi_sge, cmpi_slt, cmpi_eq, bits_and, sitofp_extui_ofBool, toInt_0, toInt_16]
  refine if_congr ?_ rfl rfl
  simp [and_assoc]

/-- Clipping a word that already lies in [0, 16) into [0, 15] leaves it. -/
theorem clip_of_range (w : BitVec 32) (h0 : 0 ≤ w.toInt) (h1 : w.toInt < 16) :
    IntOp.minsi 15#32 (IntOp.maxsi 0#32 w) = w := by
  have e0 : w.slt 0#32 = false := by
    show decide (w.toInt < (0#32 : BitVec 32).toInt) = false
    rw [toInt_0]; exact decide_eq_false (by omega)
  have e1 : (15#32 : BitVec 32).slt w = false := by
    show decide ((15#32 : BitVec 32).toInt < w.toInt) = false
    rw [toInt_15]; exact decide_eq_false (by omega)
  simp [IntOp.minsi, IntOp.maxsi, e0, e1]

/-- A 32-bit word made from a natural number below `2^31` reads back, signed, as that number. -/
theorem toInt_ofNat_small {j : ℕ} (hj : j < 2147483648) : (BitVec.ofNat 32 j).toInt = (j : ℤ) := by
  have h32 : (2 : ℕ) ^ 32 = 4294967296 := by norm_num
  rw [BitVec.toInt_eq_toNat_cond, BitVec.toNat_ofNat, h32, Nat.mod_eq_of_lt (by omega), if_pos (by omega)]

/-- The word of a small natural equals a word exactly when that word reads, signed, as the natural. -/
theorem ofNat_eq_iff (a : ℕ) (ha : a < 2147483648) (w : BitVec 32) : BitVec.ofNat 32 a = w ↔ w.toInt = (a : ℤ) := by
  constructor
  · rintro rfl; exact toInt_ofNat_small ha
  · intro h; exact BitVec.eq_of_toInt_eq ((toInt_ofNat_small ha).trans h.symm)

/-- The global number of row `p` of tile `I`, as a word: no overflow. -/
theorem gidx (I p : ℕ) (hI : I < 32) (hp : p < 128) :
    IntOp.addi (IntOp.muli (BitVec.ofNat 32 I) 128#32) (BitVec.ofNat 32 p) = BitVec.ofNat 32 (128 * I + p) := by
  apply BitVec.eq_of_toNat_eq
  simp only [IntOp.addi, IntOp.muli, BitVec.toNat_add, BitVec.toNat_mul, BitVec.toNat_ofNat]
  omega

theorem ofNat_inj_small {m n : ℕ} (hm : m < 4294967296) (hn : n < 4294967296) :
    BitVec.ofNat 32 m = BitVec.ofNat 32 n ↔ m = n := by
  constructor
  · intro h
    have := congrArg BitVec.toNat h
    simp only [BitVec.toNat_ofNat] at this
    omega
  · rintro rfl; rfl

/-- Two 0/1 factors and a third against a value, over the extended reals: no finiteness needed. -/
theorem onehot_mul (A V B : Prop) [Decidable A] [Decidable V] [Decidable B] (t : EReal) :
    ((if A then (1 : EReal) else 0) * (if V then (1 : EReal) else 0)) * ((if B then (1 : EReal) else 0) * t)
      = if A ∧ V ∧ B then t else 0 := by
  by_cases hA : A <;> by_cases hV : V <;> by_cases hB : B <;> simp [hA, hV, hB]

theorem onehot_mul_one (A V B : Prop) [Decidable A] [Decidable V] [Decidable B] :
    ((if A then (1 : EReal) else 0) * (if V then (1 : EReal) else 0)) * (if B then (1 : EReal) else 0)
      = if A ∧ V ∧ B then (1 : EReal) else 0 := by
  by_cases hA : A <;> by_cases hV : V <;> by_cases hB : B <;> simp [hA, hV, hB]

end Words

/-! ## Layouts: a column of a block as a row, and as a column, of a square -/

section Layout2
variable {α : Type}

/-- An `[a, 1]` column cast to `[a]` reads, at `i`, the column's entry `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `d` of an `[n, m]` array laid along the columns of a `[k, n]` array: entry `(p, q)` is `x (q, d)`. -/
theorem colAsRow_apply {n m k : ℕ} (x : (⟨2, ![n, m]⟩ : Shape).Idx → α) (o : ℕ) (d : Fin m) (hd : d.val = o)
    (h1 : (⟨2, ![n, m]⟩ : Shape).Slices ![0, o] ⟨2, ![n, 1]⟩) (h2 : (⟨2, ![n, 1]⟩ : Shape).ShapeCasts ⟨1, ![n]⟩)
    (h3 : (⟨1, ![n]⟩ : Shape).ShapeCasts ⟨2, ![1, n]⟩) (h4 : (⟨2, ![1, n]⟩ : Shape).Broadcasts ⟨2, ![k, n]⟩)
    (p : Fin k) (q : Fin n) :
    broadcastTo ⟨2, ![k, n]⟩ (shapeCast ⟨2, ![1, n]⟩ (shapeCast ⟨1, ![n]⟩ (extractStridedSlice ⟨2, ![n, 1]⟩ ![0, o] x h1) h2) h3) h4 (ix2 p q)
      = x (ix2 q d) :=
  (broadcastTo_1b_ab_apply _ h4 p q).trans ((shapeCast_a_1a_apply _ h3 0 q).trans ((shapeCast_a1_a_apply _ h2 q).trans
    (slice2_axis1_apply o x h1 q 0 d (by rw [hd]; rfl))))

/-- Column `d` of an `[n, m]` array laid along the rows of an `[n, k]` array: entry `(p, q)` is `x (p, d)`. -/
theorem colAsCol_apply {n m k : ℕ} (x : (⟨2, ![n, m]⟩ : Shape).Idx → α) (o : ℕ) (d : Fin m) (hd : d.val = o)
    (h1 : (⟨2, ![n, m]⟩ : Shape).Slices ![0, o] ⟨2, ![n, 1]⟩) (h2 : (⟨2, ![n, 1]⟩ : Shape).ShapeCasts ⟨1, ![n]⟩)
    (h3 : (⟨1, ![n]⟩ : Shape).ShapeCasts ⟨2, ![n, 1]⟩) (h4 : (⟨2, ![n, 1]⟩ : Shape).Broadcasts ⟨2, ![n, k]⟩)
    (p : Fin n) (q : Fin k) :
    broadcastTo ⟨2, ![n, k]⟩ (shapeCast ⟨2, ![n, 1]⟩ (shapeCast ⟨1, ![n]⟩ (extractStridedSlice ⟨2, ![n, 1]⟩ ![0, o] x h1) h2) h3) h4 (ix2 p q)
      = x (ix2 p d) :=
  (Cert.ColumnLayout.broadcastTo_a1_ab_apply _ h4 p q).trans ((Cert.ColumnLayout.shapeCast_a_a1_apply _ h3 p 0).trans
    ((shapeCast_a1_a_apply _ h2 p).trans (slice2_axis1_apply o x h1 p 0 d (by rw [hd]; rfl))))

end Layout2

/-! ## The body's intermediate values at an index -/

/-- The relative position along axis 0 of neighbour `q` seen from query `p`. -/
theorem pay9_apply (xq xn : Vec Ideal S128x2 .f32) (p q : Fin 128) :
    k0_pay9 (F := Ideal) xq xn (ix2 p q) = xn (ix2 q (0 : Fin 2)) - xq (ix2 p (0 : Fin 2)) :=
  (subf_apply _ _ _).trans (congrArg₂ (fun s t : EReal => s - t)
    (colAsRow_apply xn 0 (0 : Fin 2) rfl _ _ _ _ p q) (colAsCol_apply xq 0 (0 : Fin 2) rfl _ _ _ _ p q))

/-- The relative position along axis 1. -/
theorem pay10_apply (xq xn : Vec Ideal S128x2 .f32) (p q : Fin 128) :
    k0_pay10 (F := Ideal) xq xn (ix2 p q) = xn (ix2 q (1 : Fin 2)) - xq (ix2 p (1 : Fin 2)) :=
  (subf_apply _ _ _).trans (congrArg₂ (fun s t : EReal => s - t)
    (colAsRow_apply xn 1 (1 : Fin 2) rfl _ _ _ _ p q) (colAsCol_apply xq 1 (1 : Fin 2) rfl _ _ _ _ p q))

theorem pay7_eq (v : Vec Ideal S128x2 .f32) : k0_pay7 (F := Ideal) v = v := shapeCast_self v _
theorem pay8_eq (v : Vec Ideal S128x2 .f32) : k0_pay8 (F := Ideal) v = v := shapeCast_self v _

/-- The relative velocity along axis 0. -/
theorem pay11_apply (xqv xnv : Vec Ideal S128x2 .f32) (p q : Fin 128) :
    k0_pay11 (F := Ideal) xqv xnv (ix2 p q) = xnv (ix2 q (0 : Fin 2)) - xqv (ix2 p (0 : Fin 2)) := by
  refine ((subf_apply _ _ _).trans (congrArg₂ (fun s t : EReal => s - t)
    (colAsRow_apply (k0_pay8 xnv) 0 (0 : Fin 2) rfl _ _ _ _ p q) (colAsCol_apply (k0_pay7 xqv) 0 (0 : Fin 2) rfl _ _ _ _ p q))).trans ?_
  rw [pay7_eq, pay8_eq]

/-- The relative velocity along axis 1. -/
theorem pay12_apply (xqv xnv : Vec Ideal S128x2 .f32) (p q : Fin 128) :
    k0_pay12 (F := Ideal) xqv xnv (ix2 p q) = xnv (ix2 q (1 : Fin 2)) - xqv (ix2 p (1 : Fin 2)) := by
  refine ((subf_apply _ _ _).trans (congrArg₂ (fun s t : EReal => s - t)
    (colAsRow_apply (k0_pay8 xnv) 1 (1 : Fin 2) rfl _ _ _ _ p q) (colAsCol_apply (k0_pay7 xqv) 1 (1 : Fin 2) rfl _ _ _ _ p q))).trans ?_
  rw [pay7_eq, pay8_eq]

theorem pay14_apply (r : FVec Ideal S128x128 .f32) (i : S128x128.Idx) :
    k0_pay14 r k0_pay13 i = Ideal.fptosi 32 (Ideal.liftRound Int.floor
      (Ideal.div (r i) (Ideal.ofBits .f32 0x3F19999A#32) + Ideal.ofBits .f32 0x41000000#32)) := rfl

theorem pay15_apply (r : FVec Ideal S128x128 .f32) (i : S128x128.Idx) :
    k0_pay15 r i = Ideal.fptosi 32 (Ideal.liftRound Int.floor
      (Ideal.div (r i) (Ideal.ofBits .f32 0x3F19999A#32) + Ideal.ofBits .f32 0x41000000#32)) := rfl

/-- The first cell word. -/
theorem cw0_apply (xq xn : Vec Ideal S128x2 .f32) (p q : Fin 128) :
    k0_pay14 (k0_pay9 xq xn) k0_pay13 (ix2 p q) = cw xq xn p q 0 := by
  rw [pay14_apply, pay9_apply]; rfl

/-- The second cell word. -/
theorem cw1_apply (xq xn : Vec Ideal S128x2 .f32) (p q : Fin 128) :
    k0_pay15 (k0_pay10 xq xn) (ix2 p q) = cw xq xn p q 1 := by
  rw [pay15_apply, pay10_apply]; rfl

theorem ramp_apply (p : Fin 128) (a : Fin 16) (q : Fin 128) : ramp (ix3 p a q) = BitVec.ofNat 32 a.val := by
  show BitVec.ofNat 32 (0 * 16 + a.val) = _
  rw [Nat.zero_mul, Nat.zero_add]

theorem pay16_apply (arg0 arg1 : BitVec 32) (v17 v26 v45 : FVec Ideal S128x128 .f32) (p q : Fin 128) :
    k0_pay16 arg0 arg1 v17 v26 v45 (ix2 p q)
      = FloatOps.sitofp (F := Ideal) .f32 ((validWord (k0_pay14 v17 v45 (ix2 p q)) (k0_pay15 v26 (ix2 p q))
          (IntOp.addi (IntOp.muli arg0 128#32) (BitVec.ofNat 32 (0 * 128 + p.val)))
          (IntOp.addi (IntOp.muli arg1 128#32) (BitVec.ofNat 32 (0 * 128 + q.val)))).setWidth 32) := rfl

/-- The validity factor of the pair `(p, q)`: 1 when both cell words lie on the grid and the two pedestrians differ. -/
theorem validF_apply (i : grid0.Coords) (xq xn : Vec Ideal S128x2 .f32) (p q : Fin 128) :
    validF (F := Ideal) i xq xn (ix2 p q)
      = if (0 ≤ (cw xq xn p q 0).toInt ∧ (cw xq xn p q 0).toInt < 16) ∧ (0 ≤ (cw xq xn p q 1).toInt ∧ (cw xq xn p q 1).toInt < 16)
          ∧ 128 * (i 0).val + p.val ≠ 128 * (i 1).val + q.val then (1 : EReal) else 0 := by
  have hI : (i 0).val < 32 := (i 0).isLt
  have hJ : (i 1).val < 32 := (i 1).isLt
  have hne : (BitVec.ofNat 32 (128 * (i 0).val + p.val) ≠ BitVec.ofNat 32 (128 * (i 1).val + q.val))
      ↔ (128 * (i 0).val + p.val ≠ 128 * (i 1).val + q.val) :=
    not_congr (ofNat_inj_small (by omega) (by omega))
  unfold validF
  rw [pay16_apply, validWord_float, cw0_apply, cw1_apply, Nat.zero_mul, Nat.zero_add, Nat.zero_add,
    gidx _ _ hI p.isLt, gidx _ _ hJ q.isLt]
  refine if_congr ?_ rfl rfl
  rw [hne]

theorem pay17_apply (r : FVec Ideal S128x128 .f32) (i : S128x128.Idx) :
    k0_pay17 r i = IntOp.minsi 15#32 (IntOp.maxsi 0#32 (k0_pay15 r i)) := rfl

theorem pay18_apply (r : FVec Ideal S128x128 .f32) (p : Fin 128) (a : Fin 16) (q : Fin 128) :
    k0_pay18 r k0_pay13 (ix3 p a q) = IntOp.minsi 15#32 (IntOp.maxsi 0#32 (k0_pay14 r k0_pay13 (ix2 p q))) := by
  unfold k0_pay18
  exact Cert.Lib.Rank3Layout.outer_rows_apply _ _ _ p a q

theorem pay19_apply (v80 : FVec Ideal S128x128 .f32) (v89 v91 : IVec S128x16x128 32) (p : Fin 128) (a : Fin 16) (q : Fin 128) :
    k0_pay19 v80 v89 v91 (ix3 p a q)
      = FloatOps.sitofp (F := Ideal) .f32 ((IntOp.cmpi .eq (v89 (ix3 p a q)) (v91 (ix3 p a q))).setWidth 32) * v80 (ix2 p q) :=
  (mulf_apply _ _ _).trans (congrArg
    (fun t : EReal => FloatOps.sitofp (F := Ideal) .f32 ((IntOp.cmpi .eq (v89 (ix3 p a q)) (v91 (ix3 p a q))).setWidth 32) * t)
    (Cert.Lib.Rank3Layout.outer_rows_apply v80 _ _ p a q))

theorem pay20_apply (v88 : IVec S128x128 32) (v89 : IVec S128x16x128 32) (p : Fin 128) (b : Fin 16) (q : Fin 128) :
    k0_pay20 (F := Ideal) v88 v89 (ix3 p b q)
      = FloatOps.sitofp (F := Ideal) .f32 ((IntOp.cmpi .eq (v89 (ix3 p b q)) (v88 (ix2 p q))).setWidth 32) :=
  congrArg (fun w : BitVec 32 => FloatOps.sitofp (F := Ideal) .f32 ((IntOp.cmpi .eq (v89 (ix3 p b q)) w).setWidth 32))
    (Cert.Lib.Rank3Layout.outer_rows_apply v88 _ _ p b q)

/-! ## The batched product -/

theorem dot_reads : Cert.Lib.BatchRowsDot.Reads dot_S128x16x128_S128x16x128_S128x16x16_2_2_1_1_0_0 where
  rank := rfl
  size := rfl
  lhs0 := fun _ _ => rfl
  lhs1 := fun _ _ => rfl
  lhs2 := fun _ _ => rfl
  rhs0 := fun _ _ => rfl
  rhs1 := fun _ _ => rfl
  rhs2 := fun _ _ => rfl

theorem pay21_apply (v35 v80 : FVec Ideal S128x128 .f32) (v88 : IVec S128x128 32) (v89 v91 : IVec S128x16x128 32)
    (g : Vec Ideal S128x16x16 .f32) (p : Fin 128) (a b : Fin 16) :
    k0_pay21 v35 v80 v88 v89 v91 g (ix3 p a b)
      = g (ix3 p a b) + ∑ q : Fin 128, k0_pay19 v80 v89 v91 (ix3 p a q) * (k0_pay20 (F := Ideal) v88 v89 (ix3 p b q) * v35 (ix2 p q)) := by
  unfold k0_pay21
  refine (congrFun (shapeCast_self _ _) _).trans ?_
  refine (addf_apply _ _ _).trans ?_
  refine congrArg (fun t : EReal => g (ix3 p a b) + t) ?_
  refine (Cert.Lib.BatchRowsDot.matmul_zero_apply dot_reads none _ _ p a b).trans ?_
  refine Finset.sum_congr rfl fun q _ => ?_
  rw [mulf_apply, Cert.Lib.Rank3Layout.outer_rows_apply]

theorem pay22_apply (v44 v80 : FVec Ideal S128x128 .f32) (v88 : IVec S128x128 32) (v89 v91 : IVec S128x16x128 32)
    (g : Vec Ideal S128x16x16 .f32) (p : Fin 128) (a b : Fin 16) :
    k0_pay22 v44 v80 v88 v89 v91 g (ix3 p a b)
      = g (ix3 p a b) + ∑ q : Fin 128, k0_pay19 v80 v89 v91 (ix3 p a q) * (k0_pay20 (F := Ideal) v88 v89 (ix3 p b q) * v44 (ix2 p q)) := by
  unfold k0_pay22
  refine (congrFun (shapeCast_self _ _) _).trans ?_
  refine (addf_apply _ _ _).trans ?_
  refine congrArg (fun t : EReal => g (ix3 p a b) + t) ?_
  refine (Cert.Lib.BatchRowsDot.matmul_zero_apply dot_reads none _ _ p a b).trans ?_
  refine Finset.sum_congr rfl fun q _ => ?_
  rw [mulf_apply, Cert.Lib.Rank3Layout.outer_rows_apply]

theorem pay23_apply (v80 : FVec Ideal S128x128 .f32) (v88 : IVec S128x128 32) (v89 v91 : IVec S128x16x128 32)
    (g : Vec Ideal S128x16x16 .f32) (p : Fin 128) (a b : Fin 16) :
    k0_pay23 v80 v88 v89 v91 g (ix3 p a b)
      = g (ix3 p a b) + ∑ q : Fin 128, k0_pay19 v80 v89 v91 (ix3 p a q) * k0_pay20 (F := Ideal) v88 v89 (ix3 p b q) := by
  unfold k0_pay23
  refine (congrFun (shapeCast_self _ _) _).trans ?_
  refine (addf_apply _ _ _).trans ?_
  refine congrArg (fun t : EReal => g (ix3 p a b) + t) ?_
  exact Cert.Lib.BatchRowsDot.matmul_zero_apply dot_reads none _ _ p a b

/-! ## One summand: the two one-hot factors, the validity factor and the value -/

theorem summand_eq (i : grid0.Coords) (xq xn : Vec Ideal S128x2 .f32) (p q : Fin 128) (a b : Fin 16) (t : EReal) :
    k0_pay19 (validF i xq xn) ramp (k0_pay18 (k0_pay9 xq xn) k0_pay13) (ix3 p a q)
        * (k0_pay20 (F := Ideal) (k0_pay17 (k0_pay10 xq xn)) ramp (ix3 p b q) * t)
      = if hit (i 0).val (i 1).val xq xn p q a b then t else 0 := by
  rw [pay19_apply, pay20_apply, ramp_apply, ramp_apply, pay18_apply, pay17_apply, cw0_apply, cw1_apply, validF_apply,
    cmpi_eq, cmpi_eq, sitofp_extui_ofBool, sitofp_extui_ofBool, onehot_mul]
  refine if_congr ?_ rfl rfl
  unfold hit
  have ha : a.val < 2147483648 := by omega
  have hb : b.val < 2147483648 := by omega
  constructor
  · rintro ⟨hA, ⟨h0, h1, hne⟩, hB⟩
    rw [clip_of_range _ h0.1 h0.2] at hA
    rw [clip_of_range _ h1.1 h1.2] at hB
    exact ⟨h0, h1, hne, (ofNat_eq_iff _ ha _).mp (eq_of_beq hA), (ofNat_eq_iff _ hb _).mp (eq_of_beq hB)⟩
  · rintro ⟨h0, h1, hne, hA, hB⟩
    refine ⟨?_, ⟨h0, h1, hne⟩, ?_⟩
    · rw [clip_of_range _ h0.1 h0.2]; exact beq_iff_eq.mpr ((ofNat_eq_iff _ ha _).mpr hA)
    · rw [clip_of_range _ h1.1 h1.2]; exact beq_iff_eq.mpr ((ofNat_eq_iff _ hb _).mpr hB)

/-! ## The tile's step -/

theorem stepX_apply (i : grid0.Coords) (xq xqv xn xnv : Vec Ideal S128x2 .f32) (g : Vec Ideal S128x16x16 .f32)
    (p : Fin 128) (a b : Fin 16) :
    stepX (F := Ideal) i xq xqv xn xnv g (ix3 p a b)
      = g (ix3 p a b) + ∑ q : Fin 128, if hit (i 0).val (i 1).val xq xn p q a b
          then xnv (ix2 q (0 : Fin 2)) - xqv (ix2 p (0 : Fin 2)) else 0 := by
  unfold stepX
  rw [pay21_apply]
  refine congrArg (fun t : EReal => g (ix3 p a b) + t) (Finset.sum_congr rfl fun q _ => ?_)
  rw [summand_eq, pay11_apply]

theorem stepY_apply (i : grid0.Coords) (xq xqv xn xnv : Vec Ideal S128x2 .f32) (g : Vec Ideal S128x16x16 .f32)
    (p : Fin 128) (a b : Fin 16) :
    stepY (F := Ideal) i xq xqv xn xnv g (ix3 p a b)
      = g (ix3 p a b) + ∑ q : Fin 128, if hit (i 0).val (i 1).val xq xn p q a b
          then xnv (ix2 q (1 : Fin 2)) - xqv (ix2 p (1 : Fin 2)) else 0 := by
  unfold stepY
  rw [pay22_apply]
  refine congrArg (fun t : EReal => g (ix3 p a b) + t) (Finset.sum_congr rfl fun q _ => ?_)
  rw [summand_eq, pay12_apply]

theorem stepN_apply (i : grid0.Coords) (xq xn : Vec Ideal S128x2 .f32) (g : Vec Ideal S128x16x16 .f32)
    (p : Fin 128) (a b : Fin 16) :
    stepN (F := Ideal) i xq xn g (ix3 p a b)
      = g (ix3 p a b) + ∑ q : Fin 128, if hit (i 0).val (i 1).val xq xn p q a b then (1 : EReal) else 0 := by
  unfold stepN
  rw [pay23_apply]
  refine congrArg (fun t : EReal => g (ix3 p a b) + t) (Finset.sum_congr rfl fun q _ => ?_)
  rw [← summand_eq i xq xn p q a b 1, mul_one]

end Cert.KernelIdeal.Bin

end
-- ==== Proof.KerHost.lean ====
/-
  The kernel program's two stretches of host operations, read at an index.

  Before the binning region one subtraction writes the velocities: entry `(j, d)` is the position's minus the past
  position's. Between the two regions two reshapes run: the binned `[4096, 256, 2]` array becomes `[4096, 512]`, entry
  `(i, k)` being entry `(i, k / 2, k % 2)`, and the bias becomes a `[1, 256]` row, entry `(0, o)` being entry `o`. The
  positions and the weights are written by none of these and reach the regions as launched.
-/
import proofs.«161577_j37271726195508_2_alg».proof.Proof.FramesI
import proofs.«161577_j37271726195508_2_alg».proof.Proof.LibTrailMerge
import proofs.«161577_j37271726195508_2_alg».proof.Proof.Spec

set_option maxRecDepth 16384

noncomputable section

namespace Cert.KernelIdeal.Whole

open Cert.KernelIdeal Cert.KernelIdeal.Gen
open Idealize.ShloMosaic Idealize.ShloMosaic.TcCoe Idealize.ShloMosaic.ValueIdx Idealize.ShloMosaic.StableHlo
open Idealize.SL Idealize.SL.Sem

/-- After the subtraction, from any contents `X`: the velocities' buffer holds the difference of the two position arrays. -/
theorem hostOps0_v0 (X : Valuation τ sig (Elt Ideal)) :
    after (hostOps0 (F := Ideal)) X (Proc.devRef .tc main_v0)
      = subf (F := Ideal) (s := S4096x2) (φ := .f32) (X (Proc.devRef .tc main_arg1)) (X (Proc.devRef .tc main_arg2)) := by
  after_results <;> rfl

/-- After the two reshapes, from any contents `X`: the flattened grid's buffer holds the binned array's elements at the
    flat shape. -/
theorem hostOps1_v2 (X : Valuation τ sig (Elt Ideal)) :
    after (hostOps1 (F := Ideal)) X (Proc.devRef .tc main_v2)
      = shapeCast (s := S4096x256x2) (α := EReal) S4096x512 (X (Proc.devRef .tc main_v1)) shapeCasts_S4096x256x2_S4096x512 := by
  after_results <;> rfl

/-- After the two reshapes, from any contents `X`: the bias row's buffer holds the bias's elements at the row shape. -/
theorem hostOps1_v3 (X : Valuation τ sig (Elt Ideal)) :
    after (hostOps1 (F := Ideal)) X (Proc.devRef .tc main_v3)
      = shapeCast (s := S256) (α := EReal) S1x256 (X (Proc.devRef .tc main_arg4)) shapeCasts_S256_S1x256 := by
  after_results <;> rfl

variable (m : (ℓ : Loc nD τ sig) → Buf (Elt Ideal) ℓ) (c : Dev nD)

/-- The velocities at the binning region's entry. -/
theorem V1_vel (j : Fin 4096) (d : Fin 2) :
    (V1 m c main_v0 : S4096x2.Idx → EReal) (ix2 j d)
      = Cert.Spec.vel (m ((c : Thread nD τ).loc main_arg1)) (m ((c : Thread nD τ).loc main_arg2)) j d := by
  show after (hostOps0 (F := Ideal)) (W0 m c) (Proc.devRef .tc main_v0) (ix2 j d) = _
  rw [hostOps0_v0]
  rfl

/-- The positions at the binning region's entry are the launch contents. -/
theorem V1_pos : V1 m c main_arg1 = m ((c : Thread nD τ).loc main_arg1) :=
  W1_of m c main_arg1 (by decide)

/-- The flattened grid at the head region's entry. -/
theorem V3_flat (i : Fin 4096) (kk : Fin 512) :
    (V3 m c main_v2 : S4096x512.Idx → EReal) (ix2 i kk)
      = (binned m c : S4096x256x2.Idx → EReal)
          (ix3 i (⟨kk.val / 2, by omega⟩ : Fin 256) (⟨kk.val % 2, by omega⟩ : Fin 2)) := by
  show after (hostOps1 (F := Ideal)) (W2 m c) (Proc.devRef .tc main_v2) (ix2 i kk) = _
  rw [hostOps1_v2, W2_out]
  exact Cert.Lib.TrailMerge.merge_apply (a := 4096) (b := 256) (c := 2) (n := 512) rfl
    (binned m c : S4096x256x2.Idx → EReal) shapeCasts_S4096x256x2_S4096x512 i
    (⟨kk.val / 2, by omega⟩ : Fin 256) (⟨kk.val % 2, by omega⟩ : Fin 2) kk
    (by show kk.val = kk.val / 2 * 2 + kk.val % 2; omega)

/-- The bias row at the head region's entry. -/
theorem V3_bias (o : Fin 256) :
    (V3 m c main_v3 : S1x256.Idx → EReal) (ix2 (0 : Fin 1) o)
      = (m ((c : Thread nD τ).loc main_arg4) : S256.Idx → EReal) (ix1 o) := by
  show after (hostOps1 (F := Ideal)) (W2 m c) (Proc.devRef .tc main_v3) (ix2 (0 : Fin 1) o) = _
  rw [hostOps1_v3, W2_of_ne m c main_arg4 (by decide), W1_of m c main_arg4 (by decide)]
  exact shapeCast_apply (s := S256) (t := S1x256) (α := EReal) (m ((c : Thread nD τ).loc main_arg4)) shapeCasts_S256_S1x256
    (ix2 (0 : Fin 1) o) (ix1 o) (by
      show ((⟨1, ![256]⟩ : Shape).rowMajor (ix1 o)).val = ((⟨2, ![1, 256]⟩ : Shape).rowMajor (ix2 (0 : Fin 1) o)).val
      rw [Shape.rowMajor_val_one, Shape.rowMajor_val_two]
      show o.val = (0 : Fin 1).val * 256 + o.val
      simp)

/-- The weights at the head region's entry are the launch contents. -/
theorem V3_weights : V3 m c main_arg3 = m ((c : Thread nD τ).loc main_arg3) :=
  (W3_of m c main_arg3 (by decide)).trans ((W2_of_ne m c main_arg3 (by decide)).trans (W1_of m c main_arg3 (by decide)))

end Cert.KernelIdeal.Whole

end
-- ==== Proof.KernelValueI.lean ====
/-
  The kernel program's result, at the ideal instance: the specification's function of the arguments.

  The result buffer at the last boundary is what the head region's write-backs leave: the head's function of the
  flattened grid, the weights and the bias row as that region finds them. The flattened grid is the reshape of what
  the binning region's write-backs leave, which is the tiled grid of the positions and the velocities as that
  region finds them — the argument positions, and positions minus past positions. The tiled grid against the head
  is the specification.
-/
import proofs.«161577_j37271726195508_2_alg».proof.Proof.FramesI
import proofs.«161577_j37271726195508_2_alg».proof.Proof.BinValueI
import proofs.«161577_j37271726195508_2_alg».proof.Proof.HeadValueI
import proofs.«161577_j37271726195508_2_alg».proof.Proof.BinStepIdeal
import proofs.«161577_j37271726195508_2_alg».proof.Proof.KerHost
import proofs.«161577_j37271726195508_2_alg».proof.Proof.TileBridge

set_option maxRecDepth 16384

noncomputable section

open scoped BigOperators

namespace Cert.KernelIdeal.Whole

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The body's arithmetic read at an index: the facts the value proofs are stated over. -/
theorem stepFacts : Bin.StepFacts := ⟨Bin.stepX_apply, Bin.stepY_apply, Bin.stepN_apply, Bin.zeros_apply⟩
theorem quotFacts : Bin.QuotFacts := ⟨Bin.quotX_apply', Bin.quotY_apply'⟩
theorem payFact : Head.PayFact := Bin.head_apply

variable (m : (ℓ : Loc nD τ sig) → Buf (Elt Ideal) ℓ) (ρ : Dev nD → PrngReg)

/-- What the binning region leaves in its output array: the tiled grid of the positions and the velocities. -/
theorem binned_grid (c : Dev nD) :
    (binned m c : S4096x256x2.Idx → EReal) = Cert.Tile.grid (V1 m c main_arg1) (V1 m c main_v0) :=
  Bin.binned_eq (V1 m) stepFacts quotFacts c

/-- The result buffer at the last boundary is the specification's function of the arguments. -/
theorem result_eq (c : Dev nD) :
    W4 m c (Proc.devRef .tc main_v4)
      = Cert.Spec.G (m ((c : Thread nD τ).loc main_arg1)) (m ((c : Thread nD τ).loc main_arg2))
          (m ((c : Thread nD τ).loc main_arg3)) (m ((c : Thread nD τ).loc main_arg4)) := by
  rw [show W4 m c (Proc.devRef .tc main_v4) = (Head.dat (V3 m) c).arrAt 3 cfg1.N from W4_arr m c 3,
    Head.result_eq (V3 m) payFact c]
  funext y
  obtain ⟨i, o, rfl⟩ : ∃ (i : Fin 4096) (o : Fin 256), y = ix2 i o := ⟨y 0, y 1, eq_ix2 y⟩
  unfold Head.headFun Head.headOf
  rw [V3_weights m c, V3_bias m c o]
  simp only [V3_flat m c]
  rw [binned_grid m c, V1_pos m c]
  exact Cert.Tile.bridge (m ((c : Thread nD τ).loc main_arg1)) (m ((c : Thread nD τ).loc main_arg2)) (V1 m c main_v0)
    (fun j d => V1_vel m c j d) (m ((c : Thread nD τ).loc main_arg3)) (m ((c : Thread nD τ).loc main_arg4)) i o

/-- THE KERNEL'S RUN with its value: every weakly fair execution terminates, nothing faulting, with the result at the
    specification's function of the arguments and the five arguments as launched. -/
theorem run_G : θ_run defs (onTc (τ := τ) (main (F := Ideal))) ⟨m, fun _ => 0, ρ⟩ (fun r => ∀ c : Dev nD,
      r.2.mem ((c.tc : Thread nD τ).loc main_v4)
        = Cert.Spec.G (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v4 (by decide))).trans (result_eq m c),
      (h c _ (mem_uc main_arg0 (by decide))).trans (kept m c main_arg0 (by decide) (by decide) (by decide) (by decide)),
      (h c _ (mem_uc main_arg1 (by decide))).trans (kept m c main_arg1 (by decide) (by decide) (by decide) (by decide)),
      (h c _ (mem_uc main_arg2 (by decide))).trans (kept m c main_arg2 (by decide) (by decide) (by decide) (by decide)),
      (h c _ (mem_uc main_arg3 (by decide))).trans (kept_weights m c),
      (h c _ (mem_uc main_arg4 (by decide))).trans (kept m c main_arg4 (by decide) (by decide) (by decide) (by decide))⟩)
    (run_all m ρ)

end Cert.KernelIdeal.Whole

end
-- ==== Proof.LibTypedRefs.lean ====
/-
  Typed references: contents moved to the buffer's own type and back.

  An operation of an outlined function reads and writes its buffers through references that carry the tensor type of
  the value they hold; contents cross between that type and the buffer's own type along the equation of the two
  types. Moving a value to the buffer's type and straight back gives the value, for ANY typed reference — the fact
  is about the reference as a variable, so using it never asks Lean to compare two buffer types.
-/
import Idealize.ShloMosaic.Lib.StableHlo

namespace Cert.Lib.TypedRefs

open Idealize.ShloMosaic Idealize.ShloMosaic.StableHlo

/-- Contents moved to a typed reference's buffer type and back are the contents. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

end Cert.Lib.TypedRefs
-- ==== Proof.RefRunBack.lean ====
/-
  The reference's result buffer read back: after the reference's operations have run from the launch contents, the
  result buffer holds the operations' composed term of the argument arrays.

  A joining of arrays takes its pieces as a list of pairs of a shape and an array of that shape. Here the two joinings of
  index columns are first written as a function of their two arrays, which leaves the list of operations the same list;
  the contents of the result buffer are then read off operation by operation.
-/
import proofs.«161577_j37271726195508_2_alg».proof.Proof.RefRun
import proofs.«161577_j37271726195508_2_alg».proof.Proof.LibTypedRefs

noncomputable section

namespace Cert.ReferenceIdeal.RunBack

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Two columns of index words joined along the last axis, as a function of the two columns. -/
def joinCols (a b : (⟨S4096x4096x1, .i32⟩ : BufTy).Contents (Elt F)) : (⟨S4096x4096x2, .i32⟩ : BufTy).Contents (Elt F) :=
  concatenate S4096x4096x2 2 [⟨S4096x4096x1, a⟩, ⟨S4096x4096x1, b⟩] concatenates_S4096x4096x1_S4096x4096x1_S4096x4096x2_d2

/-- The reference's operations, the two joinings of index columns written with `joinCols`. -/
abbrev opsJ : List (HloOp τ sig (Elt F)) :=
  [ binary main_arg1 main_arg2 main_v0 (subf : (⟨S4096x2, .f32⟩ : BufTy).Contents (Elt F) → (⟨S4096x2, .f32⟩ : BufTy).Contents (Elt F) → (⟨S4096x2, .f32⟩ : BufTy).Contents (Elt F)),
    unary main_arg1 main_v1 (broadcastInDim S1x4096x2 ![1, 2] bcast_S4096x2_S1x4096x2_1_2 : (⟨S4096x2, .f32⟩ : BufTy).Contents (Elt F) → (⟨S1x4096x2, .f32⟩ : BufTy).Contents (Elt F)),
    unary main_arg1 main_v2 (broadcastInDim S4096x1x2 ![0, 2] bcast_S4096x2_S4096x1x2_0_2 : (⟨S4096x2, .f32⟩ : BufTy).Contents (Elt F) → (⟨S4096x1x2, .f32⟩ : BufTy).Contents (Elt F)),
    unary main_v1 main_v3 (broadcastInDim S4096x4096x2 ![0, 1, 2] bcast_S1x4096x2_S4096x4096x2_0_1_2 : (⟨S1x4096x2, .f32⟩ : BufTy).Contents (Elt F) → (⟨S4096x4096x2, .f32⟩ : BufTy).Contents (Elt F)),
    unary main_v2 main_v4 (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)),
    binary main_v3 main_v4 main_v5 (subf : (⟨S4096x4096x2, .f32⟩ : BufTy).Contents (Elt F) → (⟨S4096x4096x2, .f32⟩ : BufTy).Contents (Elt F) → (⟨S4096x4096x2, .f32⟩ : BufTy).Contents (Elt F)),
    unary main_v0 main_v6 (broadcastInDim S1x4096x2 ![1, 2] bcast_S4096x2_S1x4096x2_1_2 : (⟨S4096x2, .f32⟩ : BufTy).Contents (Elt F) → (⟨S1x4096x2, .f32⟩ : BufTy).Contents (Elt F)),
    unary main_v0 main_v7 (broadcastInDim S4096x1x2 ![0, 2] bcast_S4096x2_S4096x1x2_0_2 : (⟨S4096x2, .f32⟩ : BufTy).Contents (Elt F) → (⟨S4096x1x2, .f32⟩ : BufTy).Contents (Elt F)),
    unary main_v6 main_v8 (broadcastInDim S4096x4096x2 ![0, 1, 2] bcast_S1x4096x2_S4096x4096x2_0_1_2 : (⟨S1x4096x2, .f32⟩ : BufTy).Contents (Elt F) → (⟨S4096x4096x2, .f32⟩ : BufTy).Contents (Elt F)),
    unary main_v7 main_v9 (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)),
    binary main_v8 main_v9 main_v10 (subf : (⟨S4096x4096x2, .f32⟩ : BufTy).Contents (Elt F) → (⟨S4096x4096x2, .f32⟩ : BufTy).Contents (Elt F) → (⟨S4096x4096x2, .f32⟩ : BufTy).Contents (Elt F)),
    nullary main_cst (constant S_ .f32 0x3F19999A#32),
    unary main_cst main_v11 (broadcastInDim S4096x4096x2 ![] bcast_S_S4096x4096x2 : (⟨S_, .f32⟩ : BufTy).Contents (Elt F) → (⟨S4096x4096x2, .f32⟩ : BufTy).Contents (Elt F)),
    binary main_v5 main_v11 main_v12 (Host.divf : (⟨S4096x4096x2, .f32⟩ : BufTy).Contents (Elt F) → (⟨S4096x4096x2, .f32⟩ : BufTy).Contents (Elt F) → (⟨S4096x4096x2, .f32⟩ : BufTy).Contents (Elt F)),
    nullary main_cst_0 (constant S_ .f32 0x41000000#32),
    unary main_cst_0 main_v13 (broadcastInDim S4096x4096x2 ![] bcast_S_S4096x4096x2 : (⟨S_, .f32⟩ : BufTy).Contents (Elt F) → (⟨S4096x4096x2, .f32⟩ : BufTy).Contents (Elt F)),
    binary main_v12 main_v13 main_v14 (addf : (⟨S4096x4096x2, .f32⟩ : BufTy).Contents (Elt F) → (⟨S4096x4096x2, .f32⟩ : BufTy).Contents (Elt F) → (⟨S4096x4096x2, .f32⟩ : BufTy).Contents (Elt F)),
    unary main_v14 main_v15 (Host.floor : (⟨S4096x4096x2, .f32⟩ : BufTy).Contents (Elt F) → (⟨S4096x4096x2, .f32⟩ : BufTy).Contents (Elt F)),
    unary main_v15 main_v16 (fptosi 32 : (⟨S4096x4096x2, .f32⟩ : BufTy).Contents (Elt F) → (⟨S4096x4096x2, .i32⟩ : BufTy).Contents (Elt F)),
    nullary main_c (constantI S_ 32 0#32),
    unary main_c main_v17 (broadcastInDim S4096x4096x2 ![] bcast_S_S4096x4096x2 : (⟨S_, .i32⟩ : BufTy).Contents (Elt F) → (⟨S4096x4096x2, .i32⟩ : BufTy).Contents (Elt F)),
    binary main_v16 main_v17 main_v18 (cmpi .sge : (⟨S4096x4096x2, .i32⟩ : BufTy).Contents (Elt F) → (⟨S4096x4096x2, .i32⟩ : BufTy).Contents (Elt F) → (⟨S4096x4096x2, .i1⟩ : BufTy).Contents (Elt F)),
    nullary main_c_1 (constantI S_ 32 16#32),
    unary main_c_1 main_v19 (broadcastInDim S4096x4096x2 ![] bcast_S_S4096x4096x2 : (⟨S_, .i32⟩ : BufTy).Contents (Elt F) → (⟨S4096x4096x2, .i32⟩ : BufTy).Contents (Elt F)),
    binary main_v16 main_v19 main_v20 (cmpi .slt : (⟨S4096x4096x2, .i32⟩ : BufTy).Contents (Elt F) → (⟨S4096x4096x2, .i32⟩ : BufTy).Contents (Elt F) → (⟨S4096x4096x2, .i1⟩ : BufTy).Contents (Elt F)),
    binary main_v18 main_v20 main_v21 (andi : (⟨S4096x4096x2, .i1⟩ : BufTy).Contents (Elt F) → (⟨S4096x4096x2, .i1⟩ : BufTy).Contents (Elt F) → (⟨S4096x4096x2, .i1⟩ : BufTy).Contents (Elt F)),
    nullary main_c_2 (constantI S_ 1 1#1),
    binary main_v21 main_c_2 main_v22 ((fun x v => Host.reduce IntOp.andi x v reducesTo_S4096x4096x2_S4096x4096_d2 h_S_) : (⟨S4096x4096x2, .i1⟩ : BufTy).Contents (Elt F) → (⟨S_, .i1⟩ : BufTy).Contents (Elt F) → (⟨S4096x4096, .i1⟩ : BufTy).Contents (Elt F)),
    nullary main_v23 (iotaInDim S4096x4096 32 0),
    nullary main_v24 (iotaInDim S4096x4096 32 1),
    nullary main_c_3 (constantI S_ 32 0#32),
    unary main_c_3 main_v25 (broadcastInDim S4096x4096 ![] bcast_S_S4096x4096 : (⟨S_, .i32⟩ : BufTy).Contents (Elt F) → (⟨S4096x4096, .i32⟩ : BufTy).Contents (Elt F)),
    binary main_v23 main_v25 main_v26 (addi : (⟨S4096x4096, .i32⟩ : BufTy).Contents (Elt F) → (⟨S4096x4096, .i32⟩ : BufTy).Contents (Elt F) → (⟨S4096x4096, .i32⟩ : BufTy).Contents (Elt F)),
    binary main_v26 main_v24 main_v27 (cmpi .eq : (⟨S4096x4096, .i32⟩ : BufTy).Contents (Elt F) → (⟨S4096x4096, .i32⟩ : BufTy).Contents (Elt F) → (⟨S4096x4096, .i1⟩ : BufTy).Contents (Elt F)),
    unary main_v27 main_v28 (noti : (⟨S4096x4096, .i1⟩ : BufTy).Contents (Elt F) → (⟨S4096x4096, .i1⟩ : BufTy).Contents (Elt F)),
    binary main_v22 main_v28 main_v29 (andi : (⟨S4096x4096, .i1⟩ : BufTy).Contents (Elt F) → (⟨S4096x4096, .i1⟩ : BufTy).Contents (Elt F) → (⟨S4096x4096, .i1⟩ : BufTy).Contents (Elt F)),
    unary main_v16 main_v30 ((extractStridedSlice S4096x4096x1 ![0, 0, 0] · slices_S4096x4096x2_S4096x4096x1_0_0_0) : (⟨S4096x4096x2, .i32⟩ : BufTy).Contents (Elt F) → (⟨S4096x4096x1, .i32⟩ : BufTy).Contents (Elt F)),
    reshape main_v30 main_v31 rfl shapeCasts_S4096x4096x1_S4096x4096,
    nullary main_c_4 (constantI S_ 32 16#32),
    unary main_c_4 main_v32 (broadcastInDim S4096x4096 ![] bcast_S_S4096x4096 : (⟨S_, .i32⟩ : BufTy).Contents (Elt F) → (⟨S4096x4096, .i32⟩ : BufTy).Contents (Elt F)),
    binary main_v31 main_v32 main_v33 (muli : (⟨S4096x4096, .i32⟩ : BufTy).Contents (Elt F) → (⟨S4096x4096, .i32⟩ : BufTy).Contents (Elt F) → (⟨S4096x4096, .i32⟩ : BufTy).Contents (Elt F)),
    unary main_v16 main_v34 ((extractStridedSlice S4096x4096x1 ![0, 0, 1] · slices_S4096x4096x2_S4096x4096x1_0_0_1) : (⟨S4096x4096x2, .i32⟩ : BufTy).Contents (Elt F) → (⟨S4096x4096x1, .i32⟩ : BufTy).Contents (Elt F)),
    reshape main_v34 main_v35 rfl shapeCasts_S4096x4096x1_S4096x4096,
    binary main_v33 main_v35 main_v36 (addi : (⟨S4096x4096, .i32⟩ : BufTy).Contents (Elt F) → (⟨S4096x4096, .i32⟩ : BufTy).Contents (Elt F) → (⟨S4096x4096, .i32⟩ : BufTy).Contents (Elt F)),
    nullary main_c_5 (constantI S_ 32 0#32),
    TRef.unary (TRef.of (T := ⟨S_, .i32⟩) main_c_5) (TRef.of (T := ⟨S_, .i32⟩) main_call0_v0) id,
    TRef.unary (TRef.of (T := ⟨S_, .i32⟩) main_call0_v0) (TRef.of (T := ⟨S4096x4096, .i32⟩) main_call0_v1) (broadcastInDim S4096x4096 ![] bcast_S_S4096x4096),
    TRef.ternary (TRef.of (T := ⟨S4096x4096, .i1⟩) main_v29) (TRef.of (T := ⟨S4096x4096, .i32⟩) main_v36) (TRef.of (T := ⟨S4096x4096, .i32⟩) main_call0_v1) (TRef.of (T := ⟨S4096x4096, .i32⟩) main_v37) select,
    unary main_v29 main_v38 (broadcastInDim S4096x4096x1 ![0, 1] bcast_S4096x4096_S4096x4096x1_0_1 : (⟨S4096x4096, .i1⟩ : BufTy).Contents (Elt F) → (⟨S4096x4096x1, .i1⟩ : BufTy).Contents (Elt F)),
    nullary main_cst_6 (constant S_ .f32 0x00000000#32),
    TRef.unary (TRef.of (T := ⟨S_, .f32⟩) main_cst_6) (TRef.of (T := ⟨S_, .f32⟩) main_call1_v0) id,
    TRef.unary (TRef.of (T := ⟨S4096x4096x1, .i1⟩) main_v38) (TRef.of (T := ⟨S4096x4096x2, .i1⟩) main_call1_v1) (broadcastInDim S4096x4096x2 ![0, 1, 2] bcast_S4096x4096x1_S4096x4096x2_0_1_2),
    TRef.unary (TRef.of (T := ⟨S_, .f32⟩) main_call1_v0) (TRef.of (T := ⟨S4096x4096x2, .f32⟩) main_call1_v2) (broadcastInDim S4096x4096x2 ![] bcast_S_S4096x4096x2),
    TRef.ternary (TRef.of (T := ⟨S4096x4096x2, .i1⟩) main_call1_v1) (TRef.of (T := ⟨S4096x4096x2, .f32⟩) main_v10) (TRef.of (T := ⟨S4096x4096x2, .f32⟩) main_call1_v2) (TRef.of (T := ⟨S4096x4096x2, .f32⟩) main_v39) select,
    nullary main_v40 (iotaInDim S4096 32 0),
    unary main_v40 main_v41 (broadcastInDim S4096x1 ![0] bcast_S4096_S4096x1_0 : (⟨S4096, .i32⟩ : BufTy).Contents (Elt F) → (⟨S4096x1, .i32⟩ : BufTy).Contents (Elt F)),
    nullary main_cst_7 (constant S_ .f32 0x00000000#32),
    unary main_cst_7 main_v42 (broadcastInDim S4096x256x2 ![] bcast_S_S4096x256x2 : (⟨S_, .f32⟩ : BufTy).Contents (Elt F) → (⟨S4096x256x2, .f32⟩ : BufTy).Contents (Elt F)),
    nullary main_c_8 (constantI S_ 32 0#32),
    unary main_c_8 main_v43 (broadcastInDim S4096x1 ![] bcast_S_S4096x1 : (⟨S_, .i32⟩ : BufTy).Contents (Elt F) → (⟨S4096x1, .i32⟩ : BufTy).Contents (Elt F)),
    binary main_v41 main_v43 main_v44 (cmpi .slt : (⟨S4096x1, .i32⟩ : BufTy).Contents (Elt F) → (⟨S4096x1, .i32⟩ : BufTy).Contents (Elt F) → (⟨S4096x1, .i1⟩ : BufTy).Contents (Elt F)),
    nullary main_c_9 (constantI S_ 32 4096#32),
    unary main_c_9 main_v45 (broadcastInDim S4096x1 ![] bcast_S_S4096x1 : (⟨S_, .i32⟩ : BufTy).Contents (Elt F) → (⟨S4096x1, .i32⟩ : BufTy).Contents (Elt F)),
    binary main_v41 main_v45 main_v46 (addi : (⟨S4096x1, .i32⟩ : BufTy).Contents (Elt F) → (⟨S4096x1, .i32⟩ : BufTy).Contents (Elt F) → (⟨S4096x1, .i32⟩ : BufTy).Contents (Elt F)),
    ternary main_v44 main_v46 main_v41 main_v47 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    nullary main_c_10 (constantI S_ 32 0#32),
    unary main_c_10 main_v48 (broadcastInDim S4096x4096 ![] bcast_S_S4096x4096 : (⟨S_, .i32⟩ : BufTy).Contents (Elt F) → (⟨S4096x4096, .i32⟩ : BufTy).Contents (Elt F)),
    binary main_v37 main_v48 main_v49 (cmpi .slt : (⟨S4096x4096, .i32⟩ : BufTy).Contents (Elt F) → (⟨S4096x4096, .i32⟩ : BufTy).Contents (Elt F) → (⟨S4096x4096, .i1⟩ : BufTy).Contents (Elt F)),
    nullary main_c_11 (constantI S_ 32 256#32),
    unary main_c_11 main_v50 (broadcastInDim S4096x4096 ![] bcast_S_S4096x4096 : (⟨S_, .i32⟩ : BufTy).Contents (Elt F) → (⟨S4096x4096, .i32⟩ : BufTy).Contents (Elt F)),
    binary main_v37 main_v50 main_v51 (addi : (⟨S4096x4096, .i32⟩ : BufTy).Contents (Elt F) → (⟨S4096x4096, .i32⟩ : BufTy).Contents (Elt F) → (⟨S4096x4096, .i32⟩ : BufTy).Contents (Elt F)),
    ternary main_v49 main_v51 main_v37 main_v52 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    unary main_v47 main_v53 (broadcastInDim S4096x4096 ![0, 1] bcast_S4096x1_S4096x4096_0_1 : (⟨S4096x1, .i32⟩ : BufTy).Contents (Elt F) → (⟨S4096x4096, .i32⟩ : BufTy).Contents (Elt F)),
    unary main_v53 main_v54 (broadcastInDim S4096x4096x1 ![0, 1] bcast_S4096x4096_S4096x4096x1_0_1 : (⟨S4096x4096, .i32⟩ : BufTy).Contents (Elt F) → (⟨S4096x4096x1, .i32⟩ : BufTy).Contents (Elt F)),
    unary main_v52 main_v55 (broadcastInDim S4096x4096x1 ![0, 1] bcast_S4096x4096_S4096x4096x1_0_1 : (⟨S4096x4096, .i32⟩ : BufTy).Contents (Elt F) → (⟨S4096x4096x1, .i32⟩ : BufTy).Contents (Elt F)),
    binary main_v54 main_v55 main_v56 (joinCols : (⟨S4096x4096x1, .i32⟩ : BufTy).Contents (Elt F) → (⟨S4096x4096x1, .i32⟩ : BufTy).Contents (Elt F) → (⟨S4096x4096x2, .i32⟩ : BufTy).Contents (Elt F)),
    ternary main_v42 main_v56 main_v39 main_v57 ((fun x i u => Host.scatterAdd scatter_S4096x256x2_S4096x4096x2_S4096x4096x2_2_01_01_2 x i u) : (⟨S4096x256x2, .f32⟩ : BufTy).Contents (Elt F) → (⟨S4096x4096x2, .i32⟩ : BufTy).Contents (Elt F) → (⟨S4096x4096x2, .f32⟩ : BufTy).Contents (Elt F) → (⟨S4096x256x2, .f32⟩ : BufTy).Contents (Elt F)),
    nullary main_cst_12 (constant S_ .f32 0x00000000#32),
    unary main_cst_12 main_v58 (broadcastInDim S4096x256 ![] bcast_S_S4096x256 : (⟨S_, .f32⟩ : BufTy).Contents (Elt F) → (⟨S4096x256, .f32⟩ : BufTy).Contents (Elt F)),
    unary main_v29 main_v59 (uitofp .f32 : (⟨S4096x4096, .i1⟩ : BufTy).Contents (Elt F) → (⟨S4096x4096, .f32⟩ : BufTy).Contents (Elt F)),
    nullary main_c_13 (constantI S_ 32 0#32),
    unary main_c_13 main_v60 (broadcastInDim S4096x1 ![] bcast_S_S4096x1 : (⟨S_, .i32⟩ : BufTy).Contents (Elt F) → (⟨S4096x1, .i32⟩ : BufTy).Contents (Elt F)),
    binary main_v41 main_v60 main_v61 (cmpi .slt : (⟨S4096x1, .i32⟩ : BufTy).Contents (Elt F) → (⟨S4096x1, .i32⟩ : BufTy).Contents (Elt F) → (⟨S4096x1, .i1⟩ : BufTy).Contents (Elt F)),
    nullary main_c_14 (constantI S_ 32 4096#32),
    unary main_c_14 main_v62 (broadcastInDim S4096x1 ![] bcast_S_S4096x1 : (⟨S_, .i32⟩ : BufTy).Contents (Elt F) → (⟨S4096x1, .i32⟩ : BufTy).Contents (Elt F)),
    binary main_v41 main_v62 main_v63 (addi : (⟨S4096x1, .i32⟩ : BufTy).Contents (Elt F) → (⟨S4096x1, .i32⟩ : BufTy).Contents (Elt F) → (⟨S4096x1, .i32⟩ : BufTy).Contents (Elt F)),
    ternary main_v61 main_v63 main_v41 main_v64 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    nullary main_c_15 (constantI S_ 32 0#32),
    unary main_c_15 main_v65 (broadcastInDim S4096x4096 ![] bcast_S_S4096x4096 : (⟨S_, .i32⟩ : BufTy).Contents (Elt F) → (⟨S4096x4096, .i32⟩ : BufTy).Contents (Elt F)),
    binary main_v37 main_v65 main_v66 (cmpi .slt : (⟨S4096x4096, .i32⟩ : BufTy).Contents (Elt F) → (⟨S4096x4096, .i32⟩ : BufTy).Contents (Elt F) → (⟨S4096x4096, .i1⟩ : BufTy).Contents (Elt F)),
    nullary main_c_16 (constantI S_ 32 256#32),
    unary main_c_16 main_v67 (broadcastInDim S4096x4096 ![] bcast_S_S4096x4096 : (⟨S_, .i32⟩ : BufTy).Contents (Elt F) → (⟨S4096x4096, .i32⟩ : BufTy).Contents (Elt F)),
    binary main_v37 main_v67 main_v68 (addi : (⟨S4096x4096, .i32⟩ : BufTy).Contents (Elt F) → (⟨S4096x4096, .i32⟩ : BufTy).Contents (Elt F) → (⟨S4096x4096, .i32⟩ : BufTy).Contents (Elt F)),
    ternary main_v66 main_v68 main_v37 main_v69 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    unary main_v64 main_v70 (broadcastInDim S4096x4096 ![0, 1] bcast_S4096x1_S4096x4096_0_1 : (⟨S4096x1, .i32⟩ : BufTy).Contents (Elt F) → (⟨S4096x4096, .i32⟩ : BufTy).Contents (Elt F)),
    unary main_v70 main_v71 (broadcastInDim S4096x4096x1 ![0, 1] bcast_S4096x4096_S4096x4096x1_0_1 : (⟨S4096x4096, .i32⟩ : BufTy).Contents (Elt F) → (⟨S4096x4096x1, .i32⟩ : BufTy).Contents (Elt F)),
    unary main_v69 main_v72 (broadcastInDim S4096x4096x1 ![0, 1] bcast_S4096x4096_S4096x4096x1_0_1 : (⟨S4096x4096, .i32⟩ : BufTy).Contents (Elt F) → (⟨S4096x4096x1, .i32⟩ : BufTy).Contents (Elt F)),
    binary main_v71 main_v72 main_v73 (joinCols : (⟨S4096x4096x1, .i32⟩ : BufTy).Contents (Elt F) → (⟨S4096x4096x1, .i32⟩ : BufTy).Contents (Elt F) → (⟨S4096x4096x2, .i32⟩ : BufTy).Contents (Elt F)),
    ternary main_v58 main_v73 main_v59 main_v74 ((fun x i u => Host.scatterAdd scatter_S4096x256_S4096x4096x2_S4096x4096_n_01_01_2 x i u) : (⟨S4096x256, .f32⟩ : BufTy).Contents (Elt F) → (⟨S4096x4096x2, .i32⟩ : BufTy).Contents (Elt F) → (⟨S4096x4096, .f32⟩ : BufTy).Contents (Elt F) → (⟨S4096x256, .f32⟩ : BufTy).Contents (Elt F)),
    nullary main_cst_17 (constant S_ .f32 0x3F800000#32),
    unary main_cst_17 main_v75 (broadcastInDim S4096x256 ![] bcast_S_S4096x256 : (⟨S_, .f32⟩ : BufTy).Contents (Elt F) → (⟨S4096x256, .f32⟩ : BufTy).Contents (Elt F)),
    binary main_v74 main_v75 main_v76 (maximumf : (⟨S4096x256, .f32⟩ : BufTy).Contents (Elt F) → (⟨S4096x256, .f32⟩ : BufTy).Contents (Elt F) → (⟨S4096x256, .f32⟩ : BufTy).Contents (Elt F)),
    unary main_v76 main_v77 (broadcastInDim S4096x256x1 ![0, 1] bcast_S4096x256_S4096x256x1_0_1 : (⟨S4096x256, .f32⟩ : BufTy).Contents (Elt F) → (⟨S4096x256x1, .f32⟩ : BufTy).Contents (Elt F)),
    unary main_v77 main_v78 (broadcastInDim S4096x256x2 ![0, 1, 2] bcast_S4096x256x1_S4096x256x2_0_1_2 : (⟨S4096x256x1, .f32⟩ : BufTy).Contents (Elt F) → (⟨S4096x256x2, .f32⟩ : BufTy).Contents (Elt F)),
    binary main_v57 main_v78 main_v79 (Host.divf : (⟨S4096x256x2, .f32⟩ : BufTy).Contents (Elt F) → (⟨S4096x256x2, .f32⟩ : BufTy).Contents (Elt F) → (⟨S4096x256x2, .f32⟩ : BufTy).Contents (Elt F)),
    reshape main_v79 main_v80 rfl shapeCasts_S4096x256x2_S4096x512,
    unary main_arg3 main_v81 ((transpose S512x256 [1, 0] · transposes_S256x512_S512x256_1_0) : (⟨S256x512, .f32⟩ : BufTy).Contents (Elt F) → (⟨S512x256, .f32⟩ : BufTy).Contents (Elt F)),
    binary main_v80 main_v81 main_v82 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    unary main_arg4 main_v83 (broadcastInDim S1x256 ![1] bcast_S256_S1x256_1 : (⟨S256, .f32⟩ : BufTy).Contents (Elt F) → (⟨S1x256, .f32⟩ : BufTy).Contents (Elt F)),
    unary main_v83 main_v84 (broadcastInDim S4096x256 ![0, 1] bcast_S1x256_S4096x256_0_1 : (⟨S1x256, .f32⟩ : BufTy).Contents (Elt F) → (⟨S4096x256, .f32⟩ : BufTy).Contents (Elt F)),
    binary main_v82 main_v84 main_v85 (addf : (⟨S4096x256, .f32⟩ : BufTy).Contents (Elt F) → (⟨S4096x256, .f32⟩ : BufTy).Contents (Elt F) → (⟨S4096x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4096x256, .f32⟩) main_call2_v0) (broadcastInDim S4096x256 ![] bcast_S_S4096x256),
    TRef.binary (TRef.of (T := ⟨S4096x256, .f32⟩) main_v85) (TRef.of (T := ⟨S4096x256, .f32⟩) main_call2_v0) (TRef.of (T := ⟨S4096x256, .f32⟩) main_v86) maximumf ]

set_option maxRecDepth 8192 in
set_option maxHeartbeats 4000000 in
/-- The same list of operations. -/
theorem opsJ_eq : (ops : List (HloOp τ sig (Elt F))) = opsJ := rfl

set_option maxRecDepth 65536 in
set_option maxHeartbeats 45600000 in
/-- After the operations, the result buffer holds their composed term of the launch contents of the arguments. -/
theorem after_main_v86 (m : (ℓ : Loc nD τ sig) → Buf (Elt F) ℓ) (c : Dev nD) :
    after (ops (F := F)) (launchContents m c) (Proc.devRef .tc main_v86) = res_main_v86 m c := by
  rw [opsJ_eq]
  after_results_simp
  simp only [joinCols, Cert.Lib.TypedRefs.ofBuf_toBuf]
  unfold res_main_v86
  rfl

/-- On every device, for any float values, from any memory with zero counters: every weakly fair execution of the
    reference terminates with the result buffer at the operations' composed term of the arguments, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86) = res_main_v86 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v86).trans (after_main_v86 m c),
      (h c main_arg0).trans (kept_main_arg0 m c),
      (h c main_arg1).trans (kept_main_arg1 m c),
      (h c main_arg2).trans (kept_main_arg2 m c),
      (h c main_arg3).trans (kept_main_arg3 m c),
      (h c main_arg4).trans (kept_main_arg4 m c)⟩)
    (run_after m ρ)

end Cert.ReferenceIdeal.RunBack

end
-- ==== Proof.RefSide.lean ====
/-
  The reference program's side of the certificate.

  The reference is a host program with no kernel launch: its run terminates with the result buffer at the
  composed term of its operations over the argument arrays, and every argument array unchanged. Dropping the
  result from that run's post is the reference's frame claim.
-/
import proofs.«161577_j37271726195508_2_alg».proof.Defs
import proofs.«161577_j37271726195508_2_alg».proof.Proof.RefRunBack

noncomputable section

open Idealize.ShloMosaic Idealize.ShloMosaic.TcCoe Idealize.SL.Sem

namespace Cert.Proof.RefSide

/-- The reference terminates on every weakly fair execution, faults nowhere, and leaves its five argument
    arrays as launched: its run with the statement about the result dropped. -/
theorem frame_ri [hR : Cert.ReferenceIdeal.Facts] [hP : Cert.Pre_finite_inputs.Facts] : Cert.frame_ReferenceIdeal := fun m ρ _ =>
  (θ_run Cert.ReferenceIdeal.defs _ _).mono (fun _ h c => (h c).2) (Cert.ReferenceIdeal.RunBack.run (F := Ideal) m ρ)

/-- The ideal pass rewrote no operation of the kernel, so there is nothing to preserve. -/
theorem preserves : Cert.preserves_Kernel_KernelIdeal := trivial

end Cert.Proof.RefSide

end
-- ==== Proof.LibSmallWords.lean ====
/-
  Small signed words, and a reduction by `and`.

  A 32-bit word whose signed reading lies in `[0, 16)` is its unsigned reading, so the word `16 * x + y` of two such
  words reads signed as `16 * x + y` with no wrap-around. A word that is not negative is left alone by the
  normalisation "add the extent if negative" that precedes an indexed update. Two position words `0, 1, …` are equal only
  at equal positions. A `stablehlo.reduce` by `and` over one-bit words is 1 exactly when its initial value is 1 and every
  operand element reducing into it is 1.
-/
import Idealize.ShloMosaic.Lib.ReduceAll
import Idealize.ShloMosaic.PureOps.Ideal

namespace Cert.Lib.SmallWords

open Idealize.ShloMosaic

theorem two_pow_32 : (2 : ℕ) ^ 32 = 4294967296 := by norm_num

/-- A word that reads signed as a non-negative number reads unsigned as the same number, below `2^31`. -/
theorem toNat_of_nonneg {w : BitVec 32} (h0 : 0 ≤ w.toInt) : w.toInt = (w.toNat : ℤ) ∧ w.toNat < 2147483648 := by
  have hlt := w.isLt
  rw [two_pow_32] at hlt
  rw [BitVec.toInt_eq_toNat_cond, two_pow_32] at h0 ⊢
  split at h0
  · rename_i h; rw [if_pos h]; exact ⟨rfl, by omega⟩
  · exfalso; omega

/-- A word made from a natural number below `2^31` reads back, signed, as that number. -/
theorem toInt_ofNat_small {j : ℕ} (hj : j < 2147483648) : (BitVec.ofNat 32 j).toInt = (j : ℤ) := by
  rw [BitVec.toInt_eq_toNat_cond, BitVec.toNat_ofNat, two_pow_32, Nat.mod_eq_of_lt (by omega), if_pos (by omega)]

/-- Position words are equal only at equal positions. -/
theorem ofNat_inj_small {a b : ℕ} (ha : a < 2147483648) (hb : b < 2147483648) :
    BitVec.ofNat 32 a = BitVec.ofNat 32 b ↔ a = b := by
  constructor
  · intro h
    have := congrArg BitVec.toInt h
    rw [toInt_ofNat_small ha, toInt_ofNat_small hb] at this
    exact_mod_cast this
  · intro h; rw [h]

/-- The word `16 * x + y` of two words in `[0, 16)` reads signed as `16 * x + y`. -/
theorem toInt_mul16_add {x y : BitVec 32} (hx0 : 0 ≤ x.toInt) (hx1 : x.toInt < 16) (hy0 : 0 ≤ y.toInt) (hy1 : y.toInt < 16) :
    (IntOp.addi (IntOp.muli x 16#32) y).toInt = x.toInt * 16 + y.toInt := by
  obtain ⟨ex, _⟩ := toNat_of_nonneg hx0
  obtain ⟨ey, _⟩ := toNat_of_nonneg hy0
  have hxn : x.toNat < 16 := by omega
  have hyn : y.toNat < 16 := by omega
  have h16 : (16#32 : BitVec 32).toNat = 16 := by decide
  have hn : (IntOp.addi (IntOp.muli x 16#32) y).toNat = x.toNat * 16 + y.toNat := by
    show (x * 16#32 + y).toNat = _
    rw [BitVec.toNat_add, BitVec.toNat_mul, h16, two_pow_32]
    omega
  rw [BitVec.toInt_eq_toNat_cond, hn, two_pow_32, if_pos (by omega), ex, ey]
  push_cast
  ring

/-- "Add the extent if negative" leaves a word that is not negative alone. -/
theorem normalize_nonneg (w n : BitVec 32) (h : 0 ≤ w.toInt) :
    Scalar.select (IntOp.cmpi .slt w 0#32) (IntOp.addi w n) w = w := by
  unfold Scalar.select
  rw [if_neg]
  show ¬ IntOp.cmpi .slt w 0#32 = 1#1
  rw [IntOp.cmpi_slt]
  have h0 : (0#32 : BitVec 32).toInt = 0 := by decide
  omega

/-- A left fold by `and` over one-bit words is 1 exactly when it started at 1 and met only 1s. -/
theorem foldl_andi_iff {ι : Type} (f : ι → BitVec 1) :
    ∀ (l : List ι) (init : BitVec 1),
      l.foldl (fun r n => IntOp.andi r (f n)) init = 1#1 ↔ init = 1#1 ∧ ∀ n ∈ l, f n = 1#1
  | [], init => by simp
  | a :: l, init => by
    rw [List.foldl_cons, foldl_andi_iff f l, IntOp.andi_eq_one]
    constructor
    · rintro ⟨⟨hi, ha⟩, hl⟩
      exact ⟨hi, fun n hn => by rcases List.mem_cons.1 hn with rfl | hn; exacts [ha, hl n hn]⟩
    · rintro ⟨hi, hl⟩
      exact ⟨⟨hi, hl a (List.mem_cons_self ..)⟩, fun n hn => hl n (List.mem_cons_of_mem _ hn)⟩

/-- A `stablehlo.reduce` by `and` is 1 at `j` exactly when its initial value is 1 and the operand is 1 at every index
    that reduces into `j`. -/
theorem reduce_andi_iff {s t u : Shape} {axes : List (Fin s.rank)} (x : s.Idx → BitVec 1) (init : u.Idx → BitVec 1)
    (h : s.ReducesTo axes t) (hu : 0 < u.numel) (j : t.Idx) :
    Host.reduce IntOp.andi x init h hu j = 1#1
      ↔ init (Shape.Idx.first hu) = 1#1 ∧ ∀ i : s.Idx, h.drop i = j → x i = 1#1 := by
  rw [Host.reduce_eq_foldl, foldl_andi_iff]
  refine and_congr Iff.rfl ⟨fun H i hi => H i ?_, fun H i hi => H i ?_⟩
  · rw [List.mem_filter]
    exact ⟨List.mem_map.2 ⟨s.rowMajor i, List.mem_finRange _, Equiv.symm_apply_apply _ _⟩, by simp [hi]⟩
  · rw [List.mem_filter] at hi
    simpa using hi.2

end Cert.Lib.SmallWords
-- ==== Proof.RefStages.lean ====
/-
  The reference's index stages, read at an index.

  For a pair of pedestrians `(i, j)`: the reference's cell words are the specification's; its validity bit is 1 exactly when
  the pair is counted; the row word of the pair reads signed as `i`; the cell word of the pair — "16 * first coordinate +
  second coordinate where the pair is counted, 0 elsewhere", then normalised by adding 256 if negative — reads signed as that
  number (it is never negative, so the normalisation does nothing); and the two columns joined into the index array are
  these two words.
-/
import proofs.«161577_j37271726195508_2_alg».proof.Proof.RefRead
import proofs.«161577_j37271726195508_2_alg».proof.Proof.Spec
import proofs.«161577_j37271726195508_2_alg».proof.Proof.LibSmallWords

noncomputable section

open scoped BigOperators

namespace Cert.Proof.RefStages

open Cert.ReferenceIdeal Cert.ReferenceIdeal.Gen Cert.ReferenceIdeal.ReadP Idealize.ShloMosaic Idealize.ShloMosaic.ValueIdx
  Cert.Lib.SmallWords

/-- An array of two coordinates per pedestrian, at the ideal values. -/
abbrev Arr2 : Type := (⟨S4096x2, .f32⟩ : BufTy).Contents (Elt Ideal)

/-- A selection by a one-bit word is the `if` on the bit being 1. -/
theorem select_eq_ite {α : Type} (c : BitVec 1) (a b : α) : Scalar.select c a b = if c = 1#1 then a else b := rfl

variable (x1 x2 : Arr2) (i j : Fin 4096) (d : Fin 2)

/-- The reference's cell word of the pair along axis `d` is the specification's. -/
theorem v16_at : val_main_v16 (F := Ideal) x1 (ix3 i j d) = Spec.cellWord x1 i j d := by
  have e3 : idx_main_v1 (idx_main_v3 (ix3 i j d)) = ix2 j d :=
    funext fun a => Fin.ext (by match a with | ⟨0, _⟩ => rfl | ⟨1, _⟩ => rfl)
  have e4 : idx_main_v2 (idx_main_v4 (ix3 i j d)) = ix2 i d :=
    funext fun a => Fin.ext (by match a with | ⟨0, _⟩ => rfl | ⟨1, _⟩ => rfl)
  rw [val_main_v16_apply, val_main_v15_apply, val_main_v14_apply, val_main_v12_apply, val_main_v5_apply,
    val_main_v3_apply, val_main_v1_apply, val_main_v4_apply, val_main_v2_apply, val_main_v11_apply,
    val_main_cst_apply, val_main_v13_apply, val_main_cst_0_apply, e3, e4]
  rfl

/-- The range bit of the pair along axis `d` is 1 exactly when the cell word lies on the grid. -/
theorem v21_at : val_main_v21 (F := Ideal) x1 (ix3 i j d) = 1#1 ↔ Spec.inGrid (Spec.cellWord x1 i j d) := by
  rw [val_main_v21_apply, val_main_v18_apply, val_main_v20_apply, val_main_v17_apply, val_main_c_apply,
    val_main_v19_apply, val_main_c_1_apply, v16_at, IntOp.andi_eq_one, IntOp.cmpi_sge, IntOp.cmpi_slt]
  have h0 : (0#32 : BitVec 32).toInt = 0 := by decide
  have h16 : (16#32 : BitVec 32).toInt = 16 := by decide
  rw [h0, h16]
  exact Iff.rfl

/-- Dropping the last coordinate of a pair-and-axis index gives the pair. -/
theorem drop_ix3 (h : S4096x4096x2.ReducesTo [2] S4096x4096) (a b : Fin 4096) (e : Fin 2) :
    h.drop (ix3 a b e) = ix2 a b :=
  funext fun t => Fin.ext (by match t with | ⟨0, _⟩ => rfl | ⟨1, _⟩ => rfl)

/-- The pair's range bit (the `and` over the two axes) is 1 exactly when both cell words lie on the grid. -/
theorem v22_at : val_main_v22 (F := Ideal) x1 (ix2 i j) = 1#1
    ↔ Spec.inGrid (Spec.cellWord x1 i j 0) ∧ Spec.inGrid (Spec.cellWord x1 i j 1) := by
  unfold val_main_v22
  rw [reduce_andi_iff]
  constructor
  · rintro ⟨_, H⟩
    exact ⟨(v21_at x1 i j 0).1 (H (ix3 i j 0) (drop_ix3 _ i j 0)), (v21_at x1 i j 1).1 (H (ix3 i j 1) (drop_ix3 _ i j 1))⟩
  · rintro ⟨h0, h1⟩
    refine ⟨rfl, fun u hu => ?_⟩
    obtain ⟨a, b, e, rfl⟩ : ∃ (a b : Fin 4096) (e : Fin 2), u = ix3 a b e := ⟨u 0, u 1, u 2, eq_ix3 u⟩
    rw [drop_ix3] at hu
    have ha : a = i := congrFun hu 0
    have hb : b = j := congrFun hu 1
    subst ha; subst hb
    match e with
    | ⟨0, _⟩ => exact (v21_at x1 a b 0).2 h0
    | ⟨1, _⟩ => exact (v21_at x1 a b 1).2 h1

/-- The "not the same pedestrian" bit. -/
theorem v28_at : val_main_v28 (F := Ideal) (ix2 i j) = 1#1 ↔ i ≠ j := by
  rw [val_main_v28_apply, IntOp.not_eq_one, val_main_v27_apply, IntOp.cmpi_eq, val_main_v26_apply, val_main_v23_apply,
    val_main_v25_apply, val_main_c_3_apply, val_main_v24_apply]
  show ¬ (BitVec.ofNat 32 i.val + 0#32 = BitVec.ofNat 32 j.val) ↔ i ≠ j
  rw [BitVec.add_zero, ofNat_inj_small (by have := i.isLt; omega) (by have := j.isLt; omega)]
  exact not_congr Fin.val_inj

/-- The validity bit of the pair is 1 exactly when the pair is counted. -/
theorem v29_at : val_main_v29 (F := Ideal) x1 (ix2 i j) = 1#1 ↔ Spec.valid x1 i j := by
  rw [val_main_v29_apply, IntOp.andi_eq_one, v22_at, v28_at]
  unfold Spec.valid
  exact and_assoc

/-- The first cell coordinate, sliced out and reshaped to the pair grid. -/
theorem v31_at : val_main_v31 (F := Ideal) x1 (ix2 i j) = Spec.cellWord x1 i j 0 := by
  have e : idx_main_v30 (idx_main_v31 (ix2 i j)) = ix3 i j (0 : Fin 2) := funext fun a => Fin.ext (by
    have hi := i.isLt; have hj := j.isLt
    match a with
    | ⟨0, _⟩ => show (i.val * 4096 + j.val) / 4096 = i.val; omega
    | ⟨1, _⟩ => show (i.val * 4096 + j.val) / 1 % 4096 = j.val; omega
    | ⟨2, _⟩ => rfl)
  rw [val_main_v31_apply, val_main_v30_apply, e, v16_at]

/-- The second cell coordinate, sliced out and reshaped to the pair grid. -/
theorem v35_at : val_main_v35 (F := Ideal) x1 (ix2 i j) = Spec.cellWord x1 i j 1 := by
  have e : idx_main_v34 (idx_main_v35 (ix2 i j)) = ix3 i j (1 : Fin 2) := funext fun a => Fin.ext (by
    have hi := i.isLt; have hj := j.isLt
    match a with
    | ⟨0, _⟩ => show (i.val * 4096 + j.val) / 4096 = i.val; omega
    | ⟨1, _⟩ => show (i.val * 4096 + j.val) / 1 % 4096 = j.val; omega
    | ⟨2, _⟩ => rfl)
  rw [val_main_v35_apply, val_main_v34_apply, e, v16_at]

/-- The pair's cell word where the pair is counted, 0 elsewhere. -/
theorem v37_at : val_main_v37 (F := Ideal) x1 (ix2 i j)
    = if Spec.valid x1 i j then IntOp.addi (IntOp.muli (Spec.cellWord x1 i j 0) 16#32) (Spec.cellWord x1 i j 1) else 0#32 := by
  rw [val_main_v37_apply, val_main_v36_apply, val_main_v33_apply, v31_at, val_main_v32_apply, val_main_c_4_apply, v35_at,
    val_main_call0_v1_apply, val_main_call0_v0_apply, val_main_c_5_apply, select_eq_ite]
  by_cases hv : Spec.valid x1 i j
  · rw [if_pos hv, if_pos ((v29_at x1 i j).2 hv)]
  · rw [if_neg hv, if_neg (fun h => hv ((v29_at x1 i j).1 h))]

/-- That word is never negative, and reads signed as `16 * first + second` where the pair is counted, 0 elsewhere. -/
theorem v37_toInt : 0 ≤ (val_main_v37 (F := Ideal) x1 (ix2 i j)).toInt
    ∧ (val_main_v37 (F := Ideal) x1 (ix2 i j)).toInt
      = if Spec.valid x1 i j then (Spec.cellWord x1 i j 0).toInt * 16 + (Spec.cellWord x1 i j 1).toInt else 0 := by
  rw [v37_at]
  by_cases hv : Spec.valid x1 i j
  · rw [if_pos hv, if_pos hv]
    obtain ⟨⟨hx0, hx1⟩, ⟨hy0, hy1⟩, _⟩ := hv
    rw [toInt_mul16_add hx0 hx1 hy0 hy1]
    exact ⟨by omega, rfl⟩
  · rw [if_neg hv, if_neg hv]
    exact ⟨by decide, by decide⟩

/-- The normalised cell word of the values' scatter reads signed as the same number. -/
theorem v52_toInt : (val_main_v52 (F := Ideal) x1 (ix2 i j)).toInt
    = if Spec.valid x1 i j then (Spec.cellWord x1 i j 0).toInt * 16 + (Spec.cellWord x1 i j 1).toInt else 0 := by
  rw [val_main_v52_apply, val_main_v49_apply, val_main_v51_apply, val_main_v48_apply, val_main_c_10_apply,
    normalize_nonneg _ _ (v37_toInt x1 i j).1]
  exact (v37_toInt x1 i j).2

/-- The normalised cell word of the counts' scatter reads signed as the same number. -/
theorem v69_toInt : (val_main_v69 (F := Ideal) x1 (ix2 i j)).toInt
    = if Spec.valid x1 i j then (Spec.cellWord x1 i j 0).toInt * 16 + (Spec.cellWord x1 i j 1).toInt else 0 := by
  rw [val_main_v69_apply, val_main_v66_apply, val_main_v68_apply, val_main_v65_apply, val_main_c_15_apply,
    normalize_nonneg _ _ (v37_toInt x1 i j).1]
  exact (v37_toInt x1 i j).2

/-- The position word of pedestrian `i`. -/
theorem v41_at : val_main_v41 (F := Ideal) (ix2 i (0 : Fin 1)) = BitVec.ofNat 32 i.val := by
  rw [val_main_v41_apply, val_main_v40_apply] <;> rfl

/-- The normalised row word of the values' scatter reads signed as `i`. -/
theorem v47_toInt : (val_main_v47 (F := Ideal) (ix2 i (0 : Fin 1))).toInt = (i.val : ℤ) := by
  have hs : i.val < 2147483648 := by have := i.isLt; omega
  have hnn : 0 ≤ (BitVec.ofNat 32 i.val).toInt := by rw [toInt_ofNat_small hs]; omega
  rw [val_main_v47_apply, val_main_v44_apply, val_main_v46_apply, val_main_v43_apply, val_main_c_8_apply, v41_at,
    normalize_nonneg _ _ hnn, toInt_ofNat_small hs]

/-- The normalised row word of the counts' scatter reads signed as `i`. -/
theorem v64_toInt : (val_main_v64 (F := Ideal) (ix2 i (0 : Fin 1))).toInt = (i.val : ℤ) := by
  have hs : i.val < 2147483648 := by have := i.isLt; omega
  have hnn : 0 ≤ (BitVec.ofNat 32 i.val).toInt := by rw [toInt_ofNat_small hs]; omega
  rw [val_main_v64_apply, val_main_v61_apply, val_main_v63_apply, val_main_v60_apply, val_main_c_13_apply, v41_at,
    normalize_nonneg _ _ hnn, toInt_ofNat_small hs]

/-- The values' index array at `(i, j, 0)`: the row word, which reads signed as `i`. -/
theorem v56_row : (val_main_v56 (F := Ideal) x1 (ix3 i j (0 : Fin 2))).toInt = (i.val : ℤ) := by
  have e : val_main_v56 (F := Ideal) x1 (ix3 i j (0 : Fin 2)) = val_main_v54 (F := Ideal) (ix3 i j (0 : Fin 1)) := by
    unfold val_main_v56
    exact concatenate_pair_apply_left (t := S4096x4096x2) (s₁ := S4096x4096x1) (s₂ := S4096x4096x1) (2 : Fin S4096x4096x2.rank) _ _
      concatenates_S4096x4096x1_S4096x4096x1_S4096x4096x2_d2
      (ix3 i j (0 : Fin 2)) rfl (ix3 i j (0 : Fin 1))
      (fun b => by match b with | ⟨0, _⟩ => rfl | ⟨1, _⟩ => rfl | ⟨2, _⟩ => rfl)
  have e54 : idx_main_v54 (ix3 i j (0 : Fin 1)) = ix2 i j :=
    funext fun a => Fin.ext (by match a with | ⟨0, _⟩ => rfl | ⟨1, _⟩ => rfl)
  have e53 : idx_main_v53 (ix2 i j) = ix2 i (0 : Fin 1) :=
    funext fun a => Fin.ext (by match a with | ⟨0, _⟩ => rfl | ⟨1, _⟩ => rfl)
  rw [e, val_main_v54_apply, e54, val_main_v53_apply, e53, v47_toInt]

/-- The values' index array at `(i, j, 1)`: the normalised cell word. -/
theorem v56_cell : val_main_v56 (F := Ideal) x1 (ix3 i j (1 : Fin 2)) = val_main_v52 (F := Ideal) x1 (ix2 i j) := by
  have e : val_main_v56 (F := Ideal) x1 (ix3 i j (1 : Fin 2)) = val_main_v55 (F := Ideal) x1 (ix3 i j (0 : Fin 1)) := by
    unfold val_main_v56
    exact concatenate_pair_apply_right (t := S4096x4096x2) (s₁ := S4096x4096x1) (s₂ := S4096x4096x1) (2 : Fin S4096x4096x2.rank) _ _
      concatenates_S4096x4096x1_S4096x4096x1_S4096x4096x2_d2
      (ix3 i j (1 : Fin 2)) rfl rfl (ix3 i j (0 : Fin 1))
      (fun b hb => by match b, hb with | ⟨0, _⟩, _ => rfl | ⟨1, _⟩, _ => rfl | ⟨2, _⟩, hb => exact absurd rfl hb)
      rfl
  have e55 : idx_main_v55 (ix3 i j (0 : Fin 1)) = ix2 i j :=
    funext fun a => Fin.ext (by match a with | ⟨0, _⟩ => rfl | ⟨1, _⟩ => rfl)
  rw [e, val_main_v55_apply, e55]

/-- The counts' index array at `(i, j, 0)`: the row word, which reads signed as `i`. -/
theorem v73_row : (val_main_v73 (F := Ideal) x1 (ix3 i j (0 : Fin 2))).toInt = (i.val : ℤ) := by
  have e : val_main_v73 (F := Ideal) x1 (ix3 i j (0 : Fin 2)) = val_main_v71 (F := Ideal) (ix3 i j (0 : Fin 1)) := by
    unfold val_main_v73
    exact concatenate_pair_apply_left (t := S4096x4096x2) (s₁ := S4096x4096x1) (s₂ := S4096x4096x1) (2 : Fin S4096x4096x2.rank) _ _
      concatenates_S4096x4096x1_S4096x4096x1_S4096x4096x2_d2
      (ix3 i j (0 : Fin 2)) rfl (ix3 i j (0 : Fin 1))
      (fun b => by match b with | ⟨0, _⟩ => rfl | ⟨1, _⟩ => rfl | ⟨2, _⟩ => rfl)
  have e71 : idx_main_v71 (ix3 i j (0 : Fin 1)) = ix2 i j :=
    funext fun a => Fin.ext (by match a with | ⟨0, _⟩ => rfl | ⟨1, _⟩ => rfl)
  have e70 : idx_main_v70 (ix2 i j) = ix2 i (0 : Fin 1) :=
    funext fun a => Fin.ext (by match a with | ⟨0, _⟩ => rfl | ⟨1, _⟩ => rfl)
  rw [e, val_main_v71_apply, e71, val_main_v70_apply, e70, v64_toInt]

/-- The counts' index array at `(i, j, 1)`: the normalised cell word. -/
theorem v73_cell : val_main_v73 (F := Ideal) x1 (ix3 i j (1 : Fin 2)) = val_main_v69 (F := Ideal) x1 (ix2 i j) := by
  have e : val_main_v73 (F := Ideal) x1 (ix3 i j (1 : Fin 2)) = val_main_v72 (F := Ideal) x1 (ix3 i j (0 : Fin 1)) := by
    unfold val_main_v73
    exact concatenate_pair_apply_right (t := S4096x4096x2) (s₁ := S4096x4096x1) (s₂ := S4096x4096x1) (2 : Fin S4096x4096x2.rank) _ _
      concatenates_S4096x4096x1_S4096x4096x1_S4096x4096x2_d2
      (ix3 i j (1 : Fin 2)) rfl rfl (ix3 i j (0 : Fin 1))
      (fun b hb => by match b, hb with | ⟨0, _⟩, _ => rfl | ⟨1, _⟩, _ => rfl | ⟨2, _⟩, hb => exact absurd rfl hb)
      rfl
  have e72 : idx_main_v72 (ix3 i j (0 : Fin 1)) = ix2 i j :=
    funext fun a => Fin.ext (by match a with | ⟨0, _⟩ => rfl | ⟨1, _⟩ => rfl)
  rw [e, val_main_v72_apply, e72]

end Cert.Proof.RefStages

end
-- ==== Proof.LibPairScatter.lean ====
/-
  A scatter-add addressed by PAIRS of index words, read at an index.

  `x.at[rows, cols].add(upd)` over an `[R, C, D]` table of `D`-vectors, with one (row, column) pair of index words per
  update vector — the pairs carried as an `[N, M, 2]` array of words, the updates as `[N, M, D]` — is, at the ideal values,
  the table's entry plus the sum of the update vectors' entries whose pair IS that (row, column): both words are read
  signed and NOT clamped, so a pair with a word outside its range names no entry and its update is dropped. The same for
  an `[R, C]` table of scalars with `[N, M]` scalar updates. A sum over a rank-3 index set is the triple sum over its
  coordinates.
-/
import Idealize.ShloMosaic.PureOps.Ideal
import Idealize.ShloMosaic.Lib.ValueIdx

noncomputable section

open scoped BigOperators

namespace Cert.PairScatter

open Idealize.ShloMosaic Idealize.ShloMosaic.ValueIdx

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {A : Type*} [AddCommMonoid A] {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

variable {R C D N M w : Nat}

/-! ## Vectors addressed by a pair -/

/-- A scatter of `[N, M, D]` update vectors into an `[R, C, D]` table, the (row, column) named by an `[N, M, 2]` array of words. -/
abbrev vecScatter (R C D N M : Nat)
    (wf : ScatterDims.WF ⟨3, ![R, C, D]⟩ ⟨3, ![N, M, 2]⟩ ⟨3, ![N, M, D]⟩ [2] [0, 1] [0, 1] 2) :
    ScatterDims ⟨3, ![R, C, D]⟩ ⟨3, ![N, M, 2]⟩ ⟨3, ![N, M, D]⟩ where
  updateWindowDims := [2]
  insertedWindowDims := [0, 1]
  scatterDimsToOperandDims := [0, 1]
  indexVectorDim := 2
  wf := wf

section Vec
variable (wf : ScatterDims.WF ⟨3, ![R, C, D]⟩ ⟨3, ![N, M, 2]⟩ ⟨3, ![N, M, D]⟩ [2] [0, 1] [0, 1] 2)
  (j : (⟨3, ![N, M, D]⟩ : Shape).Idx) (idx : IVec ⟨3, ![N, M, 2]⟩ w)

theorem vecScatter_start0 : (vecScatter R C D N M wf).start j idx 0 = (idx (ix3 (j 0) (j 1) (0 : Fin 2))).toInt := by
  unfold ScatterDims.start
  rw [dif_pos (show (0 : Fin 3) ∈ (vecScatter R C D N M wf).scatterDimsToOperandDims from
    (by decide : (0 : Fin 3) ∈ ([0, 1] : List (Fin 3))))]
  have hsi : (vecScatter R C D N M wf).siIdx j ⟨List.idxOf (0 : Fin 3) (vecScatter R C D N M wf).scatterDimsToOperandDims,
      List.idxOf_lt_length_iff.2 (by decide : (0 : Fin 3) ∈ ([0, 1] : List (Fin 3)))⟩ = ix3 (j 0) (j 1) (0 : Fin 2) := by
    funext b; refine Fin.ext ?_
    match b with
    | ⟨0, _⟩ => rfl
    | ⟨1, _⟩ => rfl
    | ⟨2, _⟩ => rfl
  rw [hsi]
  rfl

theorem vecScatter_start1 : (vecScatter R C D N M wf).start j idx 1 = (idx (ix3 (j 0) (j 1) (1 : Fin 2))).toInt := by
  unfold ScatterDims.start
  rw [dif_pos (show (1 : Fin 3) ∈ (vecScatter R C D N M wf).scatterDimsToOperandDims from
    (by decide : (1 : Fin 3) ∈ ([0, 1] : List (Fin 3))))]
  have hsi : (vecScatter R C D N M wf).siIdx j ⟨List.idxOf (1 : Fin 3) (vecScatter R C D N M wf).scatterDimsToOperandDims,
      List.idxOf_lt_length_iff.2 (by decide : (1 : Fin 3) ∈ ([0, 1] : List (Fin 3)))⟩ = ix3 (j 0) (j 1) (1 : Fin 2) := by
    funext b; refine Fin.ext ?_
    match b with
    | ⟨0, _⟩ => rfl
    | ⟨1, _⟩ => rfl
    | ⟨2, _⟩ => rfl
  rw [hsi]
  rfl

theorem vecScatter_start2 : (vecScatter R C D N M wf).start j idx 2 = 0 := by
  unfold ScatterDims.start
  rw [dif_neg (show ¬ (2 : Fin 3) ∈ (vecScatter R C D N M wf).scatterDimsToOperandDims from
    (by decide : ¬ (2 : Fin 3) ∈ ([0, 1] : List (Fin 3))))]

theorem vecScatter_window0 : (vecScatter R C D N M wf).window j 0 = 0 := by
  unfold ScatterDims.window
  rw [dif_neg (show ¬ (0 : Fin 3) ∈ (vecScatter R C D N M wf).sKept from
    (by decide : ¬ (0 : Fin 3) ∈ ([2] : List (Fin 3))))]

theorem vecScatter_window1 : (vecScatter R C D N M wf).window j 1 = 0 := by
  unfold ScatterDims.window
  rw [dif_neg (show ¬ (1 : Fin 3) ∈ (vecScatter R C D N M wf).sKept from
    (by decide : ¬ (1 : Fin 3) ∈ ([2] : List (Fin 3))))]

theorem vecScatter_window2 : (vecScatter R C D N M wf).window j 2 = (j 2).val := by
  unfold ScatterDims.window
  rw [dif_pos (show (2 : Fin 3) ∈ (vecScatter R C D N M wf).sKept from
    (by decide : (2 : Fin 3) ∈ ([2] : List (Fin 3))))]
  rfl

/-- An update vector lands on the table entry its pair of index words names, component for component; a pair with a
    word outside its range lands nowhere. -/
theorem vecScatter_resultIdx?_eq_some_iff (i : (⟨3, ![R, C, D]⟩ : Shape).Idx) :
    (vecScatter R C D N M wf).resultIdx? j idx = some i
      ↔ (idx (ix3 (j 0) (j 1) (0 : Fin 2))).toInt = ((i 0).val : ℤ)
        ∧ (idx (ix3 (j 0) (j 1) (1 : Fin 2))).toInt = ((i 1).val : ℤ) ∧ (j 2).val = (i 2).val := by
  have hs0 := vecScatter_start0 wf j idx
  have hs1 := vecScatter_start1 wf j idx
  have hs2 := vecScatter_start2 wf j idx
  have hw0 := vecScatter_window0 wf j
  have hw1 := vecScatter_window1 wf j
  have hw2 := vecScatter_window2 wf j
  have hi0 : (i 0).val < R := (i 0).isLt
  have hi1 : (i 1).val < C := (i 1).isLt
  have hi2 : (i 2).val < D := (i 2).isLt
  have hj2 : (j 2).val < D := (j 2).isLt
  unfold ScatterDims.resultIdx?
  split
  · rename_i h
    rw [Option.some.injEq]
    constructor
    · intro e
      have e0 : ((vecScatter R C D N M wf).start j idx 0 + ((vecScatter R C D N M wf).window j 0 : ℤ)).toNat = (i 0).val :=
        congrArg (fun f : (⟨3, ![R, C, D]⟩ : Shape).Idx => (f 0).val) e
      have e1 : ((vecScatter R C D N M wf).start j idx 1 + ((vecScatter R C D N M wf).window j 1 : ℤ)).toNat = (i 1).val :=
        congrArg (fun f : (⟨3, ![R, C, D]⟩ : Shape).Idx => (f 1).val) e
      have e2 : ((vecScatter R C D N M wf).start j idx 2 + ((vecScatter R C D N M wf).window j 2 : ℤ)).toNat = (i 2).val :=
        congrArg (fun f : (⟨3, ![R, C, D]⟩ : Shape).Idx => (f 2).val) e
      have h0 := (h 0).1
      have h1 := (h 1).1
      rw [hs0, hw0] at e0 h0
      rw [hs1, hw1] at e1 h1
      rw [hs2, hw2] at e2
      refine ⟨?_, ?_, ?_⟩ <;> omega
    · rintro ⟨e0, e1, e2⟩
      funext a
      refine Fin.ext ?_
      match a with
      | ⟨0, _⟩ =>
        show ((vecScatter R C D N M wf).start j idx 0 + ((vecScatter R C D N M wf).window j 0 : ℤ)).toNat = (i 0).val
        rw [hs0, hw0]; omega
      | ⟨1, _⟩ =>
        show ((vecScatter R C D N M wf).start j idx 1 + ((vecScatter R C D N M wf).window j 1 : ℤ)).toNat = (i 1).val
        rw [hs1, hw1]; omega
      | ⟨2, _⟩ =>
        show ((vecScatter R C D N M wf).start j idx 2 + ((vecScatter R C D N M wf).window j 2 : ℤ)).toNat = (i 2).val
        rw [hs2, hw2]; omega
  · rename_i h
    constructor
    · intro e; cases e
    · rintro ⟨e0, e1, e2⟩
      exfalso; apply h
      intro a
      match a with
      | ⟨0, _⟩ =>
        show 0 ≤ (vecScatter R C D N M wf).start j idx 0 + ((vecScatter R C D N M wf).window j 0 : ℤ)
          ∧ (vecScatter R C D N M wf).start j idx 0 + ((vecScatter R C D N M wf).window j 0 : ℤ) < (R : ℤ)
        rw [hs0, hw0]; omega
      | ⟨1, _⟩ =>
        show 0 ≤ (vecScatter R C D N M wf).start j idx 1 + ((vecScatter R C D N M wf).window j 1 : ℤ)
          ∧ (vecScatter R C D N M wf).start j idx 1 + ((vecScatter R C D N M wf).window j 1 : ℤ) < (C : ℤ)
        rw [hs1, hw1]; omega
      | ⟨2, _⟩ =>
        show 0 ≤ (vecScatter R C D N M wf).start j idx 2 + ((vecScatter R C D N M wf).window j 2 : ℤ)
          ∧ (vecScatter R C D N M wf).start j idx 2 + ((vecScatter R C D N M wf).window j 2 : ℤ) < (D : ℤ)
        rw [hs2, hw2]; omega

/-- THE PAIR-ADDRESSED SCATTER-ADD OF VECTORS READ AT `(r, c, e)`, at the ideal values: the table's entry plus the sum,
    over the update vectors whose pair of index words is `(r, c)`, of their component `e` — written as a masked double sum
    over all the update vectors. -/
theorem vecScatterAdd_apply (x : FVec Ideal ⟨3, ![R, C, D]⟩ .f32) (upd : FVec Ideal ⟨3, ![N, M, D]⟩ .f32)
    (r : Fin R) (c : Fin C) (e : Fin D) :
    Host.scatterAdd (F := Ideal) (vecScatter R C D N M wf) x idx upd (ix3 r c e)
      = x (ix3 r c e) + ∑ n : Fin N, ∑ m : Fin M,
          if (idx (ix3 n m (0 : Fin 2))).toInt = (r.val : ℤ) ∧ (idx (ix3 n m (1 : Fin 2))).toInt = (c.val : ℤ)
          then upd (ix3 n m e) else 0 := by
  show x (ix3 r c e) + ∑ j ∈ Finset.univ.filter (fun j => (vecScatter R C D N M wf).resultIdx? j idx = some (ix3 r c e)), upd j = _
  congr 1
  rw [Finset.sum_filter, sum_idx3]
  refine Finset.sum_congr rfl fun n _ => Finset.sum_congr rfl fun m _ => ?_
  by_cases hnm : (idx (ix3 n m (0 : Fin 2))).toInt = (r.val : ℤ) ∧ (idx (ix3 n m (1 : Fin 2))).toInt = (c.val : ℤ)
  · rw [if_pos hnm, Finset.sum_eq_single e]
    · rw [if_pos ((vecScatter_resultIdx?_eq_some_iff wf (ix3 n m e) idx (ix3 r c e)).2 ⟨hnm.1, hnm.2, rfl⟩)]
    · intro b _ hb
      rw [if_neg]
      intro h
      exact hb (Fin.ext ((vecScatter_resultIdx?_eq_some_iff wf (ix3 n m b) idx (ix3 r c e)).1 h).2.2)
    · intro h; exact absurd (Finset.mem_univ e) h
  · rw [if_neg hnm]
    refine Finset.sum_eq_zero fun b _ => ?_
    rw [if_neg]
    intro h
    have := (vecScatter_resultIdx?_eq_some_iff wf (ix3 n m b) idx (ix3 r c e)).1 h
    exact hnm ⟨this.1, this.2.1⟩

end Vec

/-! ## Scalars addressed by a pair -/

/-- A scatter of `[N, M]` scalar updates into an `[R, C]` table, the (row, column) named by an `[N, M, 2]` array of words. -/
abbrev cellScatter (R C N M : Nat)
    (wf : ScatterDims.WF ⟨2, ![R, C]⟩ ⟨3, ![N, M, 2]⟩ ⟨2, ![N, M]⟩ [] [0, 1] [0, 1] 2) :
    ScatterDims ⟨2, ![R, C]⟩ ⟨3, ![N, M, 2]⟩ ⟨2, ![N, M]⟩ where
  updateWindowDims := []
  insertedWindowDims := [0, 1]
  scatterDimsToOperandDims := [0, 1]
  indexVectorDim := 2
  wf := wf

section Cell
variable (wf : ScatterDims.WF ⟨2, ![R, C]⟩ ⟨3, ![N, M, 2]⟩ ⟨2, ![N, M]⟩ [] [0, 1] [0, 1] 2)
  (j : (⟨2, ![N, M]⟩ : Shape).Idx) (idx : IVec ⟨3, ![N, M, 2]⟩ w)

theorem cellScatter_start0 : (cellScatter R C N M wf).start j idx 0 = (idx (ix3 (j 0) (j 1) (0 : Fin 2))).toInt := by
  unfold ScatterDims.start
  rw [dif_pos (show (0 : Fin 2) ∈ (cellScatter R C N M wf).scatterDimsToOperandDims from
    (by decide : (0 : Fin 2) ∈ ([0, 1] : List (Fin 2))))]
  have hsi : (cellScatter R C N M wf).siIdx j ⟨List.idxOf (0 : Fin 2) (cellScatter R C N M wf).scatterDimsToOperandDims,
      List.idxOf_lt_length_iff.2 (by decide : (0 : Fin 2) ∈ ([0, 1] : List (Fin 2)))⟩ = ix3 (j 0) (j 1) (0 : Fin 2) := by
    funext b; refine Fin.ext ?_
    match b with
    | ⟨0, _⟩ => rfl
    | ⟨1, _⟩ => rfl
    | ⟨2, _⟩ => rfl
  rw [hsi]
  rfl

theorem cellScatter_start1 : (cellScatter R C N M wf).start j idx 1 = (idx (ix3 (j 0) (j 1) (1 : Fin 2))).toInt := by
  unfold ScatterDims.start
  rw [dif_pos (show (1 : Fin 2) ∈ (cellScatter R C N M wf).scatterDimsToOperandDims from
    (by decide : (1 : Fin 2) ∈ ([0, 1] : List (Fin 2))))]
  have hsi : (cellScatter R C N M wf).siIdx j ⟨List.idxOf (1 : Fin 2) (cellScatter R C N M wf).scatterDimsToOperandDims,
      List.idxOf_lt_length_iff.2 (by decide : (1 : Fin 2) ∈ ([0, 1] : List (Fin 2)))⟩ = ix3 (j 0) (j 1) (1 : Fin 2) := by
    funext b; refine Fin.ext ?_
    match b with
    | ⟨0, _⟩ => rfl
    | ⟨1, _⟩ => rfl
    | ⟨2, _⟩ => rfl
  rw [hsi]
  rfl

theorem cellScatter_window0 : (cellScatter R C N M wf).window j 0 = 0 := by
  unfold ScatterDims.window
  rw [dif_neg (show ¬ (0 : Fin 2) ∈ (cellScatter R C N M wf).sKept from
    (by decide : ¬ (0 : Fin 2) ∈ ([] : List (Fin 2))))]

theorem cellScatter_window1 : (cellScatter R C N M wf).window j 1 = 0 := by
  unfold ScatterDims.window
  rw [dif_neg (show ¬ (1 : Fin 2) ∈ (cellScatter R C N M wf).sKept from
    (by decide : ¬ (1 : Fin 2) ∈ ([] : List (Fin 2))))]

/-- A scalar update lands on the table entry its pair of index words names; a pair with a word outside its range lands
    nowhere. -/
theorem cellScatter_resultIdx?_eq_some_iff (i : (⟨2, ![R, C]⟩ : Shape).Idx) :
    (cellScatter R C N M wf).resultIdx? j idx = some i
      ↔ (idx (ix3 (j 0) (j 1) (0 : Fin 2))).toInt = ((i 0).val : ℤ)
        ∧ (idx (ix3 (j 0) (j 1) (1 : Fin 2))).toInt = ((i 1).val : ℤ) := by
  have hs0 := cellScatter_start0 wf j idx
  have hs1 := cellScatter_start1 wf j idx
  have hw0 := cellScatter_window0 wf j
  have hw1 := cellScatter_window1 wf j
  have hi0 : (i 0).val < R := (i 0).isLt
  have hi1 : (i 1).val < C := (i 1).isLt
  unfold ScatterDims.resultIdx?
  split
  · rename_i h
    rw [Option.some.injEq]
    constructor
    · intro e
      have e0 : ((cellScatter R C N M wf).start j idx 0 + ((cellScatter R C N M wf).window j 0 : ℤ)).toNat = (i 0).val :=
        congrArg (fun f : (⟨2, ![R, C]⟩ : Shape).Idx => (f 0).val) e
      have e1 : ((cellScatter R C N M wf).start j idx 1 + ((cellScatter R C N M wf).window j 1 : ℤ)).toNat = (i 1).val :=
        congrArg (fun f : (⟨2, ![R, C]⟩ : Shape).Idx => (f 1).val) e
      have h0 := (h 0).1
      have h1 := (h 1).1
      rw [hs0, hw0] at e0 h0
      rw [hs1, hw1] at e1 h1
      constructor <;> omega
    · rintro ⟨e0, e1⟩
      funext a
      refine Fin.ext ?_
      match a with
      | ⟨0, _⟩ =>
        show ((cellScatter R C N M wf).start j idx 0 + ((cellScatter R C N M wf).window j 0 : ℤ)).toNat = (i 0).val
        rw [hs0, hw0]; omega
      | ⟨1, _⟩ =>
        show ((cellScatter R C N M wf).start j idx 1 + ((cellScatter R C N M wf).window j 1 : ℤ)).toNat = (i 1).val
        rw [hs1, hw1]; omega
  · rename_i h
    constructor
    · intro e; cases e
    · rintro ⟨e0, e1⟩
      exfalso; apply h
      intro a
      match a with
      | ⟨0, _⟩ =>
        show 0 ≤ (cellScatter R C N M wf).start j idx 0 + ((cellScatter R C N M wf).window j 0 : ℤ)
          ∧ (cellScatter R C N M wf).start j idx 0 + ((cellScatter R C N M wf).window j 0 : ℤ) < (R : ℤ)
        rw [hs0, hw0]; omega
      | ⟨1, _⟩ =>
        show 0 ≤ (cellScatter R C N M wf).start j idx 1 + ((cellScatter R C N M wf).window j 1 : ℤ)
          ∧ (cellScatter R C N M wf).start j idx 1 + ((cellScatter R C N M wf).window j 1 : ℤ) < (C : ℤ)
        rw [hs1, hw1]; omega

/-- THE PAIR-ADDRESSED SCATTER-ADD OF SCALARS READ AT `(r, c)`, at the ideal values: the table's entry plus the sum of
    the updates whose pair of index words is `(r, c)` — written as a masked double sum over all the updates. -/
theorem cellScatterAdd_apply (x : FVec Ideal ⟨2, ![R, C]⟩ .f32) (upd : FVec Ideal ⟨2, ![N, M]⟩ .f32)
    (r : Fin R) (c : Fin C) :
    Host.scatterAdd (F := Ideal) (cellScatter R C N M wf) x idx upd (ix2 r c)
      = x (ix2 r c) + ∑ n : Fin N, ∑ m : Fin M,
          if (idx (ix3 n m (0 : Fin 2))).toInt = (r.val : ℤ) ∧ (idx (ix3 n m (1 : Fin 2))).toInt = (c.val : ℤ)
          then upd (ix2 n m) else 0 := by
  show x (ix2 r c) + ∑ j ∈ Finset.univ.filter (fun j => (cellScatter R C N M wf).resultIdx? j idx = some (ix2 r c)), upd j = _
  congr 1
  rw [Finset.sum_filter, sum_idx2]
  refine Finset.sum_congr rfl fun n _ => Finset.sum_congr rfl fun m _ => ?_
  by_cases hnm : (idx (ix3 n m (0 : Fin 2))).toInt = (r.val : ℤ) ∧ (idx (ix3 n m (1 : Fin 2))).toInt = (c.val : ℤ)
  · rw [if_pos hnm, if_pos ((cellScatter_resultIdx?_eq_some_iff wf (ix2 n m) idx (ix2 r c)).2 hnm)]
  · rw [if_neg hnm, if_neg]
    intro h
    exact hnm ((cellScatter_resultIdx?_eq_some_iff wf (ix2 n m) idx (ix2 r c)).1 h)

end Cell

end Cert.PairScatter

end
-- ==== Proof.RefGrid.lean ====
/-
  The reference computes the specification.

  The two scatter-adds, read at `(r, cell)`: the row word of the pair `(n, m)` reads as `n`, so only the pairs of row `r`
  reach row `r` of the table; of those, the pair `(r, m)` reaches cell `16 a + b` exactly when it is counted and its cell
  coordinates are `(a, b)` (an uncounted pair is sent to cell 0 with the value 0, so it adds nothing anywhere). Hence the
  scattered sums are the specification's masked sums, their quotient is the specification's mean, the reshape flattens it
  cell-major, and the product with the transposed weights, the bias and the ramp give the specification's head.
-/
import proofs.«161577_j37271726195508_2_alg».proof.Proof.RefStages
import proofs.«161577_j37271726195508_2_alg».proof.Proof.LibPairScatter
import proofs.«161577_j37271726195508_2_alg».proof.Proof.RefRunBack

noncomputable section

open scoped BigOperators

namespace Cert.Proof.RefGrid

open Cert.ReferenceIdeal Cert.ReferenceIdeal.Gen Cert.ReferenceIdeal.ReadP Idealize.ShloMosaic Idealize.ShloMosaic.ValueIdx
  Cert.Lib.SmallWords Cert.Proof.RefStages Cert.PairScatter

/-- The cell `16 a + b` of the flattened 16 x 16 grid. -/
def cellOf (a b : Fin 16) : Fin 256 := ⟨a.val * 16 + b.val, by have := a.isLt; have := b.isLt; omega⟩

variable (x1 x2 : Arr2)

/-- The scattered values: the relative velocity where the pair is counted, 0 elsewhere. -/
theorem v39_at (i j : Fin 4096) (e : Fin 2) : val_main_v39 (F := Ideal) x1 x2 (ix3 i j e)
    = if Spec.valid x1 i j then Spec.vel x1 x2 j e - Spec.vel x1 x2 i e else 0 := by
  have e1 : idx_main_v38 (idx_main_call1_v1 (ix3 i j e)) = ix2 i j :=
    funext fun a => Fin.ext (by match a with | ⟨0, _⟩ => rfl | ⟨1, _⟩ => rfl)
  have e8 : idx_main_v6 (idx_main_v8 (ix3 i j e)) = ix2 j e :=
    funext fun a => Fin.ext (by match a with | ⟨0, _⟩ => rfl | ⟨1, _⟩ => rfl)
  have e9 : idx_main_v7 (idx_main_v9 (ix3 i j e)) = ix2 i e :=
    funext fun a => Fin.ext (by match a with | ⟨0, _⟩ => rfl | ⟨1, _⟩ => rfl)
  rw [val_main_v39_apply, val_main_call1_v1_apply, val_main_v38_apply, e1, val_main_v10_apply, val_main_v8_apply,
    val_main_v6_apply, e8, val_main_v9_apply, val_main_v7_apply, e9, val_main_call1_v2_apply, val_main_call1_v0_apply,
    val_main_cst_6_apply, select_eq_ite]
  by_cases hv : Spec.valid x1 i j
  · rw [if_pos hv, if_pos ((v29_at x1 i j).2 hv)]
    rfl
  · rw [if_neg hv, if_neg (fun h => hv ((v29_at x1 i j).1 h))]
    exact Ideal.ofBits_zero_f32

/-- The scattered ones: 1 where the pair is counted, 0 elsewhere. -/
theorem v59_at (i j : Fin 4096) : val_main_v59 (F := Ideal) x1 (ix2 i j) = if Spec.valid x1 i j then (1 : EReal) else 0 := by
  rw [val_main_v59_apply]
  by_cases hv : Spec.valid x1 i j
  · rw [if_pos hv, (v29_at x1 i j).2 hv]
    show (((1#1 : BitVec 1).toNat : ℝ) : EReal) = 1
    have h1 : (1#1 : BitVec 1).toNat = 1 := by decide
    rw [h1]; simp
  · rw [if_neg hv, eq_zero_of_ne_one (fun h => hv ((v29_at x1 i j).1 h))]
    show (((0#1 : BitVec 1).toNat : ℝ) : EReal) = 0
    have h0 : (0#1 : BitVec 1).toNat = 0 := by decide
    rw [h0]; simp

/-- Whether a pair of row `r` reaches cell `16 a + b`: exactly when it is counted with cell coordinates `(a, b)`; and an
    uncounted pair carries the value 0. So a masked term of the scatter is the specification's masked term. -/
theorem masked_term {t : EReal} (r m : Fin 4096) (a b : Fin 16) (w : ℤ)
    (hw : w = if Spec.valid x1 r m then (Spec.cellWord x1 r m 0).toInt * 16 + (Spec.cellWord x1 r m 1).toInt else 0) :
    (if ((r.val : ℤ) = (r.val : ℤ) ∧ w = ((cellOf a b).val : ℤ)) then (if Spec.valid x1 r m then t else 0) else 0)
      = if Spec.inCell x1 r m a b then t else 0 := by
  have ha := a.isLt
  have hb := b.isLt
  have hc : ((cellOf a b).val : ℤ) = (a.val : ℤ) * 16 + (b.val : ℤ) := by
    show ((a.val * 16 + b.val : ℕ) : ℤ) = _
    push_cast; ring
  by_cases hv : Spec.valid x1 r m
  · rw [if_pos hv] at hw
    rw [if_pos hv]
    have hv' := hv
    obtain ⟨⟨hx0, hx1⟩, ⟨hy0, hy1⟩, _⟩ := hv'
    refine if_congr ?_ rfl rfl
    unfold Spec.inCell
    constructor
    · rintro ⟨_, h⟩
      refine ⟨hv, ?_, ?_⟩ <;> omega
    · rintro ⟨_, h1, h2⟩
      refine ⟨rfl, ?_⟩
      omega
  · rw [if_neg hv, if_neg (fun h : Spec.inCell x1 r m a b => hv h.1)]
    exact ite_self _

/-- THE SCATTERED VALUES at row `r`, cell `16 a + b`, component `e`: the specification's masked sum. -/
theorem v57_at (r : Fin 4096) (a b : Fin 16) (e : Fin 2) :
    val_main_v57 (F := Ideal) x1 x2 (ix3 r (cellOf a b) e) = Spec.binSum x1 x2 r a b e := by
  unfold val_main_v57
  refine (vecScatterAdd_apply (R := 4096) (C := 256) (D := 2) (N := 4096) (M := 4096) _
    (val_main_v56 (F := Ideal) x1) (val_main_v42 (F := Ideal)) (val_main_v39 (F := Ideal) x1 x2) r (cellOf a b) e).trans ?_
  have hz : val_main_v42 (F := Ideal) (ix3 r (cellOf a b) e) = 0 := by
    rw [val_main_v42_apply, val_main_cst_7_apply]
    exact Ideal.ofBits_zero_f32
  rw [hz, zero_add]
  unfold Spec.binSum
  rw [Finset.sum_eq_single r]
  · refine Finset.sum_congr rfl fun m _ => ?_
    rw [v56_row, v56_cell, v39_at]
    exact masked_term x1 r m a b _ (v52_toInt x1 r m)
  · intro n _ hn
    refine Finset.sum_eq_zero fun m _ => if_neg fun h => hn ?_
    have h1 := h.1
    rw [v56_row] at h1
    exact Fin.ext (by exact_mod_cast h1)
  · intro h; exact absurd (Finset.mem_univ r) h

/-- THE SCATTERED ONES at row `r`, cell `16 a + b`: the specification's masked count. -/
theorem v74_at (r : Fin 4096) (a b : Fin 16) :
    val_main_v74 (F := Ideal) x1 (ix2 r (cellOf a b)) = Spec.binCount x1 r a b := by
  unfold val_main_v74
  refine (cellScatterAdd_apply (R := 4096) (C := 256) (N := 4096) (M := 4096) _
    (val_main_v73 (F := Ideal) x1) (val_main_v58 (F := Ideal)) (val_main_v59 (F := Ideal) x1) r (cellOf a b)).trans ?_
  have hz : val_main_v58 (F := Ideal) (ix2 r (cellOf a b)) = 0 := by
    rw [val_main_v58_apply, val_main_cst_12_apply]
    exact Ideal.ofBits_zero_f32
  rw [hz, zero_add]
  unfold Spec.binCount
  rw [Finset.sum_eq_single r]
  · refine Finset.sum_congr rfl fun m _ => ?_
    rw [v73_row, v73_cell, v59_at]
    exact masked_term x1 r m a b _ (v69_toInt x1 r m)
  · intro n _ hn
    refine Finset.sum_eq_zero fun m _ => if_neg fun h => hn ?_
    have h1 := h.1
    rw [v73_row] at h1
    exact Fin.ext (by exact_mod_cast h1)
  · intro h; exact absurd (Finset.mem_univ r) h

/-- The mean per cell: the scattered sum over `max` of the scattered count and 1. -/
theorem v79_at (r : Fin 4096) (a b : Fin 16) (e : Fin 2) :
    val_main_v79 (F := Ideal) x1 x2 (ix3 r (cellOf a b) e) = Spec.gridAt x1 x2 r a b e := by
  have e78 : idx_main_v77 (idx_main_v78 (ix3 r (cellOf a b) e)) = ix2 r (cellOf a b) :=
    funext fun t => Fin.ext (by match t with | ⟨0, _⟩ => rfl | ⟨1, _⟩ => rfl)
  rw [val_main_v79_apply, v57_at, val_main_v78_apply, val_main_v77_apply, e78, val_main_v76_apply, v74_at,
    val_main_v75_apply, val_main_cst_17_apply]
  rfl

/-- The grid flattened cell-major. -/
theorem v80_at (i : Fin 4096) (k : Fin 512) : val_main_v80 (F := Ideal) x1 x2 (ix2 i k) = Spec.flatAt x1 x2 i k := by
  have hk := k.isLt
  have e : idx_main_v80 (ix2 i k)
      = ix3 i (cellOf ⟨k.val / 32, by omega⟩ ⟨k.val / 2 % 16, by omega⟩) (⟨k.val % 2, by omega⟩ : Fin 2) :=
    funext fun t => Fin.ext (by
      have hi := i.isLt
      match t with
      | ⟨0, _⟩ => show (i.val * 512 + k.val) / 512 = i.val; omega
      | ⟨1, _⟩ => show (i.val * 512 + k.val) / 2 % 256 = k.val / 32 * 16 + k.val / 2 % 16; omega
      | ⟨2, _⟩ => show (i.val * 512 + k.val) % 2 = k.val % 2; omega)
  rw [val_main_v80_apply, e, v79_at]
  rfl

/-- The head: the flattened grid against the transposed weights, plus the bias, the negative part cut off. -/
theorem v86_at (x3 : (⟨S256x512, .f32⟩ : BufTy).Contents (Elt Ideal)) (x4 : (⟨S256, .f32⟩ : BufTy).Contents (Elt Ideal))
    (i : Fin 4096) (o : Fin 256) :
    val_main_v86 (F := Ideal) x1 x2 x3 x4 (ix2 i o) = Spec.headAt x1 x2 x3 x4 i o := by
  have el : ∀ k : Fin 512, lidx_main_v82 (ix2 i o) k = ix2 i k := fun k =>
    funext fun t => Fin.ext (by match t with | ⟨0, _⟩ => rfl | ⟨1, _⟩ => rfl)
  have er : ∀ k : Fin 512, idx_main_v81 (ridx_main_v82 (ix2 i o) k) = ix2 o k := fun k =>
    funext fun t => Fin.ext (by match t with | ⟨0, _⟩ => rfl | ⟨1, _⟩ => rfl)
  have e84 : idx_main_v83 (idx_main_v84 (ix2 i o)) = ix1 o :=
    funext fun t => Fin.ext (by match t with | ⟨0, _⟩ => rfl)
  have hsum : (∑ k : Fin 512, val_main_v80 (F := Ideal) x1 x2 (lidx_main_v82 (ix2 i o) k)
        * val_main_v81 (F := Ideal) x3 (ridx_main_v82 (ix2 i o) k))
      = ∑ k : Fin 512, Spec.flatAt x1 x2 i k * x3 (ix2 o k) :=
    Finset.sum_congr rfl fun k _ => by rw [el, v80_at, val_main_v81_apply, er]
  rw [val_main_v86_apply, val_main_v85_apply, val_main_v82_apply, hsum, val_main_v84_apply, val_main_v83_apply, e84,
    val_main_call2_v0_apply, val_main_call2_cst_apply,
    show FloatOps.ofBits (F := Ideal) .f32 0x00000000#32 = (0 : EReal) from Ideal.ofBits_zero_f32]
  rfl

/-- THE REFERENCE'S RESULT IS THE SPECIFICATION, as one function of the four argument arrays. -/
theorem v86_eq_G (x3 : (⟨S256x512, .f32⟩ : BufTy).Contents (Elt Ideal)) (x4 : (⟨S256, .f32⟩ : BufTy).Contents (Elt Ideal)) :
    val_main_v86 (F := Ideal) x1 x2 x3 x4 = Spec.G x1 x2 x3 x4 := by
  funext t
  obtain ⟨i, o, rfl⟩ : ∃ (i : Fin 4096) (o : Fin 256), t = ix2 i o := ⟨t 0, t 1, eq_ix2 t⟩
  rw [v86_at, Spec.G_apply]

/-- THE REFERENCE'S RUN ENDS AT THE SPECIFICATION: every weakly fair execution of the reference terminates with its result
    buffer at `G` of the launch contents of the positions, the past positions, the weights and the bias, and its five
    argument arrays unchanged. -/
theorem ref_run_G (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩
      (fun r => ∀ c : Dev nD,
        r.2.mem ((c.tc : Thread nD τ).loc main_v86)
            = Spec.G (m' ((c.tc : Thread nD τ).loc main_arg1)) (m' ((c.tc : Thread nD τ).loc main_arg2))
                (m' ((c.tc : Thread nD τ).loc main_arg3)) (m' ((c.tc : Thread nD τ).loc main_arg4))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)) :=
  (θ_run Cert.ReferenceIdeal.defs _ _).mono
    (fun _ h c => ⟨(h c).1.trans ((Cert.ReferenceIdeal.ReadP.val_main_v86_eq m' c).trans (v86_eq_G _ _ _ _)), (h c).2⟩)
    (Cert.ReferenceIdeal.RunBack.run (F := Ideal) m' ρ')

end Cert.Proof.RefGrid

end
-- ==== Proof.RefAlgebraic.lean ====
/-
  From the kernel's run to the algebraic claim.

  If every weakly fair execution of the idealized kernel ends with its result buffer at the specification `G` of its own
  argument arrays (and those unchanged), then, run from memories that agree on the arguments, the idealized kernel and the
  idealized reference end with equal results: the reference ends at `G` of ITS argument arrays, which are the kernel's.
-/
import proofs.«161577_j37271726195508_2_alg».proof.Defs
import proofs.«161577_j37271726195508_2_alg».proof.Proof.RefGrid

noncomputable section

open Idealize.ShloMosaic Idealize.ShloMosaic.TcCoe Idealize.SL.Sem

namespace Cert.Proof.RefAlgebraic

/-- The algebraic claim, from the kernel's run stated with the specification. -/
theorem algebraic_of_kernel [hKI : Cert.KernelIdeal.Facts] [hR : Cert.ReferenceIdeal.Facts] [hP : Cert.Pre_finite_inputs.Facts]
    (hk : ∀ (m : (ℓ : Loc Cert.KernelIdeal.nD Cert.KernelIdeal.τ Cert.KernelIdeal.sig) → Buf (Elt Ideal) ℓ)
        (g : Dev Cert.KernelIdeal.nD → PrngReg), Cert.Pre_KernelIdeal m →
      θ_run (Cert.KernelIdeal.defs (F := Ideal)) (onTc (τ := Cert.KernelIdeal.τ) (Cert.KernelIdeal.main (F := Ideal))) ⟨m, fun _ => 0, g⟩
        (fun r => ∀ c : Dev Cert.KernelIdeal.nD,
          r.2.mem ((c.tc : Thread Cert.KernelIdeal.nD Cert.KernelIdeal.τ).loc Cert.KernelIdeal.main_v4)
              = Cert.Spec.G (m ((c.tc : Thread Cert.KernelIdeal.nD Cert.KernelIdeal.τ).loc Cert.KernelIdeal.main_arg1))
                  (m ((c.tc : Thread Cert.KernelIdeal.nD Cert.KernelIdeal.τ).loc Cert.KernelIdeal.main_arg2))
                  (m ((c.tc : Thread Cert.KernelIdeal.nD Cert.KernelIdeal.τ).loc Cert.KernelIdeal.main_arg3))
                  (m ((c.tc : Thread Cert.KernelIdeal.nD Cert.KernelIdeal.τ).loc Cert.KernelIdeal.main_arg4))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))) :
    Cert.algebraic_KernelIdeal_ReferenceIdeal := fun m g m' g' hpre hagree =>
  ⟨fun c => Cert.Spec.G (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    hk m g hpre,
    (θ_run Cert.ReferenceIdeal.defs _ _).mono
      (fun _ h c => ⟨by rw [(h c).1, (hagree c).2.1, (hagree c).2.2.1, (hagree c).2.2.2.1, (hagree c).2.2.2.2], (h c).2⟩)
      (Cert.Proof.RefGrid.ref_run_G m' g')⟩

end Cert.Proof.RefAlgebraic

end
-- ==== Proof.lean ====
/-
  The certificate: a pedestrian-grid pooling kernel against its reference.

  The kernel bins, for each of 4096 pedestrians, every other pedestrian's relative velocity into a 16 × 16 grid of
  cells around it — tile by tile over a 32 × 32 grid of 128 × 128 pairs, three accumulators carried in scratch from
  tile to tile along a row, each tile's contribution a one-hot contraction over its 128 neighbours —, divides the
  sums by max(count, 1), and feeds the flattened grid to a second kernel computing max(x · Wᵀ + b, 0). The
  reference does the same by two scatter-adds. Over the extended reals both compute one function of the arguments
  (Proof/Spec.lean): the two sides differ only in how the sum over the neighbours is organised and in masking by a
  0/1 factor against a selection, and neither needs the inputs to be finite.

  The kernel program's run — two kernel regions among three stretches of host operations, the first region's
  position and velocity arrays each read through two windows — is proved once for any float instance
  (Proof/KernelRun*.lean over the regions' body obligations), which gives its frame at the word level and at the
  ideal level; its value at the ideal level is read off that run (Proof/KernelValueI.lean). The reference's run and
  value are in Proof/RefRun*.lean and Proof/RefGrid.lean. The idealisation rewrote no operation.
-/
import proofs.«161577_j37271726195508_2_alg».proof.Defs
import proofs.«161577_j37271726195508_2_alg».proof.Proof.Gen.Kernel
import proofs.«161577_j37271726195508_2_alg».proof.Proof.Gen.KernelIdeal
import proofs.«161577_j37271726195508_2_alg».proof.Proof.Gen.ReferenceIdeal
import proofs.«161577_j37271726195508_2_alg».proof.Proof.Gen.Pre_finite_inputs
import proofs.«161577_j37271726195508_2_alg».proof.Proof.FramesK
import proofs.«161577_j37271726195508_2_alg».proof.Proof.KernelValueI
import proofs.«161577_j37271726195508_2_alg».proof.Proof.RefSide
import proofs.«161577_j37271726195508_2_alg».proof.Proof.RefAlgebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Whole.frame m ρ,
    fun m ρ _ => Cert.KernelIdeal.Whole.frame m ρ,
    @Cert.Proof.RefSide.frame_ri Cert.ReferenceIdeal.Gen.facts Cert.Pre_finite_inputs.Gen.facts,
    Cert.Proof.RefSide.preserves,
    @Cert.Proof.RefAlgebraic.algebraic_of_kernel Cert.KernelIdeal.Gen.facts Cert.ReferenceIdeal.Gen.facts
      Cert.Pre_finite_inputs.Gen.facts (fun m g _ => Cert.KernelIdeal.Whole.run_G m g)⟩

end Cert.Proof

end
